-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S2x3200000 : S_.BroadcastsInDim S2x3200000 (![] : Fin 0 → Fin S2x3200000.rank)
  reducesTo_S2x3200000_S_d0_1 : S2x3200000.ReducesTo [0, 1] S_

variable [Facts]

def fn_part1 {F : FTy → Type} [FloatOps F] (main_arg1 : IVec S2x3200000 32) (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_c_8 : IVec S_ 32 := constantI S_ 32 0#32
  let main_v24 : IVec S2x3200000 32 := broadcastInDim S2x3200000 ![] bcast_S_S2x3200000 main_c_8
  let main_v25 : IVec S2x3200000 1 := cmpi .sge main_arg1 main_v24
  let main_c_9 : IVec S_ 32 := constantI S_ 32 100000#32
  let main_v26 : IVec S2x3200000 32 := broadcastInDim S2x3200000 ![] bcast_S_S2x3200000 main_c_9
  let main_v27 : IVec S2x3200000 1 := cmpi .slt main_arg1 main_v26
  let main_v28 : IVec S2x3200000 1 := andi main_v25 main_v27
  let main_c_10 : IVec S_ 1 := constantI S_ 1 1#1
  let main_v29 : IVec S_ 1 := (fun x v => Host.reduce IntOp.andi x v reducesTo_S2x3200000_S_d0_1 h_S_) main_v28 main_c_10
  let main_v30 : IVec S_ 1 := andi main_v23 main_v29
  main_v30

def fn {F : FTy → Type} [FloatOps F] (main_arg0 : FVec F S100000x128 .f32) (main_arg1 : IVec S2x3200000 32) (main_arg2 : FVec F S128x64 .f32) (main_arg3 : FVec F S64 .f32) (main_arg4 : FVec F S64x32 .f32) (main_arg5 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg1 main_arg5 main_v13 main_v16
-- ==== Kernel.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S3203072 : Shape := ⟨1, ![3203072]⟩
abbrev S100352 : Shape := ⟨1, ![100352]⟩
abbrev S100000x64 : Shape := ⟨2, ![100000, 64]⟩
abbrev S2000x128 : Shape := ⟨2, ![2000, 128]⟩
abbrev S2000x64 : Shape := ⟨2, ![2000, 64]⟩
abbrev S100352x64 : Shape := ⟨2, ![100352, 64]⟩
abbrev S3203072x64 : Shape := ⟨2, ![3203072, 64]⟩
abbrev S4096 : Shape := ⟨1, ![4096]⟩
abbrev S2048x64 : Shape := ⟨2, ![2048, 64]⟩
abbrev S4096x64 : Shape := ⟨2, ![4096, 64]⟩
abbrev S1x2048 : Shape := ⟨2, ![1, 2048]⟩
abbrev S4096x1 : Shape := ⟨2, ![4096, 1]⟩
abbrev S4096x2048 : Shape := ⟨2, ![4096, 2048]⟩
abbrev S2048 : Shape := ⟨1, ![2048]⟩
abbrev S2048x1 : Shape := ⟨2, ![2048, 1]⟩
abbrev S1x4096 : Shape := ⟨2, ![1, 4096]⟩
abbrev S2048x4096 : Shape := ⟨2, ![2048, 4096]⟩
abbrev S1x64 : Shape := ⟨2, ![1, 64]⟩
abbrev S100000x32 : Shape := ⟨2, ![100000, 32]⟩
abbrev S2000x32 : Shape := ⟨2, ![2000, 32]⟩
abbrev S100352x32 : Shape := ⟨2, ![100352, 32]⟩
abbrev S3203072x32 : Shape := ⟨2, ![3203072, 32]⟩
abbrev S2048x32 : Shape := ⟨2, ![2048, 32]⟩
abbrev S4096x32 : Shape := ⟨2, ![4096, 32]⟩
abbrev S1x32 : Shape := ⟨2, ![1, 32]⟩

abbrev nBuf : Space → Nat
  | .hbm => 65
  | .vmem => 52
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S_, .f32⟩
  | .hbm, ⟨11, _⟩ => ⟨S3200000, .f32⟩
  | .hbm, ⟨12, _⟩ => ⟨S_, .f32⟩
  | .hbm, ⟨13, _⟩ => ⟨S100000, .f32⟩
  | .hbm, ⟨14, _⟩ => ⟨S3200000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S3200000, .i32⟩
  | .hbm, ⟨22, _⟩ => ⟨S3200000, .i1⟩
  | .hbm, ⟨23, _⟩ => ⟨S_, .i32⟩
  | .hbm, ⟨24, _⟩ => ⟨S3200000, .i32⟩
  | .hbm, ⟨25, _⟩ => ⟨S3200000, .i32⟩
  | .hbm, ⟨26, _⟩ => ⟨S3200000, .i32⟩
  | .hbm, ⟨27, _⟩ => ⟨S3200000x1, .i32⟩
  | .hbm, ⟨28, _⟩ => ⟨S3200000, .f32⟩
  | .hbm, ⟨29, _⟩ => ⟨S_, .i32⟩
  | .hbm, ⟨30, _⟩ => ⟨S3200000, .i32⟩
  | .hbm, ⟨31, _⟩ => ⟨S3200000, .i1⟩
  | .hbm, ⟨32, _⟩ => ⟨S_, .i32⟩
  | .hbm, ⟨33, _⟩ => ⟨S3200000, .i32⟩
  | .hbm, ⟨34, _⟩ => ⟨S3200000, .i32⟩
  | .hbm, ⟨35, _⟩ => ⟨S3200000, .i32⟩
  | .hbm, ⟨36, _⟩ => ⟨S3200000x1, .i32⟩
  | .hbm, ⟨37, _⟩ => ⟨S3200000, .f32⟩
  | .hbm, ⟨38, _⟩ => ⟨S3200000, .f32⟩
  | .hbm, ⟨39, _⟩ => ⟨S_, .i32⟩
  | .hbm, ⟨40, _⟩ => ⟨S_, .i32⟩
  | .hbm, ⟨41, _⟩ => ⟨S3203072, .i32⟩
  | .hbm, ⟨42, _⟩ => ⟨S_, .i32⟩
  | .hbm, ⟨43, _⟩ => ⟨S_, .i32⟩
  | .hbm, ⟨44, _⟩ => ⟨S3203072, .i32⟩
  | .hbm, ⟨45, _⟩ => ⟨S_, .i32⟩
  | .hbm, ⟨46, _⟩ => ⟨S_, .f32⟩
  | .hbm, ⟨47, _⟩ => ⟨S3203072, .f32⟩
  | .hbm, ⟨48, _⟩ => ⟨S_, .i32⟩
  | .hbm, ⟨49, _⟩ => ⟨S_, .f32⟩
  | .hbm, ⟨50, _⟩ => ⟨S100352, .f32⟩
  | .hbm, ⟨51, _⟩ => ⟨S100000x64, .f32⟩
  | .hbm, ⟨52, _⟩ => ⟨S_, .i32⟩
  | .hbm, ⟨53, _⟩ => ⟨S_, .f32⟩
  | .hbm, ⟨54, _⟩ => ⟨S100352x64, .f32⟩
  | .hbm, ⟨55, _⟩ => ⟨S3203072x64, .bf16⟩
  | .hbm, ⟨56, _⟩ => ⟨S100352x64, .f32⟩
  | .hbm, ⟨57, _⟩ => ⟨S100000x64, .f32⟩
  | .hbm, ⟨58, _⟩ => ⟨S100000x32, .f32⟩
  | .hbm, ⟨59, _⟩ => ⟨S_, .i32⟩
  | .hbm, ⟨60, _⟩ => ⟨S_, .f32⟩
  | .hbm, ⟨61, _⟩ => ⟨S100352x32, .f32⟩
  | .hbm, ⟨62, _⟩ => ⟨S3203072x32, .bf16⟩
  | .hbm, ⟨63, _⟩ => ⟨S100352x32, .f32⟩
  | .hbm, ⟨64, _⟩ => ⟨S100000x32, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S2000x64, .f32⟩
  | .local _ .vmem, ⟨4, _⟩ => ⟨S2000x64, .f32⟩
  | .local _ .vmem, ⟨5, _⟩ => ⟨S4096, .i32⟩
  | .local _ .vmem, ⟨6, _⟩ => ⟨S4096, .i32⟩
  | .local _ .vmem, ⟨7, _⟩ => ⟨S4096, .f32⟩
  | .local _ .vmem, ⟨8, _⟩ => ⟨S4096, .f32⟩
  | .local _ .vmem, ⟨9, _⟩ => ⟨S2048x64, .f32⟩
  | .local _ .vmem, ⟨10, _⟩ => ⟨S2048x64, .f32⟩
  | .local _ .vmem, ⟨11, _⟩ => ⟨S4096x64, .bf16⟩
  | .local _ .vmem, ⟨12, _⟩ => ⟨S4096x64, .bf16⟩
  | .local _ .vmem, ⟨13, _⟩ => ⟨S4096x64, .f32⟩
  | .local _ .vmem, ⟨14, _⟩ => ⟨S4096, .i32⟩
  | .local _ .vmem, ⟨15, _⟩ => ⟨S4096, .i32⟩
  | .local _ .vmem, ⟨16, _⟩ => ⟨S4096x64, .bf16⟩
  | .local _ .vmem, ⟨17, _⟩ => ⟨S4096x64, .bf16⟩
  | .local _ .vmem, ⟨18, _⟩ => ⟨S2048x64, .f32⟩
  | .local _ .vmem, ⟨19, _⟩ => ⟨S2048x64, .f32⟩
  | .local _ .vmem, ⟨20, _⟩ => ⟨S2048, .f32⟩
  | .local _ .vmem, ⟨21, _⟩ => ⟨S2048, .f32⟩
  | .local _ .vmem, ⟨22, _⟩ => ⟨S64, .f32⟩
  | .local _ .vmem, ⟨23, _⟩ => ⟨S2048x64, .f32⟩
  | .local _ .vmem, ⟨24, _⟩ => ⟨S2048x64, .f32⟩
  | .local _ .vmem, ⟨25, _⟩ => ⟨S2048x64, .f32⟩
  | .local _ .vmem, ⟨26, _⟩ => ⟨S2000x64, .f32⟩
  | .local _ .vmem, ⟨27, _⟩ => ⟨S2000x64, .f32⟩
  | .local _ .vmem, ⟨28, _⟩ => ⟨S64x32, .f32⟩
  | .local _ .vmem, ⟨29, _⟩ => ⟨S2000x32, .f32⟩
  | .local _ .vmem, ⟨30, _⟩ => ⟨S2000x32, .f32⟩
  | .local _ .vmem, ⟨31, _⟩ => ⟨S4096, .i32⟩
  | .local _ .vmem, ⟨32, _⟩ => ⟨S4096, .i32⟩
  | .local _ .vmem, ⟨33, _⟩ => ⟨S4096, .f32⟩
  | .local _ .vmem, ⟨34, _⟩ => ⟨S4096, .f32⟩
  | .local _ .vmem, ⟨35, _⟩ => ⟨S2048x32, .f32⟩
  | .local _ .vmem, ⟨36, _⟩ => ⟨S2048x32, .f32⟩
  | .local _ .vmem, ⟨37, _⟩ => ⟨S4096x32, .bf16⟩
  | .local _ .vmem, ⟨38, _⟩ => ⟨S4096x32, .bf16⟩
  | .local _ .vmem, ⟨39, _⟩ => ⟨S4096x32, .f32⟩
  | .local _ .vmem, ⟨40, _⟩ => ⟨S4096, .i32⟩
  | .local _ .vmem, ⟨41, _⟩ => ⟨S4096, .i32⟩
  | .local _ .vmem, ⟨42, _⟩ => ⟨S4096x32, .bf16⟩
  | .local _ .vmem, ⟨43, _⟩ => ⟨S4096x32, .bf16⟩
  | .local _ .vmem, ⟨44, _⟩ => ⟨S2048x32, .f32⟩
  | .local _ .vmem, ⟨45, _⟩ => ⟨S2048x32, .f32⟩
  | .local _ .vmem, ⟨46, _⟩ => ⟨S2048, .f32⟩
  | .local _ .vmem, ⟨47, _⟩ => ⟨S2048, .f32⟩
  | .local _ .vmem, ⟨48, _⟩ => ⟨S32, .f32⟩
  | .local _ .vmem, ⟨49, _⟩ => ⟨S2048x32, .f32⟩
  | .local _ .vmem, ⟨50, _⟩ => ⟨S2048x32, .f32⟩
  | .local _ .vmem, ⟨51, _⟩ => ⟨S2048x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_call0_v0 : Ref sig .tc := ⟨.hbm, 40, rfl⟩
abbrev main_v26 : Ref sig .tc := ⟨.hbm, 41, rfl⟩
abbrev main_c_6 : Ref sig .tc := ⟨.hbm, 42, rfl⟩
abbrev main_call1_v0 : Ref sig .tc := ⟨.hbm, 43, rfl⟩
abbrev main_v27 : Ref sig .tc := ⟨.hbm, 44, rfl⟩
abbrev main_c_7 : Ref sig .tc := ⟨.hbm, 45, rfl⟩
abbrev main_call2_v0 : Ref sig .tc := ⟨.hbm, 46, rfl⟩
abbrev main_v28 : Ref sig .tc := ⟨.hbm, 47, rfl⟩
abbrev main_c_8 : Ref sig .tc := ⟨.hbm, 48, rfl⟩
abbrev main_call3_v0 : Ref sig .tc := ⟨.hbm, 49, rfl⟩
abbrev main_v29 : Ref sig .tc := ⟨.hbm, 50, rfl⟩
abbrev main_v30 : Ref sig .tc := ⟨.hbm, 51, rfl⟩
abbrev main_c_9 : Ref sig .tc := ⟨.hbm, 52, rfl⟩
abbrev main_call4_v0 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_10 : Ref sig .tc := ⟨.hbm, 59, rfl⟩
abbrev main_call5_v0 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc2_scratch0 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg2_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg2_1 : Ref sig .tc := ⟨.vmem, 36, rfl⟩
abbrev cc4_stg3_0 : Ref sig .tc := ⟨.vmem, 37, rfl⟩
abbrev cc4_stg3_1 : Ref sig .tc := ⟨.vmem, 38, rfl⟩
abbrev cc4_scratch0 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg2_1 : Ref sig .tc := ⟨.vmem, 45, rfl⟩
abbrev cc5_stg3_0 : Ref sig .tc := ⟨.vmem, 46, rfl⟩
abbrev cc5_stg3_1 : Ref sig .tc := ⟨.vmem, 47, rfl⟩
abbrev cc5_stg4_0 : Ref sig .tc := ⟨.vmem, 48, rfl⟩
abbrev cc5_stg5_0 : Ref sig .tc := ⟨.vmem, 49, rfl⟩
abbrev cc5_stg5_1 : Ref sig .tc := ⟨.vmem, 50, rfl⟩
abbrev cc5_scratch0 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem3_1 : DmaSem sig := 36
abbrev cc5_sem0_0 : DmaSem sig := 37
abbrev cc5_sem0_1 : DmaSem sig := 38
abbrev cc5_sem1_0 : DmaSem sig := 39
abbrev cc5_sem1_1 : DmaSem sig := 40
abbrev cc5_sem2_0 : DmaSem sig := 41
abbrev cc5_sem2_1 : DmaSem sig := 42
abbrev cc5_sem3_0 : DmaSem sig := 43
abbrev cc5_sem3_1 : DmaSem sig := 44
abbrev cc5_sem4_0 : DmaSem sig := 45
abbrev cc5_sem5_0 : DmaSem sig := 46
abbrev cc5_sem5_1 : DmaSem sig := 47

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![782, 49], ![false, false]⟩

def k1_cond2 (i : grid1.Coords) : BitVec 1 :=
  let arg1 : BitVec 32 := BitVec.ofNat 32 (i 1).val
  let c48_i32 : BitVec 32 := 48#32
  let v25 : BitVec 1 := Scalar.cmpi .eq arg1 c48_i32
  let v26 : BitVec 32 := Scalar.extui v25
  let c0_i32_7 : BitVec 32 := 0#32
  let v27 : BitVec 1 := Scalar.cmpi .ne v26 c0_i32_7
  v27

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_1 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S4096 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S4096x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![49, 782], ![false, false]⟩

def k2_cond2 (i : grid2.Coords) : BitVec 1 :=
  let arg1 : BitVec 32 := BitVec.ofNat 32 (i 1).val
  let c781_i32 : BitVec 32 := 781#32
  let v24 : BitVec 1 := Scalar.cmpi .eq arg1 c781_i32
  let v25 : BitVec 32 := Scalar.extui v24
  let c0_i32_7 : BitVec 32 := 0#32
  let v26 : BitVec 1 := Scalar.cmpi .ne v25 c0_i32_7
  v26

def cc2_transform_0 (i : grid2.Coords) : Fin 1 → Nat :=
  let arg0 : BitVec 32 := BitVec.ofNat 32 (i 0).val
  let arg1 : BitVec 32 := BitVec.ofNat 32 (i 1).val
  let c0_i32 : BitVec 32 := 0#32
  ![arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 1 → Nat :=
  let arg0 : BitVec 32 := BitVec.ofNat 32 (i 0).val
  let arg1 : BitVec 32 := BitVec.ofNat 32 (i 1).val
  let c0_i32 : BitVec 32 := 0#32
  ![arg0.toNat]

def cc2_transform_4 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S4096 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S4096x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S2048x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![782, 49], ![false, false]⟩

def k4_cond2 (i : grid4.Coords) : BitVec 1 :=
  let arg1 : BitVec 32 := BitVec.ofNat 32 (i 1).val
  let c48_i32 : BitVec 32 := 48#32
  let v25 : BitVec 1 := Scalar.cmpi .eq arg1 c48_i32
  let v26 : BitVec 32 := Scalar.extui v25
  let c0_i32_7 : BitVec 32 := 0#32
  let v27 : BitVec 1 := Scalar.cmpi .ne v26 c0_i32_7
  v27

def cc4_transform_0 (i : grid4.Coords) : Fin 1 → Nat :=
  let arg0 : BitVec 32 := BitVec.ofNat 32 (i 0).val
  let arg1 : BitVec 32 := BitVec.ofNat 32 (i 1).val
  let c0_i32 : BitVec 32 := 0#32
  ![arg0.toNat]

def cc4_transform_1 (i : grid4.Coords) : Fin 1 → Nat :=
  let arg0 : BitVec 32 := BitVec.ofNat 32 (i 0).val
  let arg1 : BitVec 32 := BitVec.ofNat 32 (i 1).val
  let c0_i32 : BitVec 32 := 0#32
  ![arg0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S4096 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S4096 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S2048x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S4096x32 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![49, 782], ![false, false]⟩

def k5_cond2 (i : grid5.Coords) : BitVec 1 :=
  let arg1 : BitVec 32 := BitVec.ofNat 32 (i 1).val
  let c781_i32 : BitVec 32 := 781#32
  let v24 : BitVec 1 := Scalar.cmpi .eq arg1 c781_i32
  let v25 : BitVec 32 := Scalar.extui v24
  let c0_i32_7 : BitVec 32 := 0#32
  let v26 : BitVec 1 := Scalar.cmpi .ne v25 c0_i32_7
  v26

def cc5_transform_0 (i : grid5.Coords) : Fin 1 → Nat :=
  let arg0 : BitVec 32 := BitVec.ofNat 32 (i 0).val
  let arg1 : BitVec 32 := BitVec.ofNat 32 (i 1).val
  let c0_i32 : BitVec 32 := 0#32
  ![arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_3 (i : grid5.Coords) : Fin 1 → Nat :=
  let arg0 : BitVec 32 := BitVec.ofNat 32 (i 0).val
  let arg1 : BitVec 32 := BitVec.ofNat 32 (i 1).val
  let c0_i32 : BitVec 32 := 0#32
  ![arg0.toNat]

def cc5_transform_4 (i : grid5.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S4096 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S4096x32 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S2048x32 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 2 → Memref sig .tc .vmem S2048 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev stage5_4 : Fin 1 → Memref sig .tc .vmem S32 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false, false]

abbrev stage5_5 : Fin 2 → Memref sig .tc .vmem S2048x32 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  pads_S3200000_S3203072_030720 : S3200000.Pads (![0] : Fin 1 → Nat) ![3072] ![0] S3203072
  h_S_ : 0 < S_.numel
  pads_S100000_S100352_03520 : S100000.Pads (![0] : Fin 1 → Nat) ![352] ![0] S100352
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  pads_S100000x64_S100352x64_03520_000 : S100000x64.Pads (![0, 0] : Fin 2 → Nat) ![352, 0] ![0, 0] S100352x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  iota_S1x2048_d1_w32 : S1x2048.Iotas .tc 32 [1]
  inb_S4096_S4096_0 : ∀ a, (![0] : Fin 1 → Nat) a + S4096.size a ≤ S4096.size a
  h_S4096 : 0 < S4096.numel
  shapeCasts_S4096_S4096 : S4096.ShapeCasts S4096
  shapeCasts_S4096_S4096x1 : S4096.ShapeCasts S4096x1
  broadcasts_S4096x1_S4096x2048 : S4096x1.Broadcasts S4096x2048
  broadcasts_S1x2048_S4096x2048 : S1x2048.Broadcasts S4096x2048
  natLt_1_32 : 1 < 32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  broadcasts_S4096x1_S4096x64 : S4096x1.Broadcasts S4096x64
  packedbf16_S4096x64_S4096x64_0_0 : (Rect.unit (s := S4096x64) ![0, 0] S4096x64.size inb_S4096x64_S4096x64_0_0).PackedRows (EltTy.packing .bf16)
  iota_S2048x1_d0_w32 : S2048x1.Iotas .tc 32 [0]
  shapeCasts_S4096_S1x4096 : S4096.ShapeCasts S1x4096
  broadcasts_S2048x1_S2048x4096 : S2048x1.Broadcasts S2048x4096
  broadcasts_S1x4096_S2048x4096 : S1x4096.Broadcasts S2048x4096
  inb_S2048_S2048_0 : ∀ a, (![0] : Fin 1 → Nat) a + S2048.size a ≤ S2048.size a
  h_S2048 : 0 < S2048.numel
  shapeCasts_S2048_S2048 : S2048.ShapeCasts S2048
  shapeCasts_S2048_S2048x1 : S2048.ShapeCasts S2048x1
  broadcasts_S2048x1_S2048x64 : S2048x1.Broadcasts S2048x64
  inb_S64_S64_0 : ∀ a, (![0] : Fin 1 → Nat) a + S64.size a ≤ S64.size a
  h_S64 : 0 < S64.numel
  shapeCasts_S64_S1x64 : S64.ShapeCasts S1x64
  broadcasts_S1x64_S2048x64 : S1x64.Broadcasts S2048x64
  slices_S100352x64_S100000x64_0_0 : S100352x64.Slices ![0, 0] S100000x64
  shapeCasts_S2000x64_S2000x64 : S2000x64.ShapeCasts S2000x64
  inb_S64x32_S64x32_0_0 : ∀ a, (![0, 0] : Fin 2 → Nat) a + S64x32.size a ≤ S64x32.size a
  h_S64x32 : 0 < S64x32.numel
  inb_S2000x32_S2000x32_0_0 : ∀ a, (![0, 0] : Fin 2 → Nat) a + S2000x32.size a ≤ S2000x32.size a
  h_S2000x32 : 0 < S2000x32.numel
  pads_S100000x32_S100352x32_03520_000 : S100000x32.Pads (![0, 0] : Fin 2 → Nat) ![352, 0] ![0, 0] S100352x32
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  broadcasts_S4096x1_S4096x32 : S4096x1.Broadcasts S4096x32
  packedbf16_S4096x32_S4096x32_0_0 : (Rect.unit (s := S4096x32) ![0, 0] S4096x32.size inb_S4096x32_S4096x32_0_0).PackedRows (EltTy.packing .bf16)
  broadcasts_S2048x1_S2048x32 : S2048x1.Broadcasts S2048x32
  inb_S32_S32_0 : ∀ a, (![0] : Fin 1 → Nat) a + S32.size a ≤ S32.size a
  h_S32 : 0 < S32.numel
  shapeCasts_S32_S1x32 : S32.ShapeCasts S1x32
  broadcasts_S1x32_S2048x32 : S1x32.Broadcasts S2048x32
  slices_S100352x32_S100000x32_0_0 : S100352x32.Slices ![0, 0] S100000x32
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S2000x128_S128x64_S2000x64_1_0_0_1_n_n_wf : DotDims.WF S2000x128 S128x64 S2000x64 [1] [0] [0] [1] [] []
  dot_S4096x2048_S2048x64_S4096x64_1_0_0_1_n_n_wf : DotDims.WF S4096x2048 S2048x64 S4096x64 [1] [0] [0] [1] [] []
  dot_S2048x4096_S4096x64_S2048x64_1_0_0_1_n_n_wf : DotDims.WF S2048x4096 S4096x64 S2048x64 [1] [0] [0] [1] [] []
  dot_S2000x64_S64x32_S2000x32_1_0_0_1_n_n_wf : DotDims.WF S2000x64 S64x32 S2000x32 [1] [0] [0] [1] [] []
  dot_S4096x2048_S2048x32_S4096x32_1_0_0_1_n_n_wf : DotDims.WF S4096x2048 S2048x32 S4096x32 [1] [0] [0] [1] [] []
  dot_S2048x4096_S4096x32_S2048x32_1_0_0_1_n_n_wf : DotDims.WF S2048x4096 S4096x32 S2048x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096.size a ≤ S3203072.size a
  hwx1_0 : ∀ i : grid1.Coords, EltTy.bits .i32 = 32 ∨ (Rect.block (s := S3203072) S4096.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096.size a ≤ S3203072.size a
  hwx1_1 : ∀ i : grid1.Coords, EltTy.bits .f32 = 32 ∨ (Rect.block (s := S3203072) S4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x64.size a ≤ S100352x64.size a
  hwx1_2 : ∀ i : grid1.Coords, EltTy.bits .f32 = 32 ∨ (Rect.block (s := S100352x64) S2048x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x64.size a ≤ S3203072x64.size a
  hwx1_3 : ∀ i : grid1.Coords, EltTy.bits .bf16 = 32 ∨ (Rect.block (s := S3203072x64) S4096x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096.size a ≤ S3203072.size a
  hwx2_0 : ∀ i : grid2.Coords, EltTy.bits .i32 = 32 ∨ (Rect.block (s := S3203072) S4096.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x64.size a ≤ S3203072x64.size a
  hwx2_1 : ∀ i : grid2.Coords, EltTy.bits .bf16 = 32 ∨ (Rect.block (s := S3203072x64) S4096x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x64.size a ≤ S100352x64.size a
  hwx2_2 : ∀ i : grid2.Coords, EltTy.bits .f32 = 32 ∨ (Rect.block (s := S100352x64) S2048x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048.size a ≤ S100352.size a
  hwx2_3 : ∀ i : grid2.Coords, EltTy.bits .f32 = 32 ∨ (Rect.block (s := S100352) S2048.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2048x64.size a ≤ S100352x64.size a
  hwx2_5 : ∀ i : grid2.Coords, EltTy.bits .f32 = 32 ∨ (Rect.block (s := S100352x64) S2048x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x32.size a ≤ S64x32.size a
  hwx3_1 : ∀ i : grid3.Coords, EltTy.bits .f32 = 32 ∨ (Rect.block (s := S64x32) S64x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x32.size a ≤ S100000x32.size a
  hwx3_2 : ∀ i : grid3.Coords, EltTy.bits .f32 = 32 ∨ (Rect.block (s := S100000x32) S2000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096.size a ≤ S3203072.size a
  hwx4_0 : ∀ i : grid4.Coords, EltTy.bits .i32 = 32 ∨ (Rect.block (s := S3203072) S4096.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4096.size a ≤ S3203072.size a
  hwx4_1 : ∀ i : grid4.Coords, EltTy.bits .f32 = 32 ∨ (Rect.block (s := S3203072) S4096.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x32.size a ≤ S100352x32.size a
  hwx4_2 : ∀ i : grid4.Coords, EltTy.bits .f32 = 32 ∨ (Rect.block (s := S100352x32) S2048x32.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4096x32.size a ≤ S3203072x32.size a
  hwx4_3 : ∀ i : grid4.Coords, EltTy.bits .bf16 = 32 ∨ (Rect.block (s := S3203072x32) S4096x32.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4096.size a ≤ S3203072.size a
  hwx5_0 : ∀ i : grid5.Coords, EltTy.bits .i32 = 32 ∨ (Rect.block (s := S3203072) S4096.size (cc5_transform_0 i) (hinb5_0 i)).WholeWords (EltTy.packing .i32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4096x32.size a ≤ S3203072x32.size a
  hwx5_1 : ∀ i : grid5.Coords, EltTy.bits .bf16 = 32 ∨ (Rect.block (s := S3203072x32) S4096x32.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2048x32.size a ≤ S100352x32.size a
  hwx5_2 : ∀ i : grid5.Coords, EltTy.bits .f32 = 32 ∨ (Rect.block (s := S100352x32) S2048x32.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2048.size a ≤ S100352.size a
  hwx5_3 : ∀ i : grid5.Coords, EltTy.bits .f32 = 32 ∨ (Rect.block (s := S100352) S2048.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S32.size a ≤ S32.size a
  hwx5_4 : ∀ i : grid5.Coords, EltTy.bits .f32 = 32 ∨ (Rect.block (s := S32) S32.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2048x32.size a ≤ S100352x32.size a
  hwx5_5 : ∀ i : grid5.Coords, EltTy.bits .f32 = 32 ∨ (Rect.block (s := S100352x32) S2048x32.size (cc5_transform_5 i) (hinb5_5 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S4096x2048_S2048x64_S4096x64_1_0_0_1_n_n : DotDims S4096x2048 S2048x64 S4096x64 where
  lhsContracting := [1]
  rhsContracting := [0]
  lhsNonContracting := [0]
  rhsNonContracting := [1]
  lhsBatch := []
  rhsBatch := []
  wf := dot_S4096x2048_S2048x64_S4096x64_1_0_0_1_n_n_wf
def dot_S2048x4096_S4096x64_S2048x64_1_0_0_1_n_n : DotDims S2048x4096 S4096x64 S2048x64 where
  lhsContracting := [1]
  rhsContracting := [0]
  lhsNonContracting := [0]
  rhsNonContracting := [1]
  lhsBatch := []
  rhsBatch := []
  wf := dot_S2048x4096_S4096x64_S2048x64_1_0_0_1_n_n_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def dot_S4096x2048_S2048x32_S4096x32_1_0_0_1_n_n : DotDims S4096x2048 S2048x32 S4096x32 where
  lhsContracting := [1]
  rhsContracting := [0]
  lhsNonContracting := [0]
  rhsNonContracting := [1]
  lhsBatch := []
  rhsBatch := []
  wf := dot_S4096x2048_S2048x32_S4096x32_1_0_0_1_n_n_wf
def dot_S2048x4096_S4096x32_S2048x32_1_0_0_1_n_n : DotDims S2048x4096 S4096x32 S2048x32 where
  lhsContracting := [1]
  rhsContracting := [0]
  lhsNonContracting := [0]
  rhsNonContracting := [1]
  lhsBatch := []
  rhsBatch := []
  wf := dot_S2048x4096_S4096x32_S2048x32_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v26) S4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v32) S4096x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v27) S4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S4096x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v31) S2048x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v29) S2048.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg3) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v33) S2048x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

abbrev win3_0 : Pipeline.Window sig grid3 :=
  Pipeline.Window.ofSpec (Memref.whole main_v34) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S64x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v35) S2000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v26) S4096.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v28) S4096.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v36) S2048x32.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v37) S4096x32.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v27) S4096.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v37) S4096x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v36) S2048x32.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v29) S2048.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_arg5) S32.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v38) S2048x32.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev idle5 : Fin 6 → grid5.Coords → Bool := fun | 0 => fun _ => false | 1 => fun _ => false | 2 => fun _ => false | 3 => fun _ => false | 4 => fun _ => false | 5 => fun i => !(k5_cond2 i == 1#1) | ⟨_ + 6, h⟩ => absurd h (Nat.not_lt.2 (Nat.le_add_left _ _))

class Facts : Prop extends Facts₀ where

variable [Facts]
-- ==== ReferenceIdeal.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x32 : Shape := ⟨2, ![100000, 32]⟩
abbrev S3300000x32 : Shape := ⟨2, ![3300000, 32]⟩
abbrev S1x32 : Shape := ⟨2, ![1, 32]⟩

abbrev nBuf : Space → Nat
  | .hbm => 125
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x64, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x64, .f32⟩
  | .hbm, ⟨56, _⟩ => ⟨S3300000x1, .f32⟩
  | .hbm, ⟨57, _⟩ => ⟨S3300000x64, .f32⟩
  | .hbm, ⟨58, _⟩ => ⟨S3300000x64, .f32⟩
  | .hbm, ⟨59, _⟩ => ⟨S_, .f32⟩
  | .hbm, ⟨60, _⟩ => ⟨S100000x64, .f32⟩
  | .hbm, ⟨61, _⟩ => ⟨S3300000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000, .i32⟩
  | .hbm, ⟨70, _⟩ => ⟨S3300000, .i32⟩
  | .hbm, ⟨71, _⟩ => ⟨S3300000, .i32⟩
  | .hbm, ⟨72, _⟩ => ⟨S_, .f32⟩
  | .hbm, ⟨73, _⟩ => ⟨S3300000, .f32⟩
  | .hbm, ⟨74, _⟩ => ⟨S_, .f32⟩
  | .hbm, ⟨75, _⟩ => ⟨S100000, .f32⟩
  | .hbm, ⟨76, _⟩ => ⟨S3300000x1, .i32⟩
  | .hbm, ⟨77, _⟩ => ⟨S100000, .f32⟩
  | .hbm, ⟨78, _⟩ => ⟨S_, .f32⟩
  | .hbm, ⟨79, _⟩ => ⟨S100000, .f32⟩
  | .hbm, ⟨80, _⟩ => ⟨S100000, .i1⟩
  | .hbm, ⟨81, _⟩ => ⟨S100000, .f32⟩
  | .hbm, ⟨82, _⟩ => ⟨S_, .f32⟩
  | .hbm, ⟨83, _⟩ => ⟨S_, .f32⟩
  | .hbm, ⟨84, _⟩ => ⟨S100000, .f32⟩
  | .hbm, ⟨85, _⟩ => ⟨S100000, .f32⟩
  | .hbm, ⟨86, _⟩ => ⟨S_, .i32⟩
  | .hbm, ⟨87, _⟩ => ⟨S3300000, .i32⟩
  | .hbm, ⟨88, _⟩ => ⟨S3300000, .i1⟩
  | .hbm, ⟨89, _⟩ => ⟨S_, .i32⟩
  | .hbm, ⟨90, _⟩ => ⟨S3300000, .i32⟩
  | .hbm, ⟨91, _⟩ => ⟨S3300000, .i32⟩
  | .hbm, ⟨92, _⟩ => ⟨S3300000, .i32⟩
  | .hbm, ⟨93, _⟩ => ⟨S3300000x1, .i32⟩
  | .hbm, ⟨94, _⟩ => ⟨S3300000, .f32⟩
  | .hbm, ⟨95, _⟩ => ⟨S_, .i32⟩
  | .hbm, ⟨96, _⟩ => ⟨S3300000, .i32⟩
  | .hbm, ⟨97, _⟩ => ⟨S3300000, .i1⟩
  | .hbm, ⟨98, _⟩ => ⟨S_, .i32⟩
  | .hbm, ⟨99, _⟩ => ⟨S3300000, .i32⟩
  | .hbm, ⟨100, _⟩ => ⟨S3300000, .i32⟩
  | .hbm, ⟨101, _⟩ => ⟨S3300000, .i32⟩
  | .hbm, ⟨102, _⟩ => ⟨S3300000x1, .i32⟩
  | .hbm, ⟨103, _⟩ => ⟨S3300000, .f32⟩
  | .hbm, ⟨104, _⟩ => ⟨S3300000, .f32⟩
  | .hbm, ⟨105, _⟩ => ⟨S100000x32, .f32⟩
  | .hbm, ⟨106, _⟩ => ⟨S_, .i32⟩
  | .hbm, ⟨107, _⟩ => ⟨S3300000, .i32⟩
  | .hbm, ⟨108, _⟩ => ⟨S3300000, .i1⟩
  | .hbm, ⟨109, _⟩ => ⟨S_, .i32⟩
  | .hbm, ⟨110, _⟩ => ⟨S3300000, .i32⟩
  | .hbm, ⟨111, _⟩ => ⟨S3300000, .i32⟩
  | .hbm, ⟨112, _⟩ => ⟨S3300000, .i32⟩
  | .hbm, ⟨113, _⟩ => ⟨S3300000x1, .i32⟩
  | .hbm, ⟨114, _⟩ => ⟨S3300000x32, .f32⟩
  | .hbm, ⟨115, _⟩ => ⟨S3300000x1, .f32⟩
  | .hbm, ⟨116, _⟩ => ⟨S3300000x32, .f32⟩
  | .hbm, ⟨117, _⟩ => ⟨S3300000x32, .f32⟩
  | .hbm, ⟨118, _⟩ => ⟨S_, .f32⟩
  | .hbm, ⟨119, _⟩ => ⟨S100000x32, .f32⟩
  | .hbm, ⟨120, _⟩ => ⟨S3300000x1, .i32⟩
  | .hbm, ⟨121, _⟩ => ⟨S100000x32, .f32⟩
  | .hbm, ⟨122, _⟩ => ⟨S1x32, .f32⟩
  | .hbm, ⟨123, _⟩ => ⟨S100000x32, .f32⟩
  | .hbm, ⟨124, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v58 : Ref sig .tc := ⟨.hbm, 85, rfl⟩
abbrev main_c_13 : Ref sig .tc := ⟨.hbm, 86, rfl⟩
abbrev main_v59 : Ref sig .tc := ⟨.hbm, 87, rfl⟩
abbrev main_v60 : Ref sig .tc := ⟨.hbm, 88, rfl⟩
abbrev main_c_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_c_16 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x64_S100000x64_1_0_0_1_n_n_wf : DotDims.WF S100000x128 S128x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x32_S100000x32_1_0_0_1_n_n_wf : DotDims.WF S100000x64 S64x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf

class Facts : Prop extends Facts₀ where

variable [Facts]
-- ==== Proof.K.Linear.lean ====
/-
  The two dense maps of the network (regions 0 and 3 of the program): each grid point takes one block of 2000 rows of
  the node features and the whole weight matrix into fast memory, multiplies them, and writes the block of the
  product back.  Stated for any contents `V` of the buffers at the region's entry: what each window's staging buffer
  holds after the body at every point, the body's triple, and the per-point obligation the launch asks for.
-/
import proofs.«138531_j42417097015621_1_alg».proof.Proof.Gen.Kernel.Launch
import proofs.«138531_j42417097015621_1_alg».proof.Proof.Gen.Kernel.Skeleton
import Idealize.ShloMosaic.Lib.Pipeline.Kit
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The dense map of region 0: one block of rows times the whole weight matrix -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block's staging buffer holds its block at every point, for any proof data whose array is `V`'s and whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix's staging buffer holds the whole matrix at every point: fetched at the first, in place after. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S2000x128 := Rect.unit (s := S2000x128) ![0, 0] S2000x128.size inb_S2000x128_S2000x128_0_0
abbrev r0_w : Rect S128x64 := Rect.unit (s := S128x64) ![0, 0] S128x64.size inb_S128x64_S128x64_0_0
abbrev r0_o : Rect S2000x64 := Rect.unit (s := S2000x64) ![0, 0] S2000x64.size inb_S2000x64_S2000x64_0_0

/-- What the body leaves in the result block's buffer: its one store, the product of the two loaded blocks. -/
def out0_2 (x0 : Vec F S2000x128 .f32) (x1 : Vec F S128x64 .f32) : Vec F S2000x64 .f32 :=
  View.canon [⟨r0_o, k0_pay1 (View.ld x0 r0_x) (View.ld x1 r0_w)⟩]

/-- The one store covers the buffer. -/
theorem cover0_2 (p0 : Vec F S2000x64 .f32) (y : S2000x64.Idx) :
    ∃ pc ∈ ([⟨r0_o, p0⟩] : List (View.Piece (Elt F) S2000x64 .f32)), y ∈ pc.1.set :=
  View.cover_of_tiled [⟨r0_o, p0⟩] S2000x64.size (by rfl) y

set_option maxHeartbeats 1000000 in
/-- The body on whole staging buffers: the two inputs read, the result's buffer (whatever it held) overwritten by the
    product; the inputs are left as they were. -/
theorem sound_kernel0 (c : Dev nD) (E : Set ℕ) (i : grid0.Coords) (arg1 : Memref sig .tc .vmem S2000x128 .f32) (harg1 : arg1.IsWhole)
    (arg2 : Memref sig .tc .vmem S128x64 .f32) (harg2 : arg2.IsWhole) (arg3 : Memref sig .tc .vmem S2000x64 .f32) (harg3 : arg3.IsWhole)
    (x0 : Vec F S2000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of region 0: the arrays as the region finds them; after the body each input's buffer at its block
    and the result's at the product of the two; the invariant is the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- Each window's current staging buffer at point `t`, and the body as the launch calls it there. -/
abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2000x64 .f32 := win0_2.stage (cfg0.slots t 2)
abbrev hs0_2 (t : Fin cfg0.N) : (ms0_2 t).IsWhole := hstage0_2 ((cfg0.slots t 2).cast nbuf0_2)
abbrev pointBody0 (t : Fin cfg0.N) : Prog (TpuEff nD τ sig (Elt F) Λ₀ .tc) PUnit :=
  cc0__linear_kernel (grid0.coords t) (ms0_0 t) (hs0_0 t) (ms0_1 t) (hs0_1 t) (ms0_2 t) (hs0_2 t)

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

theorem sound_body0 (c : Dev nD) (t : Fin cfg0.N) :
    bodyPre0 V c t ⊢ wp frame (wpE (defs₀ (F := F)) Variants.none c none) Set.univ (pointBody0 t) (fun _ => bodyPost0 V c t) := by
  unfold bodyPre0 bodyPost0 pointBody0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 0, at every point. -/
theorem body_obligation0 (c : Dev nD) : BodyObligation (dat0 (F := F) V c) (defs₀ (F := F)) Variants.none () Set.univ := fun t => by
  rw [bigSep_W0, bigSep_W0]
  exact sound_body0 V c t

/-! # The dense map of region 3: one block of rows times the whole weight matrix -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row block's staging buffer holds its block at every point, for any proof data whose array is `V`'s and whose
    body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The weight matrix's staging buffer holds the whole matrix at every point: fetched at the first, in place after. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev r3_x : Rect S2000x64 := Rect.unit (s := S2000x64) ![0, 0] S2000x64.size inb_S2000x64_S2000x64_0_0
abbrev r3_w : Rect S64x32 := Rect.unit (s := S64x32) ![0, 0] S64x32.size inb_S64x32_S64x32_0_0
abbrev r3_o : Rect S2000x32 := Rect.unit (s := S2000x32) ![0, 0] S2000x32.size inb_S2000x32_S2000x32_0_0

/-- What the body leaves in the result block's buffer: its one store, the product of the two loaded blocks. -/
def out3_2 (x0 : Vec F S2000x64 .f32) (x1 : Vec F S64x32 .f32) : Vec F S2000x32 .f32 :=
  View.canon [⟨r3_o, k3_pay1 (View.ld x0 r3_x) (View.ld x1 r3_w)⟩]

/-- The one store covers the buffer. -/
theorem cover3_2 (p0 : Vec F S2000x32 .f32) (y : S2000x32.Idx) :
    ∃ pc ∈ ([⟨r3_o, p0⟩] : List (View.Piece (Elt F) S2000x32 .f32)), y ∈ pc.1.set :=
  View.cover_of_tiled [⟨r3_o, p0⟩] S2000x32.size (by rfl) y

set_option maxHeartbeats 1000000 in
/-- The body on whole staging buffers: the two inputs read, the result's buffer (whatever it held) overwritten by the
    product; the inputs are left as they were. -/
theorem sound_kernel3 (c : Dev nD) (E : Set ℕ) (i : grid3.Coords) (arg1 : Memref sig .tc .vmem S2000x64 .f32) (harg1 : arg1.IsWhole)
    (arg2 : Memref sig .tc .vmem S64x32 .f32) (harg2 : arg2.IsWhole) (arg3 : Memref sig .tc .vmem S2000x32 .f32) (harg3 : arg3.IsWhole)
    (x0 : Vec F S2000x64 .f32) (x1 : Vec F S64x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__linear_kernel i arg1 harg1 arg2 harg2 arg3 harg3) K := by
  simp only [cc3__linear_kernel_eq_skeleton]; unfold cc3__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of region 3: the arrays as the region finds them; after the body each input's buffer at its block
    and the result's at the product of the two; the invariant is the scoped rest and the generator register, untouched;
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- Each window's current staging buffer at point `t`, and the body as the launch calls it there. -/
abbrev ms3_0 (t : Fin cfg3.N) : Memref sig .tc .vmem S2000x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S64x32 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2000x32 .f32 := win3_2.stage (cfg3.slots t 2)
abbrev hs3_2 (t : Fin cfg3.N) : (ms3_2 t).IsWhole := hstage3_2 ((cfg3.slots t 2).cast nbuf3_2)
abbrev pointBody3 (t : Fin cfg3.N) : Prog (TpuEff nD τ sig (Elt F) Λ₀ .tc) PUnit :=
  cc3__linear_kernel (grid3.coords t) (ms3_0 t) (hs3_0 t) (ms3_1 t) (hs3_1 t) (ms3_2 t) (hs3_2 t)

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t))

theorem sound_body3 (c : Dev nD) (t : Fin cfg3.N) :
    bodyPre3 V c t ⊢ wp frame (wpE (defs₀ (F := F)) Variants.none c none) Set.univ (pointBody3 t) (fun _ => bodyPost3 V c t) := by
  unfold bodyPre3 bodyPost3 pointBody3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 3, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Gather1.lean ====
/-
  The one-hot gather of the first layer: a row gather `h[src]` over a tile of 4096 edges computed as a matrix
  product with the 0/1 matrix "edge p's source is node j", one tile of 2048 nodes at a time, accumulated in a scratch
  buffer over the 49 node tiles.  Here: the body's three control cases run on whole staging buffers, what each
  leaves, the accumulation point by point, and the per-point obligation the launch asks for, for any contents `V` of
  the buffers at the region's entry.
-/
import proofs.«138531_j42417097015621_1_alg».proof.Proof.Gen.Kernel.Launch
import proofs.«138531_j42417097015621_1_alg».proof.Proof.Gen.Kernel.Skeleton
import Idealize.ShloMosaic.Lib.Pipeline.Kit
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the one-hot gather (feature width 64)

  The grid is 782 edge tiles by 49 node tiles, the node tile running fastest.  At node tile 0 the accumulator (a
  scratch buffer of the kernel's own, one row per edge of the tile) is zeroed; at every node tile the rows of the
  tile that the edges' sources select are added into it; at node tile 48 it is scaled row by row by the edges'
  weights and stored as the tile's messages.  Between points the accumulator is carried, and the messages' buffer is
  idle (not stored, not written back) except at node tile 48. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, in closed form over the grid -/

/-- The fast grid coordinate of the `t`-th point (the points run row-major, last axis fastest). -/
theorem coord1_fast (t : Fin cfg1.N) : ((grid1.coords t) 1).val = t.val % 49 := by
  show t.val / grid1.stride 1 % grid1.bound 1 = _
  rw [show grid1.stride 1 = 1 from by decide, show grid1.bound 1 = 49 from rfl, Nat.div_one]

/-- "The fast grid coordinate is 0": the accumulator is zeroed. -/
abbrev cond1_0 (i : grid1.Coords) : Prop := (Scalar.cmpi .ne (Scalar.extui (Scalar.cmpi .eq (BitVec.ofNat 32 (i 1).val) 0#32)) 0#32) = 1#1
theorem hcond1_0 (t : Fin cfg1.N) : cond1_0 (grid1.coords t) ↔ t.val % 49 = 0 := by
  have key : ∀ n : Fin 49, ((Scalar.cmpi .ne (Scalar.extui (Scalar.cmpi .eq (BitVec.ofNat 32 n.val) 0#32)) 0#32) = 1#1) ↔ n.val = 0 := by decide +kernel
  show ((Scalar.cmpi .ne (Scalar.extui (Scalar.cmpi .eq (BitVec.ofNat 32 ((grid1.coords t) 1).val) 0#32)) 0#32) = 1#1) ↔ _
  rw [coord1_fast t]
  exact key ⟨t.val % 49, Nat.mod_lt _ (by decide)⟩
/-- "The fast grid coordinate is 48": the result block is stored. -/
abbrev cond1_1 (i : grid1.Coords) : Prop := k1_cond2 i = 1#1
theorem hcond1_1 (t : Fin cfg1.N) : cond1_1 (grid1.coords t) ↔ t.val % 49 = 48 := by
  have key : ∀ n : Fin 49, ((Scalar.cmpi .ne (Scalar.extui (Scalar.cmpi .eq (BitVec.ofNat 32 n.val) 48#32)) 0#32) = 1#1) ↔ n.val = 48 := by decide +kernel
  show ((Scalar.cmpi .ne (Scalar.extui (Scalar.cmpi .eq (BitVec.ofNat 32 ((grid1.coords t) 1).val) 48#32)) 0#32) = 1#1) ↔ _
  rw [coord1_fast t]
  exact key ⟨t.val % 49, Nat.mod_lt _ (by decide)⟩

theorem liveAt1_0 (t : Fin cfg1.N) : cfg1.idle 0 (grid1.coords t) = false := rfl
theorem liveAt1_1 (t : Fin cfg1.N) : cfg1.idle 1 (grid1.coords t) = false := rfl
theorem liveAt1_2 (t : Fin cfg1.N) : cfg1.idle 2 (grid1.coords t) = false := rfl
/-- Away from the last fast coordinate the result's window is idle and not written back. -/
theorem idleAt1_3 (t : Fin cfg1.N) (h : ¬cond1_1 (grid1.coords t)) : cfg1.idle 3 (grid1.coords t) = true := by
  show (!(k1_cond2 (grid1.coords t) == 1#1)) = true
  rw [Bool.not_eq_true', beq_eq_false_iff_ne]; exact h
/-- Away from the last fast coordinate the next point has the same slow coordinate, hence the same result block:
    nothing is written back. -/
theorem noFlush1_3 (t : Fin cfg1.N) (h : ¬cond1_1 (grid1.coords t)) : (cfg1.win 3).flush t = false := by
  have hm : ¬ t.val % 49 = 48 := fun e => h ((hcond1_1 t).mpr e)
  have hN : grid1.N = 38318 := N_1
  have ht : t.val < 38318 := lt_of_lt_of_eq t.isLt hN
  refine Bool.eq_false_iff.mpr fun e => ?_
  have e2 : win1_3.flush t = true := e
  unfold Pipeline.Window.flush at e2
  simp only [Bool.and_eq_true, Bool.or_eq_true, decide_eq_true_eq] at e2
  obtain ⟨-, e3 | ⟨h1, hne⟩⟩ := e2
  · omega
  · refine hne ?_
    have e0 : ((grid1.coords ⟨t.val + 1, h1⟩) 0) = ((grid1.coords t) 0) := by
      apply Fin.ext
      show (t.val + 1) / grid1.stride 0 % grid1.bound 0 = t.val / grid1.stride 0 % grid1.bound 0
      rw [show grid1.stride 0 = 49 from by decide, show grid1.bound 0 = 782 from rfl]; omega
    exact hreads1_3 _ _ (fun a ha => match a, ha with
      | ⟨0, _⟩, _ => e0
      | ⟨1, _⟩, ha => absurd ha Bool.false_ne_true)
theorem liveAt1_3 (t : Fin cfg1.N) (h : cond1_1 (grid1.coords t)) : cfg1.idle 3 (grid1.coords t) = false := by
  show (!(k1_cond2 (grid1.coords t) == 1#1)) = false
  rw [Bool.not_eq_false', beq_iff_eq]; exact h

/-! ## The staging buffers at a point, and the accumulator -/

abbrev VO1 : View sig .tc .vmem S4096x64 .bf16 := (Memref.whole cc1_stg3_0 : Memref sig .tc .vmem S4096x64 .bf16).view
abbrev ms1_0 (t : Fin cfg1.N) : Memref sig .tc .vmem S4096 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x64 .bf16 := win1_3.stage (cfg1.slots t 3)
abbrev hs1_3 (t : Fin cfg1.N) : (ms1_3 t).IsWhole := hstage1_3 ((cfg1.slots t 3).cast nbuf1_3)
/-- The body as the launch calls it at point `t`: on the windows' current staging buffers and the accumulator. -/
abbrev pointBody1 (t : Fin cfg1.N) : Prog (TpuEff nD τ sig (Elt F) Λ₀ .tc) PUnit :=
  cc1__gather_kernel (grid1.coords t) (ms1_0 t) (hs1_0 t) (ms1_1 t) (hs1_1 t) (ms1_2 t) (hs1_2 t) (ms1_3 t) (hs1_3 t) (Memref.whole cc1_scratch0) (Memref.isWhole_whole _)

/-- The accumulator: a whole scoped buffer of the kernel's own. -/
abbrev scM1 : Memref sig .tc .vmem S4096x64 .f32 := Memref.whole cc1_scratch0
abbrev VS1 : View sig .tc .vmem S4096x64 .f32 := scM1.view

/-- The region's invariant as the launch hands it over: the accumulator at some contents, the other scoped buffers
    unopened, the generator register at some state. -/
theorem PhiA1_eq (c : Dev nD) :
    (Pipeline.ΦA spec1 c : sProp 𝕄)
      = iprop(iprop(iprop((∃ d, owns (c : Thread nD τ) scM1 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-! ## The body in each of its three cases: the pieces its stores leave, found by running it -/

set_option maxHeartbeats 4000000 in
/-- First fast coordinate: the accumulator (at anything) is zeroed and this tile's contribution added; the result's
    buffer is handed back untouched. -/
noncomputable def kernelRun1_A (c : Dev nD) (i : grid1.Coords) (arg2 : Memref sig .tc .vmem S4096 .i32) (harg2 : arg2.IsWhole) (arg3 : Memref sig .tc .vmem S4096 .f32) (harg3 : arg3.IsWhole) (arg4 : Memref sig .tc .vmem S2048x64 .f32) (harg4 : arg4.IsWhole) (arg5 : Memref sig .tc .vmem S4096x64 .bf16) (harg5 : arg5.IsWhole) (arg6 : Memref sig .tc .vmem S4096x64 .f32) (harg6 : arg6.IsWhole) (hc0 : cond1_0 i) (hc1 : ¬cond1_1 i)
    (x0 : Vec F S4096 .i32) (x1 : Vec F S4096 .f32) (x2 : Vec F S2048x64 .f32) :
    { LS : List (View.Piece (Elt F) S4096x64 .f32) //
      ∀ (xi : Vec F S4096x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc1__gather_kernel i arg2 harg2 arg3 harg3 arg4 harg4 arg5 harg5 arg6 harg6) K } := by
  refine ⟨?_, fun xi E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%fo, %hfo, HO⟩, ⟨%ds, %fs, -, HS⟩, Hk⟩
    obtain rfl := harg2.eq_unread hf0; obtain rfl := harg3.eq_unread hf1; obtain rfl := harg4.eq_unread hf2; obtain rfl := harg5.eq_unread hfo
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS

set_option maxHeartbeats 4000000 in
/-- A fast coordinate strictly inside: this tile's contribution is added to the accumulator the point before left. -/
noncomputable def kernelRun1_B (c : Dev nD) (i : grid1.Coords) (arg2 : Memref sig .tc .vmem S4096 .i32) (harg2 : arg2.IsWhole) (arg3 : Memref sig .tc .vmem S4096 .f32) (harg3 : arg3.IsWhole) (arg4 : Memref sig .tc .vmem S2048x64 .f32) (harg4 : arg4.IsWhole) (arg5 : Memref sig .tc .vmem S4096x64 .bf16) (harg5 : arg5.IsWhole) (arg6 : Memref sig .tc .vmem S4096x64 .f32) (harg6 : arg6.IsWhole) (hc0 : ¬cond1_0 i) (hc1 : ¬cond1_1 i)
    (x0 : Vec F S4096 .i32) (x1 : Vec F S4096 .f32) (x2 : Vec F S2048x64 .f32) (xs0 : Vec F S4096x64 .f32) :
    { LS : List (View.Piece (Elt F) S4096x64 .f32) //
      ∀ (xi : Vec F S4096x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc1__gather_kernel i arg2 harg2 arg3 harg3 arg4 harg4 arg5 harg5 arg6 harg6) K } := by
  refine ⟨?_, fun xi E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hfo; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS

set_option maxHeartbeats 4000000 in
/-- Last fast coordinate: the last contribution is added, and the result block is computed from the accumulator and
    stored. -/
noncomputable def kernelRun1_C (c : Dev nD) (i : grid1.Coords) (arg2 : Memref sig .tc .vmem S4096 .i32) (harg2 : arg2.IsWhole) (arg3 : Memref sig .tc .vmem S4096 .f32) (harg3 : arg3.IsWhole) (arg4 : Memref sig .tc .vmem S2048x64 .f32) (harg4 : arg4.IsWhole) (arg5 : Memref sig .tc .vmem S4096x64 .bf16) (harg5 : arg5.IsWhole) (arg6 : Memref sig .tc .vmem S4096x64 .f32) (harg6 : arg6.IsWhole) (hc0 : ¬cond1_0 i) (hc1 : cond1_1 i)
    (x0 : Vec F S4096 .i32) (x1 : Vec F S4096 .f32) (x2 : Vec F S2048x64 .f32) (xs0 : Vec F S4096x64 .f32) :
    Σ' (LO : List (View.Piece (Elt F) S4096x64 .bf16)), { LS : List (View.Piece (Elt F) S4096x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc1__gather_kernel i arg2 harg2 arg3 harg3 arg4 harg4 arg5 harg5 arg6 harg6) K } := by
  refine ⟨?_, ?_, fun E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%dO, %fo, -, HO⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]; · iexists _; iexact HO
    iexists _; iexact HS

/-! ## Region 1: what each case leaves, the accumulation, the proof data -/

theorem scover1_A (c : Dev nD) (i : grid1.Coords) (arg2 : Memref sig .tc .vmem S4096 .i32) (harg2 : arg2.IsWhole) (arg3 : Memref sig .tc .vmem S4096 .f32) (harg3 : arg3.IsWhole) (arg4 : Memref sig .tc .vmem S2048x64 .f32) (harg4 : arg4.IsWhole) (arg5 : Memref sig .tc .vmem S4096x64 .bf16) (harg5 : arg5.IsWhole) (arg6 : Memref sig .tc .vmem S4096x64 .f32) (harg6 : arg6.IsWhole) (hc0 : cond1_0 i) (hc1 : ¬cond1_1 i) (x0 : Vec F S4096 .i32) (x1 : Vec F S4096 .f32) (x2 : Vec F S2048x64 .f32) (y : S4096x64.Idx) :
    ∃ pc ∈ (kernelRun1_A c i arg2 harg2 arg3 harg3 arg4 harg4 arg5 harg5 arg6 harg6 hc0 hc1 x0 x1 x2).1, y ∈ pc.1.set :=
  View.cover_of_tiledL (kernelRun1_A c i arg2 harg2 arg3 harg3 arg4 harg4 arg5 harg5 arg6 harg6 hc0 hc1 x0 x1 x2).1 S4096x64.size (by sl_kernel_rfl) y
/-- What the first fast coordinate leaves in the accumulator. -/
def sout1_A (c : Dev nD) (i : grid1.Coords) (arg2 : Memref sig .tc .vmem S4096 .i32) (harg2 : arg2.IsWhole) (arg3 : Memref sig .tc .vmem S4096 .f32) (harg3 : arg3.IsWhole) (arg4 : Memref sig .tc .vmem S2048x64 .f32) (harg4 : arg4.IsWhole) (arg5 : Memref sig .tc .vmem S4096x64 .bf16) (harg5 : arg5.IsWhole) (arg6 : Memref sig .tc .vmem S4096x64 .f32) (harg6 : arg6.IsWhole) (hc0 : cond1_0 i) (hc1 : ¬cond1_1 i) (x0 : Vec F S4096 .i32) (x1 : Vec F S4096 .f32) (x2 : Vec F S2048x64 .f32) : Vec F S4096x64 .f32 :=
  VS1.read (Elt F) (VS1.writes (Elt F) VS1.junk (kernelRun1_A c i arg2 harg2 arg3 harg3 arg4 harg4 arg5 harg5 arg6 harg6 hc0 hc1 x0 x1 x2).1)

theorem scover1_B (c : Dev nD) (i : grid1.Coords) (arg2 : Memref sig .tc .vmem S4096 .i32) (harg2 : arg2.IsWhole) (arg3 : Memref sig .tc .vmem S4096 .f32) (harg3 : arg3.IsWhole) (arg4 : Memref sig .tc .vmem S2048x64 .f32) (harg4 : arg4.IsWhole) (arg5 : Memref sig .tc .vmem S4096x64 .bf16) (harg5 : arg5.IsWhole) (arg6 : Memref sig .tc .vmem S4096x64 .f32) (harg6 : arg6.IsWhole) (hc0 : ¬cond1_0 i) (hc1 : ¬cond1_1 i) (x0 : Vec F S4096 .i32) (x1 : Vec F S4096 .f32) (x2 : Vec F S2048x64 .f32) (xs0 : Vec F S4096x64 .f32) (y : S4096x64.Idx) :
    ∃ pc ∈ (kernelRun1_B c i arg2 harg2 arg3 harg3 arg4 harg4 arg5 harg5 arg6 harg6 hc0 hc1 x0 x1 x2 xs0).1, y ∈ pc.1.set :=
  View.cover_of_tiledL (kernelRun1_B c i arg2 harg2 arg3 harg3 arg4 harg4 arg5 harg5 arg6 harg6 hc0 hc1 x0 x1 x2 xs0).1 S4096x64.size (by sl_kernel_rfl) y
/-- What an inner fast coordinate leaves in the accumulator, over what the point before left. -/
def sout1_B (c : Dev nD) (i : grid1.Coords) (arg2 : Memref sig .tc .vmem S4096 .i32) (harg2 : arg2.IsWhole) (arg3 : Memref sig .tc .vmem S4096 .f32) (harg3 : arg3.IsWhole) (arg4 : Memref sig .tc .vmem S2048x64 .f32) (harg4 : arg4.IsWhole) (arg5 : Memref sig .tc .vmem S4096x64 .bf16) (harg5 : arg5.IsWhole) (arg6 : Memref sig .tc .vmem S4096x64 .f32) (harg6 : arg6.IsWhole) (hc0 : ¬cond1_0 i) (hc1 : ¬cond1_1 i) (x0 : Vec F S4096 .i32) (x1 : Vec F S4096 .f32) (x2 : Vec F S2048x64 .f32) (xs0 : Vec F S4096x64 .f32) : Vec F S4096x64 .f32 :=
  VS1.read (Elt F) (VS1.writes (Elt F) VS1.junk (kernelRun1_B c i arg2 harg2 arg3 harg3 arg4 harg4 arg5 harg5 arg6 harg6 hc0 hc1 x0 x1 x2 xs0).1)

theorem cover1_C (c : Dev nD) (i : grid1.Coords) (arg2 : Memref sig .tc .vmem S4096 .i32) (harg2 : arg2.IsWhole) (arg3 : Memref sig .tc .vmem S4096 .f32) (harg3 : arg3.IsWhole) (arg4 : Memref sig .tc .vmem S2048x64 .f32) (harg4 : arg4.IsWhole) (arg5 : Memref sig .tc .vmem S4096x64 .bf16) (harg5 : arg5.IsWhole) (arg6 : Memref sig .tc .vmem S4096x64 .f32) (harg6 : arg6.IsWhole) (hc0 : ¬cond1_0 i) (hc1 : cond1_1 i) (x0 : Vec F S4096 .i32) (x1 : Vec F S4096 .f32) (x2 : Vec F S2048x64 .f32) (xs0 : Vec F S4096x64 .f32) (y : S4096x64.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S4096x64.size (by sl_kernel_rfl) y
/-- The result block the last fast coordinate stores. -/
def out1_C (c : Dev nD) (i : grid1.Coords) (arg2 : Memref sig .tc .vmem S4096 .i32) (harg2 : arg2.IsWhole) (arg3 : Memref sig .tc .vmem S4096 .f32) (harg3 : arg3.IsWhole) (arg4 : Memref sig .tc .vmem S2048x64 .f32) (harg4 : arg4.IsWhole) (arg5 : Memref sig .tc .vmem S4096x64 .bf16) (harg5 : arg5.IsWhole) (arg6 : Memref sig .tc .vmem S4096x64 .f32) (harg6 : arg6.IsWhole) (hc0 : ¬cond1_0 i) (hc1 : cond1_1 i) (x0 : Vec F S4096 .i32) (x1 : Vec F S4096 .f32) (x2 : Vec F S2048x64 .f32) (xs0 : Vec F S4096x64 .f32) : Vec F S4096x64 .bf16 :=
  VO1.read (Elt F) (VO1.writes (Elt F) VO1.junk (kernelRun1_C c i arg2 harg2 arg3 harg3 arg4 harg4 arg5 harg5 arg6 harg6 hc0 hc1 x0 x1 x2 xs0).1)
theorem scover1_C (c : Dev nD) (i : grid1.Coords) (arg2 : Memref sig .tc .vmem S4096 .i32) (harg2 : arg2.IsWhole) (arg3 : Memref sig .tc .vmem S4096 .f32) (harg3 : arg3.IsWhole) (arg4 : Memref sig .tc .vmem S2048x64 .f32) (harg4 : arg4.IsWhole) (arg5 : Memref sig .tc .vmem S4096x64 .bf16) (harg5 : arg5.IsWhole) (arg6 : Memref sig .tc .vmem S4096x64 .f32) (harg6 : arg6.IsWhole) (hc0 : ¬cond1_0 i) (hc1 : cond1_1 i) (x0 : Vec F S4096 .i32) (x1 : Vec F S4096 .f32) (x2 : Vec F S2048x64 .f32) (xs0 : Vec F S4096x64 .f32) (y : S4096x64.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S4096x64.size (by sl_kernel_rfl) y
/-- What the last fast coordinate leaves in the accumulator. -/
def sout1_C (c : Dev nD) (i : grid1.Coords) (arg2 : Memref sig .tc .vmem S4096 .i32) (harg2 : arg2.IsWhole) (arg3 : Memref sig .tc .vmem S4096 .f32) (harg3 : arg3.IsWhole) (arg4 : Memref sig .tc .vmem S2048x64 .f32) (harg4 : arg4.IsWhole) (arg5 : Memref sig .tc .vmem S4096x64 .bf16) (harg5 : arg5.IsWhole) (arg6 : Memref sig .tc .vmem S4096x64 .f32) (harg6 : arg6.IsWhole) (hc0 : ¬cond1_0 i) (hc1 : cond1_1 i) (x0 : Vec F S4096 .i32) (x1 : Vec F S4096 .f32) (x2 : Vec F S2048x64 .f32) (xs0 : Vec F S4096x64 .f32) : Vec F S4096x64 .f32 :=
  VS1.read (Elt F) (VS1.writes (Elt F) VS1.junk (kernelRun1_C c i arg2 harg2 arg3 harg3 arg4 harg4 arg5 harg5 arg6 harg6 hc0 hc1 x0 x1 x2 xs0).2.1)

/-- THE ACCUMULATION: what the result's staging buffer and the accumulator hold after the body at position `n`: the
    case the closed forms select, run at the point's buffers and input blocks, over the accumulator the point before
    left.  (The first component is consulted only at the last fast coordinate.) -/
def outsAt1 (c : Dev nD) : (n : ℕ) → n < cfg1.N → Vec F S4096x64 .bf16 × Vec F S4096x64 .f32
  | 0, hn => (VO1.junk, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 49 = 0 then
      (VO1.junk, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 49 = 48 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (VO1.junk, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 49 = 0) (h1 : ¬t.val % 49 = 48) :
    outsAt1 V c t.val t.isLt = (VO1.junk, sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans rfl

theorem outsAt1_B (c : Dev nD) (t : Fin cfg1.N) (h0 : ¬t.val % 49 = 0) (h1 : ¬t.val % 49 = 48) :
    outsAt1 V c t.val t.isLt = (VO1.junk, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 49 = 0) (h1 : t.val % 49 = 48) :
    outsAt1 V c t.val t.isLt = (out1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the launch hands over; afterwards the
    accumulator at what the point before left, the other scoped buffers unopened, the generator register at some state. -/
def PhiS1 (c : Dev nD) : (n : ℕ) → n ≤ cfg1.N → sProp 𝕄
  | 0, _ => Pipeline.ΦA spec1 c
  | n + 1, hn => iprop(iprop(iprop(owns (c : Thread nD τ) scM1 fullShare ((outsAt1 V c n hn).2))
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(iprop(owns (c : Thread nD τ) scM1 fullShare ((outsAt1 V c n hn).2))
      ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(iprop(owns (c : Thread nD τ) scM1 fullShare ((outsAt1 V c (n - 1) (by omega)).2))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- The proof data of region 1: the arrays as the region finds them; after the body each input's buffer at its
    block and the result's at the accumulation's first component; the invariant carries the accumulator; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the closed forms say which case the point is in; the invariant hands the body the
    accumulator at what the point before left (at anything before the first point) and takes it back at this point's
    contents; away from the last fast coordinate the result's buffer is handed back as found. -/
theorem sound_body1 (c : Dev nD) (t : Fin cfg1.N) :
    bodyPre1 V c t ⊢ wp frame (wpE (defs₀ (F := F)) Variants.none c none) Set.univ (pointBody1 t) (fun _ => bodyPost1 V c t) := by
  unfold bodyPre1 bodyPost1 pointBody1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 38318 := lt_of_lt_of_eq t.isLt (show cfg1.N = 38318 from N_1)
  by_cases h0 : t.val % 49 = 0
  · have h1 : ¬t.val % 49 = 48 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A; (try dsimp only)
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scover1_A c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scover1_A c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 49 = 48
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C sout1_C; (try dsimp only)
      rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%eo, H3⟩, ⟨%es, HS⟩⟩
      isplitl [HS HR Hg]
      · isplitl [HS HR]
        · isplitl [HS]
          · unfold owns; iexists _; isplitr
            swap; · iexact HS
            ipureintro; exact View.read_writes_of_cover _ _ _ _ _ (scover1_C c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scover1_B c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The body obligation of region 1, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives back what the launch handed over: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 38318 := N_1; omega), PhiA1_eq]
  iintro ⟨⟨HS, HR⟩, Hg⟩
  isplitl [HS HR]
  · isplitl [HS]
    · iexists _; iexact HS
    iexact HR
  iexact Hg

end Cert.Kernel.Hand

end
-- ==== Proof.K.Scatter2.lean ====
/-
  The one-hot scatter-add of the first layer: the sum, for every node of a tile of 2048, of the messages of the
  edges whose target it is, computed as a matrix product with the 0/1 matrix "node r is edge e's target", one tile
  of 4096 edges at a time, accumulated in a scratch buffer over the 782 edge tiles and finished with the self-loop's
  term and the bias.  Here: the body's three control cases run on whole staging buffers, what each leaves, the
  accumulation point by point, and the per-point obligation the launch asks for, for any contents `V` of the buffers
  at the region's entry.
-/
import proofs.«138531_j42417097015621_1_alg».proof.Proof.Gen.Kernel.Launch
import proofs.«138531_j42417097015621_1_alg».proof.Proof.Gen.Kernel.Skeleton
import Idealize.ShloMosaic.Lib.Pipeline.Kit
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the one-hot scatter-add (feature width 64)

  The grid is 49 node tiles by 782 edge tiles, the edge tile running fastest.  At edge tile 0 the accumulator (one
  row per node of the tile) is zeroed; at every edge tile the messages of the edges whose target is a node of the
  tile are added into that node's row; at edge tile 781 the self-loop's term and the bias are added, the positive part taken, and
  the node tile's rows stored.  Between points the accumulator is carried, and the result's buffer is idle except at
  edge tile 781. -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions, in closed form over the grid -/

/-- The fast grid coordinate of the `t`-th point (the points run row-major, last axis fastest). -/
theorem coord2_fast (t : Fin cfg2.N) : ((grid2.coords t) 1).val = t.val % 782 := by
  show t.val / grid2.stride 1 % grid2.bound 1 = _
  rw [show grid2.stride 1 = 1 from by decide, show grid2.bound 1 = 782 from rfl, Nat.div_one]

/-- "The fast grid coordinate is 0": the accumulator is zeroed. -/
abbrev cond2_0 (i : grid2.Coords) : Prop := (Scalar.cmpi .ne (Scalar.extui (Scalar.cmpi .eq (BitVec.ofNat 32 (i 1).val) 0#32)) 0#32) = 1#1
theorem hcond2_0 (t : Fin cfg2.N) : cond2_0 (grid2.coords t) ↔ t.val % 782 = 0 := by
  have key : ∀ n : Fin 782, ((Scalar.cmpi .ne (Scalar.extui (Scalar.cmpi .eq (BitVec.ofNat 32 n.val) 0#32)) 0#32) = 1#1) ↔ n.val = 0 := by decide +kernel
  show ((Scalar.cmpi .ne (Scalar.extui (Scalar.cmpi .eq (BitVec.ofNat 32 ((grid2.coords t) 1).val) 0#32)) 0#32) = 1#1) ↔ _
  rw [coord2_fast t]
  exact key ⟨t.val % 782, Nat.mod_lt _ (by decide)⟩
/-- "The fast grid coordinate is 781": the result block is stored. -/
abbrev cond2_1 (i : grid2.Coords) : Prop := k2_cond2 i = 1#1
theorem hcond2_1 (t : Fin cfg2.N) : cond2_1 (grid2.coords t) ↔ t.val % 782 = 781 := by
  have key : ∀ n : Fin 782, ((Scalar.cmpi .ne (Scalar.extui (Scalar.cmpi .eq (BitVec.ofNat 32 n.val) 781#32)) 0#32) = 1#1) ↔ n.val = 781 := by decide +kernel
  show ((Scalar.cmpi .ne (Scalar.extui (Scalar.cmpi .eq (BitVec.ofNat 32 ((grid2.coords t) 1).val) 781#32)) 0#32) = 1#1) ↔ _
  rw [coord2_fast t]
  exact key ⟨t.val % 782, Nat.mod_lt _ (by decide)⟩

theorem liveAt2_0 (t : Fin cfg2.N) : cfg2.idle 0 (grid2.coords t) = false := rfl
theorem liveAt2_1 (t : Fin cfg2.N) : cfg2.idle 1 (grid2.coords t) = false := rfl
theorem liveAt2_2 (t : Fin cfg2.N) : cfg2.idle 2 (grid2.coords t) = false := rfl
theorem liveAt2_3 (t : Fin cfg2.N) : cfg2.idle 3 (grid2.coords t) = false := rfl
theorem liveAt2_4 (t : Fin cfg2.N) : cfg2.idle 4 (grid2.coords t) = false := rfl
/-- Away from the last fast coordinate the result's window is idle and not written back. -/
theorem idleAt2_5 (t : Fin cfg2.N) (h : ¬cond2_1 (grid2.coords t)) : cfg2.idle 5 (grid2.coords t) = true := by
  show (!(k2_cond2 (grid2.coords t) == 1#1)) = true
  rw [Bool.not_eq_true', beq_eq_false_iff_ne]; exact h
/-- Away from the last fast coordinate the next point has the same slow coordinate, hence the same result block:
    nothing is written back. -/
theorem noFlush2_5 (t : Fin cfg2.N) (h : ¬cond2_1 (grid2.coords t)) : (cfg2.win 5).flush t = false := by
  have hm : ¬ t.val % 782 = 781 := fun e => h ((hcond2_1 t).mpr e)
  have hN : grid2.N = 38318 := N_2
  have ht : t.val < 38318 := lt_of_lt_of_eq t.isLt hN
  refine Bool.eq_false_iff.mpr fun e => ?_
  have e2 : win2_5.flush t = true := e
  unfold Pipeline.Window.flush at e2
  simp only [Bool.and_eq_true, Bool.or_eq_true, decide_eq_true_eq] at e2
  obtain ⟨-, e3 | ⟨h1, hne⟩⟩ := e2
  · omega
  · refine hne ?_
    have e0 : ((grid2.coords ⟨t.val + 1, h1⟩) 0) = ((grid2.coords t) 0) := by
      apply Fin.ext
      show (t.val + 1) / grid2.stride 0 % grid2.bound 0 = t.val / grid2.stride 0 % grid2.bound 0
      rw [show grid2.stride 0 = 782 from by decide, show grid2.bound 0 = 49 from rfl]; omega
    exact hreads2_5 _ _ (fun a ha => match a, ha with
      | ⟨0, _⟩, _ => e0
      | ⟨1, _⟩, ha => absurd ha Bool.false_ne_true)
theorem liveAt2_5 (t : Fin cfg2.N) (h : cond2_1 (grid2.coords t)) : cfg2.idle 5 (grid2.coords t) = false := by
  show (!(k2_cond2 (grid2.coords t) == 1#1)) = false
  rw [Bool.not_eq_false', beq_iff_eq]; exact h

/-! ## The staging buffers at a point, and the accumulator -/

abbrev VO2 : View sig .tc .vmem S2048x64 .f32 := (Memref.whole cc2_stg5_0 : Memref sig .tc .vmem S2048x64 .f32).view
abbrev ms2_0 (t : Fin cfg2.N) : Memref sig .tc .vmem S4096 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4096x64 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S64 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S2048x64 .f32 := win2_5.stage (cfg2.slots t 5)
abbrev hs2_5 (t : Fin cfg2.N) : (ms2_5 t).IsWhole := hstage2_5 ((cfg2.slots t 5).cast nbuf2_5)
/-- The body as the launch calls it at point `t`: on the windows' current staging buffers and the accumulator. -/
abbrev pointBody2 (t : Fin cfg2.N) : Prog (TpuEff nD τ sig (Elt F) Λ₀ .tc) PUnit :=
  cc2__kernel (grid2.coords t) (ms2_0 t) (hs2_0 t) (ms2_1 t) (hs2_1 t) (ms2_2 t) (hs2_2 t) (ms2_3 t) (hs2_3 t) (ms2_4 t) (hs2_4 t) (ms2_5 t) (hs2_5 t) (Memref.whole cc2_scratch0) (Memref.isWhole_whole _)

/-- The accumulator: a whole scoped buffer of the kernel's own. -/
abbrev scM2 : Memref sig .tc .vmem S2048x64 .f32 := Memref.whole cc2_scratch0
abbrev VS2 : View sig .tc .vmem S2048x64 .f32 := scM2.view

/-- The region's invariant as the launch hands it over: the accumulator at some contents, the other scoped buffers
    unopened, the generator register at some state. -/
theorem PhiA2_eq (c : Dev nD) :
    (Pipeline.ΦA spec2 c : sProp 𝕄)
      = iprop(iprop(iprop((∃ d, owns (c : Thread nD τ) scM2 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-! ## The body in each of its three cases: the pieces its stores leave, found by running it -/

set_option maxHeartbeats 4000000 in
/-- First fast coordinate: the accumulator (at anything) is zeroed and this tile's contribution added; the result's
    buffer is handed back untouched. -/
noncomputable def kernelRun2_A (c : Dev nD) (i : grid2.Coords) (arg2 : Memref sig .tc .vmem S4096 .i32) (harg2 : arg2.IsWhole) (arg3 : Memref sig .tc .vmem S4096x64 .bf16) (harg3 : arg3.IsWhole) (arg4 : Memref sig .tc .vmem S2048x64 .f32) (harg4 : arg4.IsWhole) (arg5 : Memref sig .tc .vmem S2048 .f32) (harg5 : arg5.IsWhole) (arg6 : Memref sig .tc .vmem S64 .f32) (harg6 : arg6.IsWhole) (arg7 : Memref sig .tc .vmem S2048x64 .f32) (harg7 : arg7.IsWhole) (arg8 : Memref sig .tc .vmem S2048x64 .f32) (harg8 : arg8.IsWhole) (hc0 : cond2_0 i) (hc1 : ¬cond2_1 i)
    (x0 : Vec F S4096 .i32) (x1 : Vec F S4096x64 .bf16) (x2 : Vec F S2048x64 .f32) (x3 : Vec F S2048 .f32) (x4 : Vec F S64 .f32) :
    { LS : List (View.Piece (Elt F) S2048x64 .f32) //
      ∀ (xi : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc2__kernel i arg2 harg2 arg3 harg3 arg4 harg4 arg5 harg5 arg6 harg6 arg7 harg7 arg8 harg8) K } := by
  refine ⟨?_, fun xi E K => ?run⟩
  case run =>
    simp only [cc2__kernel_eq_skeleton]; unfold cc2__kernel_skel
    unfold owns
    iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfo
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HO]
    · iexists _; isplitr; · ipureintro; exact harg7.read_unread _
      iexact HO
    iexists _; iexact HS

set_option maxHeartbeats 4000000 in
/-- A fast coordinate strictly inside: this tile's contribution is added to the accumulator the point before left. -/
noncomputable def kernelRun2_B (c : Dev nD) (i : grid2.Coords) (arg2 : Memref sig .tc .vmem S4096 .i32) (harg2 : arg2.IsWhole) (arg3 : Memref sig .tc .vmem S4096x64 .bf16) (harg3 : arg3.IsWhole) (arg4 : Memref sig .tc .vmem S2048x64 .f32) (harg4 : arg4.IsWhole) (arg5 : Memref sig .tc .vmem S2048 .f32) (harg5 : arg5.IsWhole) (arg6 : Memref sig .tc .vmem S64 .f32) (harg6 : arg6.IsWhole) (arg7 : Memref sig .tc .vmem S2048x64 .f32) (harg7 : arg7.IsWhole) (arg8 : Memref sig .tc .vmem S2048x64 .f32) (harg8 : arg8.IsWhole) (hc0 : ¬cond2_0 i) (hc1 : ¬cond2_1 i)
    (x0 : Vec F S4096 .i32) (x1 : Vec F S4096x64 .bf16) (x2 : Vec F S2048x64 .f32) (x3 : Vec F S2048 .f32) (x4 : Vec F S64 .f32) (xs0 : Vec F S2048x64 .f32) :
    { LS : List (View.Piece (Elt F) S2048x64 .f32) //
      ∀ (xi : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc2__kernel i arg2 harg2 arg3 harg3 arg4 harg4 arg5 harg5 arg6 harg6 arg7 harg7 arg8 harg8) K } := by
  refine ⟨?_, fun xi E K => ?run⟩
  case run =>
    simp only [cc2__kernel_eq_skeleton]; unfold cc2__kernel_skel
    unfold owns
    iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfo; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HO]
    · iexists _; isplitr; · ipureintro; exact harg7.read_unread _
      iexact HO
    iexists _; iexact HS

set_option maxHeartbeats 4000000 in
/-- Last fast coordinate: the last contribution is added, and the result block is computed from the accumulator and
    stored. -/
noncomputable def kernelRun2_C (c : Dev nD) (i : grid2.Coords) (arg2 : Memref sig .tc .vmem S4096 .i32) (harg2 : arg2.IsWhole) (arg3 : Memref sig .tc .vmem S4096x64 .bf16) (harg3 : arg3.IsWhole) (arg4 : Memref sig .tc .vmem S2048x64 .f32) (harg4 : arg4.IsWhole) (arg5 : Memref sig .tc .vmem S2048 .f32) (harg5 : arg5.IsWhole) (arg6 : Memref sig .tc .vmem S64 .f32) (harg6 : arg6.IsWhole) (arg7 : Memref sig .tc .vmem S2048x64 .f32) (harg7 : arg7.IsWhole) (arg8 : Memref sig .tc .vmem S2048x64 .f32) (harg8 : arg8.IsWhole) (hc0 : ¬cond2_0 i) (hc1 : cond2_1 i)
    (x0 : Vec F S4096 .i32) (x1 : Vec F S4096x64 .bf16) (x2 : Vec F S2048x64 .f32) (x3 : Vec F S2048 .f32) (x4 : Vec F S64 .f32) (xs0 : Vec F S2048x64 .f32) :
    Σ' (LO : List (View.Piece (Elt F) S2048x64 .f32)), { LS : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LS)) -∗ K ⟨⟩))
          ⊢ wp frame (wpE (defs₀ (F := F)) Variants.none c none) E (cc2__kernel i arg2 harg2 arg3 harg3 arg4 harg4 arg5 harg5 arg6 harg6 arg7 harg7 arg8 harg8) K } := by
  refine ⟨?_, ?_, fun E K => ?run⟩
  case run =>
    simp only [cc2__kernel_eq_skeleton]; unfold cc2__kernel_skel
    unfold owns
    iintro ⟨⟨%f0, %hf0, H0⟩, ⟨%f1, %hf1, H1⟩, ⟨%f2, %hf2, H2⟩, ⟨%f3, %hf3, H3⟩, ⟨%f4, %hf4, H4⟩, ⟨%dO, %fo, -, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HO]; · iexists _; iexact HO
    iexists _; iexact HS

/-! ## Region 2: what each case leaves, the accumulation, the proof data -/

theorem scover2_A (c : Dev nD) (i : grid2.Coords) (arg2 : Memref sig .tc .vmem S4096 .i32) (harg2 : arg2.IsWhole) (arg3 : Memref sig .tc .vmem S4096x64 .bf16) (harg3 : arg3.IsWhole) (arg4 : Memref sig .tc .vmem S2048x64 .f32) (harg4 : arg4.IsWhole) (arg5 : Memref sig .tc .vmem S2048 .f32) (harg5 : arg5.IsWhole) (arg6 : Memref sig .tc .vmem S64 .f32) (harg6 : arg6.IsWhole) (arg7 : Memref sig .tc .vmem S2048x64 .f32) (harg7 : arg7.IsWhole) (arg8 : Memref sig .tc .vmem S2048x64 .f32) (harg8 : arg8.IsWhole) (hc0 : cond2_0 i) (hc1 : ¬cond2_1 i) (x0 : Vec F S4096 .i32) (x1 : Vec F S4096x64 .bf16) (x2 : Vec F S2048x64 .f32) (x3 : Vec F S2048 .f32) (x4 : Vec F S64 .f32) (y : S2048x64.Idx) :
    ∃ pc ∈ (kernelRun2_A c i arg2 harg2 arg3 harg3 arg4 harg4 arg5 harg5 arg6 harg6 arg7 harg7 arg8 harg8 hc0 hc1 x0 x1 x2 x3 x4).1, y ∈ pc.1.set :=
  View.cover_of_tiledL (kernelRun2_A c i arg2 harg2 arg3 harg3 arg4 harg4 arg5 harg5 arg6 harg6 arg7 harg7 arg8 harg8 hc0 hc1 x0 x1 x2 x3 x4).1 S2048x64.size (by sl_kernel_rfl) y
/-- What the first fast coordinate leaves in the accumulator. -/
def sout2_A (c : Dev nD) (i : grid2.Coords) (arg2 : Memref sig .tc .vmem S4096 .i32) (harg2 : arg2.IsWhole) (arg3 : Memref sig .tc .vmem S4096x64 .bf16) (harg3 : arg3.IsWhole) (arg4 : Memref sig .tc .vmem S2048x64 .f32) (harg4 : arg4.IsWhole) (arg5 : Memref sig .tc .vmem S2048 .f32) (harg5 : arg5.IsWhole) (arg6 : Memref sig .tc .vmem S64 .f32) (harg6 : arg6.IsWhole) (arg7 : Memref sig .tc .vmem S2048x64 .f32) (harg7 : arg7.IsWhole) (arg8 : Memref sig .tc .vmem S2048x64 .f32) (harg8 : arg8.IsWhole) (hc0 : cond2_0 i) (hc1 : ¬cond2_1 i) (x0 : Vec F S4096 .i32) (x1 : Vec F S4096x64 .bf16) (x2 : Vec F S2048x64 .f32) (x3 : Vec F S2048 .f32) (x4 : Vec F S64 .f32) : Vec F S2048x64 .f32 :=
  VS2.read (Elt F) (VS2.writes (Elt F) VS2.junk (kernelRun2_A c i arg2 harg2 arg3 harg3 arg4 harg4 arg5 harg5 arg6 harg6 arg7 harg7 arg8 harg8 hc0 hc1 x0 x1 x2 x3 x4).1)

theorem scover2_B (c : Dev nD) (i : grid2.Coords) (arg2 : Memref sig .tc .vmem S4096 .i32) (harg2 : arg2.IsWhole) (arg3 : Memref sig .tc .vmem S4096x64 .bf16) (harg3 : arg3.IsWhole) (arg4 : Memref sig .tc .vmem S2048x64 .f32) (harg4 : arg4.IsWhole) (arg5 : Memref sig .tc .vmem S2048 .f32) (harg5 : arg5.IsWhole) (arg6 : Memref sig .tc .vmem S64 .f32) (harg6 : arg6.IsWhole) (arg7 : Memref sig .tc .vmem S2048x64 .f32) (harg7 : arg7.IsWhole) (arg8 : Memref sig .tc .vmem S2048x64 .f32) (harg8 : arg8.IsWhole) (hc0 : ¬cond2_0 i) (hc1 : ¬cond2_1 i) (x0 : Vec F S4096 .i32) (x1 : Vec F S4096x64 .bf16) (x2 : Vec F S2048x64 .f32) (x3 : Vec F S2048 .f32) (x4 : Vec F S64 .f32) (xs0 : Vec F S2048x64 .f32) (y : S2048x64.Idx) :
    ∃ pc ∈ (kernelRun2_B c i arg2 harg2 arg3 harg3 arg4 harg4 arg5 harg5 arg6 harg6 arg7 harg7 arg8 harg8 hc0 hc1 x0 x1 x2 x3 x4 xs0).1, y ∈ pc.1.set :=
  View.cover_of_tiledL (kernelRun2_B c i arg2 harg2 arg3 harg3 arg4 harg4 arg5 harg5 arg6 harg6 arg7 harg7 arg8 harg8 hc0 hc1 x0 x1 x2 x3 x4 xs0).1 S2048x64.size (by sl_kernel_rfl) y
/-- What an inner fast coordinate leaves in the accumulator, over what the point before left. -/
def sout2_B (c : Dev nD) (i : grid2.Coords) (arg2 : Memref sig .tc .vmem S4096 .i32) (harg2 : arg2.IsWhole) (arg3 : Memref sig .tc .vmem S4096x64 .bf16) (harg3 : arg3.IsWhole) (arg4 : Memref sig .tc .vmem S2048x64 .f32) (harg4 : arg4.IsWhole) (arg5 : Memref sig .tc .vmem S2048 .f32) (harg5 : arg5.IsWhole) (arg6 : Memref sig .tc .vmem S64 .f32) (harg6 : arg6.IsWhole) (arg7 : Memref sig .tc .vmem S2048x64 .f32) (harg7 : arg7.IsWhole) (arg8 : Memref sig .tc .vmem S2048x64 .f32) (harg8 : arg8.IsWhole) (hc0 : ¬cond2_0 i) (hc1 : ¬cond2_1 i) (x0 : Vec F S4096 .i32) (x1 : Vec F S4096x64 .bf16) (x2 : Vec F S2048x64 .f32) (x3 : Vec F S2048 .f32) (x4 : Vec F S64 .f32) (xs0 : Vec F S2048x64 .f32) : Vec F S2048x64 .f32 :=
  VS2.read (Elt F) (VS2.writes (Elt F) VS2.junk (kernelRun2_B c i arg2 harg2 arg3 harg3 arg4 harg4 arg5 harg5 arg6 harg6 arg7 harg7 arg8 harg8 hc0 hc1 x0 x1 x2 x3 x4 xs0).1)

theorem cover2_C (c : Dev nD) (i : grid2.Coords) (arg2 : Memref sig .tc .vmem S4096 .i32) (harg2 : arg2.IsWhole) (arg3 : Memref sig .tc .vmem S4096x64 .bf16) (harg3 : arg3.IsWhole) (arg4 : Memref sig .tc .vmem S2048x64 .f32) (harg4 : arg4.IsWhole) (arg5 : Memref sig .tc .vmem S2048 .f32) (harg5 : arg5.IsWhole) (arg6 : Memref sig .tc .vmem S64 .f32) (harg6 : arg6.IsWhole) (arg7 : Memref sig .tc .vmem S2048x64 .f32) (harg7 : arg7.IsWhole) (arg8 : Memref sig .tc .vmem S2048x64 .f32) (harg8 : arg8.IsWhole) (hc0 : ¬cond2_0 i) (hc1 : cond2_1 i) (x0 : Vec F S4096 .i32) (x1 : Vec F S4096x64 .bf16) (x2 : Vec F S2048x64 .f32) (x3 : Vec F S2048 .f32) (x4 : Vec F S64 .f32) (xs0 : Vec F S2048x64 .f32) (y : S2048x64.Idx) :
    ∃ pc ∈ (kernelRun2_C c i arg2 harg2 arg3 harg3 arg4 harg4 arg5 harg5 arg6 harg6 arg7 harg7 arg8 harg8 hc0 hc1 x0 x1 x2 x3 x4 xs0).1, y ∈ pc.1.set :=
  View.cover_of_tiledL (kernelRun2_C c i arg2 harg2 arg3 harg3 arg4 harg4 arg5 harg5 arg6 harg6 arg7 harg7 arg8 harg8 hc0 hc1 x0 x1 x2 x3 x4 xs0).1 S2048x64.size (by sl_kernel_rfl) y
/-- The result block the last fast coordinate stores. -/
def out2_C (c : Dev nD) (i : grid2.Coords) (arg2 : Memref sig .tc .vmem S4096 .i32) (harg2 : arg2.IsWhole) (arg3 : Memref sig .tc .vmem S4096x64 .bf16) (harg3 : arg3.IsWhole) (arg4 : Memref sig .tc .vmem S2048x64 .f32) (harg4 : arg4.IsWhole) (arg5 : Memref sig .tc .vmem S2048 .f32) (harg5 : arg5.IsWhole) (arg6 : Memref sig .tc .vmem S64 .f32) (harg6 : arg6.IsWhole) (arg7 : Memref sig .tc .vmem S2048x64 .f32) (harg7 : arg7.IsWhole) (arg8 : Memref sig .tc .vmem S2048x64 .f32) (harg8 : arg8.IsWhole) (hc0 : ¬cond2_0 i) (hc1 : cond2_1 i) (x0 : Vec F S4096 .i32) (x1 : Vec F S4096x64 .bf16) (x2 : Vec F S2048x64 .f32) (x3 : Vec F S2048 .f32) (x4 : Vec F S64 .f32) (xs0 : Vec F S2048x64 .f32) : Vec F S2048x64 .f32 :=
  VO2.read (Elt F) (VO2.writes (Elt F) VO2.junk (kernelRun2_C c i arg2 harg2 arg3 harg3 arg4 harg4 arg5 harg5 arg6 harg6 arg7 harg7 arg8 harg8 hc0 hc1 x0 x1 x2 x3 x4 xs0).1)
theorem scover2_C (c : Dev nD) (i : grid2.Coords) (arg2 : Memref sig .tc .vmem S4096 .i32) (harg2 : arg2.IsWhole) (arg3 : Memref sig .tc .vmem S4096x64 .bf16) (harg3 : arg3.IsWhole) (arg4 : Memref sig .tc .vmem S2048x64 .f32) (harg4 : arg4.IsWhole) (arg5 : Memref sig .tc .vmem S2048 .f32) (harg5 : arg5.IsWhole) (arg6 : Memref sig .tc .vmem S64 .f32) (harg6 : arg6.IsWhole) (arg7 : Memref sig .tc .vmem S2048x64 .f32) (harg7 : arg7.IsWhole) (arg8 : Memref sig .tc .vmem S2048x64 .f32) (harg8 : arg8.IsWhole) (hc0 : ¬cond2_0 i) (hc1 : cond2_1 i) (x0 : Vec F S4096 .i32) (x1 : Vec F S4096x64 .bf16) (x2 : Vec F S2048x64 .f32) (x3 : Vec F S2048 .f32) (x4 : Vec F S64 .f32) (xs0 : Vec F S2048x64 .f32) (y : S2048x64.Idx) :
    ∃ pc ∈ (kernelRun2_C c i arg2 harg2 arg3 harg3 arg4 harg4 arg5 harg5 arg6 harg6 arg7 harg7 arg8 harg8 hc0 hc1 x0 x1 x2 x3 x4 xs0).2.1, y ∈ pc.1.set :=
  View.cover_of_tiledL (kernelRun2_C c i arg2 harg2 arg3 harg3 arg4 harg4 arg5 harg5 arg6 harg6 arg7 harg7 arg8 harg8 hc0 hc1 x0 x1 x2 x3 x4 xs0).2.1 S2048x64.size (by sl_kernel_rfl) y
/-- What the last fast coordinate leaves in the accumulator. -/
def sout2_C (c : Dev nD) (i : grid2.Coords) (arg2 : Memref sig .tc .vmem S4096 .i32) (harg2 : arg2.IsWhole) (arg3 : Memref sig .tc .vmem S4096x64 .bf16) (harg3 : arg3.IsWhole) (arg4 : Memref sig .tc .vmem S2048x64 .f32) (harg4 : arg4.IsWhole) (arg5 : Memref sig .tc .vmem S2048 .f32) (harg5 : arg5.IsWhole) (arg6 : Memref sig .tc .vmem S64 .f32) (harg6 : arg6.IsWhole) (arg7 : Memref sig .tc .vmem S2048x64 .f32) (harg7 : arg7.IsWhole) (arg8 : Memref sig .tc .vmem S2048x64 .f32) (harg8 : arg8.IsWhole) (hc0 : ¬cond2_0 i) (hc1 : cond2_1 i) (x0 : Vec F S4096 .i32) (x1 : Vec F S4096x64 .bf16) (x2 : Vec F S2048x64 .f32) (x3 : Vec F S2048 .f32) (x4 : Vec F S64 .f32) (xs0 : Vec F S2048x64 .f32) : Vec F S2048x64 .f32 :=
  VS2.read (Elt F) (VS2.writes (Elt F) VS2.junk (kernelRun2_C c i arg2 harg2 arg3 harg3 arg4 harg4 arg5 harg5 arg6 harg6 arg7 harg7 arg8 harg8 hc0 hc1 x0 x1 x2 x3 x4 xs0).2.1)

/-- THE ACCUMULATION: what the result's staging buffer and the accumulator hold after the body at position `n`: the
    case the closed forms select, run at the point's buffers and input blocks, over the accumulator the point before
    left.  (The first component is consulted only at the last fast coordinate.) -/
def outsAt2 (c : Dev nD) : (n : ℕ) → n < cfg2.N → Vec F S2048x64 .f32 × Vec F S2048x64 .f32
  | 0, hn => (VO2.junk, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h0 : (n + 1) % 782 = 0 then
      (VO2.junk, sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) ((hcond2_0 ⟨n + 1, hn⟩).mpr h0) (fun h => (fun h => by (try dsimp only at h); omega) ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩))
    else
      if h1 : (n + 1) % 782 = 781 then
        (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2,
         sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)
      else
        (VO2.junk, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)

theorem outsAt2_A (c : Dev nD) (t : Fin cfg2.N) (h0 : t.val % 782 = 0) (h1 : ¬t.val % 782 = 781) :
    outsAt2 V c t.val t.isLt = (VO2.junk, sout2_A c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) ((hcond2_0 t).mpr h0) (fun h => h1 ((hcond2_1 t).mp h)) (iblk2 V c 0 t) (iblk2 V c 1 t) (iblk2 V c 2 t) (iblk2 V c 3 t) (iblk2 V c 4 t)) := by
  obtain ⟨n, hn⟩ := t
  cases n with
  | zero => exact rfl
  | succ n => exact (dif_pos h0).trans rfl

theorem outsAt2_B (c : Dev nD) (t : Fin cfg2.N) (h0 : ¬t.val % 782 = 0) (h1 : ¬t.val % 782 = 781) :
    outsAt2 V c t.val t.isLt = (VO2.junk, sout2_B c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 782 = 0) (h1 : t.val % 782 = 781) :
    outsAt2 V c t.val t.isLt = (out2_C c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2,
      sout2_C c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the launch hands over; afterwards the
    accumulator at what the point before left, the other scoped buffers unopened, the generator register at some state. -/
def PhiS2 (c : Dev nD) : (n : ℕ) → n ≤ cfg2.N → sProp 𝕄
  | 0, _ => Pipeline.ΦA spec2 c
  | n + 1, hn => iprop(iprop(iprop(owns (c : Thread nD τ) scM2 fullShare ((outsAt2 V c n hn).2))
      ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(iprop(owns (c : Thread nD τ) scM2 fullShare ((outsAt2 V c n hn).2))
      ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(iprop(owns (c : Thread nD τ) scM2 fullShare ((outsAt2 V c (n - 1) (by omega)).2))
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-- The proof data of region 2: the arrays as the region finds them; after the body each input's buffer at its
    block and the result's at the accumulation's first component; the invariant carries the accumulator; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 8000000 in
/-- The body at any point: the closed forms say which case the point is in; the invariant hands the body the
    accumulator at what the point before left (at anything before the first point) and takes it back at this point's
    contents; away from the last fast coordinate the result's buffer is handed back as found. -/
theorem sound_body2 (c : Dev nD) (t : Fin cfg2.N) :
    bodyPre2 V c t ⊢ wp frame (wpE (defs₀ (F := F)) Variants.none c none) Set.univ (pointBody2 t) (fun _ => bodyPost2 V c t) := by
  unfold bodyPre2 bodyPost2 pointBody2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 38318 := lt_of_lt_of_eq t.isLt (show cfg2.N = 38318 from N_2)
  by_cases h0 : t.val % 782 = 0
  · have h1 : ¬t.val % 782 = 781 := by omega
    rw [show (dat2 V c).leavesExact 0 t = owns (c : Thread nD τ) (ms2_0 t) fullShare ((dat2 V c).after 0 t) from by
      unfold Dat.leavesExact; rw [liveAt2_0 t], after2_0]
    rw [show (dat2 V c).leavesExact 1 t = owns (c : Thread nD τ) (ms2_1 t) fullShare ((dat2 V c).after 1 t) from by
      unfold Dat.leavesExact; rw [liveAt2_1 t], after2_1]
    rw [show (dat2 V c).leavesExact 2 t = owns (c : Thread nD τ) (ms2_2 t) fullShare ((dat2 V c).after 2 t) from by
      unfold Dat.leavesExact; rw [liveAt2_2 t], after2_2]
    rw [show (dat2 V c).leavesExact 3 t = owns (c : Thread nD τ) (ms2_3 t) fullShare ((dat2 V c).after 3 t) from by
      unfold Dat.leavesExact; rw [liveAt2_3 t], after2_3]
    rw [show (dat2 V c).leavesExact 4 t = owns (c : Thread nD τ) (ms2_4 t) fullShare ((dat2 V c).after 4 t) from by
      unfold Dat.leavesExact; rw [liveAt2_4 t], after2_4]
    rw [Dat.leavesExact_idle (dat2 V c) 5 t (idleAt2_5 t (fun h => h1 ((hcond2_1 t).mp h))) (noFlush2_5 t (fun h => h1 ((hcond2_1 t).mp h)))]
    rw [outsAt2_A V c t h0 h1]
    unfold sout2_A; (try dsimp only)
    by_cases hz : t.val = 0
    · rw [PhiS2_castSucc V c t, PhiS2_zero V c _ _ hz, PhiA2_eq]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS HR Hg]
      · isplitl [HS HR]
        · isplitl [HS]
          · unfold owns; iexists _; isplitr
            swap; · iexact HS
            ipureintro; exact View.read_writes_of_cover _ _ _ _ _ (scover2_A c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS2_castSucc V c t, PhiS2_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS HR Hg]
      · isplitl [HS HR]
        · isplitl [HS]
          · unfold owns; iexists _; isplitr
            swap; · iexact HS
            ipureintro; exact View.read_writes_of_cover _ _ _ _ _ (scover2_A c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    by_cases h1 : t.val % 782 = 781
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t ((hcond2_1 t).mpr h1)], after2_5]
      rw [outsAt2_C V c t h0 h1]
      unfold out2_C sout2_C; (try dsimp only)
      rw [PhiS2_castSucc V c t, PhiS2_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply ((kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%eo, H5⟩, ⟨%es, HS⟩⟩
      isplitl [HS HR Hg]
      · isplitl [HS HR]
        · isplitl [HS]
          · unfold owns; iexists _; isplitr
            swap; · iexact HS
            ipureintro; exact View.read_writes_of_cover _ _ _ _ _ (scover2_C c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover2_C c _ _ _ _ _ _ _ _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 5 t (idleAt2_5 t (fun h => h1 ((hcond2_1 t).mp h))) (noFlush2_5 t (fun h => h1 ((hcond2_1 t).mp h)))]
      rw [outsAt2_B V c t h0 h1]
      unfold sout2_B; (try dsimp only)
      rw [PhiS2_castSucc V c t, PhiS2_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply ((kernelRun2_B c (grid2.coords t) _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS HR Hg]
      · isplitl [HS HR]
        · isplitl [HS]
          · unfold owns; iexists _; isplitr
            swap; · iexact HS
            ipureintro; exact View.read_writes_of_cover _ _ _ _ _ (scover2_B c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation of region 2, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives back what the launch handed over: the accumulator's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 38318 := N_2; omega), PhiA2_eq]
  iintro ⟨⟨HS, HR⟩, Hg⟩
  isplitl [HS HR]
  · isplitl [HS]
    · iexists _; iexact HS
    iexact HR
  iexact Hg

end Cert.Kernel.Hand

end
-- ==== Proof.K.Gather4.lean ====
/-
  The one-hot gather of the second layer: a row gather `h[src]` over a tile of 4096 edges computed as a matrix
  product with the 0/1 matrix "edge p's source is node j", one tile of 2048 nodes at a time, accumulated in a scratch
  buffer over the 49 node tiles.  Here: the body's three control cases run on whole staging buffers, what each
  leaves, the accumulation point by point, and the per-point obligation the launch asks for, for any contents `V` of
  the buffers at the region's entry.
-/
import proofs.«138531_j42417097015621_1_alg».proof.Proof.Gen.Kernel.Launch
import proofs.«138531_j42417097015621_1_alg».proof.Proof.Gen.Kernel.Skeleton
import Idealize.ShloMosaic.Lib.Pipeline.Kit
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4: the one-hot gather (feature width 32)

  The grid is 782 edge tiles by 49 node tiles, the node tile running fastest.  At node tile 0 the accumulator (a
  scratch buffer of the kernel's own, one row per edge of the tile) is zeroed; at every node tile the rows of the
  tile that the edges' sources select are added into it; at node tile 48 it is scaled row by row by the edges'
  weights and stored as the tile's messages.  Between points the accumulator is carried, and the messages' buffer is
  idle (not stored, not written back) except at node tile 48. -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's two conditions, in closed form over the grid -/

/-- The fast grid coordinate of the `t`-th point (the points run row-major, last axis fastest). -/
theorem coord4_fast (t : Fin cfg4.N) : ((grid4.coords t) 1).val = t.val % 49 := by
  show t.val / grid4.stride 1 % grid4.bound 1 = _
  rw [show grid4.stride 1 = 1 from by decide, show grid4.bound 1 = 49 from rfl, Nat.div_one]

/-- "The fast grid coordinate is 0": the accumulator is zeroed. -/
abbrev cond4_0 (i : grid4.Coords) : Prop := (Scalar.cmpi .ne (Scalar.extui (Scalar.cmpi .eq (BitVec.ofNat 32 (i 1).val) 0#32)) 0#32) = 1#1
theorem hcond4_0 (t : Fin cfg4.N) : cond4_0 (grid4.coords t) ↔ t.val % 49 = 0 := by
  have key : ∀ n : Fin 49, ((Scalar.cmpi .ne (Scalar.extui (Scalar.cmpi .eq (BitVec.ofNat 32 n.val) 0#32)) 0#32) = 1#1) ↔ n.val = 0 := by decide +kernel
  show ((Scalar.cmpi .ne (Scalar.extui (Scalar.cmpi .eq (BitVec.ofNat 32 ((grid4.coords t) 1).val) 0#32)) 0#32) = 1#1) ↔ _
  rw [coord4_fast t]
  exact key ⟨t.val % 49, Nat.mod_lt _ (by decide)⟩
/-- "The fast grid coordinate is 48": the result block is stored. -/
abbrev cond4_1 (i : grid4.Coords) : Prop := k4_cond2 i = 1#1
theorem hcond4_1 (t : Fin cfg4.N) : cond4_1 (grid4.coords t) ↔ t.val % 49 = 48 := by
  have key : ∀ n : Fin 49, ((Scalar.cmpi .ne (Scalar.extui (Scalar.cmpi .eq (BitVec.ofNat 32 n.val) 48#32)) 0#32) = 1#1) ↔ n.val = 48 := by decide +kernel
  show ((Scalar.cmpi .ne (Scalar.extui (Scalar.cmpi .eq (BitVec.ofNat 32 ((grid4.coords t) 1).val) 48#32)) 0#32) = 1#1) ↔ _
  rw [coord4_fast t]
  exact key ⟨t.val % 49, Nat.mod_lt _ (by decide)⟩

theorem liveAt4_0 (t : Fin cfg4.N) : cfg4.idle 0 (grid4.coords t) = false := rfl
theorem liveAt4_1 (t : Fin cfg4.N) : cfg4.idle 1 (grid4.coords t) = false := rfl
theorem liveAt4_2 (t : Fin cfg4.N) : cfg4.idle 2 (grid4.coords t) = false := rfl
/-- Away from the last fast coordinate the result's window is idle and not written back. -/
theorem idleAt4_3 (t : Fin cfg4.N) (h : ¬cond4_1 (grid4.coords t)) : cfg4.idle 3 (grid4.coords t) = true := by
  show (!(k4_cond2 (grid4.coords t) == 1#1)) = true
  rw [Bool.not_eq_true', beq_eq_false_iff_ne]; exact h
/-- Away from the last fast coordinate the next point has the same slow coordinate, hence the same result block:
    nothing is written back. -/
theorem noFlush4_3 (t : Fin cfg4.N) (h : ¬cond4_1 (grid4.coords t)) : (cfg4.win 3).flush t = false := by
  have hm : ¬ t.val % 49 = 48 := fun e => h ((hcond4_1 t).mpr e)
  have hN : grid4.N = 38318 := N_4
  have ht : t.val < 38318 := lt_of_lt_of_eq t.isLt hN
  refine Bool.eq_false_iff.mpr fun e => ?_
  have e2 : win4_3.flush t = true := e
  unfold Pipeline.Window.flush at e2
  simp only [Bool.and_eq_true, Bool.or_eq_true, decide_eq_true_eq] at e2
  obtain ⟨-, e3 | ⟨h1, hne⟩⟩ := e2
  · omega
  · refine hne ?_
    have e0 : ((grid4.coords ⟨t.val + 1, h1⟩) 0) = ((grid4.coords t) 0) := by
      apply Fin.ext
      show (t.val + 1) / grid4.stride 0 % grid4.bound 0 = t.val / grid4.stride 0 % grid4.bound 0
      rw [show grid4.stride 0 = 49 from by decide, show grid4.bound 0 = 782 from rfl]; omega
    exact hreads4_3 _ _ (fun a ha => match a, ha with
      | ⟨0, _⟩, _ => e0
      | ⟨1, _⟩, ha => absurd ha Bool.false_ne_true)
theorem liveAt4_3 (t : Fin cfg4.N) (h : cond4_1 (grid4.coords t)) : cfg4.idle 3 (grid4.coords t) = false := by
  show (!(k4_cond2 (grid4.coords t) == 1#1)) = false
  rw [Bool.not_eq_false', beq_iff_eq]; exact h

/-! ## The staging buffers at a point, and the accumulator -/

abbrev VO4 : View sig .tc .vmem S4096x32 .bf16 := (Memref.whole cc4_stg3_0 : Memref sig .tc .vmem S4096x32 .bf16).view
abbrev ms4_0 (t : Fin cfg4.N) : Memref sig .tc .vmem S4096 .i32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S4096 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2048x32 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S4096x32 .bf16 := win4_3.stage (cfg4.slots t 3)
abbrev hs4_3 (t : Fin cfg4.N) : (ms4_3 t).IsWhole := hstage4_3 ((cfg4.slots t 3).cast nbuf4_3)
/-- The body as the launch calls it at point `t`: on the windows' current staging buffers and the accumulator. -/
abbrev pointBody4 (t : Fin cfg4.N) : Prog (TpuEff nD τ sig (Elt F) Λ₀ .tc) PUnit :=
  cc4__gather_kernel (grid4.coords t) (ms4_0 t) (hs4_0 t) (ms4_1 t) (hs4_1 t) (ms4_2 t) (hs4_2 t) (ms4_3 t) (hs4_3 t) (Memref.whole cc4_scratch0) (Memref.isWhole_whole _)

/-- The accumulator: a whole scoped buffer of the kernel's own. -/
abbrev scM4 : Memref sig .tc .vmem S4096x32 .f32 := Memref.whole cc4_scratch0
abbrev VS4 : View sig .tc .vmem S4096x32 .f32 := scM4.view

/-- The region's invariant as the launch hands it over: the accumulator at some contents, the other scoped buffers
    unopened, the generator register at some state. -/
theorem PhiA4_eq (c : Dev nD) :
    (Pipeline.ΦA spec4 c : sProp 𝕄)
      = iprop(iprop(iprop((∃ d, owns (c : Thread nD τ) scM4 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

/-! ## The body in each of its three cases: the pieces its stores leave, found by running it -/

set_option maxHeartbeats 4000000 in
/-- First fast coordinate: the accumulator (at anything) is zeroed and this tile's contribution added; the result's
    buffer is handed back untouched. -/
noncomputable def kernelRun4_A (c : Dev nD) (i : grid4.Coords) (arg2 : Memref sig .tc .vmem S4096 .i32) (harg2 : arg2.IsWhole) (arg3 : Memref sig .tc .vmem S4096 .f32) (harg3 : arg3.IsWhole) (arg4 : Memref sig .tc .vmem S2048x32 .f32) (harg4 : arg4.IsWhole) (arg5 : Memref sig .tc .vmem S4096x32 .bf16) (harg5 : arg5.IsWhole) (arg6 : Memref sig .tc .vmem S4096x32 .f32) (harg6 : arg6.IsWhole) (hc0 : cond4_0 i) (hc1 : ¬cond4_1 i)
    (x0 : Vec F S4096 .i32) (x1 : Vec F S4096 .f32) (x2 : Vec F S2048x32 .f32) :
    { LS : List (View.Piece (Elt F) S4096x32 .f32) //
      ∀ (xi : Vec F S4096x32 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc4__gather_kernel i arg2 harg2 arg3 harg3 arg4 harg4 arg5 harg5 arg6 harg6) K } := by
  refine ⟨?_, fun xi E K => ?run⟩
  case run =>
    simp only [cc4__gather_kernel_eq_skeleton]; unfold cc4__gather_kernel_skel
    unfold owns
    iintro ⟨⟨%f0, %hf0, H0⟩, ⟨%f1, %hf1, H1⟩, ⟨%f2, %hf2, H2⟩, ⟨%fo, %hfo, HO⟩, ⟨%ds, %fs, -, HS⟩, Hk⟩
    obtain rfl := harg2.eq_unread hf0; obtain rfl := harg3.eq_unread hf1; obtain rfl := harg4.eq_unread hf2; obtain rfl := harg5.eq_unread hfo
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS

set_option maxHeartbeats 4000000 in
/-- A fast coordinate strictly inside: this tile's contribution is added to the accumulator the point before left. -/
noncomputable def kernelRun4_B (c : Dev nD) (i : grid4.Coords) (arg2 : Memref sig .tc .vmem S4096 .i32) (harg2 : arg2.IsWhole) (arg3 : Memref sig .tc .vmem S4096 .f32) (harg3 : arg3.IsWhole) (arg4 : Memref sig .tc .vmem S2048x32 .f32) (harg4 : arg4.IsWhole) (arg5 : Memref sig .tc .vmem S4096x32 .bf16) (harg5 : arg5.IsWhole) (arg6 : Memref sig .tc .vmem S4096x32 .f32) (harg6 : arg6.IsWhole) (hc0 : ¬cond4_0 i) (hc1 : ¬cond4_1 i)
    (x0 : Vec F S4096 .i32) (x1 : Vec F S4096 .f32) (x2 : Vec F S2048x32 .f32) (xs0 : Vec F S4096x32 .f32) :
    { LS : List (View.Piece (Elt F) S4096x32 .f32) //
      ∀ (xi : Vec F S4096x32 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc4__gather_kernel i arg2 harg2 arg3 harg3 arg4 harg4 arg5 harg5 arg6 harg6) K } := by
  refine ⟨?_, fun xi E K => ?run⟩
  case run =>
    simp only [cc4__gather_kernel_eq_skeleton]; unfold cc4__gather_kernel_skel
    unfold owns
    iintro ⟨⟨%f0, %hf0, H0⟩, ⟨%f1, %hf1, H1⟩, ⟨%f2, %hf2, H2⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hfo; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS

set_option maxHeartbeats 4000000 in
/-- Last fast coordinate: the last contribution is added, and the result block is computed from the accumulator and
    stored. -/
noncomputable def kernelRun4_C (c : Dev nD) (i : grid4.Coords) (arg2 : Memref sig .tc .vmem S4096 .i32) (harg2 : arg2.IsWhole) (arg3 : Memref sig .tc .vmem S4096 .f32) (harg3 : arg3.IsWhole) (arg4 : Memref sig .tc .vmem S2048x32 .f32) (harg4 : arg4.IsWhole) (arg5 : Memref sig .tc .vmem S4096x32 .bf16) (harg5 : arg5.IsWhole) (arg6 : Memref sig .tc .vmem S4096x32 .f32) (harg6 : arg6.IsWhole) (hc0 : ¬cond4_0 i) (hc1 : cond4_1 i)
    (x0 : Vec F S4096 .i32) (x1 : Vec F S4096 .f32) (x2 : Vec F S2048x32 .f32) (xs0 : Vec F S4096x32 .f32) :
    Σ' (LO : List (View.Piece (Elt F) S4096x32 .bf16)), { LS : List (View.Piece (Elt F) S4096x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc4__gather_kernel i arg2 harg2 arg3 harg3 arg4 harg4 arg5 harg5 arg6 harg6) K } := by
  refine ⟨?_, ?_, fun E K => ?run⟩
  case run =>
    simp only [cc4__gather_kernel_eq_skeleton]; unfold cc4__gather_kernel_skel
    unfold owns
    iintro ⟨⟨%f0, %hf0, H0⟩, ⟨%f1, %hf1, H1⟩, ⟨%f2, %hf2, H2⟩, ⟨%dO, %fo, -, HO⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]; · iexists _; iexact HO
    iexists _; iexact HS

/-! ## Region 4: what each case leaves, the accumulation, the proof data -/

theorem scover4_A (c : Dev nD) (i : grid4.Coords) (arg2 : Memref sig .tc .vmem S4096 .i32) (harg2 : arg2.IsWhole) (arg3 : Memref sig .tc .vmem S4096 .f32) (harg3 : arg3.IsWhole) (arg4 : Memref sig .tc .vmem S2048x32 .f32) (harg4 : arg4.IsWhole) (arg5 : Memref sig .tc .vmem S4096x32 .bf16) (harg5 : arg5.IsWhole) (arg6 : Memref sig .tc .vmem S4096x32 .f32) (harg6 : arg6.IsWhole) (hc0 : cond4_0 i) (hc1 : ¬cond4_1 i) (x0 : Vec F S4096 .i32) (x1 : Vec F S4096 .f32) (x2 : Vec F S2048x32 .f32) (y : S4096x32.Idx) :
    ∃ pc ∈ (kernelRun4_A c i arg2 harg2 arg3 harg3 arg4 harg4 arg5 harg5 arg6 harg6 hc0 hc1 x0 x1 x2).1, y ∈ pc.1.set :=
  View.cover_of_tiledL (kernelRun4_A c i arg2 harg2 arg3 harg3 arg4 harg4 arg5 harg5 arg6 harg6 hc0 hc1 x0 x1 x2).1 S4096x32.size (by sl_kernel_rfl) y
/-- What the first fast coordinate leaves in the accumulator. -/
def sout4_A (c : Dev nD) (i : grid4.Coords) (arg2 : Memref sig .tc .vmem S4096 .i32) (harg2 : arg2.IsWhole) (arg3 : Memref sig .tc .vmem S4096 .f32) (harg3 : arg3.IsWhole) (arg4 : Memref sig .tc .vmem S2048x32 .f32) (harg4 : arg4.IsWhole) (arg5 : Memref sig .tc .vmem S4096x32 .bf16) (harg5 : arg5.IsWhole) (arg6 : Memref sig .tc .vmem S4096x32 .f32) (harg6 : arg6.IsWhole) (hc0 : cond4_0 i) (hc1 : ¬cond4_1 i) (x0 : Vec F S4096 .i32) (x1 : Vec F S4096 .f32) (x2 : Vec F S2048x32 .f32) : Vec F S4096x32 .f32 :=
  VS4.read (Elt F) (VS4.writes (Elt F) VS4.junk (kernelRun4_A c i arg2 harg2 arg3 harg3 arg4 harg4 arg5 harg5 arg6 harg6 hc0 hc1 x0 x1 x2).1)

theorem scover4_B (c : Dev nD) (i : grid4.Coords) (arg2 : Memref sig .tc .vmem S4096 .i32) (harg2 : arg2.IsWhole) (arg3 : Memref sig .tc .vmem S4096 .f32) (harg3 : arg3.IsWhole) (arg4 : Memref sig .tc .vmem S2048x32 .f32) (harg4 : arg4.IsWhole) (arg5 : Memref sig .tc .vmem S4096x32 .bf16) (harg5 : arg5.IsWhole) (arg6 : Memref sig .tc .vmem S4096x32 .f32) (harg6 : arg6.IsWhole) (hc0 : ¬cond4_0 i) (hc1 : ¬cond4_1 i) (x0 : Vec F S4096 .i32) (x1 : Vec F S4096 .f32) (x2 : Vec F S2048x32 .f32) (xs0 : Vec F S4096x32 .f32) (y : S4096x32.Idx) :
    ∃ pc ∈ (kernelRun4_B c i arg2 harg2 arg3 harg3 arg4 harg4 arg5 harg5 arg6 harg6 hc0 hc1 x0 x1 x2 xs0).1, y ∈ pc.1.set :=
  View.cover_of_tiledL (kernelRun4_B c i arg2 harg2 arg3 harg3 arg4 harg4 arg5 harg5 arg6 harg6 hc0 hc1 x0 x1 x2 xs0).1 S4096x32.size (by sl_kernel_rfl) y
/-- What an inner fast coordinate leaves in the accumulator, over what the point before left. -/
def sout4_B (c : Dev nD) (i : grid4.Coords) (arg2 : Memref sig .tc .vmem S4096 .i32) (harg2 : arg2.IsWhole) (arg3 : Memref sig .tc .vmem S4096 .f32) (harg3 : arg3.IsWhole) (arg4 : Memref sig .tc .vmem S2048x32 .f32) (harg4 : arg4.IsWhole) (arg5 : Memref sig .tc .vmem S4096x32 .bf16) (harg5 : arg5.IsWhole) (arg6 : Memref sig .tc .vmem S4096x32 .f32) (harg6 : arg6.IsWhole) (hc0 : ¬cond4_0 i) (hc1 : ¬cond4_1 i) (x0 : Vec F S4096 .i32) (x1 : Vec F S4096 .f32) (x2 : Vec F S2048x32 .f32) (xs0 : Vec F S4096x32 .f32) : Vec F S4096x32 .f32 :=
  VS4.read (Elt F) (VS4.writes (Elt F) VS4.junk (kernelRun4_B c i arg2 harg2 arg3 harg3 arg4 harg4 arg5 harg5 arg6 harg6 hc0 hc1 x0 x1 x2 xs0).1)

theorem cover4_C (c : Dev nD) (i : grid4.Coords) (arg2 : Memref sig .tc .vmem S4096 .i32) (harg2 : arg2.IsWhole) (arg3 : Memref sig .tc .vmem S4096 .f32) (harg3 : arg3.IsWhole) (arg4 : Memref sig .tc .vmem S2048x32 .f32) (harg4 : arg4.IsWhole) (arg5 : Memref sig .tc .vmem S4096x32 .bf16) (harg5 : arg5.IsWhole) (arg6 : Memref sig .tc .vmem S4096x32 .f32) (harg6 : arg6.IsWhole) (hc0 : ¬cond4_0 i) (hc1 : cond4_1 i) (x0 : Vec F S4096 .i32) (x1 : Vec F S4096 .f32) (x2 : Vec F S2048x32 .f32) (xs0 : Vec F S4096x32 .f32) (y : S4096x32.Idx) :
    ∃ pc ∈ (kernelRun4_C c i arg2 harg2 arg3 harg3 arg4 harg4 arg5 harg5 arg6 harg6 hc0 hc1 x0 x1 x2 xs0).1, y ∈ pc.1.set :=
  View.cover_of_tiledL (kernelRun4_C c i arg2 harg2 arg3 harg3 arg4 harg4 arg5 harg5 arg6 harg6 hc0 hc1 x0 x1 x2 xs0).1 S4096x32.size (by sl_kernel_rfl) y
/-- The result block the last fast coordinate stores. -/
def out4_C (c : Dev nD) (i : grid4.Coords) (arg2 : Memref sig .tc .vmem S4096 .i32) (harg2 : arg2.IsWhole) (arg3 : Memref sig .tc .vmem S4096 .f32) (harg3 : arg3.IsWhole) (arg4 : Memref sig .tc .vmem S2048x32 .f32) (harg4 : arg4.IsWhole) (arg5 : Memref sig .tc .vmem S4096x32 .bf16) (harg5 : arg5.IsWhole) (arg6 : Memref sig .tc .vmem S4096x32 .f32) (harg6 : arg6.IsWhole) (hc0 : ¬cond4_0 i) (hc1 : cond4_1 i) (x0 : Vec F S4096 .i32) (x1 : Vec F S4096 .f32) (x2 : Vec F S2048x32 .f32) (xs0 : Vec F S4096x32 .f32) : Vec F S4096x32 .bf16 :=
  VO4.read (Elt F) (VO4.writes (Elt F) VO4.junk (kernelRun4_C c i arg2 harg2 arg3 harg3 arg4 harg4 arg5 harg5 arg6 harg6 hc0 hc1 x0 x1 x2 xs0).1)
theorem scover4_C (c : Dev nD) (i : grid4.Coords) (arg2 : Memref sig .tc .vmem S4096 .i32) (harg2 : arg2.IsWhole) (arg3 : Memref sig .tc .vmem S4096 .f32) (harg3 : arg3.IsWhole) (arg4 : Memref sig .tc .vmem S2048x32 .f32) (harg4 : arg4.IsWhole) (arg5 : Memref sig .tc .vmem S4096x32 .bf16) (harg5 : arg5.IsWhole) (arg6 : Memref sig .tc .vmem S4096x32 .f32) (harg6 : arg6.IsWhole) (hc0 : ¬cond4_0 i) (hc1 : cond4_1 i) (x0 : Vec F S4096 .i32) (x1 : Vec F S4096 .f32) (x2 : Vec F S2048x32 .f32) (xs0 : Vec F S4096x32 .f32) (y : S4096x32.Idx) :
    ∃ pc ∈ (kernelRun4_C c i arg2 harg2 arg3 harg3 arg4 harg4 arg5 harg5 arg6 harg6 hc0 hc1 x0 x1 x2 xs0).2.1, y ∈ pc.1.set :=
  View.cover_of_tiledL (kernelRun4_C c i arg2 harg2 arg3 harg3 arg4 harg4 arg5 harg5 arg6 harg6 hc0 hc1 x0 x1 x2 xs0).2.1 S4096x32.size (by sl_kernel_rfl) y
/-- What the last fast coordinate leaves in the accumulator. -/
def sout4_C (c : Dev nD) (i : grid4.Coords) (arg2 : Memref sig .tc .vmem S4096 .i32) (harg2 : arg2.IsWhole) (arg3 : Memref sig .tc .vmem S4096 .f32) (harg3 : arg3.IsWhole) (arg4 : Memref sig .tc .vmem S2048x32 .f32) (harg4 : arg4.IsWhole) (arg5 : Memref sig .tc .vmem S4096x32 .bf16) (harg5 : arg5.IsWhole) (arg6 : Memref sig .tc .vmem S4096x32 .f32) (harg6 : arg6.IsWhole) (hc0 : ¬cond4_0 i) (hc1 : cond4_1 i) (x0 : Vec F S4096 .i32) (x1 : Vec F S4096 .f32) (x2 : Vec F S2048x32 .f32) (xs0 : Vec F S4096x32 .f32) : Vec F S4096x32 .f32 :=
  VS4.read (Elt F) (VS4.writes (Elt F) VS4.junk (kernelRun4_C c i arg2 harg2 arg3 harg3 arg4 harg4 arg5 harg5 arg6 harg6 hc0 hc1 x0 x1 x2 xs0).2.1)

/-- THE ACCUMULATION: what the result's staging buffer and the accumulator hold after the body at position `n`: the
    case the closed forms select, run at the point's buffers and input blocks, over the accumulator the point before
    left.  (The first component is consulted only at the last fast coordinate.) -/
def outsAt4 (c : Dev nD) : (n : ℕ) → n < cfg4.N → Vec F S4096x32 .bf16 × Vec F S4096x32 .f32
  | 0, hn => (VO4.junk, sout4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩))
  | n + 1, hn =>
    if h0 : (n + 1) % 49 = 0 then
      (VO4.junk, sout4_A c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4 (Memref.isWhole_whole _) ((hcond4_0 ⟨n + 1, hn⟩).mpr h0) (fun h => (fun h => by (try dsimp only at h); omega) ((hcond4_1 ⟨n + 1, hn⟩).mp h)) (iblk4 V c 0 ⟨n + 1, hn⟩) (iblk4 V c 1 ⟨n + 1, hn⟩) (iblk4 V c 2 ⟨n + 1, hn⟩))
    else
      if h1 : (n + 1) % 49 = 48 then
        (out4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2,
         sout4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2)
      else
        (VO4.junk, sout4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2)

theorem outsAt4_A (c : Dev nD) (t : Fin cfg4.N) (h0 : t.val % 49 = 0) (h1 : ¬t.val % 49 = 48) :
    outsAt4 V c t.val t.isLt = (VO4.junk, sout4_A c (grid4.coords t) (ms4_0 t) (hs4_0 t) (ms4_1 t) (hs4_1 t) (ms4_2 t) (hs4_2 t) (ms4_3 t) (hs4_3 t) scM4 (Memref.isWhole_whole _) ((hcond4_0 t).mpr h0) (fun h => h1 ((hcond4_1 t).mp h)) (iblk4 V c 0 t) (iblk4 V c 1 t) (iblk4 V c 2 t)) := by
  obtain ⟨n, hn⟩ := t
  cases n with
  | zero => exact rfl
  | succ n => exact (dif_pos h0).trans rfl

theorem outsAt4_B (c : Dev nD) (t : Fin cfg4.N) (h0 : ¬t.val % 49 = 0) (h1 : ¬t.val % 49 = 48) :
    outsAt4 V c t.val t.isLt = (VO4.junk, sout4_B c (grid4.coords t) (ms4_0 t) (hs4_0 t) (ms4_1 t) (hs4_1 t) (ms4_2 t) (hs4_2 t) (ms4_3 t) (hs4_3 t) scM4 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 49 = 0) (h1 : t.val % 49 = 48) :
    outsAt4 V c t.val t.isLt = (out4_C c (grid4.coords t) (ms4_0 t) (hs4_0 t) (ms4_1 t) (hs4_1 t) (ms4_2 t) (hs4_2 t) (ms4_3 t) (hs4_3 t) scM4 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2,
      sout4_C c (grid4.coords t) (ms4_0 t) (hs4_0 t) (ms4_1 t) (hs4_1 t) (ms4_2 t) (hs4_2 t) (ms4_3 t) (hs4_3 t) scM4 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the launch hands over; afterwards the
    accumulator at what the point before left, the other scoped buffers unopened, the generator register at some state. -/
def PhiS4 (c : Dev nD) : (n : ℕ) → n ≤ cfg4.N → sProp 𝕄
  | 0, _ => Pipeline.ΦA spec4 c
  | n + 1, hn => iprop(iprop(iprop(owns (c : Thread nD τ) scM4 fullShare ((outsAt4 V c n hn).2))
      ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(iprop(owns (c : Thread nD τ) scM4 fullShare ((outsAt4 V c n hn).2))
      ∗ Pipeline.scopedRestBut (Ix := Unit) (Name := ℕ) (U := UR sig nD τ) (Lvl := ℕ) (Val := Elt F) spec4 c [cc4_scratch0]) ∗ (∃ r, prngReg c r)) := rfl
theorem PhiS4_pos (c : Dev nD) (n : ℕ) (h : n ≤ cfg4.N) (hz : n ≠ 0) :
    PhiS4 V c n h = iprop(iprop(iprop(owns (c : Thread nD τ) scM4 fullShare ((outsAt4 V c (n - 1) (by omega)).2))
      ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-- The proof data of region 4: the arrays as the region finds them; after the body each input's buffer at its
    block and the result's at the accumulation's first component; the invariant carries the accumulator; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 8000000 in
/-- The body at any point: the closed forms say which case the point is in; the invariant hands the body the
    accumulator at what the point before left (at anything before the first point) and takes it back at this point's
    contents; away from the last fast coordinate the result's buffer is handed back as found. -/
theorem sound_body4 (c : Dev nD) (t : Fin cfg4.N) :
    bodyPre4 V c t ⊢ wp frame (wpE (defs₀ (F := F)) Variants.none c none) Set.univ (pointBody4 t) (fun _ => bodyPost4 V c t) := by
  unfold bodyPre4 bodyPost4 pointBody4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  have hN : t.val < 38318 := lt_of_lt_of_eq t.isLt (show cfg4.N = 38318 from N_4)
  by_cases h0 : t.val % 49 = 0
  · have h1 : ¬t.val % 49 = 48 := by omega
    rw [show (dat4 V c).leavesExact 0 t = owns (c : Thread nD τ) (ms4_0 t) fullShare ((dat4 V c).after 0 t) from by
      unfold Dat.leavesExact; rw [liveAt4_0 t], after4_0]
    rw [show (dat4 V c).leavesExact 1 t = owns (c : Thread nD τ) (ms4_1 t) fullShare ((dat4 V c).after 1 t) from by
      unfold Dat.leavesExact; rw [liveAt4_1 t], after4_1]
    rw [show (dat4 V c).leavesExact 2 t = owns (c : Thread nD τ) (ms4_2 t) fullShare ((dat4 V c).after 2 t) from by
      unfold Dat.leavesExact; rw [liveAt4_2 t], after4_2]
    rw [Dat.leavesExact_idle (dat4 V c) 3 t (idleAt4_3 t (fun h => h1 ((hcond4_1 t).mp h))) (noFlush4_3 t (fun h => h1 ((hcond4_1 t).mp h)))]
    rw [outsAt4_A V c t h0 h1]
    unfold sout4_A; (try dsimp only)
    by_cases hz : t.val = 0
    · rw [PhiS4_castSucc V c t, PhiS4_zero V c _ _ hz, PhiA4_eq]
      iintro ⟨⟨⟨HS, HR⟩, Hg⟩, Ho, ⟨%d0, H0⟩, ⟨%d1, H1⟩, ⟨%d2, H2⟩, ⟨%d3, H3⟩⟩
      iapply ((kernelRun4_A c (grid4.coords t) _ _ _ _ _ _ _ _ _ _ ((hcond4_0 t).mpr h0) (fun h => h1 ((hcond4_1 t).mp h)) (iblk4 V c 0 t) (iblk4 V c 1 t) (iblk4 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scover4_A c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS4_castSucc V c t, PhiS4_pos V c _ _ hz]
      iintro ⟨⟨⟨HS, HR⟩, Hg⟩, Ho, ⟨%d0, H0⟩, ⟨%d1, H1⟩, ⟨%d2, H2⟩, ⟨%d3, H3⟩⟩
      iapply ((kernelRun4_A c (grid4.coords t) _ _ _ _ _ _ _ _ _ _ ((hcond4_0 t).mpr h0) (fun h => h1 ((hcond4_1 t).mp h)) (iblk4 V c 0 t) (iblk4 V c 1 t) (iblk4 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scover4_A c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 49 = 48
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t ((hcond4_1 t).mpr h1)], after4_3]
      rw [outsAt4_C V c t h0 h1]
      unfold out4_C sout4_C; (try dsimp only)
      rw [PhiS4_castSucc V c t, PhiS4_pos V c _ _ hz]
      iintro ⟨⟨⟨HS, HR⟩, Hg⟩, Ho, ⟨%d0, H0⟩, ⟨%d1, H1⟩, ⟨%d2, H2⟩, ⟨%d3, H3⟩⟩
      iapply ((kernelRun4_C c (grid4.coords t) _ _ _ _ _ _ _ _ _ _ (fun h => h0 ((hcond4_0 t).mp h)) ((hcond4_1 t).mpr h1) (iblk4 V c 0 t) (iblk4 V c 1 t) (iblk4 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%eo, H3⟩, ⟨%es, HS⟩⟩
      isplitl [HS HR Hg]
      · isplitl [HS HR]
        · isplitl [HS]
          · unfold owns; iexists _; isplitr
            swap; · iexact HS
            ipureintro; exact View.read_writes_of_cover _ _ _ _ _ (scover4_C c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover4_C c _ _ _ _ _ _ _ _ _ _ _ _ _ _ _ _ _)
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [Dat.leavesExact_idle (dat4 V c) 3 t (idleAt4_3 t (fun h => h1 ((hcond4_1 t).mp h))) (noFlush4_3 t (fun h => h1 ((hcond4_1 t).mp h)))]
      rw [outsAt4_B V c t h0 h1]
      unfold sout4_B; (try dsimp only)
      rw [PhiS4_castSucc V c t, PhiS4_pos V c _ _ hz]
      iintro ⟨⟨⟨HS, HR⟩, Hg⟩, Ho, ⟨%d0, H0⟩, ⟨%d1, H1⟩, ⟨%d2, H2⟩, ⟨%d3, H3⟩⟩
      iapply ((kernelRun4_B c (grid4.coords t) _ _ _ _ _ _ _ _ _ _ (fun h => h0 ((hcond4_0 t).mp h)) (fun h => h1 ((hcond4_1 t).mp h)) (iblk4 V c 0 t) (iblk4 V c 1 t) (iblk4 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scover4_B c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The body obligation of region 4, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives back what the launch handed over: the accumulator's contents are forgotten. -/
theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 38318 := N_4; omega), PhiA4_eq]
  iintro ⟨⟨HS, HR⟩, Hg⟩
  isplitl [HS HR]
  · isplitl [HS]
    · iexists _; iexact HS
    iexact HR
  iexact Hg

end Cert.Kernel.Hand

end
-- ==== Proof.K.Scatter5.lean ====
/-
  The one-hot scatter-add of the second layer: the sum, for every node of a tile of 2048, of the messages of the
  edges whose target it is, computed as a matrix product with the 0/1 matrix "node r is edge e's target", one tile
  of 4096 edges at a time, accumulated in a scratch buffer over the 782 edge tiles and finished with the self-loop's
  term and the bias.  Here: the body's three control cases run on whole staging buffers, what each leaves, the
  accumulation point by point, and the per-point obligation the launch asks for, for any contents `V` of the buffers
  at the region's entry.
-/
import proofs.«138531_j42417097015621_1_alg».proof.Proof.Gen.Kernel.Launch
import proofs.«138531_j42417097015621_1_alg».proof.Proof.Gen.Kernel.Skeleton
import Idealize.ShloMosaic.Lib.Pipeline.Kit
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 5: the one-hot scatter-add (feature width 32)

  The grid is 49 node tiles by 782 edge tiles, the edge tile running fastest.  At edge tile 0 the accumulator (one
  row per node of the tile) is zeroed; at every edge tile the messages of the edges whose target is a node of the
  tile are added into that node's row; at edge tile 781 the self-loop's term and the bias are added and
  the node tile's rows stored.  Between points the accumulator is carried, and the result's buffer is idle except at
  edge tile 781. -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every point, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds its block at every point, fetched there or not. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's staging buffer holds its block at every point, fetched there or not. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's two conditions, in closed form over the grid -/

/-- The fast grid coordinate of the `t`-th point (the points run row-major, last axis fastest). -/
theorem coord5_fast (t : Fin cfg5.N) : ((grid5.coords t) 1).val = t.val % 782 := by
  show t.val / grid5.stride 1 % grid5.bound 1 = _
  rw [show grid5.stride 1 = 1 from by decide, show grid5.bound 1 = 782 from rfl, Nat.div_one]

/-- "The fast grid coordinate is 0": the accumulator is zeroed. -/
abbrev cond5_0 (i : grid5.Coords) : Prop := (Scalar.cmpi .ne (Scalar.extui (Scalar.cmpi .eq (BitVec.ofNat 32 (i 1).val) 0#32)) 0#32) = 1#1
theorem hcond5_0 (t : Fin cfg5.N) : cond5_0 (grid5.coords t) ↔ t.val % 782 = 0 := by
  have key : ∀ n : Fin 782, ((Scalar.cmpi .ne (Scalar.extui (Scalar.cmpi .eq (BitVec.ofNat 32 n.val) 0#32)) 0#32) = 1#1) ↔ n.val = 0 := by decide +kernel
  show ((Scalar.cmpi .ne (Scalar.extui (Scalar.cmpi .eq (BitVec.ofNat 32 ((grid5.coords t) 1).val) 0#32)) 0#32) = 1#1) ↔ _
  rw [coord5_fast t]
  exact key ⟨t.val % 782, Nat.mod_lt _ (by decide)⟩
/-- "The fast grid coordinate is 781": the result block is stored. -/
abbrev cond5_1 (i : grid5.Coords) : Prop := k5_cond2 i = 1#1
theorem hcond5_1 (t : Fin cfg5.N) : cond5_1 (grid5.coords t) ↔ t.val % 782 = 781 := by
  have key : ∀ n : Fin 782, ((Scalar.cmpi .ne (Scalar.extui (Scalar.cmpi .eq (BitVec.ofNat 32 n.val) 781#32)) 0#32) = 1#1) ↔ n.val = 781 := by decide +kernel
  show ((Scalar.cmpi .ne (Scalar.extui (Scalar.cmpi .eq (BitVec.ofNat 32 ((grid5.coords t) 1).val) 781#32)) 0#32) = 1#1) ↔ _
  rw [coord5_fast t]
  exact key ⟨t.val % 782, Nat.mod_lt _ (by decide)⟩

theorem liveAt5_0 (t : Fin cfg5.N) : cfg5.idle 0 (grid5.coords t) = false := rfl
theorem liveAt5_1 (t : Fin cfg5.N) : cfg5.idle 1 (grid5.coords t) = false := rfl
theorem liveAt5_2 (t : Fin cfg5.N) : cfg5.idle 2 (grid5.coords t) = false := rfl
theorem liveAt5_3 (t : Fin cfg5.N) : cfg5.idle 3 (grid5.coords t) = false := rfl
theorem liveAt5_4 (t : Fin cfg5.N) : cfg5.idle 4 (grid5.coords t) = false := rfl
/-- Away from the last fast coordinate the result's window is idle and not written back. -/
theorem idleAt5_5 (t : Fin cfg5.N) (h : ¬cond5_1 (grid5.coords t)) : cfg5.idle 5 (grid5.coords t) = true := by
  show (!(k5_cond2 (grid5.coords t) == 1#1)) = true
  rw [Bool.not_eq_true', beq_eq_false_iff_ne]; exact h
/-- Away from the last fast coordinate the next point has the same slow coordinate, hence the same result block:
    nothing is written back. -/
theorem noFlush5_5 (t : Fin cfg5.N) (h : ¬cond5_1 (grid5.coords t)) : (cfg5.win 5).flush t = false := by
  have hm : ¬ t.val % 782 = 781 := fun e => h ((hcond5_1 t).mpr e)
  have hN : grid5.N = 38318 := N_5
  have ht : t.val < 38318 := lt_of_lt_of_eq t.isLt hN
  refine Bool.eq_false_iff.mpr fun e => ?_
  have e2 : win5_5.flush t = true := e
  unfold Pipeline.Window.flush at e2
  simp only [Bool.and_eq_true, Bool.or_eq_true, decide_eq_true_eq] at e2
  obtain ⟨-, e3 | ⟨h1, hne⟩⟩ := e2
  · omega
  · refine hne ?_
    have e0 : ((grid5.coords ⟨t.val + 1, h1⟩) 0) = ((grid5.coords t) 0) := by
      apply Fin.ext
      show (t.val + 1) / grid5.stride 0 % grid5.bound 0 = t.val / grid5.stride 0 % grid5.bound 0
      rw [show grid5.stride 0 = 782 from by decide, show grid5.bound 0 = 49 from rfl]; omega
    exact hreads5_5 _ _ (fun a ha => match a, ha with
      | ⟨0, _⟩, _ => e0
      | ⟨1, _⟩, ha => absurd ha Bool.false_ne_true)
theorem liveAt5_5 (t : Fin cfg5.N) (h : cond5_1 (grid5.coords t)) : cfg5.idle 5 (grid5.coords t) = false := by
  show (!(k5_cond2 (grid5.coords t) == 1#1)) = false
  rw [Bool.not_eq_false', beq_iff_eq]; exact h

/-! ## The staging buffers at a point, and the accumulator -/

abbrev VO5 : View sig .tc .vmem S2048x32 .f32 := (Memref.whole cc5_stg5_0 : Memref sig .tc .vmem S2048x32 .f32).view
abbrev ms5_0 (t : Fin cfg5.N) : Memref sig .tc .vmem S4096 .i32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S4096x32 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S2048x32 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S2048 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S32 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S2048x32 .f32 := win5_5.stage (cfg5.slots t 5)
abbrev hs5_5 (t : Fin cfg5.N) : (ms5_5 t).IsWhole := hstage5_5 ((cfg5.slots t 5).cast nbuf5_5)
/-- The body as the launch calls it at point `t`: on the windows' current staging buffers and the accumulator. -/
abbrev pointBody5 (t : Fin cfg5.N) : Prog (TpuEff nD τ sig (Elt F) Λ₀ .tc) PUnit :=
  cc5__kernel (grid5.coords t) (ms5_0 t) (hs5_0 t) (ms5_1 t) (hs5_1 t) (ms5_2 t) (hs5_2 t) (ms5_3 t) (hs5_3 t) (ms5_4 t) (hs5_4 t) (ms5_5 t) (hs5_5 t) (Memref.whole cc5_scratch0) (Memref.isWhole_whole _)

/-- The accumulator: a whole scoped buffer of the kernel's own. -/
abbrev scM5 : Memref sig .tc .vmem S2048x32 .f32 := Memref.whole cc5_scratch0
abbrev VS5 : View sig .tc .vmem S2048x32 .f32 := scM5.view

/-- The region's invariant as the launch hands it over: the accumulator at some contents, the other scoped buffers
    unopened, the generator register at some state. -/
theorem PhiA5_eq (c : Dev nD) :
    (Pipeline.ΦA spec5 c : sProp 𝕄)
      = iprop(iprop(iprop((∃ d, owns (c : Thread nD τ) scM5 fullShare d))
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; try rfl

/-! ## The body in each of its three cases: the pieces its stores leave, found by running it -/

set_option maxHeartbeats 4000000 in
/-- First fast coordinate: the accumulator (at anything) is zeroed and this tile's contribution added; the result's
    buffer is handed back untouched. -/
noncomputable def kernelRun5_A (c : Dev nD) (i : grid5.Coords) (arg2 : Memref sig .tc .vmem S4096 .i32) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048 .f32) (harg5 : arg5.IsWhole) (arg6 : Memref sig .tc .vmem S32 .f32) (harg6 : arg6.IsWhole) (arg7 : Memref sig .tc .vmem S2048x32 .f32) (harg7 : arg7.IsWhole) (arg8 : Memref sig .tc .vmem S2048x32 .f32) (harg8 : arg8.IsWhole) (hc0 : cond5_0 i) (hc1 : ¬cond5_1 i)
    (x0 : Vec F S4096 .i32) (x1 : Vec F S4096x32 .bf16) (x2 : Vec F S2048x32 .f32) (x3 : Vec F S2048 .f32) (x4 : Vec F S32 .f32) :
    { LS : List (View.Piece (Elt F) S2048x32 .f32) //
      ∀ (xi : Vec F S2048x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc5__kernel i arg2 harg2 arg3 harg3 arg4 harg4 arg5 harg5 arg6 harg6 arg7 harg7 arg8 harg8) K } := by
  refine ⟨?_, fun xi E K => ?run⟩
  case run =>
    simp only [cc5__kernel_eq_skeleton]; unfold cc5__kernel_skel
    unfold owns
    iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfo
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HO]
    · iexists _; isplitr; · ipureintro; exact harg7.read_unread _
      iexact HO
    iexists _; iexact HS

set_option maxHeartbeats 4000000 in
/-- A fast coordinate strictly inside: this tile's contribution is added to the accumulator the point before left. -/
noncomputable def kernelRun5_B (c : Dev nD) (i : grid5.Coords) (arg2 : Memref sig .tc .vmem S4096 .i32) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048 .f32) (harg5 : arg5.IsWhole) (arg6 : Memref sig .tc .vmem S32 .f32) (harg6 : arg6.IsWhole) (arg7 : Memref sig .tc .vmem S2048x32 .f32) (harg7 : arg7.IsWhole) (arg8 : Memref sig .tc .vmem S2048x32 .f32) (harg8 : arg8.IsWhole) (hc0 : ¬cond5_0 i) (hc1 : ¬cond5_1 i)
    (x0 : Vec F S4096 .i32) (x1 : Vec F S4096x32 .bf16) (x2 : Vec F S2048x32 .f32) (x3 : Vec F S2048 .f32) (x4 : Vec F S32 .f32) (xs0 : Vec F S2048x32 .f32) :
    { LS : List (View.Piece (Elt F) S2048x32 .f32) //
      ∀ (xi : Vec F S2048x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc5__kernel i arg2 harg2 arg3 harg3 arg4 harg4 arg5 harg5 arg6 harg6 arg7 harg7 arg8 harg8) K } := by
  refine ⟨?_, fun xi E K => ?run⟩
  case run =>
    simp only [cc5__kernel_eq_skeleton]; unfold cc5__kernel_skel
    unfold owns
    iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfo; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HO]
    · iexists _; isplitr; · ipureintro; exact harg7.read_unread _
      iexact HO
    iexists _; iexact HS

set_option maxHeartbeats 4000000 in
/-- Last fast coordinate: the last contribution is added, and the result block is computed from the accumulator and
    stored. -/
noncomputable def kernelRun5_C (c : Dev nD) (i : grid5.Coords) (arg2 : Memref sig .tc .vmem S4096 .i32) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048 .f32) (harg5 : arg5.IsWhole) (arg6 : Memref sig .tc .vmem S32 .f32) (harg6 : arg6.IsWhole) (arg7 : Memref sig .tc .vmem S2048x32 .f32) (harg7 : arg7.IsWhole) (arg8 : Memref sig .tc .vmem S2048x32 .f32) (harg8 : arg8.IsWhole) (hc0 : ¬cond5_0 i) (hc1 : cond5_1 i)
    (x0 : Vec F S4096 .i32) (x1 : Vec F S4096x32 .bf16) (x2 : Vec F S2048x32 .f32) (x3 : Vec F S2048 .f32) (x4 : Vec F S32 .f32) (xs0 : Vec F S2048x32 .f32) :
    Σ' (LO : List (View.Piece (Elt F) S2048x32 .f32)), { LS : List (View.Piece (Elt F) S2048x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LS)) -∗ K ⟨⟩))
          ⊢ wp frame (wpE (defs₀ (F := F)) Variants.none c none) E (cc5__kernel i arg2 harg2 arg3 harg3 arg4 harg4 arg5 harg5 arg6 harg6 arg7 harg7 arg8 harg8) K } := by
  refine ⟨?_, ?_, fun E K => ?run⟩
  case run =>
    simp only [cc5__kernel_eq_skeleton]; unfold cc5__kernel_skel
    unfold owns
    iintro ⟨⟨%f0, %hf0, H0⟩, ⟨%f1, %hf1, H1⟩, ⟨%f2, %hf2, H2⟩, ⟨%f3, %hf3, H3⟩, ⟨%f4, %hf4, H4⟩, ⟨%dO, %fo, -, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HO]; · iexists _; iexact HO
    iexists _; iexact HS

/-! ## Region 5: what each case leaves, the accumulation, the proof data -/

theorem scover5_A (c : Dev nD) (i : grid5.Coords) (arg2 : Memref sig .tc .vmem S4096 .i32) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048 .f32) (harg5 : arg5.IsWhole) (arg6 : Memref sig .tc .vmem S32 .f32) (harg6 : arg6.IsWhole) (arg7 : Memref sig .tc .vmem S2048x32 .f32) (harg7 : arg7.IsWhole) (arg8 : Memref sig .tc .vmem S2048x32 .f32) (harg8 : arg8.IsWhole) (hc0 : cond5_0 i) (hc1 : ¬cond5_1 i) (x0 : Vec F S4096 .i32) (x1 : Vec F S4096x32 .bf16) (x2 : Vec F S2048x32 .f32) (x3 : Vec F S2048 .f32) (x4 : Vec F S32 .f32) (y : S2048x32.Idx) :
    ∃ pc ∈ (kernelRun5_A c i arg2 harg2 arg3 harg3 arg4 harg4 arg5 harg5 arg6 harg6 arg7 harg7 arg8 harg8 hc0 hc1 x0 x1 x2 x3 x4).1, y ∈ pc.1.set :=
  View.cover_of_tiledL (kernelRun5_A c i arg2 harg2 arg3 harg3 arg4 harg4 arg5 harg5 arg6 harg6 arg7 harg7 arg8 harg8 hc0 hc1 x0 x1 x2 x3 x4).1 S2048x32.size (by sl_kernel_rfl) y
/-- What the first fast coordinate leaves in the accumulator. -/
def sout5_A (c : Dev nD) (i : grid5.Coords) (arg2 : Memref sig .tc .vmem S4096 .i32) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048 .f32) (harg5 : arg5.IsWhole) (arg6 : Memref sig .tc .vmem S32 .f32) (harg6 : arg6.IsWhole) (arg7 : Memref sig .tc .vmem S2048x32 .f32) (harg7 : arg7.IsWhole) (arg8 : Memref sig .tc .vmem S2048x32 .f32) (harg8 : arg8.IsWhole) (hc0 : cond5_0 i) (hc1 : ¬cond5_1 i) (x0 : Vec F S4096 .i32) (x1 : Vec F S4096x32 .bf16) (x2 : Vec F S2048x32 .f32) (x3 : Vec F S2048 .f32) (x4 : Vec F S32 .f32) : Vec F S2048x32 .f32 :=
  VS5.read (Elt F) (VS5.writes (Elt F) VS5.junk (kernelRun5_A c i arg2 harg2 arg3 harg3 arg4 harg4 arg5 harg5 arg6 harg6 arg7 harg7 arg8 harg8 hc0 hc1 x0 x1 x2 x3 x4).1)

theorem scover5_B (c : Dev nD) (i : grid5.Coords) (arg2 : Memref sig .tc .vmem S4096 .i32) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048 .f32) (harg5 : arg5.IsWhole) (arg6 : Memref sig .tc .vmem S32 .f32) (harg6 : arg6.IsWhole) (arg7 : Memref sig .tc .vmem S2048x32 .f32) (harg7 : arg7.IsWhole) (arg8 : Memref sig .tc .vmem S2048x32 .f32) (harg8 : arg8.IsWhole) (hc0 : ¬cond5_0 i) (hc1 : ¬cond5_1 i) (x0 : Vec F S4096 .i32) (x1 : Vec F S4096x32 .bf16) (x2 : Vec F S2048x32 .f32) (x3 : Vec F S2048 .f32) (x4 : Vec F S32 .f32) (xs0 : Vec F S2048x32 .f32) (y : S2048x32.Idx) :
    ∃ pc ∈ (kernelRun5_B c i arg2 harg2 arg3 harg3 arg4 harg4 arg5 harg5 arg6 harg6 arg7 harg7 arg8 harg8 hc0 hc1 x0 x1 x2 x3 x4 xs0).1, y ∈ pc.1.set :=
  View.cover_of_tiledL (kernelRun5_B c i arg2 harg2 arg3 harg3 arg4 harg4 arg5 harg5 arg6 harg6 arg7 harg7 arg8 harg8 hc0 hc1 x0 x1 x2 x3 x4 xs0).1 S2048x32.size (by sl_kernel_rfl) y
/-- What an inner fast coordinate leaves in the accumulator, over what the point before left. -/
def sout5_B (c : Dev nD) (i : grid5.Coords) (arg2 : Memref sig .tc .vmem S4096 .i32) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048 .f32) (harg5 : arg5.IsWhole) (arg6 : Memref sig .tc .vmem S32 .f32) (harg6 : arg6.IsWhole) (arg7 : Memref sig .tc .vmem S2048x32 .f32) (harg7 : arg7.IsWhole) (arg8 : Memref sig .tc .vmem S2048x32 .f32) (harg8 : arg8.IsWhole) (hc0 : ¬cond5_0 i) (hc1 : ¬cond5_1 i) (x0 : Vec F S4096 .i32) (x1 : Vec F S4096x32 .bf16) (x2 : Vec F S2048x32 .f32) (x3 : Vec F S2048 .f32) (x4 : Vec F S32 .f32) (xs0 : Vec F S2048x32 .f32) : Vec F S2048x32 .f32 :=
  VS5.read (Elt F) (VS5.writes (Elt F) VS5.junk (kernelRun5_B c i arg2 harg2 arg3 harg3 arg4 harg4 arg5 harg5 arg6 harg6 arg7 harg7 arg8 harg8 hc0 hc1 x0 x1 x2 x3 x4 xs0).1)

theorem cover5_C (c : Dev nD) (i : grid5.Coords) (arg2 : Memref sig .tc .vmem S4096 .i32) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048 .f32) (harg5 : arg5.IsWhole) (arg6 : Memref sig .tc .vmem S32 .f32) (harg6 : arg6.IsWhole) (arg7 : Memref sig .tc .vmem S2048x32 .f32) (harg7 : arg7.IsWhole) (arg8 : Memref sig .tc .vmem S2048x32 .f32) (harg8 : arg8.IsWhole) (hc0 : ¬cond5_0 i) (hc1 : cond5_1 i) (x0 : Vec F S4096 .i32) (x1 : Vec F S4096x32 .bf16) (x2 : Vec F S2048x32 .f32) (x3 : Vec F S2048 .f32) (x4 : Vec F S32 .f32) (xs0 : Vec F S2048x32 .f32) (y : S2048x32.Idx) :
    ∃ pc ∈ (kernelRun5_C c i arg2 harg2 arg3 harg3 arg4 harg4 arg5 harg5 arg6 harg6 arg7 harg7 arg8 harg8 hc0 hc1 x0 x1 x2 x3 x4 xs0).1, y ∈ pc.1.set :=
  View.cover_of_tiledL (kernelRun5_C c i arg2 harg2 arg3 harg3 arg4 harg4 arg5 harg5 arg6 harg6 arg7 harg7 arg8 harg8 hc0 hc1 x0 x1 x2 x3 x4 xs0).1 S2048x32.size (by sl_kernel_rfl) y
/-- The result block the last fast coordinate stores. -/
def out5_C (c : Dev nD) (i : grid5.Coords) (arg2 : Memref sig .tc .vmem S4096 .i32) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048 .f32) (harg5 : arg5.IsWhole) (arg6 : Memref sig .tc .vmem S32 .f32) (harg6 : arg6.IsWhole) (arg7 : Memref sig .tc .vmem S2048x32 .f32) (harg7 : arg7.IsWhole) (arg8 : Memref sig .tc .vmem S2048x32 .f32) (harg8 : arg8.IsWhole) (hc0 : ¬cond5_0 i) (hc1 : cond5_1 i) (x0 : Vec F S4096 .i32) (x1 : Vec F S4096x32 .bf16) (x2 : Vec F S2048x32 .f32) (x3 : Vec F S2048 .f32) (x4 : Vec F S32 .f32) (xs0 : Vec F S2048x32 .f32) : Vec F S2048x32 .f32 :=
  VO5.read (Elt F) (VO5.writes (Elt F) VO5.junk (kernelRun5_C c i arg2 harg2 arg3 harg3 arg4 harg4 arg5 harg5 arg6 harg6 arg7 harg7 arg8 harg8 hc0 hc1 x0 x1 x2 x3 x4 xs0).1)
theorem scover5_C (c : Dev nD) (i : grid5.Coords) (arg2 : Memref sig .tc .vmem S4096 .i32) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048 .f32) (harg5 : arg5.IsWhole) (arg6 : Memref sig .tc .vmem S32 .f32) (harg6 : arg6.IsWhole) (arg7 : Memref sig .tc .vmem S2048x32 .f32) (harg7 : arg7.IsWhole) (arg8 : Memref sig .tc .vmem S2048x32 .f32) (harg8 : arg8.IsWhole) (hc0 : ¬cond5_0 i) (hc1 : cond5_1 i) (x0 : Vec F S4096 .i32) (x1 : Vec F S4096x32 .bf16) (x2 : Vec F S2048x32 .f32) (x3 : Vec F S2048 .f32) (x4 : Vec F S32 .f32) (xs0 : Vec F S2048x32 .f32) (y : S2048x32.Idx) :
    ∃ pc ∈ (kernelRun5_C c i arg2 harg2 arg3 harg3 arg4 harg4 arg5 harg5 arg6 harg6 arg7 harg7 arg8 harg8 hc0 hc1 x0 x1 x2 x3 x4 xs0).2.1, y ∈ pc.1.set :=
  View.cover_of_tiledL (kernelRun5_C c i arg2 harg2 arg3 harg3 arg4 harg4 arg5 harg5 arg6 harg6 arg7 harg7 arg8 harg8 hc0 hc1 x0 x1 x2 x3 x4 xs0).2.1 S2048x32.size (by sl_kernel_rfl) y
/-- What the last fast coordinate leaves in the accumulator. -/
def sout5_C (c : Dev nD) (i : grid5.Coords) (arg2 : Memref sig .tc .vmem S4096 .i32) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048 .f32) (harg5 : arg5.IsWhole) (arg6 : Memref sig .tc .vmem S32 .f32) (harg6 : arg6.IsWhole) (arg7 : Memref sig .tc .vmem S2048x32 .f32) (harg7 : arg7.IsWhole) (arg8 : Memref sig .tc .vmem S2048x32 .f32) (harg8 : arg8.IsWhole) (hc0 : ¬cond5_0 i) (hc1 : cond5_1 i) (x0 : Vec F S4096 .i32) (x1 : Vec F S4096x32 .bf16) (x2 : Vec F S2048x32 .f32) (x3 : Vec F S2048 .f32) (x4 : Vec F S32 .f32) (xs0 : Vec F S2048x32 .f32) : Vec F S2048x32 .f32 :=
  VS5.read (Elt F) (VS5.writes (Elt F) VS5.junk (kernelRun5_C c i arg2 harg2 arg3 harg3 arg4 harg4 arg5 harg5 arg6 harg6 arg7 harg7 arg8 harg8 hc0 hc1 x0 x1 x2 x3 x4 xs0).2.1)

/-- THE ACCUMULATION: what the result's staging buffer and the accumulator hold after the body at position `n`: the
    case the closed forms select, run at the point's buffers and input blocks, over the accumulator the point before
    left.  (The first component is consulted only at the last fast coordinate.) -/
def outsAt5 (c : Dev nD) : (n : ℕ) → n < cfg5.N → Vec F S2048x32 .f32 × Vec F S2048x32 .f32
  | 0, hn => (VO5.junk, sout5_A c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) scM5 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩))
  | n + 1, hn =>
    if h0 : (n + 1) % 782 = 0 then
      (VO5.junk, sout5_A c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5 (Memref.isWhole_whole _) ((hcond5_0 ⟨n + 1, hn⟩).mpr h0) (fun h => (fun h => by (try dsimp only at h); omega) ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩))
    else
      if h1 : (n + 1) % 782 = 781 then
        (out5_C c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2,
         sout5_C c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2)
      else
        (VO5.junk, sout5_B c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2)

theorem outsAt5_A (c : Dev nD) (t : Fin cfg5.N) (h0 : t.val % 782 = 0) (h1 : ¬t.val % 782 = 781) :
    outsAt5 V c t.val t.isLt = (VO5.junk, sout5_A c (grid5.coords t) (ms5_0 t) (hs5_0 t) (ms5_1 t) (hs5_1 t) (ms5_2 t) (hs5_2 t) (ms5_3 t) (hs5_3 t) (ms5_4 t) (hs5_4 t) (ms5_5 t) (hs5_5 t) scM5 (Memref.isWhole_whole _) ((hcond5_0 t).mpr h0) (fun h => h1 ((hcond5_1 t).mp h)) (iblk5 V c 0 t) (iblk5 V c 1 t) (iblk5 V c 2 t) (iblk5 V c 3 t) (iblk5 V c 4 t)) := by
  obtain ⟨n, hn⟩ := t
  cases n with
  | zero => exact rfl
  | succ n => exact (dif_pos h0).trans rfl

theorem outsAt5_B (c : Dev nD) (t : Fin cfg5.N) (h0 : ¬t.val % 782 = 0) (h1 : ¬t.val % 782 = 781) :
    outsAt5 V c t.val t.isLt = (VO5.junk, sout5_B c (grid5.coords t) (ms5_0 t) (hs5_0 t) (ms5_1 t) (hs5_1 t) (ms5_2 t) (hs5_2 t) (ms5_3 t) (hs5_3 t) (ms5_4 t) (hs5_4 t) (ms5_5 t) (hs5_5 t) scM5 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt5_C (c : Dev nD) (t : Fin cfg5.N) (h0 : ¬t.val % 782 = 0) (h1 : t.val % 782 = 781) :
    outsAt5 V c t.val t.isLt = (out5_C c (grid5.coords t) (ms5_0 t) (hs5_0 t) (ms5_1 t) (hs5_1 t) (ms5_2 t) (hs5_2 t) (ms5_3 t) (hs5_3 t) (ms5_4 t) (hs5_4 t) (ms5_5 t) (hs5_5 t) scM5 (Memref.isWhole_whole _) (fun h => h0 ((hcond5_0 t).mp h)) ((hcond5_1 t).mpr h1) (iblk5 V c 0 t) (iblk5 V c 1 t) (iblk5 V c 2 t) (iblk5 V c 3 t) (iblk5 V c 4 t) (outsAt5 V c (t.val - 1) (Nat.lt_of_le_of_lt (Nat.sub_le _ _) t.isLt)).2,
      sout5_C c (grid5.coords t) (ms5_0 t) (hs5_0 t) (ms5_1 t) (hs5_1 t) (ms5_2 t) (hs5_2 t) (ms5_3 t) (hs5_3 t) (ms5_4 t) (hs5_4 t) (ms5_5 t) (hs5_5 t) scM5 (Memref.isWhole_whole _) (fun h => h0 ((hcond5_0 t).mp h)) ((hcond5_1 t).mpr h1) (iblk5 V c 0 t) (iblk5 V c 1 t) (iblk5 V c 2 t) (iblk5 V c 3 t) (iblk5 V c 4 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the launch hands over; afterwards the
    accumulator at what the point before left, the other scoped buffers unopened, the generator register at some state. -/
def PhiS5 (c : Dev nD) : (n : ℕ) → n ≤ cfg5.N → sProp 𝕄
  | 0, _ => Pipeline.ΦA spec5 c
  | n + 1, hn => iprop(iprop(iprop(owns (c : Thread nD τ) scM5 fullShare ((outsAt5 V c n hn).2))
      ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl
theorem PhiS5_succ (c : Dev nD) (n : ℕ) (hn : n < cfg5.N) :
    PhiS5 V c (n + 1) hn = iprop(iprop(iprop(owns (c : Thread nD τ) scM5 fullShare ((outsAt5 V c n hn).2))
      ∗ Pipeline.scopedRestBut (Ix := Unit) (Name := ℕ) (U := UR sig nD τ) (Lvl := ℕ) (Val := Elt F) spec5 c [cc5_scratch0]) ∗ (∃ r, prngReg c r)) := rfl
theorem PhiS5_pos (c : Dev nD) (n : ℕ) (h : n ≤ cfg5.N) (hz : n ≠ 0) :
    PhiS5 V c n h = iprop(iprop(iprop(owns (c : Thread nD τ) scM5 fullShare ((outsAt5 V c (n - 1) (by omega)).2))
      ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-- The proof data of region 5: the arrays as the region finds them; after the body each input's buffer at its
    block and the result's at the accumulation's first component; the invariant carries the accumulator; nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem PhiS5_castSucc (c : Dev nD) (t : Fin cfg5.N) :
    (dat5 V c).Φ t.castSucc = PhiS5 V c t.val (Nat.le_of_lt t.isLt) := by
  dsimp only [dat5]; simp only [Fin.coe_castSucc]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = (outsAt5 V c t.val t.isLt).1 := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t)

set_option maxHeartbeats 8000000 in
/-- The body at any point: the closed forms say which case the point is in; the invariant hands the body the
    accumulator at what the point before left (at anything before the first point) and takes it back at this point's
    contents; away from the last fast coordinate the result's buffer is handed back as found. -/
theorem sound_body5 (c : Dev nD) (t : Fin cfg5.N) :
    bodyPre5 V c t ⊢ wp frame (wpE (defs₀ (F := F)) Variants.none c none) Set.univ (pointBody5 t) (fun _ => bodyPost5 V c t) := by
  unfold bodyPre5 bodyPost5 pointBody5
  simp only [before5_0, before5_1, before5_2, before5_3, before5_4]
  rw [show (dat5 V c).owesAt () t.succ = (dat5 V c).owesAt () t.castSucc from rfl]
  rw [show (dat5 V c).Φ t.succ = PhiS5 V c (t.val + 1) t.isLt from rfl, PhiS5_succ]
  have hN : t.val < 38318 := lt_of_lt_of_eq t.isLt (show cfg5.N = 38318 from N_5)
  by_cases h0 : t.val % 782 = 0
  · have h1 : ¬t.val % 782 = 781 := by omega
    rw [show (dat5 V c).leavesExact 0 t = owns (c : Thread nD τ) (ms5_0 t) fullShare ((dat5 V c).after 0 t) from by
      unfold Dat.leavesExact; rw [liveAt5_0 t], after5_0]
    rw [show (dat5 V c).leavesExact 1 t = owns (c : Thread nD τ) (ms5_1 t) fullShare ((dat5 V c).after 1 t) from by
      unfold Dat.leavesExact; rw [liveAt5_1 t], after5_1]
    rw [show (dat5 V c).leavesExact 2 t = owns (c : Thread nD τ) (ms5_2 t) fullShare ((dat5 V c).after 2 t) from by
      unfold Dat.leavesExact; rw [liveAt5_2 t], after5_2]
    rw [show (dat5 V c).leavesExact 3 t = owns (c : Thread nD τ) (ms5_3 t) fullShare ((dat5 V c).after 3 t) from by
      unfold Dat.leavesExact; rw [liveAt5_3 t], after5_3]
    rw [show (dat5 V c).leavesExact 4 t = owns (c : Thread nD τ) (ms5_4 t) fullShare ((dat5 V c).after 4 t) from by
      unfold Dat.leavesExact; rw [liveAt5_4 t], after5_4]
    rw [Dat.leavesExact_idle (dat5 V c) 5 t (idleAt5_5 t (fun h => h1 ((hcond5_1 t).mp h))) (noFlush5_5 t (fun h => h1 ((hcond5_1 t).mp h)))]
    rw [outsAt5_A V c t h0 h1]
    unfold sout5_A; (try dsimp only)
    by_cases hz : t.val = 0
    · rw [PhiS5_castSucc V c t, PhiS5_zero V c _ _ hz, PhiA5_eq]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply ((kernelRun5_A c (grid5.coords t) _ _ _ _ _ _ _ _ _ _ _ _ _ _ ((hcond5_0 t).mpr h0) (fun h => h1 ((hcond5_1 t).mp h)) (iblk5 V c 0 t) (iblk5 V c 1 t) (iblk5 V c 2 t) (iblk5 V c 3 t) (iblk5 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS HR Hg]
      · isplitl [HS HR]
        · isplitl [HS]
          · unfold owns; iexists _; isplitr
            swap; · iexact HS
            ipureintro; exact View.read_writes_of_cover _ _ _ _ _ (scover5_A c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS5_castSucc V c t, PhiS5_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply ((kernelRun5_A c (grid5.coords t) _ _ _ _ _ _ _ _ _ _ _ _ _ _ ((hcond5_0 t).mpr h0) (fun h => h1 ((hcond5_1 t).mp h)) (iblk5 V c 0 t) (iblk5 V c 1 t) (iblk5 V c 2 t) (iblk5 V c 3 t) (iblk5 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS HR Hg]
      · isplitl [HS HR]
        · isplitl [HS]
          · unfold owns; iexists _; isplitr
            swap; · iexact HS
            ipureintro; exact View.read_writes_of_cover _ _ _ _ _ (scover5_A c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    by_cases h1 : t.val % 782 = 781
    · rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [show (dat5 V c).leavesExact 3 t = owns (c : Thread nD τ) (ms5_3 t) fullShare ((dat5 V c).after 3 t) from by
        unfold Dat.leavesExact; rw [liveAt5_3 t], after5_3]
      rw [show (dat5 V c).leavesExact 4 t = owns (c : Thread nD τ) (ms5_4 t) fullShare ((dat5 V c).after 4 t) from by
        unfold Dat.leavesExact; rw [liveAt5_4 t], after5_4]
      rw [show (dat5 V c).leavesExact 5 t = owns (c : Thread nD τ) (ms5_5 t) fullShare ((dat5 V c).after 5 t) from by
        unfold Dat.leavesExact; rw [liveAt5_5 t ((hcond5_1 t).mpr h1)], after5_5]
      rw [outsAt5_C V c t h0 h1]
      unfold out5_C sout5_C; (try dsimp only)
      rw [PhiS5_castSucc V c t, PhiS5_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply ((kernelRun5_C c (grid5.coords t) _ _ _ _ _ _ _ _ _ _ _ _ _ _ (fun h => h0 ((hcond5_0 t).mp h)) ((hcond5_1 t).mpr h1) (iblk5 V c 0 t) (iblk5 V c 1 t) (iblk5 V c 2 t) (iblk5 V c 3 t) (iblk5 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%eo, H5⟩, ⟨%es, HS⟩⟩
      isplitl [HS HR Hg]
      · isplitl [HS HR]
        · isplitl [HS]
          · unfold owns; iexists _; isplitr
            swap; · iexact HS
            ipureintro; exact View.read_writes_of_cover _ _ _ _ _ (scover5_C c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover5_C c _ _ _ _ _ _ _ _ _ _ _ _ _ _ _ _ _ _ _ _ _ _ _)
    · rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [show (dat5 V c).leavesExact 3 t = owns (c : Thread nD τ) (ms5_3 t) fullShare ((dat5 V c).after 3 t) from by
        unfold Dat.leavesExact; rw [liveAt5_3 t], after5_3]
      rw [show (dat5 V c).leavesExact 4 t = owns (c : Thread nD τ) (ms5_4 t) fullShare ((dat5 V c).after 4 t) from by
        unfold Dat.leavesExact; rw [liveAt5_4 t], after5_4]
      rw [Dat.leavesExact_idle (dat5 V c) 5 t (idleAt5_5 t (fun h => h1 ((hcond5_1 t).mp h))) (noFlush5_5 t (fun h => h1 ((hcond5_1 t).mp h)))]
      rw [outsAt5_B V c t h0 h1]
      unfold sout5_B; (try dsimp only)
      rw [PhiS5_castSucc V c t, PhiS5_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply ((kernelRun5_B c (grid5.coords t) _ _ _ _ _ _ _ _ _ _ _ _ _ _ (fun h => h0 ((hcond5_0 t).mp h)) (fun h => h1 ((hcond5_1 t).mp h)) (iblk5 V c 0 t) (iblk5 V c 1 t) (iblk5 V c 2 t) (iblk5 V c 3 t) (iblk5 V c 4 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS HR Hg]
      · isplitl [HS HR]
        · isplitl [HS]
          · unfold owns; iexists _; isplitr
            swap; · iexact HS
            ipureintro; exact View.read_writes_of_cover _ _ _ _ _ (scover5_B c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation of region 5, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After the last point the invariant gives back what the launch handed over: the accumulator's contents are forgotten. -/
theorem hout5 (c : Dev nD) : (dat5 V c).Φ (Fin.last cfg5.N) ⊢ Pipeline.ΦA spec5 c := by
  rw [show (dat5 V c).Φ (Fin.last cfg5.N) = PhiS5 V c (Fin.last cfg5.N).val (Nat.le_of_lt_succ (Fin.last cfg5.N).isLt) from rfl,
    PhiS5_pos V c _ _ (by rw [Fin.val_last]; have : cfg5.N = 38318 := N_5; omega), PhiA5_eq]
  iintro ⟨⟨HS, HR⟩, Hg⟩
  isplitl [HS HR]
  · isplitl [HS]
    · iexists _; iexact HS
    iexact HR
  iexact Hg

end Cert.Kernel.Hand

end
-- ==== Proof.K.Run.lean ====
/-
  The whole run of the program: twenty items — stretches of host operations and six kernel regions — composed in
  order from the launch to the return.  The contents of every buffer at every boundary are named as a fold through
  the program (a host stretch applies its operations; a region leaves its arrays at what its write-backs wrote and
  every other buffer as it found it); each region is entered from the boundary before it and left at the one after;
  at the end every buffer is read at the last boundary's contents, and the argument arrays, which nothing writes, are
  there as launched.
-/
import proofs.«138531_j42417097015621_1_alg».proof.Proof.Gen.Kernel.Launch
import proofs.«138531_j42417097015621_1_alg».proof.Proof.Gen.Kernel.Skeleton
import Idealize.ShloMosaic.Lib.Pipeline.Kit
import proofs.«138531_j42417097015621_1_alg».proof.Proof.Gen.Kernel.Regions
import proofs.«138531_j42417097015621_1_alg».proof.Proof.K.Linear
import proofs.«138531_j42417097015621_1_alg».proof.Proof.K.Gather1
import proofs.«138531_j42417097015621_1_alg».proof.Proof.K.Scatter2
import proofs.«138531_j42417097015621_1_alg».proof.Proof.K.Gather4
import proofs.«138531_j42417097015621_1_alg».proof.Proof.K.Scatter5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's twenty items from the launch to the return

## The buffer contents at each boundary: a fold through @main -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After `hostOps0_1`. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
/-- After `hostOps0_2`. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- After `hostOps0_3`. -/
abbrev W4 : Dev nD → Valuation τ sig (Elt F) := fun c => StableHlo.after hostOps0_3 (W3 m ρ c)
abbrev V4 : (c : Dev nD) → (b : Ref sig .tc) → Buf (Elt F) ((c : Thread nD τ).loc b) := fun c b => W4 m ρ c b
/-- After `hostOps0_4`. -/
abbrev W5 : Dev nD → Valuation τ sig (Elt F) := fun c => StableHlo.after hostOps0_4 (W4 m ρ c)
abbrev V5 : (c : Dev nD) → (b : Ref sig .tc) → Buf (Elt F) ((c : Thread nD τ).loc b) := fun c b => W5 m ρ c b
/-- After `hostOps0_5`. -/
abbrev W6 : Dev nD → Valuation τ sig (Elt F) := fun c => StableHlo.after hostOps0_5 (W5 m ρ c)
abbrev V6 : (c : Dev nD) → (b : Ref sig .tc) → Buf (Elt F) ((c : Thread nD τ).loc b) := fun c b => W6 m ρ c b
/-- After `hostOps0_6`. -/
abbrev W7 : Dev nD → Valuation τ sig (Elt F) := fun c => StableHlo.after hostOps0_6 (W6 m ρ c)
abbrev V7 : (c : Dev nD) → (b : Ref sig .tc) → Buf (Elt F) ((c : Thread nD τ).loc b) := fun c b => W7 m ρ c b
/-- After `hostOps0_7`. -/
abbrev W8 : Dev nD → Valuation τ sig (Elt F) := fun c => StableHlo.after hostOps0_7 (W7 m ρ c)
abbrev V8 : (c : Dev nD) → (b : Ref sig .tc) → Buf (Elt F) ((c : Thread nD τ).loc b) := fun c b => W8 m ρ c b
/-- At region 0's exit: its arrays at what its write-backs leave, every other buffer as entered. -/
def W9 (c : Dev nD) : Valuation τ sig (Elt F) :=
  Pipeline.withArrays spec0 c (W8 m ρ c) fun w => (dat0 (V8 m ρ) c).arrAt w cfg0.N
theorem W9_arr (c : Dev nD) (w : Fin cfg0.W) :
    W9 m ρ c (Proc.devRef .tc (Pipeline.arrRef spec0 w)) = (dat0 (V8 m ρ) c).arrAt w cfg0.N := by
  unfold W9; exact Pipeline.withArrays_arr spec0 launch0.win.arr_inj c _ _ w
theorem W9_of_ne (c : Dev nD) (b : Ref sig .tc) (hb : ∀ w, Pipeline.arrRef spec0 w ≠ b) :
    W9 m ρ c (Proc.devRef .tc b) = W8 m ρ c (Proc.devRef .tc b) := by
  unfold W9; exact Pipeline.withArrays_of_ne spec0 c _ _ b hb
abbrev V9 : (c : Dev nD) → (b : Ref sig .tc) → Buf (Elt F) ((c : Thread nD τ).loc b) := fun c b => W9 m ρ c b
theorem hF0 (c : Dev nD) (w : Fin cfg0.W) : (dat0 (V8 m ρ) c).arrAt w cfg0.N = V9 m ρ c (Pipeline.arrRef spec0 w) :=
  (W9_arr m ρ c w).symm
theorem hrest0 (c : Dev nD) : ∀ b, b ∉ Finset.univ.image (Pipeline.arrRef spec0) → V9 m ρ c b = V8 m ρ c b :=
  fun b hb => W9_of_ne m ρ c b fun w e => hb (Finset.mem_image.mpr ⟨w, Finset.mem_univ _, e⟩)
/-- After `hostOps1`. -/
abbrev W10 : Dev nD → Valuation τ sig (Elt F) := fun c => StableHlo.after hostOps1 (W9 m ρ c)
abbrev V10 : (c : Dev nD) → (b : Ref sig .tc) → Buf (Elt F) ((c : Thread nD τ).loc b) := fun c b => W10 m ρ c b
/-- After `hostOps1_1`. -/
abbrev W11 : Dev nD → Valuation τ sig (Elt F) := fun c => StableHlo.after hostOps1_1 (W10 m ρ c)
abbrev V11 : (c : Dev nD) → (b : Ref sig .tc) → Buf (Elt F) ((c : Thread nD τ).loc b) := fun c b => W11 m ρ c b
/-- At region 1's exit: its arrays at what its write-backs leave, every other buffer as entered. -/
def W12 (c : Dev nD) : Valuation τ sig (Elt F) :=
  Pipeline.withArrays spec1 c (W11 m ρ c) fun w => (dat1 (V11 m ρ) c).arrAt w cfg1.N
theorem W12_arr (c : Dev nD) (w : Fin cfg1.W) :
    W12 m ρ c (Proc.devRef .tc (Pipeline.arrRef spec1 w)) = (dat1 (V11 m ρ) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m ρ c (Proc.devRef .tc b) = W11 m ρ c (Proc.devRef .tc b) := by
  unfold W12; exact Pipeline.withArrays_of_ne spec1 c _ _ b hb
abbrev V12 : (c : Dev nD) → (b : Ref sig .tc) → Buf (Elt F) ((c : Thread nD τ).loc b) := fun c b => W12 m ρ c b
theorem hF1 (c : Dev nD) (w : Fin cfg1.W) : (dat1 (V11 m ρ) c).arrAt w cfg1.N = V12 m ρ c (Pipeline.arrRef spec1 w) :=
  (W12_arr m ρ c w).symm
theorem hrest1 (c : Dev nD) : ∀ b, b ∉ Finset.univ.image (Pipeline.arrRef spec1) → V12 m ρ c b = V11 m ρ c b :=
  fun b hb => W12_of_ne m ρ c b fun w e => hb (Finset.mem_image.mpr ⟨w, Finset.mem_univ _, e⟩)
/-- At region 2's exit: its arrays at what its write-backs leave, every other buffer as entered. -/
def W13 (c : Dev nD) : Valuation τ sig (Elt F) :=
  Pipeline.withArrays spec2 c (W12 m ρ c) fun w => (dat2 (V12 m ρ) c).arrAt w cfg2.N
theorem W13_arr (c : Dev nD) (w : Fin cfg2.W) :
    W13 m ρ c (Proc.devRef .tc (Pipeline.arrRef spec2 w)) = (dat2 (V12 m ρ) c).arrAt w cfg2.N := by
  unfold W13; exact Pipeline.withArrays_arr spec2 launch2.win.arr_inj c _ _ w
theorem W13_of_ne (c : Dev nD) (b : Ref sig .tc) (hb : ∀ w, Pipeline.arrRef spec2 w ≠ b) :
    W13 m ρ c (Proc.devRef .tc b) = W12 m ρ c (Proc.devRef .tc b) := by
  unfold W13; exact Pipeline.withArrays_of_ne spec2 c _ _ b hb
abbrev V13 : (c : Dev nD) → (b : Ref sig .tc) → Buf (Elt F) ((c : Thread nD τ).loc b) := fun c b => W13 m ρ c b
theorem hF2 (c : Dev nD) (w : Fin cfg2.W) : (dat2 (V12 m ρ) c).arrAt w cfg2.N = V13 m ρ c (Pipeline.arrRef spec2 w) :=
  (W13_arr m ρ c w).symm
theorem hrest2 (c : Dev nD) : ∀ b, b ∉ Finset.univ.image (Pipeline.arrRef spec2) → V13 m ρ c b = V12 m ρ c b :=
  fun b hb => W13_of_ne m ρ c b fun w e => hb (Finset.mem_image.mpr ⟨w, Finset.mem_univ _, e⟩)
/-- After `hostOps3`. -/
abbrev W14 : Dev nD → Valuation τ sig (Elt F) := fun c => StableHlo.after hostOps3 (W13 m ρ c)
abbrev V14 : (c : Dev nD) → (b : Ref sig .tc) → Buf (Elt F) ((c : Thread nD τ).loc b) := fun c b => W14 m ρ c b
/-- At region 3's exit: its arrays at what its write-backs leave, every other buffer as entered. -/
def W15 (c : Dev nD) : Valuation τ sig (Elt F) :=
  Pipeline.withArrays spec3 c (W14 m ρ c) fun w => (dat3 (V14 m ρ) c).arrAt w cfg3.N
theorem W15_arr (c : Dev nD) (w : Fin cfg3.W) :
    W15 m ρ c (Proc.devRef .tc (Pipeline.arrRef spec3 w)) = (dat3 (V14 m ρ) c).arrAt w cfg3.N := by
  unfold W15; exact Pipeline.withArrays_arr spec3 launch3.win.arr_inj c _ _ w
theorem W15_of_ne (c : Dev nD) (b : Ref sig .tc) (hb : ∀ w, Pipeline.arrRef spec3 w ≠ b) :
    W15 m ρ c (Proc.devRef .tc b) = W14 m ρ c (Proc.devRef .tc b) := by
  unfold W15; exact Pipeline.withArrays_of_ne spec3 c _ _ b hb
abbrev V15 : (c : Dev nD) → (b : Ref sig .tc) → Buf (Elt F) ((c : Thread nD τ).loc b) := fun c b => W15 m ρ c b
theorem hF3 (c : Dev nD) (w : Fin cfg3.W) : (dat3 (V14 m ρ) c).arrAt w cfg3.N = V15 m ρ c (Pipeline.arrRef spec3 w) :=
  (W15_arr m ρ c w).symm
theorem hrest3 (c : Dev nD) : ∀ b, b ∉ Finset.univ.image (Pipeline.arrRef spec3) → V15 m ρ c b = V14 m ρ c b :=
  fun b hb => W15_of_ne m ρ c b fun w e => hb (Finset.mem_image.mpr ⟨w, Finset.mem_univ _, e⟩)
/-- After `hostOps4`. -/
abbrev W16 : Dev nD → Valuation τ sig (Elt F) := fun c => StableHlo.after hostOps4 (W15 m ρ c)
abbrev V16 : (c : Dev nD) → (b : Ref sig .tc) → Buf (Elt F) ((c : Thread nD τ).loc b) := fun c b => W16 m ρ c b
/-- After `hostOps4_1`. -/
abbrev W17 : Dev nD → Valuation τ sig (Elt F) := fun c => StableHlo.after hostOps4_1 (W16 m ρ c)
abbrev V17 : (c : Dev nD) → (b : Ref sig .tc) → Buf (Elt F) ((c : Thread nD τ).loc b) := fun c b => W17 m ρ c b
/-- At region 4's exit: its arrays at what its write-backs leave, every other buffer as entered. -/
def W18 (c : Dev nD) : Valuation τ sig (Elt F) :=
  Pipeline.withArrays spec4 c (W17 m ρ c) fun w => (dat4 (V17 m ρ) c).arrAt w cfg4.N
theorem W18_arr (c : Dev nD) (w : Fin cfg4.W) :
    W18 m ρ c (Proc.devRef .tc (Pipeline.arrRef spec4 w)) = (dat4 (V17 m ρ) c).arrAt w cfg4.N := by
  unfold W18; exact Pipeline.withArrays_arr spec4 launch4.win.arr_inj c _ _ w
theorem W18_of_ne (c : Dev nD) (b : Ref sig .tc) (hb : ∀ w, Pipeline.arrRef spec4 w ≠ b) :
    W18 m ρ c (Proc.devRef .tc b) = W17 m ρ c (Proc.devRef .tc b) := by
  unfold W18; exact Pipeline.withArrays_of_ne spec4 c _ _ b hb
abbrev V18 : (c : Dev nD) → (b : Ref sig .tc) → Buf (Elt F) ((c : Thread nD τ).loc b) := fun c b => W18 m ρ c b
theorem hF4 (c : Dev nD) (w : Fin cfg4.W) : (dat4 (V17 m ρ) c).arrAt w cfg4.N = V18 m ρ c (Pipeline.arrRef spec4 w) :=
  (W18_arr m ρ c w).symm
theorem hrest4 (c : Dev nD) : ∀ b, b ∉ Finset.univ.image (Pipeline.arrRef spec4) → V18 m ρ c b = V17 m ρ c b :=
  fun b hb => W18_of_ne m ρ c b fun w e => hb (Finset.mem_image.mpr ⟨w, Finset.mem_univ _, e⟩)
/-- At region 5's exit: its arrays at what its write-backs leave, every other buffer as entered. -/
def W19 (c : Dev nD) : Valuation τ sig (Elt F) :=
  Pipeline.withArrays spec5 c (W18 m ρ c) fun w => (dat5 (V18 m ρ) c).arrAt w cfg5.N
theorem W19_arr (c : Dev nD) (w : Fin cfg5.W) :
    W19 m ρ c (Proc.devRef .tc (Pipeline.arrRef spec5 w)) = (dat5 (V18 m ρ) c).arrAt w cfg5.N := by
  unfold W19; exact Pipeline.withArrays_arr spec5 launch5.win.arr_inj c _ _ w
theorem W19_of_ne (c : Dev nD) (b : Ref sig .tc) (hb : ∀ w, Pipeline.arrRef spec5 w ≠ b) :
    W19 m ρ c (Proc.devRef .tc b) = W18 m ρ c (Proc.devRef .tc b) := by
  unfold W19; exact Pipeline.withArrays_of_ne spec5 c _ _ b hb
abbrev V19 : (c : Dev nD) → (b : Ref sig .tc) → Buf (Elt F) ((c : Thread nD τ).loc b) := fun c b => W19 m ρ c b
theorem hF5 (c : Dev nD) (w : Fin cfg5.W) : (dat5 (V18 m ρ) c).arrAt w cfg5.N = V19 m ρ c (Pipeline.arrRef spec5 w) :=
  (W19_arr m ρ c w).symm
theorem hrest5 (c : Dev nD) : ∀ b, b ∉ Finset.univ.image (Pipeline.arrRef spec5) → V19 m ρ c b = V18 m ρ c b :=
  fun b hb => W19_of_ne m ρ c b fun w e => hb (Finset.mem_image.mpr ⟨w, Finset.mem_univ _, e⟩)
/-- After `hostOps6`. -/
abbrev W20 : Dev nD → Valuation τ sig (Elt F) := fun c => StableHlo.after hostOps6 (W19 m ρ c)
abbrev V20 : (c : Dev nD) → (b : Ref sig .tc) → Buf (Elt F) ((c : Thread nD τ).loc b) := fun c b => W20 m ρ c b

/-! ### The arguments end as launched -/
theorem keep0_main_arg0 (c : Dev nD) : W9 m ρ c (Proc.devRef .tc main_arg0) = W8 m ρ c (Proc.devRef .tc main_arg0) :=
  (W9_arr m ρ c 0).trans (((dat0 (V8 m ρ) c).arrAt_in 0 rfl _).trans (A_eq0 (V8 m ρ) c 0))
theorem keep0_main_arg1 (c : Dev nD) : W9 m ρ c (Proc.devRef .tc main_arg1) = W8 m ρ c (Proc.devRef .tc main_arg1) :=
  W9_of_ne m ρ c main_arg1 (by decide)
theorem keep0_main_arg2 (c : Dev nD) : W9 m ρ c (Proc.devRef .tc main_arg2) = W8 m ρ c (Proc.devRef .tc main_arg2) :=
  (W9_arr m ρ c 1).trans (((dat0 (V8 m ρ) c).arrAt_in 1 rfl _).trans (A_eq0 (V8 m ρ) c 1))
theorem keep0_main_arg3 (c : Dev nD) : W9 m ρ c (Proc.devRef .tc main_arg3) = W8 m ρ c (Proc.devRef .tc main_arg3) :=
  W9_of_ne m ρ c main_arg3 (by decide)
theorem keep0_main_arg4 (c : Dev nD) : W9 m ρ c (Proc.devRef .tc main_arg4) = W8 m ρ c (Proc.devRef .tc main_arg4) :=
  W9_of_ne m ρ c main_arg4 (by decide)
theorem keep0_main_arg5 (c : Dev nD) : W9 m ρ c (Proc.devRef .tc main_arg5) = W8 m ρ c (Proc.devRef .tc main_arg5) :=
  W9_of_ne m ρ c main_arg5 (by decide)
theorem keep1_main_arg0 (c : Dev nD) : W12 m ρ c (Proc.devRef .tc main_arg0) = W11 m ρ c (Proc.devRef .tc main_arg0) :=
  W12_of_ne m ρ c main_arg0 (by decide)
theorem keep1_main_arg1 (c : Dev nD) : W12 m ρ c (Proc.devRef .tc main_arg1) = W11 m ρ c (Proc.devRef .tc main_arg1) :=
  W12_of_ne m ρ c main_arg1 (by decide)
theorem keep1_main_arg2 (c : Dev nD) : W12 m ρ c (Proc.devRef .tc main_arg2) = W11 m ρ c (Proc.devRef .tc main_arg2) :=
  W12_of_ne m ρ c main_arg2 (by decide)
theorem keep1_main_arg3 (c : Dev nD) : W12 m ρ c (Proc.devRef .tc main_arg3) = W11 m ρ c (Proc.devRef .tc main_arg3) :=
  W12_of_ne m ρ c main_arg3 (by decide)
theorem keep1_main_arg4 (c : Dev nD) : W12 m ρ c (Proc.devRef .tc main_arg4) = W11 m ρ c (Proc.devRef .tc main_arg4) :=
  W12_of_ne m ρ c main_arg4 (by decide)
theorem keep1_main_arg5 (c : Dev nD) : W12 m ρ c (Proc.devRef .tc main_arg5) = W11 m ρ c (Proc.devRef .tc main_arg5) :=
  W12_of_ne m ρ c main_arg5 (by decide)
theorem keep2_main_arg0 (c : Dev nD) : W13 m ρ c (Proc.devRef .tc main_arg0) = W12 m ρ c (Proc.devRef .tc main_arg0) :=
  W13_of_ne m ρ c main_arg0 (by decide)
theorem keep2_main_arg1 (c : Dev nD) : W13 m ρ c (Proc.devRef .tc main_arg1) = W12 m ρ c (Proc.devRef .tc main_arg1) :=
  W13_of_ne m ρ c main_arg1 (by decide)
theorem keep2_main_arg2 (c : Dev nD) : W13 m ρ c (Proc.devRef .tc main_arg2) = W12 m ρ c (Proc.devRef .tc main_arg2) :=
  W13_of_ne m ρ c main_arg2 (by decide)
theorem keep2_main_arg3 (c : Dev nD) : W13 m ρ c (Proc.devRef .tc main_arg3) = W12 m ρ c (Proc.devRef .tc main_arg3) :=
  (W13_arr m ρ c 4).trans (((dat2 (V12 m ρ) c).arrAt_in 4 rfl _).trans (A_eq2 (V12 m ρ) c 4))
theorem keep2_main_arg4 (c : Dev nD) : W13 m ρ c (Proc.devRef .tc main_arg4) = W12 m ρ c (Proc.devRef .tc main_arg4) :=
  W13_of_ne m ρ c main_arg4 (by decide)
theorem keep2_main_arg5 (c : Dev nD) : W13 m ρ c (Proc.devRef .tc main_arg5) = W12 m ρ c (Proc.devRef .tc main_arg5) :=
  W13_of_ne m ρ c main_arg5 (by decide)
theorem keep3_main_arg0 (c : Dev nD) : W15 m ρ c (Proc.devRef .tc main_arg0) = W14 m ρ c (Proc.devRef .tc main_arg0) :=
  W15_of_ne m ρ c main_arg0 (by decide)
theorem keep3_main_arg1 (c : Dev nD) : W15 m ρ c (Proc.devRef .tc main_arg1) = W14 m ρ c (Proc.devRef .tc main_arg1) :=
  W15_of_ne m ρ c main_arg1 (by decide)
theorem keep3_main_arg2 (c : Dev nD) : W15 m ρ c (Proc.devRef .tc main_arg2) = W14 m ρ c (Proc.devRef .tc main_arg2) :=
  W15_of_ne m ρ c main_arg2 (by decide)
theorem keep3_main_arg3 (c : Dev nD) : W15 m ρ c (Proc.devRef .tc main_arg3) = W14 m ρ c (Proc.devRef .tc main_arg3) :=
  W15_of_ne m ρ c main_arg3 (by decide)
theorem keep3_main_arg4 (c : Dev nD) : W15 m ρ c (Proc.devRef .tc main_arg4) = W14 m ρ c (Proc.devRef .tc main_arg4) :=
  (W15_arr m ρ c 1).trans (((dat3 (V14 m ρ) c).arrAt_in 1 rfl _).trans (A_eq3 (V14 m ρ) c 1))
theorem keep3_main_arg5 (c : Dev nD) : W15 m ρ c (Proc.devRef .tc main_arg5) = W14 m ρ c (Proc.devRef .tc main_arg5) :=
  W15_of_ne m ρ c main_arg5 (by decide)
theorem keep4_main_arg0 (c : Dev nD) : W18 m ρ c (Proc.devRef .tc main_arg0) = W17 m ρ c (Proc.devRef .tc main_arg0) :=
  W18_of_ne m ρ c main_arg0 (by decide)
theorem keep4_main_arg1 (c : Dev nD) : W18 m ρ c (Proc.devRef .tc main_arg1) = W17 m ρ c (Proc.devRef .tc main_arg1) :=
  W18_of_ne m ρ c main_arg1 (by decide)
theorem keep4_main_arg2 (c : Dev nD) : W18 m ρ c (Proc.devRef .tc main_arg2) = W17 m ρ c (Proc.devRef .tc main_arg2) :=
  W18_of_ne m ρ c main_arg2 (by decide)
theorem keep4_main_arg3 (c : Dev nD) : W18 m ρ c (Proc.devRef .tc main_arg3) = W17 m ρ c (Proc.devRef .tc main_arg3) :=
  W18_of_ne m ρ c main_arg3 (by decide)
theorem keep4_main_arg4 (c : Dev nD) : W18 m ρ c (Proc.devRef .tc main_arg4) = W17 m ρ c (Proc.devRef .tc main_arg4) :=
  W18_of_ne m ρ c main_arg4 (by decide)
theorem keep4_main_arg5 (c : Dev nD) : W18 m ρ c (Proc.devRef .tc main_arg5) = W17 m ρ c (Proc.devRef .tc main_arg5) :=
  W18_of_ne m ρ c main_arg5 (by decide)
theorem keep5_main_arg0 (c : Dev nD) : W19 m ρ c (Proc.devRef .tc main_arg0) = W18 m ρ c (Proc.devRef .tc main_arg0) :=
  W19_of_ne m ρ c main_arg0 (by decide)
theorem keep5_main_arg1 (c : Dev nD) : W19 m ρ c (Proc.devRef .tc main_arg1) = W18 m ρ c (Proc.devRef .tc main_arg1) :=
  W19_of_ne m ρ c main_arg1 (by decide)
theorem keep5_main_arg2 (c : Dev nD) : W19 m ρ c (Proc.devRef .tc main_arg2) = W18 m ρ c (Proc.devRef .tc main_arg2) :=
  W19_of_ne m ρ c main_arg2 (by decide)
theorem keep5_main_arg3 (c : Dev nD) : W19 m ρ c (Proc.devRef .tc main_arg3) = W18 m ρ c (Proc.devRef .tc main_arg3) :=
  W19_of_ne m ρ c main_arg3 (by decide)
theorem keep5_main_arg4 (c : Dev nD) : W19 m ρ c (Proc.devRef .tc main_arg4) = W18 m ρ c (Proc.devRef .tc main_arg4) :=
  W19_of_ne m ρ c main_arg4 (by decide)
theorem keep5_main_arg5 (c : Dev nD) : W19 m ρ c (Proc.devRef .tc main_arg5) = W18 m ρ c (Proc.devRef .tc main_arg5) :=
  (W19_arr m ρ c 4).trans (((dat5 (V18 m ρ) c).arrAt_in 4 rfl _).trans (A_eq5 (V18 m ρ) c 4))
/-- `main_arg0` reaches the end as launched: no host operation writes it and every region either reads it through an
    input window or bypasses it. -/
theorem W20_main_arg0 (c : Dev nD) : W20 m ρ c (Proc.devRef .tc main_arg0) = m ((c : Thread nD τ).loc main_arg0) :=
  calc W20 m ρ c (Proc.devRef .tc main_arg0)
    _ = W19 m ρ c (Proc.devRef .tc main_arg0) := StableHlo.after_of_writes_sub hostOps6 _ hostOps6_writes (show main_arg0 ∉ hostOps6_W from by decide)
    _ = W18 m ρ c (Proc.devRef .tc main_arg0) := keep5_main_arg0 m ρ c
    _ = W17 m ρ c (Proc.devRef .tc main_arg0) := keep4_main_arg0 m ρ c
    _ = W16 m ρ c (Proc.devRef .tc main_arg0) := StableHlo.after_of_writes_sub hostOps4_1 _ hostOps4_1_writes (show main_arg0 ∉ hostOps4_1_W from by decide)
    _ = W15 m ρ c (Proc.devRef .tc main_arg0) := StableHlo.after_of_writes_sub hostOps4 _ hostOps4_writes (show main_arg0 ∉ hostOps4_W from by decide)
    _ = W14 m ρ c (Proc.devRef .tc main_arg0) := keep3_main_arg0 m ρ c
    _ = W13 m ρ c (Proc.devRef .tc main_arg0) := StableHlo.after_of_writes_sub hostOps3 _ hostOps3_writes (show main_arg0 ∉ hostOps3_W from by decide)
    _ = W12 m ρ c (Proc.devRef .tc main_arg0) := keep2_main_arg0 m ρ c
    _ = W11 m ρ c (Proc.devRef .tc main_arg0) := keep1_main_arg0 m ρ c
    _ = W10 m ρ c (Proc.devRef .tc main_arg0) := StableHlo.after_of_writes_sub hostOps1_1 _ hostOps1_1_writes (show main_arg0 ∉ hostOps1_1_W from by decide)
    _ = W9 m ρ c (Proc.devRef .tc main_arg0) := StableHlo.after_of_writes_sub hostOps1 _ hostOps1_writes (show main_arg0 ∉ hostOps1_W from by decide)
    _ = W8 m ρ c (Proc.devRef .tc main_arg0) := keep0_main_arg0 m ρ c
    _ = W7 m ρ c (Proc.devRef .tc main_arg0) := StableHlo.after_of_writes_sub hostOps0_7 _ hostOps0_7_writes (show main_arg0 ∉ hostOps0_7_W from by decide)
    _ = W6 m ρ c (Proc.devRef .tc main_arg0) := StableHlo.after_of_writes_sub hostOps0_6 _ hostOps0_6_writes (show main_arg0 ∉ hostOps0_6_W from by decide)
    _ = W5 m ρ c (Proc.devRef .tc main_arg0) := StableHlo.after_of_writes_sub hostOps0_5 _ hostOps0_5_writes (show main_arg0 ∉ hostOps0_5_W from by decide)
    _ = W4 m ρ c (Proc.devRef .tc main_arg0) := StableHlo.after_of_writes_sub hostOps0_4 _ hostOps0_4_writes (show main_arg0 ∉ hostOps0_4_W from by decide)
    _ = W3 m ρ c (Proc.devRef .tc main_arg0) := StableHlo.after_of_writes_sub hostOps0_3 _ hostOps0_3_writes (show main_arg0 ∉ hostOps0_3_W from by decide)
    _ = W2 m ρ c (Proc.devRef .tc main_arg0) := StableHlo.after_of_writes_sub hostOps0_2 _ hostOps0_2_writes (show main_arg0 ∉ hostOps0_2_W from by decide)
    _ = W1 m ρ c (Proc.devRef .tc main_arg0) := StableHlo.after_of_writes_sub hostOps0_1 _ hostOps0_1_writes (show main_arg0 ∉ hostOps0_1_W from by decide)
    _ = W0 m ρ c (Proc.devRef .tc main_arg0) := StableHlo.after_of_writes_sub hostOps0 _ hostOps0_writes (show main_arg0 ∉ hostOps0_W from by decide)
    _ = m ((c : Thread nD τ).loc main_arg0) := rfl
/-- `main_arg1` reaches the end as launched: no host operation writes it and every region either reads it through an
    input window or bypasses it. -/
theorem W20_main_arg1 (c : Dev nD) : W20 m ρ c (Proc.devRef .tc main_arg1) = m ((c : Thread nD τ).loc main_arg1) :=
  calc W20 m ρ c (Proc.devRef .tc main_arg1)
    _ = W19 m ρ c (Proc.devRef .tc main_arg1) := StableHlo.after_of_writes_sub hostOps6 _ hostOps6_writes (show main_arg1 ∉ hostOps6_W from by decide)
    _ = W18 m ρ c (Proc.devRef .tc main_arg1) := keep5_main_arg1 m ρ c
    _ = W17 m ρ c (Proc.devRef .tc main_arg1) := keep4_main_arg1 m ρ c
    _ = W16 m ρ c (Proc.devRef .tc main_arg1) := StableHlo.after_of_writes_sub hostOps4_1 _ hostOps4_1_writes (show main_arg1 ∉ hostOps4_1_W from by decide)
    _ = W15 m ρ c (Proc.devRef .tc main_arg1) := StableHlo.after_of_writes_sub hostOps4 _ hostOps4_writes (show main_arg1 ∉ hostOps4_W from by decide)
    _ = W14 m ρ c (Proc.devRef .tc main_arg1) := keep3_main_arg1 m ρ c
    _ = W13 m ρ c (Proc.devRef .tc main_arg1) := StableHlo.after_of_writes_sub hostOps3 _ hostOps3_writes (show main_arg1 ∉ hostOps3_W from by decide)
    _ = W12 m ρ c (Proc.devRef .tc main_arg1) := keep2_main_arg1 m ρ c
    _ = W11 m ρ c (Proc.devRef .tc main_arg1) := keep1_main_arg1 m ρ c
    _ = W10 m ρ c (Proc.devRef .tc main_arg1) := StableHlo.after_of_writes_sub hostOps1_1 _ hostOps1_1_writes (show main_arg1 ∉ hostOps1_1_W from by decide)
    _ = W9 m ρ c (Proc.devRef .tc main_arg1) := StableHlo.after_of_writes_sub hostOps1 _ hostOps1_writes (show main_arg1 ∉ hostOps1_W from by decide)
    _ = W8 m ρ c (Proc.devRef .tc main_arg1) := keep0_main_arg1 m ρ c
    _ = W7 m ρ c (Proc.devRef .tc main_arg1) := StableHlo.after_of_writes_sub hostOps0_7 _ hostOps0_7_writes (show main_arg1 ∉ hostOps0_7_W from by decide)
    _ = W6 m ρ c (Proc.devRef .tc main_arg1) := StableHlo.after_of_writes_sub hostOps0_6 _ hostOps0_6_writes (show main_arg1 ∉ hostOps0_6_W from by decide)
    _ = W5 m ρ c (Proc.devRef .tc main_arg1) := StableHlo.after_of_writes_sub hostOps0_5 _ hostOps0_5_writes (show main_arg1 ∉ hostOps0_5_W from by decide)
    _ = W4 m ρ c (Proc.devRef .tc main_arg1) := StableHlo.after_of_writes_sub hostOps0_4 _ hostOps0_4_writes (show main_arg1 ∉ hostOps0_4_W from by decide)
    _ = W3 m ρ c (Proc.devRef .tc main_arg1) := StableHlo.after_of_writes_sub hostOps0_3 _ hostOps0_3_writes (show main_arg1 ∉ hostOps0_3_W from by decide)
    _ = W2 m ρ c (Proc.devRef .tc main_arg1) := StableHlo.after_of_writes_sub hostOps0_2 _ hostOps0_2_writes (show main_arg1 ∉ hostOps0_2_W from by decide)
    _ = W1 m ρ c (Proc.devRef .tc main_arg1) := StableHlo.after_of_writes_sub hostOps0_1 _ hostOps0_1_writes (show main_arg1 ∉ hostOps0_1_W from by decide)
    _ = W0 m ρ c (Proc.devRef .tc main_arg1) := StableHlo.after_of_writes_sub hostOps0 _ hostOps0_writes (show main_arg1 ∉ hostOps0_W from by decide)
    _ = m ((c : Thread nD τ).loc main_arg1) := rfl
/-- `main_arg2` reaches the end as launched: no host operation writes it and every region either reads it through an
    input window or bypasses it. -/
theorem W20_main_arg2 (c : Dev nD) : W20 m ρ c (Proc.devRef .tc main_arg2) = m ((c : Thread nD τ).loc main_arg2) :=
  calc W20 m ρ c (Proc.devRef .tc main_arg2)
    _ = W19 m ρ c (Proc.devRef .tc main_arg2) := StableHlo.after_of_writes_sub hostOps6 _ hostOps6_writes (show main_arg2 ∉ hostOps6_W from by decide)
    _ = W18 m ρ c (Proc.devRef .tc main_arg2) := keep5_main_arg2 m ρ c
    _ = W17 m ρ c (Proc.devRef .tc main_arg2) := keep4_main_arg2 m ρ c
    _ = W16 m ρ c (Proc.devRef .tc main_arg2) := StableHlo.after_of_writes_sub hostOps4_1 _ hostOps4_1_writes (show main_arg2 ∉ hostOps4_1_W from by decide)
    _ = W15 m ρ c (Proc.devRef .tc main_arg2) := StableHlo.after_of_writes_sub hostOps4 _ hostOps4_writes (show main_arg2 ∉ hostOps4_W from by decide)
    _ = W14 m ρ c (Proc.devRef .tc main_arg2) := keep3_main_arg2 m ρ c
    _ = W13 m ρ c (Proc.devRef .tc main_arg2) := StableHlo.after_of_writes_sub hostOps3 _ hostOps3_writes (show main_arg2 ∉ hostOps3_W from by decide)
    _ = W12 m ρ c (Proc.devRef .tc main_arg2) := keep2_main_arg2 m ρ c
    _ = W11 m ρ c (Proc.devRef .tc main_arg2) := keep1_main_arg2 m ρ c
    _ = W10 m ρ c (Proc.devRef .tc main_arg2) := StableHlo.after_of_writes_sub hostOps1_1 _ hostOps1_1_writes (show main_arg2 ∉ hostOps1_1_W from by decide)
    _ = W9 m ρ c (Proc.devRef .tc main_arg2) := StableHlo.after_of_writes_sub hostOps1 _ hostOps1_writes (show main_arg2 ∉ hostOps1_W from by decide)
    _ = W8 m ρ c (Proc.devRef .tc main_arg2) := keep0_main_arg2 m ρ c
    _ = W7 m ρ c (Proc.devRef .tc main_arg2) := StableHlo.after_of_writes_sub hostOps0_7 _ hostOps0_7_writes (show main_arg2 ∉ hostOps0_7_W from by decide)
    _ = W6 m ρ c (Proc.devRef .tc main_arg2) := StableHlo.after_of_writes_sub hostOps0_6 _ hostOps0_6_writes (show main_arg2 ∉ hostOps0_6_W from by decide)
    _ = W5 m ρ c (Proc.devRef .tc main_arg2) := StableHlo.after_of_writes_sub hostOps0_5 _ hostOps0_5_writes (show main_arg2 ∉ hostOps0_5_W from by decide)
    _ = W4 m ρ c (Proc.devRef .tc main_arg2) := StableHlo.after_of_writes_sub hostOps0_4 _ hostOps0_4_writes (show main_arg2 ∉ hostOps0_4_W from by decide)
    _ = W3 m ρ c (Proc.devRef .tc main_arg2) := StableHlo.after_of_writes_sub hostOps0_3 _ hostOps0_3_writes (show main_arg2 ∉ hostOps0_3_W from by decide)
    _ = W2 m ρ c (Proc.devRef .tc main_arg2) := StableHlo.after_of_writes_sub hostOps0_2 _ hostOps0_2_writes (show main_arg2 ∉ hostOps0_2_W from by decide)
    _ = W1 m ρ c (Proc.devRef .tc main_arg2) := StableHlo.after_of_writes_sub hostOps0_1 _ hostOps0_1_writes (show main_arg2 ∉ hostOps0_1_W from by decide)
    _ = W0 m ρ c (Proc.devRef .tc main_arg2) := StableHlo.after_of_writes_sub hostOps0 _ hostOps0_writes (show main_arg2 ∉ hostOps0_W from by decide)
    _ = m ((c : Thread nD τ).loc main_arg2) := rfl
/-- `main_arg3` reaches the end as launched: no host operation writes it and every region either reads it through an
    input window or bypasses it. -/
theorem W20_main_arg3 (c : Dev nD) : W20 m ρ c (Proc.devRef .tc main_arg3) = m ((c : Thread nD τ).loc main_arg3) :=
  calc W20 m ρ c (Proc.devRef .tc main_arg3)
    _ = W19 m ρ c (Proc.devRef .tc main_arg3) := StableHlo.after_of_writes_sub hostOps6 _ hostOps6_writes (show main_arg3 ∉ hostOps6_W from by decide)
    _ = W18 m ρ c (Proc.devRef .tc main_arg3) := keep5_main_arg3 m ρ c
    _ = W17 m ρ c (Proc.devRef .tc main_arg3) := keep4_main_arg3 m ρ c
    _ = W16 m ρ c (Proc.devRef .tc main_arg3) := StableHlo.after_of_writes_sub hostOps4_1 _ hostOps4_1_writes (show main_arg3 ∉ hostOps4_1_W from by decide)
    _ = W15 m ρ c (Proc.devRef .tc main_arg3) := StableHlo.after_of_writes_sub hostOps4 _ hostOps4_writes (show main_arg3 ∉ hostOps4_W from by decide)
    _ = W14 m ρ c (Proc.devRef .tc main_arg3) := keep3_main_arg3 m ρ c
    _ = W13 m ρ c (Proc.devRef .tc main_arg3) := StableHlo.after_of_writes_sub hostOps3 _ hostOps3_writes (show main_arg3 ∉ hostOps3_W from by decide)
    _ = W12 m ρ c (Proc.devRef .tc main_arg3) := keep2_main_arg3 m ρ c
    _ = W11 m ρ c (Proc.devRef .tc main_arg3) := keep1_main_arg3 m ρ c
    _ = W10 m ρ c (Proc.devRef .tc main_arg3) := StableHlo.after_of_writes_sub hostOps1_1 _ hostOps1_1_writes (show main_arg3 ∉ hostOps1_1_W from by decide)
    _ = W9 m ρ c (Proc.devRef .tc main_arg3) := StableHlo.after_of_writes_sub hostOps1 _ hostOps1_writes (show main_arg3 ∉ hostOps1_W from by decide)
    _ = W8 m ρ c (Proc.devRef .tc main_arg3) := keep0_main_arg3 m ρ c
    _ = W7 m ρ c (Proc.devRef .tc main_arg3) := StableHlo.after_of_writes_sub hostOps0_7 _ hostOps0_7_writes (show main_arg3 ∉ hostOps0_7_W from by decide)
    _ = W6 m ρ c (Proc.devRef .tc main_arg3) := StableHlo.after_of_writes_sub hostOps0_6 _ hostOps0_6_writes (show main_arg3 ∉ hostOps0_6_W from by decide)
    _ = W5 m ρ c (Proc.devRef .tc main_arg3) := StableHlo.after_of_writes_sub hostOps0_5 _ hostOps0_5_writes (show main_arg3 ∉ hostOps0_5_W from by decide)
    _ = W4 m ρ c (Proc.devRef .tc main_arg3) := StableHlo.after_of_writes_sub hostOps0_4 _ hostOps0_4_writes (show main_arg3 ∉ hostOps0_4_W from by decide)
    _ = W3 m ρ c (Proc.devRef .tc main_arg3) := StableHlo.after_of_writes_sub hostOps0_3 _ hostOps0_3_writes (show main_arg3 ∉ hostOps0_3_W from by decide)
    _ = W2 m ρ c (Proc.devRef .tc main_arg3) := StableHlo.after_of_writes_sub hostOps0_2 _ hostOps0_2_writes (show main_arg3 ∉ hostOps0_2_W from by decide)
    _ = W1 m ρ c (Proc.devRef .tc main_arg3) := StableHlo.after_of_writes_sub hostOps0_1 _ hostOps0_1_writes (show main_arg3 ∉ hostOps0_1_W from by decide)
    _ = W0 m ρ c (Proc.devRef .tc main_arg3) := StableHlo.after_of_writes_sub hostOps0 _ hostOps0_writes (show main_arg3 ∉ hostOps0_W from by decide)
    _ = m ((c : Thread nD τ).loc main_arg3) := rfl
/-- `main_arg4` reaches the end as launched: no host operation writes it and every region either reads it through an
    input window or bypasses it. -/
theorem W20_main_arg4 (c : Dev nD) : W20 m ρ c (Proc.devRef .tc main_arg4) = m ((c : Thread nD τ).loc main_arg4) :=
  calc W20 m ρ c (Proc.devRef .tc main_arg4)
    _ = W19 m ρ c (Proc.devRef .tc main_arg4) := StableHlo.after_of_writes_sub hostOps6 _ hostOps6_writes (show main_arg4 ∉ hostOps6_W from by decide)
    _ = W18 m ρ c (Proc.devRef .tc main_arg4) := keep5_main_arg4 m ρ c
    _ = W17 m ρ c (Proc.devRef .tc main_arg4) := keep4_main_arg4 m ρ c
    _ = W16 m ρ c (Proc.devRef .tc main_arg4) := StableHlo.after_of_writes_sub hostOps4_1 _ hostOps4_1_writes (show main_arg4 ∉ hostOps4_1_W from by decide)
    _ = W15 m ρ c (Proc.devRef .tc main_arg4) := StableHlo.after_of_writes_sub hostOps4 _ hostOps4_writes (show main_arg4 ∉ hostOps4_W from by decide)
    _ = W14 m ρ c (Proc.devRef .tc main_arg4) := keep3_main_arg4 m ρ c
    _ = W13 m ρ c (Proc.devRef .tc main_arg4) := StableHlo.after_of_writes_sub hostOps3 _ hostOps3_writes (show main_arg4 ∉ hostOps3_W from by decide)
    _ = W12 m ρ c (Proc.devRef .tc main_arg4) := keep2_main_arg4 m ρ c
    _ = W11 m ρ c (Proc.devRef .tc main_arg4) := keep1_main_arg4 m ρ c
    _ = W10 m ρ c (Proc.devRef .tc main_arg4) := StableHlo.after_of_writes_sub hostOps1_1 _ hostOps1_1_writes (show main_arg4 ∉ hostOps1_1_W from by decide)
    _ = W9 m ρ c (Proc.devRef .tc main_arg4) := StableHlo.after_of_writes_sub hostOps1 _ hostOps1_writes (show main_arg4 ∉ hostOps1_W from by decide)
    _ = W8 m ρ c (Proc.devRef .tc main_arg4) := keep0_main_arg4 m ρ c
    _ = W7 m ρ c (Proc.devRef .tc main_arg4) := StableHlo.after_of_writes_sub hostOps0_7 _ hostOps0_7_writes (show main_arg4 ∉ hostOps0_7_W from by decide)
    _ = W6 m ρ c (Proc.devRef .tc main_arg4) := StableHlo.after_of_writes_sub hostOps0_6 _ hostOps0_6_writes (show main_arg4 ∉ hostOps0_6_W from by decide)
    _ = W5 m ρ c (Proc.devRef .tc main_arg4) := StableHlo.after_of_writes_sub hostOps0_5 _ hostOps0_5_writes (show main_arg4 ∉ hostOps0_5_W from by decide)
    _ = W4 m ρ c (Proc.devRef .tc main_arg4) := StableHlo.after_of_writes_sub hostOps0_4 _ hostOps0_4_writes (show main_arg4 ∉ hostOps0_4_W from by decide)
    _ = W3 m ρ c (Proc.devRef .tc main_arg4) := StableHlo.after_of_writes_sub hostOps0_3 _ hostOps0_3_writes (show main_arg4 ∉ hostOps0_3_W from by decide)
    _ = W2 m ρ c (Proc.devRef .tc main_arg4) := StableHlo.after_of_writes_sub hostOps0_2 _ hostOps0_2_writes (show main_arg4 ∉ hostOps0_2_W from by decide)
    _ = W1 m ρ c (Proc.devRef .tc main_arg4) := StableHlo.after_of_writes_sub hostOps0_1 _ hostOps0_1_writes (show main_arg4 ∉ hostOps0_1_W from by decide)
    _ = W0 m ρ c (Proc.devRef .tc main_arg4) := StableHlo.after_of_writes_sub hostOps0 _ hostOps0_writes (show main_arg4 ∉ hostOps0_W from by decide)
    _ = m ((c : Thread nD τ).loc main_arg4) := rfl
/-- `main_arg5` reaches the end as launched: no host operation writes it and every region either reads it through an
    input window or bypasses it. -/
theorem W20_main_arg5 (c : Dev nD) : W20 m ρ c (Proc.devRef .tc main_arg5) = m ((c : Thread nD τ).loc main_arg5) :=
  calc W20 m ρ c (Proc.devRef .tc main_arg5)
    _ = W19 m ρ c (Proc.devRef .tc main_arg5) := StableHlo.after_of_writes_sub hostOps6 _ hostOps6_writes (show main_arg5 ∉ hostOps6_W from by decide)
    _ = W18 m ρ c (Proc.devRef .tc main_arg5) := keep5_main_arg5 m ρ c
    _ = W17 m ρ c (Proc.devRef .tc main_arg5) := keep4_main_arg5 m ρ c
    _ = W16 m ρ c (Proc.devRef .tc main_arg5) := StableHlo.after_of_writes_sub hostOps4_1 _ hostOps4_1_writes (show main_arg5 ∉ hostOps4_1_W from by decide)
    _ = W15 m ρ c (Proc.devRef .tc main_arg5) := StableHlo.after_of_writes_sub hostOps4 _ hostOps4_writes (show main_arg5 ∉ hostOps4_W from by decide)
    _ = W14 m ρ c (Proc.devRef .tc main_arg5) := keep3_main_arg5 m ρ c
    _ = W13 m ρ c (Proc.devRef .tc main_arg5) := StableHlo.after_of_writes_sub hostOps3 _ hostOps3_writes (show main_arg5 ∉ hostOps3_W from by decide)
    _ = W12 m ρ c (Proc.devRef .tc main_arg5) := keep2_main_arg5 m ρ c
    _ = W11 m ρ c (Proc.devRef .tc main_arg5) := keep1_main_arg5 m ρ c
    _ = W10 m ρ c (Proc.devRef .tc main_arg5) := StableHlo.after_of_writes_sub hostOps1_1 _ hostOps1_1_writes (show main_arg5 ∉ hostOps1_1_W from by decide)
    _ = W9 m ρ c (Proc.devRef .tc main_arg5) := StableHlo.after_of_writes_sub hostOps1 _ hostOps1_writes (show main_arg5 ∉ hostOps1_W from by decide)
    _ = W8 m ρ c (Proc.devRef .tc main_arg5) := keep0_main_arg5 m ρ c
    _ = W7 m ρ c (Proc.devRef .tc main_arg5) := StableHlo.after_of_writes_sub hostOps0_7 _ hostOps0_7_writes (show main_arg5 ∉ hostOps0_7_W from by decide)
    _ = W6 m ρ c (Proc.devRef .tc main_arg5) := StableHlo.after_of_writes_sub hostOps0_6 _ hostOps0_6_writes (show main_arg5 ∉ hostOps0_6_W from by decide)
    _ = W5 m ρ c (Proc.devRef .tc main_arg5) := StableHlo.after_of_writes_sub hostOps0_5 _ hostOps0_5_writes (show main_arg5 ∉ hostOps0_5_W from by decide)
    _ = W4 m ρ c (Proc.devRef .tc main_arg5) := StableHlo.after_of_writes_sub hostOps0_4 _ hostOps0_4_writes (show main_arg5 ∉ hostOps0_4_W from by decide)
    _ = W3 m ρ c (Proc.devRef .tc main_arg5) := StableHlo.after_of_writes_sub hostOps0_3 _ hostOps0_3_writes (show main_arg5 ∉ hostOps0_3_W from by decide)
    _ = W2 m ρ c (Proc.devRef .tc main_arg5) := StableHlo.after_of_writes_sub hostOps0_2 _ hostOps0_2_writes (show main_arg5 ∉ hostOps0_2_W from by decide)
    _ = W1 m ρ c (Proc.devRef .tc main_arg5) := StableHlo.after_of_writes_sub hostOps0_1 _ hostOps0_1_writes (show main_arg5 ∉ hostOps0_1_W from by decide)
    _ = W0 m ρ c (Proc.devRef .tc main_arg5) := StableHlo.after_of_writes_sub hostOps0 _ hostOps0_writes (show main_arg5 ∉ hostOps0_W from by decide)
    _ = m ((c : Thread nD τ).loc main_arg5) := rfl

/-! ## The proof data family and the thread state -/

abbrev adm : (p : Fin 6) → (pcfgs (F := F) p).Adm := fun p => (cfgs p).toPCfg_adm
/-- Every region's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (V8 m ρ) c
  | ⟨1, _⟩ => fun c => dat1 (V11 m ρ) c
  | ⟨2, _⟩ => fun c => dat2 (V12 m ρ) c
  | ⟨3, _⟩ => fun c => dat3 (V14 m ρ) c
  | ⟨4, _⟩ => fun c => dat4 (V17 m ρ) c
  | ⟨5, _⟩ => fun c => dat5 (V18 m ρ) c
  | ⟨_ + 6, h⟩ => absurd h (Nat.not_lt.2 (Nat.le_add_left _ _))
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at `W8`, left at `W9`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V8 m ρ) c).loose
  hwaits := Pipeline.hwaits_of_owed_zero _ _ _ _ L lv 0 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec0 c (V8 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V8 m ρ c) (V9 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W11`, left at `W12`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V11 m ρ) c).loose
  hwaits := Pipeline.hwaits_of_owed_zero _ _ _ _ L lv 1 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec1 c (V11 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (V11 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V11 m ρ c) (V12 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W12`, left at `W13`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V12 m ρ) c).loose
  hwaits := Pipeline.hwaits_of_owed_zero _ _ _ _ L lv 2 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec2 c (V12 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (hout2 (V12 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V12 m ρ c) (V13 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W14`, left at `W15`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V14 m ρ) c).loose
  hwaits := Pipeline.hwaits_of_owed_zero _ _ _ _ L lv 3 fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := UR sig nD τ) (Lvl := ℕ) spec3 c (V14 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V14 m ρ c) (V15 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W17`, left at `W18`. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V17 m ρ) c).loose
  hwaits := Pipeline.hwaits_of_owed_zero _ _ _ _ L lv 4 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec4 c (V17 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none]
    refine (hout4 (V17 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V17 m ρ c) (V18 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W18`, left at `W19`. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V18 m ρ) c).loose
  hwaits := Pipeline.hwaits_of_owed_zero _ _ _ _ L lv 5 fun _ _ => rfl
  pre c := iprop(StableHlo.held (c : Thread nD τ) (Pipeline.ucRefs τ sig) (W18 m ρ c) ∗ R c)
  post c := iprop(StableHlo.held (c : Thread nD τ) (Pipeline.ucRefs τ sig) (W19 m ρ c) ∗ R c)
  X c := iprop(∃ r, prngReg c r)
  Y c := iprop(∃ r, prngReg c r)
  Z c := Pipeline.unscopedRest (Ix := Unit) (Name := ℕ) (U := UR sig nD τ) (Lvl := ℕ) spec5 c (V18 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V18 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none]
    refine (hout5 (V18 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V18 m ρ c) (V19 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .region (reg0 m ρ),
    .host (hseg hostOps1 hostOps1_sub hostOps1_fresh (W9 m ρ)),
    .host (hseg hostOps1_1 hostOps1_1_sub hostOps1_1_fresh (W10 m ρ)),
    .region (reg1 m ρ),
    .region (reg2 m ρ),
    .host (hseg hostOps3 hostOps3_sub hostOps3_fresh (W13 m ρ)),
    .region (reg3 m ρ),
    .host (hseg hostOps4 hostOps4_sub hostOps4_fresh (W15 m ρ)),
    .host (hseg hostOps4_1 hostOps4_1_sub hostOps4_1_fresh (W16 m ρ)),
    .region (reg4 m ρ),
    .region (reg5 m ρ),
    .host (hseg hostOps6 hostOps6_sub hostOps6_fresh (W19 m ρ)) ]

theorem main_run (c : Dev nD) : main (F := F) c = Pipeline.Seg.run (segs m ρ) := (main_chain c).trans (by chain_rfl)

set_option backward.isDefEq.respectTransparency.types false in
/-- THE RUN: from any memory with zero counters, every weakly fair execution of @main terminates, nothing faulting,
    and in every final state each unscoped buffer of each core holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W20 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W20 m ρ c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W20 m ρ c) ∗ R c)
        ⊢ iprop(iprop(StableHlo.held (c : Thread nD τ) (Pipeline.ucRefs τ sig) (W20 m ρ c) ∗ ∃ r, prngReg c r)
            ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
    (h c _ (mem_uc main_arg0 (by decide))).trans (W20_main_arg0 m ρ c),
    (h c _ (mem_uc main_arg1 (by decide))).trans (W20_main_arg1 m ρ c),
    (h c _ (mem_uc main_arg2 (by decide))).trans (W20_main_arg2 m ρ c),
    (h c _ (mem_uc main_arg3 (by decide))).trans (W20_main_arg3 m ρ c),
    (h c _ (mem_uc main_arg4 (by decide))).trans (W20_main_arg4 m ρ c),
    (h c _ (mem_uc main_arg5 (by decide))).trans (W20_main_arg5 m ρ c)⟩) (run_main m ρ)

end Cert.Kernel.Hand

end
-- ==== Proof.KI.Linear.lean ====
/-
  The two dense maps of the network (regions 0 and 3 of the program): each grid point takes one block of 2000 rows of
  the node features and the whole weight matrix into fast memory, multiplies them, and writes the block of the
  product back.  Stated for any contents `V` of the buffers at the region's entry: what each window's staging buffer
  holds after the body at every point, the body's triple, and the per-point obligation the launch asks for.
-/
import proofs.«138531_j42417097015621_1_alg».proof.Proof.Gen.KernelIdeal.Launch
import proofs.«138531_j42417097015621_1_alg».proof.Proof.Gen.KernelIdeal.Skeleton
import Idealize.ShloMosaic.Lib.Pipeline.Kit
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The dense map of region 0: one block of rows times the whole weight matrix -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block's staging buffer holds its block at every point, for any proof data whose array is `V`'s and whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix's staging buffer holds the whole matrix at every point: fetched at the first, in place after. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S2000x128 := Rect.unit (s := S2000x128) ![0, 0] S2000x128.size inb_S2000x128_S2000x128_0_0
abbrev r0_w : Rect S128x64 := Rect.unit (s := S128x64) ![0, 0] S128x64.size inb_S128x64_S128x64_0_0
abbrev r0_o : Rect S2000x64 := Rect.unit (s := S2000x64) ![0, 0] S2000x64.size inb_S2000x64_S2000x64_0_0

/-- What the body leaves in the result block's buffer: its one store, the product of the two loaded blocks. -/
def out0_2 (x0 : Vec F S2000x128 .f32) (x1 : Vec F S128x64 .f32) : Vec F S2000x64 .f32 :=
  View.canon [⟨r0_o, k0_pay1 (View.ld x0 r0_x) (View.ld x1 r0_w)⟩]

/-- The one store covers the buffer. -/
theorem cover0_2 (p0 : Vec F S2000x64 .f32) (y : S2000x64.Idx) :
    ∃ pc ∈ ([⟨r0_o, p0⟩] : List (View.Piece (Elt F) S2000x64 .f32)), y ∈ pc.1.set :=
  View.cover_of_tiled [⟨r0_o, p0⟩] S2000x64.size (by rfl) y

set_option maxHeartbeats 1000000 in
/-- The body on whole staging buffers: the two inputs read, the result's buffer (whatever it held) overwritten by the
    product; the inputs are left as they were. -/
theorem sound_kernel0 (c : Dev nD) (E : Set ℕ) (i : grid0.Coords) (arg1 : Memref sig .tc .vmem S2000x128 .f32) (harg1 : arg1.IsWhole)
    (arg2 : Memref sig .tc .vmem S128x64 .f32) (harg2 : arg2.IsWhole) (arg3 : Memref sig .tc .vmem S2000x64 .f32) (harg3 : arg3.IsWhole)
    (x0 : Vec F S2000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of region 0: the arrays as the region finds them; after the body each input's buffer at its block
    and the result's at the product of the two; the invariant is the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- Each window's current staging buffer at point `t`, and the body as the launch calls it there. -/
abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2000x64 .f32 := win0_2.stage (cfg0.slots t 2)
abbrev hs0_2 (t : Fin cfg0.N) : (ms0_2 t).IsWhole := hstage0_2 ((cfg0.slots t 2).cast nbuf0_2)
abbrev pointBody0 (t : Fin cfg0.N) : Prog (TpuEff nD τ sig (Elt F) Λ₀ .tc) PUnit :=
  cc0__linear_kernel (grid0.coords t) (ms0_0 t) (hs0_0 t) (ms0_1 t) (hs0_1 t) (ms0_2 t) (hs0_2 t)

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

theorem sound_body0 (c : Dev nD) (t : Fin cfg0.N) :
    bodyPre0 V c t ⊢ wp frame (wpE (defs₀ (F := F)) Variants.none c none) Set.univ (pointBody0 t) (fun _ => bodyPost0 V c t) := by
  unfold bodyPre0 bodyPost0 pointBody0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 0, at every point. -/
theorem body_obligation0 (c : Dev nD) : BodyObligation (dat0 (F := F) V c) (defs₀ (F := F)) Variants.none () Set.univ := fun t => by
  rw [bigSep_W0, bigSep_W0]
  exact sound_body0 V c t

/-! # The dense map of region 3: one block of rows times the whole weight matrix -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row block's staging buffer holds its block at every point, for any proof data whose array is `V`'s and whose
    body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The weight matrix's staging buffer holds the whole matrix at every point: fetched at the first, in place after. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev r3_x : Rect S2000x64 := Rect.unit (s := S2000x64) ![0, 0] S2000x64.size inb_S2000x64_S2000x64_0_0
abbrev r3_w : Rect S64x32 := Rect.unit (s := S64x32) ![0, 0] S64x32.size inb_S64x32_S64x32_0_0
abbrev r3_o : Rect S2000x32 := Rect.unit (s := S2000x32) ![0, 0] S2000x32.size inb_S2000x32_S2000x32_0_0

/-- What the body leaves in the result block's buffer: its one store, the product of the two loaded blocks. -/
def out3_2 (x0 : Vec F S2000x64 .f32) (x1 : Vec F S64x32 .f32) : Vec F S2000x32 .f32 :=
  View.canon [⟨r3_o, k3_pay1 (View.ld x0 r3_x) (View.ld x1 r3_w)⟩]

/-- The one store covers the buffer. -/
theorem cover3_2 (p0 : Vec F S2000x32 .f32) (y : S2000x32.Idx) :
    ∃ pc ∈ ([⟨r3_o, p0⟩] : List (View.Piece (Elt F) S2000x32 .f32)), y ∈ pc.1.set :=
  View.cover_of_tiled [⟨r3_o, p0⟩] S2000x32.size (by rfl) y

set_option maxHeartbeats 1000000 in
/-- The body on whole staging buffers: the two inputs read, the result's buffer (whatever it held) overwritten by the
    product; the inputs are left as they were. -/
theorem sound_kernel3 (c : Dev nD) (E : Set ℕ) (i : grid3.Coords) (arg1 : Memref sig .tc .vmem S2000x64 .f32) (harg1 : arg1.IsWhole)
    (arg2 : Memref sig .tc .vmem S64x32 .f32) (harg2 : arg2.IsWhole) (arg3 : Memref sig .tc .vmem S2000x32 .f32) (harg3 : arg3.IsWhole)
    (x0 : Vec F S2000x64 .f32) (x1 : Vec F S64x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__linear_kernel i arg1 harg1 arg2 harg2 arg3 harg3) K := by
  simp only [cc3__linear_kernel_eq_skeleton]; unfold cc3__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of region 3: the arrays as the region finds them; after the body each input's buffer at its block
    and the result's at the product of the two; the invariant is the scoped rest and the generator register, untouched;
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- Each window's current staging buffer at point `t`, and the body as the launch calls it there. -/
abbrev ms3_0 (t : Fin cfg3.N) : Memref sig .tc .vmem S2000x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S64x32 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2000x32 .f32 := win3_2.stage (cfg3.slots t 2)
abbrev hs3_2 (t : Fin cfg3.N) : (ms3_2 t).IsWhole := hstage3_2 ((cfg3.slots t 2).cast nbuf3_2)
abbrev pointBody3 (t : Fin cfg3.N) : Prog (TpuEff nD τ sig (Elt F) Λ₀ .tc) PUnit :=
  cc3__linear_kernel (grid3.coords t) (ms3_0 t) (hs3_0 t) (ms3_1 t) (hs3_1 t) (ms3_2 t) (hs3_2 t)

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t))

theorem sound_body3 (c : Dev nD) (t : Fin cfg3.N) :
    bodyPre3 V c t ⊢ wp frame (wpE (defs₀ (F := F)) Variants.none c none) Set.univ (pointBody3 t) (fun _ => bodyPost3 V c t) := by
  unfold bodyPre3 bodyPost3 pointBody3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 3, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Gather1.lean ====
/-
  The one-hot gather of the first layer: a row gather `h[src]` over a tile of 4096 edges computed as a matrix
  product with the 0/1 matrix "edge p's source is node j", one tile of 2048 nodes at a time, accumulated in a scratch
  buffer over the 49 node tiles.  Here: the body's three control cases run on whole staging buffers, what each
  leaves, the accumulation point by point, and the per-point obligation the launch asks for, for any contents `V` of
  the buffers at the region's entry.
-/
import proofs.«138531_j42417097015621_1_alg».proof.Proof.Gen.KernelIdeal.Launch
import proofs.«138531_j42417097015621_1_alg».proof.Proof.Gen.KernelIdeal.Skeleton
import Idealize.ShloMosaic.Lib.Pipeline.Kit
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the one-hot gather (feature width 64)

  The grid is 782 edge tiles by 49 node tiles, the node tile running fastest.  At node tile 0 the accumulator (a
  scratch buffer of the kernel's own, one row per edge of the tile) is zeroed; at every node tile the rows of the
  tile that the edges' sources select are added into it; at node tile 48 it is scaled row by row by the edges'
  weights and stored as the tile's messages.  Between points the accumulator is carried, and the messages' buffer is
  idle (not stored, not written back) except at node tile 48. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, in closed form over the grid -/

/-- The fast grid coordinate of the `t`-th point (the points run row-major, last axis fastest). -/
theorem coord1_fast (t : Fin cfg1.N) : ((grid1.coords t) 1).val = t.val % 49 := by
  show t.val / grid1.stride 1 % grid1.bound 1 = _
  rw [show grid1.stride 1 = 1 from by decide, show grid1.bound 1 = 49 from rfl, Nat.div_one]

/-- "The fast grid coordinate is 0": the accumulator is zeroed. -/
abbrev cond1_0 (i : grid1.Coords) : Prop := (Scalar.cmpi .ne (Scalar.extui (Scalar.cmpi .eq (BitVec.ofNat 32 (i 1).val) 0#32)) 0#32) = 1#1
theorem hcond1_0 (t : Fin cfg1.N) : cond1_0 (grid1.coords t) ↔ t.val % 49 = 0 := by
  have key : ∀ n : Fin 49, ((Scalar.cmpi .ne (Scalar.extui (Scalar.cmpi .eq (BitVec.ofNat 32 n.val) 0#32)) 0#32) = 1#1) ↔ n.val = 0 := by decide +kernel
  show ((Scalar.cmpi .ne (Scalar.extui (Scalar.cmpi .eq (BitVec.ofNat 32 ((grid1.coords t) 1).val) 0#32)) 0#32) = 1#1) ↔ _
  rw [coord1_fast t]
  exact key ⟨t.val % 49, Nat.mod_lt _ (by decide)⟩
/-- "The fast grid coordinate is 48": the result block is stored. -/
abbrev cond1_1 (i : grid1.Coords) : Prop := k1_cond2 i = 1#1
theorem hcond1_1 (t : Fin cfg1.N) : cond1_1 (grid1.coords t) ↔ t.val % 49 = 48 := by
  have key : ∀ n : Fin 49, ((Scalar.cmpi .ne (Scalar.extui (Scalar.cmpi .eq (BitVec.ofNat 32 n.val) 48#32)) 0#32) = 1#1) ↔ n.val = 48 := by decide +kernel
  show ((Scalar.cmpi .ne (Scalar.extui (Scalar.cmpi .eq (BitVec.ofNat 32 ((grid1.coords t) 1).val) 48#32)) 0#32) = 1#1) ↔ _
  rw [coord1_fast t]
  exact key ⟨t.val % 49, Nat.mod_lt _ (by decide)⟩

theorem liveAt1_0 (t : Fin cfg1.N) : cfg1.idle 0 (grid1.coords t) = false := rfl
theorem liveAt1_1 (t : Fin cfg1.N) : cfg1.idle 1 (grid1.coords t) = false := rfl
theorem liveAt1_2 (t : Fin cfg1.N) : cfg1.idle 2 (grid1.coords t) = false := rfl
/-- Away from the last fast coordinate the result's window is idle and not written back. -/
theorem idleAt1_3 (t : Fin cfg1.N) (h : ¬cond1_1 (grid1.coords t)) : cfg1.idle 3 (grid1.coords t) = true := by
  show (!(k1_cond2 (grid1.coords t) == 1#1)) = true
  rw [Bool.not_eq_true', beq_eq_false_iff_ne]; exact h
/-- Away from the last fast coordinate the next point has the same slow coordinate, hence the same result block:
    nothing is written back. -/
theorem noFlush1_3 (t : Fin cfg1.N) (h : ¬cond1_1 (grid1.coords t)) : (cfg1.win 3).flush t = false := by
  have hm : ¬ t.val % 49 = 48 := fun e => h ((hcond1_1 t).mpr e)
  have hN : grid1.N = 38318 := N_1
  have ht : t.val < 38318 := lt_of_lt_of_eq t.isLt hN
  refine Bool.eq_false_iff.mpr fun e => ?_
  have e2 : win1_3.flush t = true := e
  unfold Pipeline.Window.flush at e2
  simp only [Bool.and_eq_true, Bool.or_eq_true, decide_eq_true_eq] at e2
  obtain ⟨-, e3 | ⟨h1, hne⟩⟩ := e2
  · omega
  · refine hne ?_
    have e0 : ((grid1.coords ⟨t.val + 1, h1⟩) 0) = ((grid1.coords t) 0) := by
      apply Fin.ext
      show (t.val + 1) / grid1.stride 0 % grid1.bound 0 = t.val / grid1.stride 0 % grid1.bound 0
      rw [show grid1.stride 0 = 49 from by decide, show grid1.bound 0 = 782 from rfl]; omega
    exact hreads1_3 _ _ (fun a ha => match a, ha with
      | ⟨0, _⟩, _ => e0
      | ⟨1, _⟩, ha => absurd ha Bool.false_ne_true)
theorem liveAt1_3 (t : Fin cfg1.N) (h : cond1_1 (grid1.coords t)) : cfg1.idle 3 (grid1.coords t) = false := by
  show (!(k1_cond2 (grid1.coords t) == 1#1)) = false
  rw [Bool.not_eq_false', beq_iff_eq]; exact h

/-! ## The staging buffers at a point, and the accumulator -/

abbrev VO1 : View sig .tc .vmem S4096x64 .bf16 := (Memref.whole cc1_stg3_0 : Memref sig .tc .vmem S4096x64 .bf16).view
abbrev ms1_0 (t : Fin cfg1.N) : Memref sig .tc .vmem S4096 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x64 .bf16 := win1_3.stage (cfg1.slots t 3)
abbrev hs1_3 (t : Fin cfg1.N) : (ms1_3 t).IsWhole := hstage1_3 ((cfg1.slots t 3).cast nbuf1_3)
/-- The body as the launch calls it at point `t`: on the windows' current staging buffers and the accumulator. -/
abbrev pointBody1 (t : Fin cfg1.N) : Prog (TpuEff nD τ sig (Elt F) Λ₀ .tc) PUnit :=
  cc1__gather_kernel (grid1.coords t) (ms1_0 t) (hs1_0 t) (ms1_1 t) (hs1_1 t) (ms1_2 t) (hs1_2 t) (ms1_3 t) (hs1_3 t) (Memref.whole cc1_scratch0) (Memref.isWhole_whole _)

/-- The accumulator: a whole scoped buffer of the kernel's own. -/
abbrev scM1 : Memref sig .tc .vmem S4096x64 .f32 := Memref.whole cc1_scratch0
abbrev VS1 : View sig .tc .vmem S4096x64 .f32 := scM1.view

/-- The region's invariant as the launch hands it over: the accumulator at some contents, the other scoped buffers
    unopened, the generator register at some state. -/
theorem PhiA1_eq (c : Dev nD) :
    (Pipeline.ΦA spec1 c : sProp 𝕄)
      = iprop(iprop(iprop((∃ d, owns (c : Thread nD τ) scM1 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-! ## The body in each of its three cases: the pieces its stores leave, found by running it -/

set_option maxHeartbeats 4000000 in
/-- First fast coordinate: the accumulator (at anything) is zeroed and this tile's contribution added; the result's
    buffer is handed back untouched. -/
noncomputable def kernelRun1_A (c : Dev nD) (i : grid1.Coords) (arg2 : Memref sig .tc .vmem S4096 .i32) (harg2 : arg2.IsWhole) (arg3 : Memref sig .tc .vmem S4096 .f32) (harg3 : arg3.IsWhole) (arg4 : Memref sig .tc .vmem S2048x64 .f32) (harg4 : arg4.IsWhole) (arg5 : Memref sig .tc .vmem S4096x64 .bf16) (harg5 : arg5.IsWhole) (arg6 : Memref sig .tc .vmem S4096x64 .f32) (harg6 : arg6.IsWhole) (hc0 : cond1_0 i) (hc1 : ¬cond1_1 i)
    (x0 : Vec F S4096 .i32) (x1 : Vec F S4096 .f32) (x2 : Vec F S2048x64 .f32) :
    { LS : List (View.Piece (Elt F) S4096x64 .f32) //
      ∀ (xi : Vec F S4096x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc1__gather_kernel i arg2 harg2 arg3 harg3 arg4 harg4 arg5 harg5 arg6 harg6) K } := by
  refine ⟨?_, fun xi E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%fo, %hfo, HO⟩, ⟨%ds, %fs, -, HS⟩, Hk⟩
    obtain rfl := harg2.eq_unread hf0; obtain rfl := harg3.eq_unread hf1; obtain rfl := harg4.eq_unread hf2; obtain rfl := harg5.eq_unread hfo
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS

set_option maxHeartbeats 4000000 in
/-- A fast coordinate strictly inside: this tile's contribution is added to the accumulator the point before left. -/
noncomputable def kernelRun1_B (c : Dev nD) (i : grid1.Coords) (arg2 : Memref sig .tc .vmem S4096 .i32) (harg2 : arg2.IsWhole) (arg3 : Memref sig .tc .vmem S4096 .f32) (harg3 : arg3.IsWhole) (arg4 : Memref sig .tc .vmem S2048x64 .f32) (harg4 : arg4.IsWhole) (arg5 : Memref sig .tc .vmem S4096x64 .bf16) (harg5 : arg5.IsWhole) (arg6 : Memref sig .tc .vmem S4096x64 .f32) (harg6 : arg6.IsWhole) (hc0 : ¬cond1_0 i) (hc1 : ¬cond1_1 i)
    (x0 : Vec F S4096 .i32) (x1 : Vec F S4096 .f32) (x2 : Vec F S2048x64 .f32) (xs0 : Vec F S4096x64 .f32) :
    { LS : List (View.Piece (Elt F) S4096x64 .f32) //
      ∀ (xi : Vec F S4096x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc1__gather_kernel i arg2 harg2 arg3 harg3 arg4 harg4 arg5 harg5 arg6 harg6) K } := by
  refine ⟨?_, fun xi E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hfo; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS

set_option maxHeartbeats 4000000 in
/-- Last fast coordinate: the last contribution is added, and the result block is computed from the accumulator and
    stored. -/
noncomputable def kernelRun1_C (c : Dev nD) (i : grid1.Coords) (arg2 : Memref sig .tc .vmem S4096 .i32) (harg2 : arg2.IsWhole) (arg3 : Memref sig .tc .vmem S4096 .f32) (harg3 : arg3.IsWhole) (arg4 : Memref sig .tc .vmem S2048x64 .f32) (harg4 : arg4.IsWhole) (arg5 : Memref sig .tc .vmem S4096x64 .bf16) (harg5 : arg5.IsWhole) (arg6 : Memref sig .tc .vmem S4096x64 .f32) (harg6 : arg6.IsWhole) (hc0 : ¬cond1_0 i) (hc1 : cond1_1 i)
    (x0 : Vec F S4096 .i32) (x1 : Vec F S4096 .f32) (x2 : Vec F S2048x64 .f32) (xs0 : Vec F S4096x64 .f32) :
    Σ' (LO : List (View.Piece (Elt F) S4096x64 .bf16)), { LS : List (View.Piece (Elt F) S4096x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc1__gather_kernel i arg2 harg2 arg3 harg3 arg4 harg4 arg5 harg5 arg6 harg6) K } := by
  refine ⟨?_, ?_, fun E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%dO, %fo, -, HO⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]; · iexists _; iexact HO
    iexists _; iexact HS

/-! ## Region 1: what each case leaves, the accumulation, the proof data -/

theorem scover1_A (c : Dev nD) (i : grid1.Coords) (arg2 : Memref sig .tc .vmem S4096 .i32) (harg2 : arg2.IsWhole) (arg3 : Memref sig .tc .vmem S4096 .f32) (harg3 : arg3.IsWhole) (arg4 : Memref sig .tc .vmem S2048x64 .f32) (harg4 : arg4.IsWhole) (arg5 : Memref sig .tc .vmem S4096x64 .bf16) (harg5 : arg5.IsWhole) (arg6 : Memref sig .tc .vmem S4096x64 .f32) (harg6 : arg6.IsWhole) (hc0 : cond1_0 i) (hc1 : ¬cond1_1 i) (x0 : Vec F S4096 .i32) (x1 : Vec F S4096 .f32) (x2 : Vec F S2048x64 .f32) (y : S4096x64.Idx) :
    ∃ pc ∈ (kernelRun1_A c i arg2 harg2 arg3 harg3 arg4 harg4 arg5 harg5 arg6 harg6 hc0 hc1 x0 x1 x2).1, y ∈ pc.1.set :=
  View.cover_of_tiledL (kernelRun1_A c i arg2 harg2 arg3 harg3 arg4 harg4 arg5 harg5 arg6 harg6 hc0 hc1 x0 x1 x2).1 S4096x64.size (by sl_kernel_rfl) y
/-- What the first fast coordinate leaves in the accumulator. -/
def sout1_A (c : Dev nD) (i : grid1.Coords) (arg2 : Memref sig .tc .vmem S4096 .i32) (harg2 : arg2.IsWhole) (arg3 : Memref sig .tc .vmem S4096 .f32) (harg3 : arg3.IsWhole) (arg4 : Memref sig .tc .vmem S2048x64 .f32) (harg4 : arg4.IsWhole) (arg5 : Memref sig .tc .vmem S4096x64 .bf16) (harg5 : arg5.IsWhole) (arg6 : Memref sig .tc .vmem S4096x64 .f32) (harg6 : arg6.IsWhole) (hc0 : cond1_0 i) (hc1 : ¬cond1_1 i) (x0 : Vec F S4096 .i32) (x1 : Vec F S4096 .f32) (x2 : Vec F S2048x64 .f32) : Vec F S4096x64 .f32 :=
  VS1.read (Elt F) (VS1.writes (Elt F) VS1.junk (kernelRun1_A c i arg2 harg2 arg3 harg3 arg4 harg4 arg5 harg5 arg6 harg6 hc0 hc1 x0 x1 x2).1)

theorem scover1_B (c : Dev nD) (i : grid1.Coords) (arg2 : Memref sig .tc .vmem S4096 .i32) (harg2 : arg2.IsWhole) (arg3 : Memref sig .tc .vmem S4096 .f32) (harg3 : arg3.IsWhole) (arg4 : Memref sig .tc .vmem S2048x64 .f32) (harg4 : arg4.IsWhole) (arg5 : Memref sig .tc .vmem S4096x64 .bf16) (harg5 : arg5.IsWhole) (arg6 : Memref sig .tc .vmem S4096x64 .f32) (harg6 : arg6.IsWhole) (hc0 : ¬cond1_0 i) (hc1 : ¬cond1_1 i) (x0 : Vec F S4096 .i32) (x1 : Vec F S4096 .f32) (x2 : Vec F S2048x64 .f32) (xs0 : Vec F S4096x64 .f32) (y : S4096x64.Idx) :
    ∃ pc ∈ (kernelRun1_B c i arg2 harg2 arg3 harg3 arg4 harg4 arg5 harg5 arg6 harg6 hc0 hc1 x0 x1 x2 xs0).1, y ∈ pc.1.set :=
  View.cover_of_tiledL (kernelRun1_B c i arg2 harg2 arg3 harg3 arg4 harg4 arg5 harg5 arg6 harg6 hc0 hc1 x0 x1 x2 xs0).1 S4096x64.size (by sl_kernel_rfl) y
/-- What an inner fast coordinate leaves in the accumulator, over what the point before left. -/
def sout1_B (c : Dev nD) (i : grid1.Coords) (arg2 : Memref sig .tc .vmem S4096 .i32) (harg2 : arg2.IsWhole) (arg3 : Memref sig .tc .vmem S4096 .f32) (harg3 : arg3.IsWhole) (arg4 : Memref sig .tc .vmem S2048x64 .f32) (harg4 : arg4.IsWhole) (arg5 : Memref sig .tc .vmem S4096x64 .bf16) (harg5 : arg5.IsWhole) (arg6 : Memref sig .tc .vmem S4096x64 .f32) (harg6 : arg6.IsWhole) (hc0 : ¬cond1_0 i) (hc1 : ¬cond1_1 i) (x0 : Vec F S4096 .i32) (x1 : Vec F S4096 .f32) (x2 : Vec F S2048x64 .f32) (xs0 : Vec F S4096x64 .f32) : Vec F S4096x64 .f32 :=
  VS1.read (Elt F) (VS1.writes (Elt F) VS1.junk (kernelRun1_B c i arg2 harg2 arg3 harg3 arg4 harg4 arg5 harg5 arg6 harg6 hc0 hc1 x0 x1 x2 xs0).1)

theorem cover1_C (c : Dev nD) (i : grid1.Coords) (arg2 : Memref sig .tc .vmem S4096 .i32) (harg2 : arg2.IsWhole) (arg3 : Memref sig .tc .vmem S4096 .f32) (harg3 : arg3.IsWhole) (arg4 : Memref sig .tc .vmem S2048x64 .f32) (harg4 : arg4.IsWhole) (arg5 : Memref sig .tc .vmem S4096x64 .bf16) (harg5 : arg5.IsWhole) (arg6 : Memref sig .tc .vmem S4096x64 .f32) (harg6 : arg6.IsWhole) (hc0 : ¬cond1_0 i) (hc1 : cond1_1 i) (x0 : Vec F S4096 .i32) (x1 : Vec F S4096 .f32) (x2 : Vec F S2048x64 .f32) (xs0 : Vec F S4096x64 .f32) (y : S4096x64.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S4096x64.size (by sl_kernel_rfl) y
/-- The result block the last fast coordinate stores. -/
def out1_C (c : Dev nD) (i : grid1.Coords) (arg2 : Memref sig .tc .vmem S4096 .i32) (harg2 : arg2.IsWhole) (arg3 : Memref sig .tc .vmem S4096 .f32) (harg3 : arg3.IsWhole) (arg4 : Memref sig .tc .vmem S2048x64 .f32) (harg4 : arg4.IsWhole) (arg5 : Memref sig .tc .vmem S4096x64 .bf16) (harg5 : arg5.IsWhole) (arg6 : Memref sig .tc .vmem S4096x64 .f32) (harg6 : arg6.IsWhole) (hc0 : ¬cond1_0 i) (hc1 : cond1_1 i) (x0 : Vec F S4096 .i32) (x1 : Vec F S4096 .f32) (x2 : Vec F S2048x64 .f32) (xs0 : Vec F S4096x64 .f32) : Vec F S4096x64 .bf16 :=
  VO1.read (Elt F) (VO1.writes (Elt F) VO1.junk (kernelRun1_C c i arg2 harg2 arg3 harg3 arg4 harg4 arg5 harg5 arg6 harg6 hc0 hc1 x0 x1 x2 xs0).1)
theorem scover1_C (c : Dev nD) (i : grid1.Coords) (arg2 : Memref sig .tc .vmem S4096 .i32) (harg2 : arg2.IsWhole) (arg3 : Memref sig .tc .vmem S4096 .f32) (harg3 : arg3.IsWhole) (arg4 : Memref sig .tc .vmem S2048x64 .f32) (harg4 : arg4.IsWhole) (arg5 : Memref sig .tc .vmem S4096x64 .bf16) (harg5 : arg5.IsWhole) (arg6 : Memref sig .tc .vmem S4096x64 .f32) (harg6 : arg6.IsWhole) (hc0 : ¬cond1_0 i) (hc1 : cond1_1 i) (x0 : Vec F S4096 .i32) (x1 : Vec F S4096 .f32) (x2 : Vec F S2048x64 .f32) (xs0 : Vec F S4096x64 .f32) (y : S4096x64.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S4096x64.size (by sl_kernel_rfl) y
/-- What the last fast coordinate leaves in the accumulator. -/
def sout1_C (c : Dev nD) (i : grid1.Coords) (arg2 : Memref sig .tc .vmem S4096 .i32) (harg2 : arg2.IsWhole) (arg3 : Memref sig .tc .vmem S4096 .f32) (harg3 : arg3.IsWhole) (arg4 : Memref sig .tc .vmem S2048x64 .f32) (harg4 : arg4.IsWhole) (arg5 : Memref sig .tc .vmem S4096x64 .bf16) (harg5 : arg5.IsWhole) (arg6 : Memref sig .tc .vmem S4096x64 .f32) (harg6 : arg6.IsWhole) (hc0 : ¬cond1_0 i) (hc1 : cond1_1 i) (x0 : Vec F S4096 .i32) (x1 : Vec F S4096 .f32) (x2 : Vec F S2048x64 .f32) (xs0 : Vec F S4096x64 .f32) : Vec F S4096x64 .f32 :=
  VS1.read (Elt F) (VS1.writes (Elt F) VS1.junk (kernelRun1_C c i arg2 harg2 arg3 harg3 arg4 harg4 arg5 harg5 arg6 harg6 hc0 hc1 x0 x1 x2 xs0).2.1)

/-- THE ACCUMULATION: what the result's staging buffer and the accumulator hold after the body at position `n`: the
    case the closed forms select, run at the point's buffers and input blocks, over the accumulator the point before
    left.  (The first component is consulted only at the last fast coordinate.) -/
def outsAt1 (c : Dev nD) : (n : ℕ) → n < cfg1.N → Vec F S4096x64 .bf16 × Vec F S4096x64 .f32
  | 0, hn => (VO1.junk, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 49 = 0 then
      (VO1.junk, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 49 = 48 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (VO1.junk, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 49 = 0) (h1 : ¬t.val % 49 = 48) :
    outsAt1 V c t.val t.isLt = (VO1.junk, sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans rfl

theorem outsAt1_B (c : Dev nD) (t : Fin cfg1.N) (h0 : ¬t.val % 49 = 0) (h1 : ¬t.val % 49 = 48) :
    outsAt1 V c t.val t.isLt = (VO1.junk, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 49 = 0) (h1 : t.val % 49 = 48) :
    outsAt1 V c t.val t.isLt = (out1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the launch hands over; afterwards the
    accumulator at what the point before left, the other scoped buffers unopened, the generator register at some state. -/
def PhiS1 (c : Dev nD) : (n : ℕ) → n ≤ cfg1.N → sProp 𝕄
  | 0, _ => Pipeline.ΦA spec1 c
  | n + 1, hn => iprop(iprop(iprop(owns (c : Thread nD τ) scM1 fullShare ((outsAt1 V c n hn).2))
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(iprop(owns (c : Thread nD τ) scM1 fullShare ((outsAt1 V c n hn).2))
      ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(iprop(owns (c : Thread nD τ) scM1 fullShare ((outsAt1 V c (n - 1) (by omega)).2))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- The proof data of region 1: the arrays as the region finds them; after the body each input's buffer at its
    block and the result's at the accumulation's first component; the invariant carries the accumulator; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the closed forms say which case the point is in; the invariant hands the body the
    accumulator at what the point before left (at anything before the first point) and takes it back at this point's
    contents; away from the last fast coordinate the result's buffer is handed back as found. -/
theorem sound_body1 (c : Dev nD) (t : Fin cfg1.N) :
    bodyPre1 V c t ⊢ wp frame (wpE (defs₀ (F := F)) Variants.none c none) Set.univ (pointBody1 t) (fun _ => bodyPost1 V c t) := by
  unfold bodyPre1 bodyPost1 pointBody1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 38318 := lt_of_lt_of_eq t.isLt (show cfg1.N = 38318 from N_1)
  by_cases h0 : t.val % 49 = 0
  · have h1 : ¬t.val % 49 = 48 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A; (try dsimp only)
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scover1_A c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scover1_A c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 49 = 48
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C sout1_C; (try dsimp only)
      rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%eo, H3⟩, ⟨%es, HS⟩⟩
      isplitl [HS HR Hg]
      · isplitl [HS HR]
        · isplitl [HS]
          · unfold owns; iexists _; isplitr
            swap; · iexact HS
            ipureintro; exact View.read_writes_of_cover _ _ _ _ _ (scover1_C c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scover1_B c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The body obligation of region 1, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives back what the launch handed over: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 38318 := N_1; omega), PhiA1_eq]
  iintro ⟨⟨HS, HR⟩, Hg⟩
  isplitl [HS HR]
  · isplitl [HS]
    · iexists _; iexact HS
    iexact HR
  iexact Hg

end Cert.KernelIdeal.Hand

end
-- ==== Proof.KI.Scatter2.lean ====
/-
  The one-hot scatter-add of the first layer: the sum, for every node of a tile of 2048, of the messages of the
  edges whose target it is, computed as a matrix product with the 0/1 matrix "node r is edge e's target", one tile
  of 4096 edges at a time, accumulated in a scratch buffer over the 782 edge tiles and finished with the self-loop's
  term and the bias.  Here: the body's three control cases run on whole staging buffers, what each leaves, the
  accumulation point by point, and the per-point obligation the launch asks for, for any contents `V` of the buffers
  at the region's entry.
-/
import proofs.«138531_j42417097015621_1_alg».proof.Proof.Gen.KernelIdeal.Launch
import proofs.«138531_j42417097015621_1_alg».proof.Proof.Gen.KernelIdeal.Skeleton
import Idealize.ShloMosaic.Lib.Pipeline.Kit
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the one-hot scatter-add (feature width 64)

  The grid is 49 node tiles by 782 edge tiles, the edge tile running fastest.  At edge tile 0 the accumulator (one
  row per node of the tile) is zeroed; at every edge tile the messages of the edges whose target is a node of the
  tile are added into that node's row; at edge tile 781 the self-loop's term and the bias are added, the positive part taken, and
  the node tile's rows stored.  Between points the accumulator is carried, and the result's buffer is idle except at
  edge tile 781. -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions, in closed form over the grid -/

/-- The fast grid coordinate of the `t`-th point (the points run row-major, last axis fastest). -/
theorem coord2_fast (t : Fin cfg2.N) : ((grid2.coords t) 1).val = t.val % 782 := by
  show t.val / grid2.stride 1 % grid2.bound 1 = _
  rw [show grid2.stride 1 = 1 from by decide, show grid2.bound 1 = 782 from rfl, Nat.div_one]

/-- "The fast grid coordinate is 0": the accumulator is zeroed. -/
abbrev cond2_0 (i : grid2.Coords) : Prop := (Scalar.cmpi .ne (Scalar.extui (Scalar.cmpi .eq (BitVec.ofNat 32 (i 1).val) 0#32)) 0#32) = 1#1
theorem hcond2_0 (t : Fin cfg2.N) : cond2_0 (grid2.coords t) ↔ t.val % 782 = 0 := by
  have key : ∀ n : Fin 782, ((Scalar.cmpi .ne (Scalar.extui (Scalar.cmpi .eq (BitVec.ofNat 32 n.val) 0#32)) 0#32) = 1#1) ↔ n.val = 0 := by decide +kernel
  show ((Scalar.cmpi .ne (Scalar.extui (Scalar.cmpi .eq (BitVec.ofNat 32 ((grid2.coords t) 1).val) 0#32)) 0#32) = 1#1) ↔ _
  rw [coord2_fast t]
  exact key ⟨t.val % 782, Nat.mod_lt _ (by decide)⟩
/-- "The fast grid coordinate is 781": the result block is stored. -/
abbrev cond2_1 (i : grid2.Coords) : Prop := k2_cond2 i = 1#1
theorem hcond2_1 (t : Fin cfg2.N) : cond2_1 (grid2.coords t) ↔ t.val % 782 = 781 := by
  have key : ∀ n : Fin 782, ((Scalar.cmpi .ne (Scalar.extui (Scalar.cmpi .eq (BitVec.ofNat 32 n.val) 781#32)) 0#32) = 1#1) ↔ n.val = 781 := by decide +kernel
  show ((Scalar.cmpi .ne (Scalar.extui (Scalar.cmpi .eq (BitVec.ofNat 32 ((grid2.coords t) 1).val) 781#32)) 0#32) = 1#1) ↔ _
  rw [coord2_fast t]
  exact key ⟨t.val % 782, Nat.mod_lt _ (by decide)⟩

theorem liveAt2_0 (t : Fin cfg2.N) : cfg2.idle 0 (grid2.coords t) = false := rfl
theorem liveAt2_1 (t : Fin cfg2.N) : cfg2.idle 1 (grid2.coords t) = false := rfl
theorem liveAt2_2 (t : Fin cfg2.N) : cfg2.idle 2 (grid2.coords t) = false := rfl
theorem liveAt2_3 (t : Fin cfg2.N) : cfg2.idle 3 (grid2.coords t) = false := rfl
theorem liveAt2_4 (t : Fin cfg2.N) : cfg2.idle 4 (grid2.coords t) = false := rfl
/-- Away from the last fast coordinate the result's window is idle and not written back. -/
theorem idleAt2_5 (t : Fin cfg2.N) (h : ¬cond2_1 (grid2.coords t)) : cfg2.idle 5 (grid2.coords t) = true := by
  show (!(k2_cond2 (grid2.coords t) == 1#1)) = true
  rw [Bool.not_eq_true', beq_eq_false_iff_ne]; exact h
/-- Away from the last fast coordinate the next point has the same slow coordinate, hence the same result block:
    nothing is written back. -/
theorem noFlush2_5 (t : Fin cfg2.N) (h : ¬cond2_1 (grid2.coords t)) : (cfg2.win 5).flush t = false := by
  have hm : ¬ t.val % 782 = 781 := fun e => h ((hcond2_1 t).mpr e)
  have hN : grid2.N = 38318 := N_2
  have ht : t.val < 38318 := lt_of_lt_of_eq t.isLt hN
  refine Bool.eq_false_iff.mpr fun e => ?_
  have e2 : win2_5.flush t = true := e
  unfold Pipeline.Window.flush at e2
  simp only [Bool.and_eq_true, Bool.or_eq_true, decide_eq_true_eq] at e2
  obtain ⟨-, e3 | ⟨h1, hne⟩⟩ := e2
  · omega
  · refine hne ?_
    have e0 : ((grid2.coords ⟨t.val + 1, h1⟩) 0) = ((grid2.coords t) 0) := by
      apply Fin.ext
      show (t.val + 1) / grid2.stride 0 % grid2.bound 0 = t.val / grid2.stride 0 % grid2.bound 0
      rw [show grid2.stride 0 = 782 from by decide, show grid2.bound 0 = 49 from rfl]; omega
    exact hreads2_5 _ _ (fun a ha => match a, ha with
      | ⟨0, _⟩, _ => e0
      | ⟨1, _⟩, ha => absurd ha Bool.false_ne_true)
theorem liveAt2_5 (t : Fin cfg2.N) (h : cond2_1 (grid2.coords t)) : cfg2.idle 5 (grid2.coords t) = false := by
  show (!(k2_cond2 (grid2.coords t) == 1#1)) = false
  rw [Bool.not_eq_false', beq_iff_eq]; exact h

/-! ## The staging buffers at a point, and the accumulator -/

abbrev VO2 : View sig .tc .vmem S2048x64 .f32 := (Memref.whole cc2_stg5_0 : Memref sig .tc .vmem S2048x64 .f32).view
abbrev ms2_0 (t : Fin cfg2.N) : Memref sig .tc .vmem S4096 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4096x64 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S64 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S2048x64 .f32 := win2_5.stage (cfg2.slots t 5)
abbrev hs2_5 (t : Fin cfg2.N) : (ms2_5 t).IsWhole := hstage2_5 ((cfg2.slots t 5).cast nbuf2_5)
/-- The body as the launch calls it at point `t`: on the windows' current staging buffers and the accumulator. -/
abbrev pointBody2 (t : Fin cfg2.N) : Prog (TpuEff nD τ sig (Elt F) Λ₀ .tc) PUnit :=
  cc2__kernel (grid2.coords t) (ms2_0 t) (hs2_0 t) (ms2_1 t) (hs2_1 t) (ms2_2 t) (hs2_2 t) (ms2_3 t) (hs2_3 t) (ms2_4 t) (hs2_4 t) (ms2_5 t) (hs2_5 t) (Memref.whole cc2_scratch0) (Memref.isWhole_whole _)

/-- The accumulator: a whole scoped buffer of the kernel's own. -/
abbrev scM2 : Memref sig .tc .vmem S2048x64 .f32 := Memref.whole cc2_scratch0
abbrev VS2 : View sig .tc .vmem S2048x64 .f32 := scM2.view

/-- The region's invariant as the launch hands it over: the accumulator at some contents, the other scoped buffers
    unopened, the generator register at some state. -/
theorem PhiA2_eq (c : Dev nD) :
    (Pipeline.ΦA spec2 c : sProp 𝕄)
      = iprop(iprop(iprop((∃ d, owns (c : Thread nD τ) scM2 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-! ## The body in each of its three cases: the pieces its stores leave, found by running it -/

set_option maxHeartbeats 4000000 in
/-- First fast coordinate: the accumulator (at anything) is zeroed and this tile's contribution added; the result's
    buffer is handed back untouched. -/
noncomputable def kernelRun2_A (c : Dev nD) (i : grid2.Coords) (arg2 : Memref sig .tc .vmem S4096 .i32) (harg2 : arg2.IsWhole) (arg3 : Memref sig .tc .vmem S4096x64 .bf16) (harg3 : arg3.IsWhole) (arg4 : Memref sig .tc .vmem S2048x64 .f32) (harg4 : arg4.IsWhole) (arg5 : Memref sig .tc .vmem S2048 .f32) (harg5 : arg5.IsWhole) (arg6 : Memref sig .tc .vmem S64 .f32) (harg6 : arg6.IsWhole) (arg7 : Memref sig .tc .vmem S2048x64 .f32) (harg7 : arg7.IsWhole) (arg8 : Memref sig .tc .vmem S2048x64 .f32) (harg8 : arg8.IsWhole) (hc0 : cond2_0 i) (hc1 : ¬cond2_1 i)
    (x0 : Vec F S4096 .i32) (x1 : Vec F S4096x64 .bf16) (x2 : Vec F S2048x64 .f32) (x3 : Vec F S2048 .f32) (x4 : Vec F S64 .f32) :
    { LS : List (View.Piece (Elt F) S2048x64 .f32) //
      ∀ (xi : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc2__kernel i arg2 harg2 arg3 harg3 arg4 harg4 arg5 harg5 arg6 harg6 arg7 harg7 arg8 harg8) K } := by
  refine ⟨?_, fun xi E K => ?run⟩
  case run =>
    simp only [cc2__kernel_eq_skeleton]; unfold cc2__kernel_skel
    unfold owns
    iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfo
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HO]
    · iexists _; isplitr; · ipureintro; exact harg7.read_unread _
      iexact HO
    iexists _; iexact HS

set_option maxHeartbeats 4000000 in
/-- A fast coordinate strictly inside: this tile's contribution is added to the accumulator the point before left. -/
noncomputable def kernelRun2_B (c : Dev nD) (i : grid2.Coords) (arg2 : Memref sig .tc .vmem S4096 .i32) (harg2 : arg2.IsWhole) (arg3 : Memref sig .tc .vmem S4096x64 .bf16) (harg3 : arg3.IsWhole) (arg4 : Memref sig .tc .vmem S2048x64 .f32) (harg4 : arg4.IsWhole) (arg5 : Memref sig .tc .vmem S2048 .f32) (harg5 : arg5.IsWhole) (arg6 : Memref sig .tc .vmem S64 .f32) (harg6 : arg6.IsWhole) (arg7 : Memref sig .tc .vmem S2048x64 .f32) (harg7 : arg7.IsWhole) (arg8 : Memref sig .tc .vmem S2048x64 .f32) (harg8 : arg8.IsWhole) (hc0 : ¬cond2_0 i) (hc1 : ¬cond2_1 i)
    (x0 : Vec F S4096 .i32) (x1 : Vec F S4096x64 .bf16) (x2 : Vec F S2048x64 .f32) (x3 : Vec F S2048 .f32) (x4 : Vec F S64 .f32) (xs0 : Vec F S2048x64 .f32) :
    { LS : List (View.Piece (Elt F) S2048x64 .f32) //
      ∀ (xi : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc2__kernel i arg2 harg2 arg3 harg3 arg4 harg4 arg5 harg5 arg6 harg6 arg7 harg7 arg8 harg8) K } := by
  refine ⟨?_, fun xi E K => ?run⟩
  case run =>
    simp only [cc2__kernel_eq_skeleton]; unfold cc2__kernel_skel
    unfold owns
    iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfo; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HO]
    · iexists _; isplitr; · ipureintro; exact harg7.read_unread _
      iexact HO
    iexists _; iexact HS

set_option maxHeartbeats 4000000 in
/-- Last fast coordinate: the last contribution is added, and the result block is computed from the accumulator and
    stored. -/
noncomputable def kernelRun2_C (c : Dev nD) (i : grid2.Coords) (arg2 : Memref sig .tc .vmem S4096 .i32) (harg2 : arg2.IsWhole) (arg3 : Memref sig .tc .vmem S4096x64 .bf16) (harg3 : arg3.IsWhole) (arg4 : Memref sig .tc .vmem S2048x64 .f32) (harg4 : arg4.IsWhole) (arg5 : Memref sig .tc .vmem S2048 .f32) (harg5 : arg5.IsWhole) (arg6 : Memref sig .tc .vmem S64 .f32) (harg6 : arg6.IsWhole) (arg7 : Memref sig .tc .vmem S2048x64 .f32) (harg7 : arg7.IsWhole) (arg8 : Memref sig .tc .vmem S2048x64 .f32) (harg8 : arg8.IsWhole) (hc0 : ¬cond2_0 i) (hc1 : cond2_1 i)
    (x0 : Vec F S4096 .i32) (x1 : Vec F S4096x64 .bf16) (x2 : Vec F S2048x64 .f32) (x3 : Vec F S2048 .f32) (x4 : Vec F S64 .f32) (xs0 : Vec F S2048x64 .f32) :
    Σ' (LO : List (View.Piece (Elt F) S2048x64 .f32)), { LS : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LS)) -∗ K ⟨⟩))
          ⊢ wp frame (wpE (defs₀ (F := F)) Variants.none c none) E (cc2__kernel i arg2 harg2 arg3 harg3 arg4 harg4 arg5 harg5 arg6 harg6 arg7 harg7 arg8 harg8) K } := by
  refine ⟨?_, ?_, fun E K => ?run⟩
  case run =>
    simp only [cc2__kernel_eq_skeleton]; unfold cc2__kernel_skel
    unfold owns
    iintro ⟨⟨%f0, %hf0, H0⟩, ⟨%f1, %hf1, H1⟩, ⟨%f2, %hf2, H2⟩, ⟨%f3, %hf3, H3⟩, ⟨%f4, %hf4, H4⟩, ⟨%dO, %fo, -, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HO]; · iexists _; iexact HO
    iexists _; iexact HS

/-! ## Region 2: what each case leaves, the accumulation, the proof data -/

theorem scover2_A (c : Dev nD) (i : grid2.Coords) (arg2 : Memref sig .tc .vmem S4096 .i32) (harg2 : arg2.IsWhole) (arg3 : Memref sig .tc .vmem S4096x64 .bf16) (harg3 : arg3.IsWhole) (arg4 : Memref sig .tc .vmem S2048x64 .f32) (harg4 : arg4.IsWhole) (arg5 : Memref sig .tc .vmem S2048 .f32) (harg5 : arg5.IsWhole) (arg6 : Memref sig .tc .vmem S64 .f32) (harg6 : arg6.IsWhole) (arg7 : Memref sig .tc .vmem S2048x64 .f32) (harg7 : arg7.IsWhole) (arg8 : Memref sig .tc .vmem S2048x64 .f32) (harg8 : arg8.IsWhole) (hc0 : cond2_0 i) (hc1 : ¬cond2_1 i) (x0 : Vec F S4096 .i32) (x1 : Vec F S4096x64 .bf16) (x2 : Vec F S2048x64 .f32) (x3 : Vec F S2048 .f32) (x4 : Vec F S64 .f32) (y : S2048x64.Idx) :
    ∃ pc ∈ (kernelRun2_A c i arg2 harg2 arg3 harg3 arg4 harg4 arg5 harg5 arg6 harg6 arg7 harg7 arg8 harg8 hc0 hc1 x0 x1 x2 x3 x4).1, y ∈ pc.1.set :=
  View.cover_of_tiledL (kernelRun2_A c i arg2 harg2 arg3 harg3 arg4 harg4 arg5 harg5 arg6 harg6 arg7 harg7 arg8 harg8 hc0 hc1 x0 x1 x2 x3 x4).1 S2048x64.size (by sl_kernel_rfl) y
/-- What the first fast coordinate leaves in the accumulator. -/
def sout2_A (c : Dev nD) (i : grid2.Coords) (arg2 : Memref sig .tc .vmem S4096 .i32) (harg2 : arg2.IsWhole) (arg3 : Memref sig .tc .vmem S4096x64 .bf16) (harg3 : arg3.IsWhole) (arg4 : Memref sig .tc .vmem S2048x64 .f32) (harg4 : arg4.IsWhole) (arg5 : Memref sig .tc .vmem S2048 .f32) (harg5 : arg5.IsWhole) (arg6 : Memref sig .tc .vmem S64 .f32) (harg6 : arg6.IsWhole) (arg7 : Memref sig .tc .vmem S2048x64 .f32) (harg7 : arg7.IsWhole) (arg8 : Memref sig .tc .vmem S2048x64 .f32) (harg8 : arg8.IsWhole) (hc0 : cond2_0 i) (hc1 : ¬cond2_1 i) (x0 : Vec F S4096 .i32) (x1 : Vec F S4096x64 .bf16) (x2 : Vec F S2048x64 .f32) (x3 : Vec F S2048 .f32) (x4 : Vec F S64 .f32) : Vec F S2048x64 .f32 :=
  VS2.read (Elt F) (VS2.writes (Elt F) VS2.junk (kernelRun2_A c i arg2 harg2 arg3 harg3 arg4 harg4 arg5 harg5 arg6 harg6 arg7 harg7 arg8 harg8 hc0 hc1 x0 x1 x2 x3 x4).1)

theorem scover2_B (c : Dev nD) (i : grid2.Coords) (arg2 : Memref sig .tc .vmem S4096 .i32) (harg2 : arg2.IsWhole) (arg3 : Memref sig .tc .vmem S4096x64 .bf16) (harg3 : arg3.IsWhole) (arg4 : Memref sig .tc .vmem S2048x64 .f32) (harg4 : arg4.IsWhole) (arg5 : Memref sig .tc .vmem S2048 .f32) (harg5 : arg5.IsWhole) (arg6 : Memref sig .tc .vmem S64 .f32) (harg6 : arg6.IsWhole) (arg7 : Memref sig .tc .vmem S2048x64 .f32) (harg7 : arg7.IsWhole) (arg8 : Memref sig .tc .vmem S2048x64 .f32) (harg8 : arg8.IsWhole) (hc0 : ¬cond2_0 i) (hc1 : ¬cond2_1 i) (x0 : Vec F S4096 .i32) (x1 : Vec F S4096x64 .bf16) (x2 : Vec F S2048x64 .f32) (x3 : Vec F S2048 .f32) (x4 : Vec F S64 .f32) (xs0 : Vec F S2048x64 .f32) (y : S2048x64.Idx) :
    ∃ pc ∈ (kernelRun2_B c i arg2 harg2 arg3 harg3 arg4 harg4 arg5 harg5 arg6 harg6 arg7 harg7 arg8 harg8 hc0 hc1 x0 x1 x2 x3 x4 xs0).1, y ∈ pc.1.set :=
  View.cover_of_tiledL (kernelRun2_B c i arg2 harg2 arg3 harg3 arg4 harg4 arg5 harg5 arg6 harg6 arg7 harg7 arg8 harg8 hc0 hc1 x0 x1 x2 x3 x4 xs0).1 S2048x64.size (by sl_kernel_rfl) y
/-- What an inner fast coordinate leaves in the accumulator, over what the point before left. -/
def sout2_B (c : Dev nD) (i : grid2.Coords) (arg2 : Memref sig .tc .vmem S4096 .i32) (harg2 : arg2.IsWhole) (arg3 : Memref sig .tc .vmem S4096x64 .bf16) (harg3 : arg3.IsWhole) (arg4 : Memref sig .tc .vmem S2048x64 .f32) (harg4 : arg4.IsWhole) (arg5 : Memref sig .tc .vmem S2048 .f32) (harg5 : arg5.IsWhole) (arg6 : Memref sig .tc .vmem S64 .f32) (harg6 : arg6.IsWhole) (arg7 : Memref sig .tc .vmem S2048x64 .f32) (harg7 : arg7.IsWhole) (arg8 : Memref sig .tc .vmem S2048x64 .f32) (harg8 : arg8.IsWhole) (hc0 : ¬cond2_0 i) (hc1 : ¬cond2_1 i) (x0 : Vec F S4096 .i32) (x1 : Vec F S4096x64 .bf16) (x2 : Vec F S2048x64 .f32) (x3 : Vec F S2048 .f32) (x4 : Vec F S64 .f32) (xs0 : Vec F S2048x64 .f32) : Vec F S2048x64 .f32 :=
  VS2.read (Elt F) (VS2.writes (Elt F) VS2.junk (kernelRun2_B c i arg2 harg2 arg3 harg3 arg4 harg4 arg5 harg5 arg6 harg6 arg7 harg7 arg8 harg8 hc0 hc1 x0 x1 x2 x3 x4 xs0).1)

theorem cover2_C (c : Dev nD) (i : grid2.Coords) (arg2 : Memref sig .tc .vmem S4096 .i32) (harg2 : arg2.IsWhole) (arg3 : Memref sig .tc .vmem S4096x64 .bf16) (harg3 : arg3.IsWhole) (arg4 : Memref sig .tc .vmem S2048x64 .f32) (harg4 : arg4.IsWhole) (arg5 : Memref sig .tc .vmem S2048 .f32) (harg5 : arg5.IsWhole) (arg6 : Memref sig .tc .vmem S64 .f32) (harg6 : arg6.IsWhole) (arg7 : Memref sig .tc .vmem S2048x64 .f32) (harg7 : arg7.IsWhole) (arg8 : Memref sig .tc .vmem S2048x64 .f32) (harg8 : arg8.IsWhole) (hc0 : ¬cond2_0 i) (hc1 : cond2_1 i) (x0 : Vec F S4096 .i32) (x1 : Vec F S4096x64 .bf16) (x2 : Vec F S2048x64 .f32) (x3 : Vec F S2048 .f32) (x4 : Vec F S64 .f32) (xs0 : Vec F S2048x64 .f32) (y : S2048x64.Idx) :
    ∃ pc ∈ (kernelRun2_C c i arg2 harg2 arg3 harg3 arg4 harg4 arg5 harg5 arg6 harg6 arg7 harg7 arg8 harg8 hc0 hc1 x0 x1 x2 x3 x4 xs0).1, y ∈ pc.1.set :=
  View.cover_of_tiledL (kernelRun2_C c i arg2 harg2 arg3 harg3 arg4 harg4 arg5 harg5 arg6 harg6 arg7 harg7 arg8 harg8 hc0 hc1 x0 x1 x2 x3 x4 xs0).1 S2048x64.size (by sl_kernel_rfl) y
/-- The result block the last fast coordinate stores. -/
def out2_C (c : Dev nD) (i : grid2.Coords) (arg2 : Memref sig .tc .vmem S4096 .i32) (harg2 : arg2.IsWhole) (arg3 : Memref sig .tc .vmem S4096x64 .bf16) (harg3 : arg3.IsWhole) (arg4 : Memref sig .tc .vmem S2048x64 .f32) (harg4 : arg4.IsWhole) (arg5 : Memref sig .tc .vmem S2048 .f32) (harg5 : arg5.IsWhole) (arg6 : Memref sig .tc .vmem S64 .f32) (harg6 : arg6.IsWhole) (arg7 : Memref sig .tc .vmem S2048x64 .f32) (harg7 : arg7.IsWhole) (arg8 : Memref sig .tc .vmem S2048x64 .f32) (harg8 : arg8.IsWhole) (hc0 : ¬cond2_0 i) (hc1 : cond2_1 i) (x0 : Vec F S4096 .i32) (x1 : Vec F S4096x64 .bf16) (x2 : Vec F S2048x64 .f32) (x3 : Vec F S2048 .f32) (x4 : Vec F S64 .f32) (xs0 : Vec F S2048x64 .f32) : Vec F S2048x64 .f32 :=
  VO2.read (Elt F) (VO2.writes (Elt F) VO2.junk (kernelRun2_C c i arg2 harg2 arg3 harg3 arg4 harg4 arg5 harg5 arg6 harg6 arg7 harg7 arg8 harg8 hc0 hc1 x0 x1 x2 x3 x4 xs0).1)
theorem scover2_C (c : Dev nD) (i : grid2.Coords) (arg2 : Memref sig .tc .vmem S4096 .i32) (harg2 : arg2.IsWhole) (arg3 : Memref sig .tc .vmem S4096x64 .bf16) (harg3 : arg3.IsWhole) (arg4 : Memref sig .tc .vmem S2048x64 .f32) (harg4 : arg4.IsWhole) (arg5 : Memref sig .tc .vmem S2048 .f32) (harg5 : arg5.IsWhole) (arg6 : Memref sig .tc .vmem S64 .f32) (harg6 : arg6.IsWhole) (arg7 : Memref sig .tc .vmem S2048x64 .f32) (harg7 : arg7.IsWhole) (arg8 : Memref sig .tc .vmem S2048x64 .f32) (harg8 : arg8.IsWhole) (hc0 : ¬cond2_0 i) (hc1 : cond2_1 i) (x0 : Vec F S4096 .i32) (x1 : Vec F S4096x64 .bf16) (x2 : Vec F S2048x64 .f32) (x3 : Vec F S2048 .f32) (x4 : Vec F S64 .f32) (xs0 : Vec F S2048x64 .f32) (y : S2048x64.Idx) :
    ∃ pc ∈ (kernelRun2_C c i arg2 harg2 arg3 harg3 arg4 harg4 arg5 harg5 arg6 harg6 arg7 harg7 arg8 harg8 hc0 hc1 x0 x1 x2 x3 x4 xs0).2.1, y ∈ pc.1.set :=
  View.cover_of_tiledL (kernelRun2_C c i arg2 harg2 arg3 harg3 arg4 harg4 arg5 harg5 arg6 harg6 arg7 harg7 arg8 harg8 hc0 hc1 x0 x1 x2 x3 x4 xs0).2.1 S2048x64.size (by sl_kernel_rfl) y
/-- What the last fast coordinate leaves in the accumulator. -/
def sout2_C (c : Dev nD) (i : grid2.Coords) (arg2 : Memref sig .tc .vmem S4096 .i32) (harg2 : arg2.IsWhole) (arg3 : Memref sig .tc .vmem S4096x64 .bf16) (harg3 : arg3.IsWhole) (arg4 : Memref sig .tc .vmem S2048x64 .f32) (harg4 : arg4.IsWhole) (arg5 : Memref sig .tc .vmem S2048 .f32) (harg5 : arg5.IsWhole) (arg6 : Memref sig .tc .vmem S64 .f32) (harg6 : arg6.IsWhole) (arg7 : Memref sig .tc .vmem S2048x64 .f32) (harg7 : arg7.IsWhole) (arg8 : Memref sig .tc .vmem S2048x64 .f32) (harg8 : arg8.IsWhole) (hc0 : ¬cond2_0 i) (hc1 : cond2_1 i) (x0 : Vec F S4096 .i32) (x1 : Vec F S4096x64 .bf16) (x2 : Vec F S2048x64 .f32) (x3 : Vec F S2048 .f32) (x4 : Vec F S64 .f32) (xs0 : Vec F S2048x64 .f32) : Vec F S2048x64 .f32 :=
  VS2.read (Elt F) (VS2.writes (Elt F) VS2.junk (kernelRun2_C c i arg2 harg2 arg3 harg3 arg4 harg4 arg5 harg5 arg6 harg6 arg7 harg7 arg8 harg8 hc0 hc1 x0 x1 x2 x3 x4 xs0).2.1)

/-- THE ACCUMULATION: what the result's staging buffer and the accumulator hold after the body at position `n`: the
    case the closed forms select, run at the point's buffers and input blocks, over the accumulator the point before
    left.  (The first component is consulted only at the last fast coordinate.) -/
def outsAt2 (c : Dev nD) : (n : ℕ) → n < cfg2.N → Vec F S2048x64 .f32 × Vec F S2048x64 .f32
  | 0, hn => (VO2.junk, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h0 : (n + 1) % 782 = 0 then
      (VO2.junk, sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) ((hcond2_0 ⟨n + 1, hn⟩).mpr h0) (fun h => (fun h => by (try dsimp only at h); omega) ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩))
    else
      if h1 : (n + 1) % 782 = 781 then
        (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2,
         sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)
      else
        (VO2.junk, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)

theorem outsAt2_A (c : Dev nD) (t : Fin cfg2.N) (h0 : t.val % 782 = 0) (h1 : ¬t.val % 782 = 781) :
    outsAt2 V c t.val t.isLt = (VO2.junk, sout2_A c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) ((hcond2_0 t).mpr h0) (fun h => h1 ((hcond2_1 t).mp h)) (iblk2 V c 0 t) (iblk2 V c 1 t) (iblk2 V c 2 t) (iblk2 V c 3 t) (iblk2 V c 4 t)) := by
  obtain ⟨n, hn⟩ := t
  cases n with
  | zero => exact rfl
  | succ n => exact (dif_pos h0).trans rfl

theorem outsAt2_B (c : Dev nD) (t : Fin cfg2.N) (h0 : ¬t.val % 782 = 0) (h1 : ¬t.val % 782 = 781) :
    outsAt2 V c t.val t.isLt = (VO2.junk, sout2_B c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 782 = 0) (h1 : t.val % 782 = 781) :
    outsAt2 V c t.val t.isLt = (out2_C c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2,
      sout2_C c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the launch hands over; afterwards the
    accumulator at what the point before left, the other scoped buffers unopened, the generator register at some state. -/
def PhiS2 (c : Dev nD) : (n : ℕ) → n ≤ cfg2.N → sProp 𝕄
  | 0, _ => Pipeline.ΦA spec2 c
  | n + 1, hn => iprop(iprop(iprop(owns (c : Thread nD τ) scM2 fullShare ((outsAt2 V c n hn).2))
      ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(iprop(owns (c : Thread nD τ) scM2 fullShare ((outsAt2 V c n hn).2))
      ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(iprop(owns (c : Thread nD τ) scM2 fullShare ((outsAt2 V c (n - 1) (by omega)).2))
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-- The proof data of region 2: the arrays as the region finds them; after the body each input's buffer at its
    block and the result's at the accumulation's first component; the invariant carries the accumulator; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 8000000 in
/-- The body at any point: the closed forms say which case the point is in; the invariant hands the body the
    accumulator at what the point before left (at anything before the first point) and takes it back at this point's
    contents; away from the last fast coordinate the result's buffer is handed back as found. -/
theorem sound_body2 (c : Dev nD) (t : Fin cfg2.N) :
    bodyPre2 V c t ⊢ wp frame (wpE (defs₀ (F := F)) Variants.none c none) Set.univ (pointBody2 t) (fun _ => bodyPost2 V c t) := by
  unfold bodyPre2 bodyPost2 pointBody2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 38318 := lt_of_lt_of_eq t.isLt (show cfg2.N = 38318 from N_2)
  by_cases h0 : t.val % 782 = 0
  · have h1 : ¬t.val % 782 = 781 := by omega
    rw [show (dat2 V c).leavesExact 0 t = owns (c : Thread nD τ) (ms2_0 t) fullShare ((dat2 V c).after 0 t) from by
      unfold Dat.leavesExact; rw [liveAt2_0 t], after2_0]
    rw [show (dat2 V c).leavesExact 1 t = owns (c : Thread nD τ) (ms2_1 t) fullShare ((dat2 V c).after 1 t) from by
      unfold Dat.leavesExact; rw [liveAt2_1 t], after2_1]
    rw [show (dat2 V c).leavesExact 2 t = owns (c : Thread nD τ) (ms2_2 t) fullShare ((dat2 V c).after 2 t) from by
      unfold Dat.leavesExact; rw [liveAt2_2 t], after2_2]
    rw [show (dat2 V c).leavesExact 3 t = owns (c : Thread nD τ) (ms2_3 t) fullShare ((dat2 V c).after 3 t) from by
      unfold Dat.leavesExact; rw [liveAt2_3 t], after2_3]
    rw [show (dat2 V c).leavesExact 4 t = owns (c : Thread nD τ) (ms2_4 t) fullShare ((dat2 V c).after 4 t) from by
      unfold Dat.leavesExact; rw [liveAt2_4 t], after2_4]
    rw [Dat.leavesExact_idle (dat2 V c) 5 t (idleAt2_5 t (fun h => h1 ((hcond2_1 t).mp h))) (noFlush2_5 t (fun h => h1 ((hcond2_1 t).mp h)))]
    rw [outsAt2_A V c t h0 h1]
    unfold sout2_A; (try dsimp only)
    by_cases hz : t.val = 0
    · rw [PhiS2_castSucc V c t, PhiS2_zero V c _ _ hz, PhiA2_eq]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS HR Hg]
      · isplitl [HS HR]
        · isplitl [HS]
          · unfold owns; iexists _; isplitr
            swap; · iexact HS
            ipureintro; exact View.read_writes_of_cover _ _ _ _ _ (scover2_A c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS2_castSucc V c t, PhiS2_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS HR Hg]
      · isplitl [HS HR]
        · isplitl [HS]
          · unfold owns; iexists _; isplitr
            swap; · iexact HS
            ipureintro; exact View.read_writes_of_cover _ _ _ _ _ (scover2_A c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    by_cases h1 : t.val % 782 = 781
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t ((hcond2_1 t).mpr h1)], after2_5]
      rw [outsAt2_C V c t h0 h1]
      unfold out2_C sout2_C; (try dsimp only)
      rw [PhiS2_castSucc V c t, PhiS2_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply ((kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%eo, H5⟩, ⟨%es, HS⟩⟩
      isplitl [HS HR Hg]
      · isplitl [HS HR]
        · isplitl [HS]
          · unfold owns; iexists _; isplitr
            swap; · iexact HS
            ipureintro; exact View.read_writes_of_cover _ _ _ _ _ (scover2_C c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover2_C c _ _ _ _ _ _ _ _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 5 t (idleAt2_5 t (fun h => h1 ((hcond2_1 t).mp h))) (noFlush2_5 t (fun h => h1 ((hcond2_1 t).mp h)))]
      rw [outsAt2_B V c t h0 h1]
      unfold sout2_B; (try dsimp only)
      rw [PhiS2_castSucc V c t, PhiS2_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply ((kernelRun2_B c (grid2.coords t) _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS HR Hg]
      · isplitl [HS HR]
        · isplitl [HS]
          · unfold owns; iexists _; isplitr
            swap; · iexact HS
            ipureintro; exact View.read_writes_of_cover _ _ _ _ _ (scover2_B c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation of region 2, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives back what the launch handed over: the accumulator's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 38318 := N_2; omega), PhiA2_eq]
  iintro ⟨⟨HS, HR⟩, Hg⟩
  isplitl [HS HR]
  · isplitl [HS]
    · iexists _; iexact HS
    iexact HR
  iexact Hg

end Cert.KernelIdeal.Hand

end
-- ==== Proof.KI.Gather4.lean ====
/-
  The one-hot gather of the second layer: a row gather `h[src]` over a tile of 4096 edges computed as a matrix
  product with the 0/1 matrix "edge p's source is node j", one tile of 2048 nodes at a time, accumulated in a scratch
  buffer over the 49 node tiles.  Here: the body's three control cases run on whole staging buffers, what each
  leaves, the accumulation point by point, and the per-point obligation the launch asks for, for any contents `V` of
  the buffers at the region's entry.
-/
import proofs.«138531_j42417097015621_1_alg».proof.Proof.Gen.KernelIdeal.Launch
import proofs.«138531_j42417097015621_1_alg».proof.Proof.Gen.KernelIdeal.Skeleton
import Idealize.ShloMosaic.Lib.Pipeline.Kit
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4: the one-hot gather (feature width 32)

  The grid is 782 edge tiles by 49 node tiles, the node tile running fastest.  At node tile 0 the accumulator (a
  scratch buffer of the kernel's own, one row per edge of the tile) is zeroed; at every node tile the rows of the
  tile that the edges' sources select are added into it; at node tile 48 it is scaled row by row by the edges'
  weights and stored as the tile's messages.  Between points the accumulator is carried, and the messages' buffer is
  idle (not stored, not written back) except at node tile 48. -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's two conditions, in closed form over the grid -/

/-- The fast grid coordinate of the `t`-th point (the points run row-major, last axis fastest). -/
theorem coord4_fast (t : Fin cfg4.N) : ((grid4.coords t) 1).val = t.val % 49 := by
  show t.val / grid4.stride 1 % grid4.bound 1 = _
  rw [show grid4.stride 1 = 1 from by decide, show grid4.bound 1 = 49 from rfl, Nat.div_one]

/-- "The fast grid coordinate is 0": the accumulator is zeroed. -/
abbrev cond4_0 (i : grid4.Coords) : Prop := (Scalar.cmpi .ne (Scalar.extui (Scalar.cmpi .eq (BitVec.ofNat 32 (i 1).val) 0#32)) 0#32) = 1#1
theorem hcond4_0 (t : Fin cfg4.N) : cond4_0 (grid4.coords t) ↔ t.val % 49 = 0 := by
  have key : ∀ n : Fin 49, ((Scalar.cmpi .ne (Scalar.extui (Scalar.cmpi .eq (BitVec.ofNat 32 n.val) 0#32)) 0#32) = 1#1) ↔ n.val = 0 := by decide +kernel
  show ((Scalar.cmpi .ne (Scalar.extui (Scalar.cmpi .eq (BitVec.ofNat 32 ((grid4.coords t) 1).val) 0#32)) 0#32) = 1#1) ↔ _
  rw [coord4_fast t]
  exact key ⟨t.val % 49, Nat.mod_lt _ (by decide)⟩
/-- "The fast grid coordinate is 48": the result block is stored. -/
abbrev cond4_1 (i : grid4.Coords) : Prop := k4_cond2 i = 1#1
theorem hcond4_1 (t : Fin cfg4.N) : cond4_1 (grid4.coords t) ↔ t.val % 49 = 48 := by
  have key : ∀ n : Fin 49, ((Scalar.cmpi .ne (Scalar.extui (Scalar.cmpi .eq (BitVec.ofNat 32 n.val) 48#32)) 0#32) = 1#1) ↔ n.val = 48 := by decide +kernel
  show ((Scalar.cmpi .ne (Scalar.extui (Scalar.cmpi .eq (BitVec.ofNat 32 ((grid4.coords t) 1).val) 48#32)) 0#32) = 1#1) ↔ _
  rw [coord4_fast t]
  exact key ⟨t.val % 49, Nat.mod_lt _ (by decide)⟩

theorem liveAt4_0 (t : Fin cfg4.N) : cfg4.idle 0 (grid4.coords t) = false := rfl
theorem liveAt4_1 (t : Fin cfg4.N) : cfg4.idle 1 (grid4.coords t) = false := rfl
theorem liveAt4_2 (t : Fin cfg4.N) : cfg4.idle 2 (grid4.coords t) = false := rfl
/-- Away from the last fast coordinate the result's window is idle and not written back. -/
theorem idleAt4_3 (t : Fin cfg4.N) (h : ¬cond4_1 (grid4.coords t)) : cfg4.idle 3 (grid4.coords t) = true := by
  show (!(k4_cond2 (grid4.coords t) == 1#1)) = true
  rw [Bool.not_eq_true', beq_eq_false_iff_ne]; exact h
/-- Away from the last fast coordinate the next point has the same slow coordinate, hence the same result block:
    nothing is written back. -/
theorem noFlush4_3 (t : Fin cfg4.N) (h : ¬cond4_1 (grid4.coords t)) : (cfg4.win 3).flush t = false := by
  have hm : ¬ t.val % 49 = 48 := fun e => h ((hcond4_1 t).mpr e)
  have hN : grid4.N = 38318 := N_4
  have ht : t.val < 38318 := lt_of_lt_of_eq t.isLt hN
  refine Bool.eq_false_iff.mpr fun e => ?_
  have e2 : win4_3.flush t = true := e
  unfold Pipeline.Window.flush at e2
  simp only [Bool.and_eq_true, Bool.or_eq_true, decide_eq_true_eq] at e2
  obtain ⟨-, e3 | ⟨h1, hne⟩⟩ := e2
  · omega
  · refine hne ?_
    have e0 : ((grid4.coords ⟨t.val + 1, h1⟩) 0) = ((grid4.coords t) 0) := by
      apply Fin.ext
      show (t.val + 1) / grid4.stride 0 % grid4.bound 0 = t.val / grid4.stride 0 % grid4.bound 0
      rw [show grid4.stride 0 = 49 from by decide, show grid4.bound 0 = 782 from rfl]; omega
    exact hreads4_3 _ _ (fun a ha => match a, ha with
      | ⟨0, _⟩, _ => e0
      | ⟨1, _⟩, ha => absurd ha Bool.false_ne_true)
theorem liveAt4_3 (t : Fin cfg4.N) (h : cond4_1 (grid4.coords t)) : cfg4.idle 3 (grid4.coords t) = false := by
  show (!(k4_cond2 (grid4.coords t) == 1#1)) = false
  rw [Bool.not_eq_false', beq_iff_eq]; exact h

/-! ## The staging buffers at a point, and the accumulator -/

abbrev VO4 : View sig .tc .vmem S4096x32 .bf16 := (Memref.whole cc4_stg3_0 : Memref sig .tc .vmem S4096x32 .bf16).view
abbrev ms4_0 (t : Fin cfg4.N) : Memref sig .tc .vmem S4096 .i32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S4096 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2048x32 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S4096x32 .bf16 := win4_3.stage (cfg4.slots t 3)
abbrev hs4_3 (t : Fin cfg4.N) : (ms4_3 t).IsWhole := hstage4_3 ((cfg4.slots t 3).cast nbuf4_3)
/-- The body as the launch calls it at point `t`: on the windows' current staging buffers and the accumulator. -/
abbrev pointBody4 (t : Fin cfg4.N) : Prog (TpuEff nD τ sig (Elt F) Λ₀ .tc) PUnit :=
  cc4__gather_kernel (grid4.coords t) (ms4_0 t) (hs4_0 t) (ms4_1 t) (hs4_1 t) (ms4_2 t) (hs4_2 t) (ms4_3 t) (hs4_3 t) (Memref.whole cc4_scratch0) (Memref.isWhole_whole _)

/-- The accumulator: a whole scoped buffer of the kernel's own. -/
abbrev scM4 : Memref sig .tc .vmem S4096x32 .f32 := Memref.whole cc4_scratch0
abbrev VS4 : View sig .tc .vmem S4096x32 .f32 := scM4.view

/-- The region's invariant as the launch hands it over: the accumulator at some contents, the other scoped buffers
    unopened, the generator register at some state. -/
theorem PhiA4_eq (c : Dev nD) :
    (Pipeline.ΦA spec4 c : sProp 𝕄)
      = iprop(iprop(iprop((∃ d, owns (c : Thread nD τ) scM4 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

/-! ## The body in each of its three cases: the pieces its stores leave, found by running it -/

set_option maxHeartbeats 4000000 in
/-- First fast coordinate: the accumulator (at anything) is zeroed and this tile's contribution added; the result's
    buffer is handed back untouched. -/
noncomputable def kernelRun4_A (c : Dev nD) (i : grid4.Coords) (arg2 : Memref sig .tc .vmem S4096 .i32) (harg2 : arg2.IsWhole) (arg3 : Memref sig .tc .vmem S4096 .f32) (harg3 : arg3.IsWhole) (arg4 : Memref sig .tc .vmem S2048x32 .f32) (harg4 : arg4.IsWhole) (arg5 : Memref sig .tc .vmem S4096x32 .bf16) (harg5 : arg5.IsWhole) (arg6 : Memref sig .tc .vmem S4096x32 .f32) (harg6 : arg6.IsWhole) (hc0 : cond4_0 i) (hc1 : ¬cond4_1 i)
    (x0 : Vec F S4096 .i32) (x1 : Vec F S4096 .f32) (x2 : Vec F S2048x32 .f32) :
    { LS : List (View.Piece (Elt F) S4096x32 .f32) //
      ∀ (xi : Vec F S4096x32 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc4__gather_kernel i arg2 harg2 arg3 harg3 arg4 harg4 arg5 harg5 arg6 harg6) K } := by
  refine ⟨?_, fun xi E K => ?run⟩
  case run =>
    simp only [cc4__gather_kernel_eq_skeleton]; unfold cc4__gather_kernel_skel
    unfold owns
    iintro ⟨⟨%f0, %hf0, H0⟩, ⟨%f1, %hf1, H1⟩, ⟨%f2, %hf2, H2⟩, ⟨%fo, %hfo, HO⟩, ⟨%ds, %fs, -, HS⟩, Hk⟩
    obtain rfl := harg2.eq_unread hf0; obtain rfl := harg3.eq_unread hf1; obtain rfl := harg4.eq_unread hf2; obtain rfl := harg5.eq_unread hfo
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS

set_option maxHeartbeats 4000000 in
/-- A fast coordinate strictly inside: this tile's contribution is added to the accumulator the point before left. -/
noncomputable def kernelRun4_B (c : Dev nD) (i : grid4.Coords) (arg2 : Memref sig .tc .vmem S4096 .i32) (harg2 : arg2.IsWhole) (arg3 : Memref sig .tc .vmem S4096 .f32) (harg3 : arg3.IsWhole) (arg4 : Memref sig .tc .vmem S2048x32 .f32) (harg4 : arg4.IsWhole) (arg5 : Memref sig .tc .vmem S4096x32 .bf16) (harg5 : arg5.IsWhole) (arg6 : Memref sig .tc .vmem S4096x32 .f32) (harg6 : arg6.IsWhole) (hc0 : ¬cond4_0 i) (hc1 : ¬cond4_1 i)
    (x0 : Vec F S4096 .i32) (x1 : Vec F S4096 .f32) (x2 : Vec F S2048x32 .f32) (xs0 : Vec F S4096x32 .f32) :
    { LS : List (View.Piece (Elt F) S4096x32 .f32) //
      ∀ (xi : Vec F S4096x32 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc4__gather_kernel i arg2 harg2 arg3 harg3 arg4 harg4 arg5 harg5 arg6 harg6) K } := by
  refine ⟨?_, fun xi E K => ?run⟩
  case run =>
    simp only [cc4__gather_kernel_eq_skeleton]; unfold cc4__gather_kernel_skel
    unfold owns
    iintro ⟨⟨%f0, %hf0, H0⟩, ⟨%f1, %hf1, H1⟩, ⟨%f2, %hf2, H2⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hfo; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS

set_option maxHeartbeats 4000000 in
/-- Last fast coordinate: the last contribution is added, and the result block is computed from the accumulator and
    stored. -/
noncomputable def kernelRun4_C (c : Dev nD) (i : grid4.Coords) (arg2 : Memref sig .tc .vmem S4096 .i32) (harg2 : arg2.IsWhole) (arg3 : Memref sig .tc .vmem S4096 .f32) (harg3 : arg3.IsWhole) (arg4 : Memref sig .tc .vmem S2048x32 .f32) (harg4 : arg4.IsWhole) (arg5 : Memref sig .tc .vmem S4096x32 .bf16) (harg5 : arg5.IsWhole) (arg6 : Memref sig .tc .vmem S4096x32 .f32) (harg6 : arg6.IsWhole) (hc0 : ¬cond4_0 i) (hc1 : cond4_1 i)
    (x0 : Vec F S4096 .i32) (x1 : Vec F S4096 .f32) (x2 : Vec F S2048x32 .f32) (xs0 : Vec F S4096x32 .f32) :
    Σ' (LO : List (View.Piece (Elt F) S4096x32 .bf16)), { LS : List (View.Piece (Elt F) S4096x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc4__gather_kernel i arg2 harg2 arg3 harg3 arg4 harg4 arg5 harg5 arg6 harg6) K } := by
  refine ⟨?_, ?_, fun E K => ?run⟩
  case run =>
    simp only [cc4__gather_kernel_eq_skeleton]; unfold cc4__gather_kernel_skel
    unfold owns
    iintro ⟨⟨%f0, %hf0, H0⟩, ⟨%f1, %hf1, H1⟩, ⟨%f2, %hf2, H2⟩, ⟨%dO, %fo, -, HO⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]; · iexists _; iexact HO
    iexists _; iexact HS

/-! ## Region 4: what each case leaves, the accumulation, the proof data -/

theorem scover4_A (c : Dev nD) (i : grid4.Coords) (arg2 : Memref sig .tc .vmem S4096 .i32) (harg2 : arg2.IsWhole) (arg3 : Memref sig .tc .vmem S4096 .f32) (harg3 : arg3.IsWhole) (arg4 : Memref sig .tc .vmem S2048x32 .f32) (harg4 : arg4.IsWhole) (arg5 : Memref sig .tc .vmem S4096x32 .bf16) (harg5 : arg5.IsWhole) (arg6 : Memref sig .tc .vmem S4096x32 .f32) (harg6 : arg6.IsWhole) (hc0 : cond4_0 i) (hc1 : ¬cond4_1 i) (x0 : Vec F S4096 .i32) (x1 : Vec F S4096 .f32) (x2 : Vec F S2048x32 .f32) (y : S4096x32.Idx) :
    ∃ pc ∈ (kernelRun4_A c i arg2 harg2 arg3 harg3 arg4 harg4 arg5 harg5 arg6 harg6 hc0 hc1 x0 x1 x2).1, y ∈ pc.1.set :=
  View.cover_of_tiledL (kernelRun4_A c i arg2 harg2 arg3 harg3 arg4 harg4 arg5 harg5 arg6 harg6 hc0 hc1 x0 x1 x2).1 S4096x32.size (by sl_kernel_rfl) y
/-- What the first fast coordinate leaves in the accumulator. -/
def sout4_A (c : Dev nD) (i : grid4.Coords) (arg2 : Memref sig .tc .vmem S4096 .i32) (harg2 : arg2.IsWhole) (arg3 : Memref sig .tc .vmem S4096 .f32) (harg3 : arg3.IsWhole) (arg4 : Memref sig .tc .vmem S2048x32 .f32) (harg4 : arg4.IsWhole) (arg5 : Memref sig .tc .vmem S4096x32 .bf16) (harg5 : arg5.IsWhole) (arg6 : Memref sig .tc .vmem S4096x32 .f32) (harg6 : arg6.IsWhole) (hc0 : cond4_0 i) (hc1 : ¬cond4_1 i) (x0 : Vec F S4096 .i32) (x1 : Vec F S4096 .f32) (x2 : Vec F S2048x32 .f32) : Vec F S4096x32 .f32 :=
  VS4.read (Elt F) (VS4.writes (Elt F) VS4.junk (kernelRun4_A c i arg2 harg2 arg3 harg3 arg4 harg4 arg5 harg5 arg6 harg6 hc0 hc1 x0 x1 x2).1)

theorem scover4_B (c : Dev nD) (i : grid4.Coords) (arg2 : Memref sig .tc .vmem S4096 .i32) (harg2 : arg2.IsWhole) (arg3 : Memref sig .tc .vmem S4096 .f32) (harg3 : arg3.IsWhole) (arg4 : Memref sig .tc .vmem S2048x32 .f32) (harg4 : arg4.IsWhole) (arg5 : Memref sig .tc .vmem S4096x32 .bf16) (harg5 : arg5.IsWhole) (arg6 : Memref sig .tc .vmem S4096x32 .f32) (harg6 : arg6.IsWhole) (hc0 : ¬cond4_0 i) (hc1 : ¬cond4_1 i) (x0 : Vec F S4096 .i32) (x1 : Vec F S4096 .f32) (x2 : Vec F S2048x32 .f32) (xs0 : Vec F S4096x32 .f32) (y : S4096x32.Idx) :
    ∃ pc ∈ (kernelRun4_B c i arg2 harg2 arg3 harg3 arg4 harg4 arg5 harg5 arg6 harg6 hc0 hc1 x0 x1 x2 xs0).1, y ∈ pc.1.set :=
  View.cover_of_tiledL (kernelRun4_B c i arg2 harg2 arg3 harg3 arg4 harg4 arg5 harg5 arg6 harg6 hc0 hc1 x0 x1 x2 xs0).1 S4096x32.size (by sl_kernel_rfl) y
/-- What an inner fast coordinate leaves in the accumulator, over what the point before left. -/
def sout4_B (c : Dev nD) (i : grid4.Coords) (arg2 : Memref sig .tc .vmem S4096 .i32) (harg2 : arg2.IsWhole) (arg3 : Memref sig .tc .vmem S4096 .f32) (harg3 : arg3.IsWhole) (arg4 : Memref sig .tc .vmem S2048x32 .f32) (harg4 : arg4.IsWhole) (arg5 : Memref sig .tc .vmem S4096x32 .bf16) (harg5 : arg5.IsWhole) (arg6 : Memref sig .tc .vmem S4096x32 .f32) (harg6 : arg6.IsWhole) (hc0 : ¬cond4_0 i) (hc1 : ¬cond4_1 i) (x0 : Vec F S4096 .i32) (x1 : Vec F S4096 .f32) (x2 : Vec F S2048x32 .f32) (xs0 : Vec F S4096x32 .f32) : Vec F S4096x32 .f32 :=
  VS4.read (Elt F) (VS4.writes (Elt F) VS4.junk (kernelRun4_B c i arg2 harg2 arg3 harg3 arg4 harg4 arg5 harg5 arg6 harg6 hc0 hc1 x0 x1 x2 xs0).1)

theorem cover4_C (c : Dev nD) (i : grid4.Coords) (arg2 : Memref sig .tc .vmem S4096 .i32) (harg2 : arg2.IsWhole) (arg3 : Memref sig .tc .vmem S4096 .f32) (harg3 : arg3.IsWhole) (arg4 : Memref sig .tc .vmem S2048x32 .f32) (harg4 : arg4.IsWhole) (arg5 : Memref sig .tc .vmem S4096x32 .bf16) (harg5 : arg5.IsWhole) (arg6 : Memref sig .tc .vmem S4096x32 .f32) (harg6 : arg6.IsWhole) (hc0 : ¬cond4_0 i) (hc1 : cond4_1 i) (x0 : Vec F S4096 .i32) (x1 : Vec F S4096 .f32) (x2 : Vec F S2048x32 .f32) (xs0 : Vec F S4096x32 .f32) (y : S4096x32.Idx) :
    ∃ pc ∈ (kernelRun4_C c i arg2 harg2 arg3 harg3 arg4 harg4 arg5 harg5 arg6 harg6 hc0 hc1 x0 x1 x2 xs0).1, y ∈ pc.1.set :=
  View.cover_of_tiledL (kernelRun4_C c i arg2 harg2 arg3 harg3 arg4 harg4 arg5 harg5 arg6 harg6 hc0 hc1 x0 x1 x2 xs0).1 S4096x32.size (by sl_kernel_rfl) y
/-- The result block the last fast coordinate stores. -/
def out4_C (c : Dev nD) (i : grid4.Coords) (arg2 : Memref sig .tc .vmem S4096 .i32) (harg2 : arg2.IsWhole) (arg3 : Memref sig .tc .vmem S4096 .f32) (harg3 : arg3.IsWhole) (arg4 : Memref sig .tc .vmem S2048x32 .f32) (harg4 : arg4.IsWhole) (arg5 : Memref sig .tc .vmem S4096x32 .bf16) (harg5 : arg5.IsWhole) (arg6 : Memref sig .tc .vmem S4096x32 .f32) (harg6 : arg6.IsWhole) (hc0 : ¬cond4_0 i) (hc1 : cond4_1 i) (x0 : Vec F S4096 .i32) (x1 : Vec F S4096 .f32) (x2 : Vec F S2048x32 .f32) (xs0 : Vec F S4096x32 .f32) : Vec F S4096x32 .bf16 :=
  VO4.read (Elt F) (VO4.writes (Elt F) VO4.junk (kernelRun4_C c i arg2 harg2 arg3 harg3 arg4 harg4 arg5 harg5 arg6 harg6 hc0 hc1 x0 x1 x2 xs0).1)
theorem scover4_C (c : Dev nD) (i : grid4.Coords) (arg2 : Memref sig .tc .vmem S4096 .i32) (harg2 : arg2.IsWhole) (arg3 : Memref sig .tc .vmem S4096 .f32) (harg3 : arg3.IsWhole) (arg4 : Memref sig .tc .vmem S2048x32 .f32) (harg4 : arg4.IsWhole) (arg5 : Memref sig .tc .vmem S4096x32 .bf16) (harg5 : arg5.IsWhole) (arg6 : Memref sig .tc .vmem S4096x32 .f32) (harg6 : arg6.IsWhole) (hc0 : ¬cond4_0 i) (hc1 : cond4_1 i) (x0 : Vec F S4096 .i32) (x1 : Vec F S4096 .f32) (x2 : Vec F S2048x32 .f32) (xs0 : Vec F S4096x32 .f32) (y : S4096x32.Idx) :
    ∃ pc ∈ (kernelRun4_C c i arg2 harg2 arg3 harg3 arg4 harg4 arg5 harg5 arg6 harg6 hc0 hc1 x0 x1 x2 xs0).2.1, y ∈ pc.1.set :=
  View.cover_of_tiledL (kernelRun4_C c i arg2 harg2 arg3 harg3 arg4 harg4 arg5 harg5 arg6 harg6 hc0 hc1 x0 x1 x2 xs0).2.1 S4096x32.size (by sl_kernel_rfl) y
/-- What the last fast coordinate leaves in the accumulator. -/
def sout4_C (c : Dev nD) (i : grid4.Coords) (arg2 : Memref sig .tc .vmem S4096 .i32) (harg2 : arg2.IsWhole) (arg3 : Memref sig .tc .vmem S4096 .f32) (harg3 : arg3.IsWhole) (arg4 : Memref sig .tc .vmem S2048x32 .f32) (harg4 : arg4.IsWhole) (arg5 : Memref sig .tc .vmem S4096x32 .bf16) (harg5 : arg5.IsWhole) (arg6 : Memref sig .tc .vmem S4096x32 .f32) (harg6 : arg6.IsWhole) (hc0 : ¬cond4_0 i) (hc1 : cond4_1 i) (x0 : Vec F S4096 .i32) (x1 : Vec F S4096 .f32) (x2 : Vec F S2048x32 .f32) (xs0 : Vec F S4096x32 .f32) : Vec F S4096x32 .f32 :=
  VS4.read (Elt F) (VS4.writes (Elt F) VS4.junk (kernelRun4_C c i arg2 harg2 arg3 harg3 arg4 harg4 arg5 harg5 arg6 harg6 hc0 hc1 x0 x1 x2 xs0).2.1)

/-- THE ACCUMULATION: what the result's staging buffer and the accumulator hold after the body at position `n`: the
    case the closed forms select, run at the point's buffers and input blocks, over the accumulator the point before
    left.  (The first component is consulted only at the last fast coordinate.) -/
def outsAt4 (c : Dev nD) : (n : ℕ) → n < cfg4.N → Vec F S4096x32 .bf16 × Vec F S4096x32 .f32
  | 0, hn => (VO4.junk, sout4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩))
  | n + 1, hn =>
    if h0 : (n + 1) % 49 = 0 then
      (VO4.junk, sout4_A c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4 (Memref.isWhole_whole _) ((hcond4_0 ⟨n + 1, hn⟩).mpr h0) (fun h => (fun h => by (try dsimp only at h); omega) ((hcond4_1 ⟨n + 1, hn⟩).mp h)) (iblk4 V c 0 ⟨n + 1, hn⟩) (iblk4 V c 1 ⟨n + 1, hn⟩) (iblk4 V c 2 ⟨n + 1, hn⟩))
    else
      if h1 : (n + 1) % 49 = 48 then
        (out4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2,
         sout4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2)
      else
        (VO4.junk, sout4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2)

theorem outsAt4_A (c : Dev nD) (t : Fin cfg4.N) (h0 : t.val % 49 = 0) (h1 : ¬t.val % 49 = 48) :
    outsAt4 V c t.val t.isLt = (VO4.junk, sout4_A c (grid4.coords t) (ms4_0 t) (hs4_0 t) (ms4_1 t) (hs4_1 t) (ms4_2 t) (hs4_2 t) (ms4_3 t) (hs4_3 t) scM4 (Memref.isWhole_whole _) ((hcond4_0 t).mpr h0) (fun h => h1 ((hcond4_1 t).mp h)) (iblk4 V c 0 t) (iblk4 V c 1 t) (iblk4 V c 2 t)) := by
  obtain ⟨n, hn⟩ := t
  cases n with
  | zero => exact rfl
  | succ n => exact (dif_pos h0).trans rfl

theorem outsAt4_B (c : Dev nD) (t : Fin cfg4.N) (h0 : ¬t.val % 49 = 0) (h1 : ¬t.val % 49 = 48) :
    outsAt4 V c t.val t.isLt = (VO4.junk, sout4_B c (grid4.coords t) (ms4_0 t) (hs4_0 t) (ms4_1 t) (hs4_1 t) (ms4_2 t) (hs4_2 t) (ms4_3 t) (hs4_3 t) scM4 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 49 = 0) (h1 : t.val % 49 = 48) :
    outsAt4 V c t.val t.isLt = (out4_C c (grid4.coords t) (ms4_0 t) (hs4_0 t) (ms4_1 t) (hs4_1 t) (ms4_2 t) (hs4_2 t) (ms4_3 t) (hs4_3 t) scM4 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2,
      sout4_C c (grid4.coords t) (ms4_0 t) (hs4_0 t) (ms4_1 t) (hs4_1 t) (ms4_2 t) (hs4_2 t) (ms4_3 t) (hs4_3 t) scM4 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the launch hands over; afterwards the
    accumulator at what the point before left, the other scoped buffers unopened, the generator register at some state. -/
def PhiS4 (c : Dev nD) : (n : ℕ) → n ≤ cfg4.N → sProp 𝕄
  | 0, _ => Pipeline.ΦA spec4 c
  | n + 1, hn => iprop(iprop(iprop(owns (c : Thread nD τ) scM4 fullShare ((outsAt4 V c n hn).2))
      ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(iprop(owns (c : Thread nD τ) scM4 fullShare ((outsAt4 V c n hn).2))
      ∗ Pipeline.scopedRestBut (Ix := Unit) (Name := ℕ) (U := UR sig nD τ) (Lvl := ℕ) (Val := Elt F) spec4 c [cc4_scratch0]) ∗ (∃ r, prngReg c r)) := rfl
theorem PhiS4_pos (c : Dev nD) (n : ℕ) (h : n ≤ cfg4.N) (hz : n ≠ 0) :
    PhiS4 V c n h = iprop(iprop(iprop(owns (c : Thread nD τ) scM4 fullShare ((outsAt4 V c (n - 1) (by omega)).2))
      ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-- The proof data of region 4: the arrays as the region finds them; after the body each input's buffer at its
    block and the result's at the accumulation's first component; the invariant carries the accumulator; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 8000000 in
/-- The body at any point: the closed forms say which case the point is in; the invariant hands the body the
    accumulator at what the point before left (at anything before the first point) and takes it back at this point's
    contents; away from the last fast coordinate the result's buffer is handed back as found. -/
theorem sound_body4 (c : Dev nD) (t : Fin cfg4.N) :
    bodyPre4 V c t ⊢ wp frame (wpE (defs₀ (F := F)) Variants.none c none) Set.univ (pointBody4 t) (fun _ => bodyPost4 V c t) := by
  unfold bodyPre4 bodyPost4 pointBody4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  have hN : t.val < 38318 := lt_of_lt_of_eq t.isLt (show cfg4.N = 38318 from N_4)
  by_cases h0 : t.val % 49 = 0
  · have h1 : ¬t.val % 49 = 48 := by omega
    rw [show (dat4 V c).leavesExact 0 t = owns (c : Thread nD τ) (ms4_0 t) fullShare ((dat4 V c).after 0 t) from by
      unfold Dat.leavesExact; rw [liveAt4_0 t], after4_0]
    rw [show (dat4 V c).leavesExact 1 t = owns (c : Thread nD τ) (ms4_1 t) fullShare ((dat4 V c).after 1 t) from by
      unfold Dat.leavesExact; rw [liveAt4_1 t], after4_1]
    rw [show (dat4 V c).leavesExact 2 t = owns (c : Thread nD τ) (ms4_2 t) fullShare ((dat4 V c).after 2 t) from by
      unfold Dat.leavesExact; rw [liveAt4_2 t], after4_2]
    rw [Dat.leavesExact_idle (dat4 V c) 3 t (idleAt4_3 t (fun h => h1 ((hcond4_1 t).mp h))) (noFlush4_3 t (fun h => h1 ((hcond4_1 t).mp h)))]
    rw [outsAt4_A V c t h0 h1]
    unfold sout4_A; (try dsimp only)
    by_cases hz : t.val = 0
    · rw [PhiS4_castSucc V c t, PhiS4_zero V c _ _ hz, PhiA4_eq]
      iintro ⟨⟨⟨HS, HR⟩, Hg⟩, Ho, ⟨%d0, H0⟩, ⟨%d1, H1⟩, ⟨%d2, H2⟩, ⟨%d3, H3⟩⟩
      iapply ((kernelRun4_A c (grid4.coords t) _ _ _ _ _ _ _ _ _ _ ((hcond4_0 t).mpr h0) (fun h => h1 ((hcond4_1 t).mp h)) (iblk4 V c 0 t) (iblk4 V c 1 t) (iblk4 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scover4_A c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS4_castSucc V c t, PhiS4_pos V c _ _ hz]
      iintro ⟨⟨⟨HS, HR⟩, Hg⟩, Ho, ⟨%d0, H0⟩, ⟨%d1, H1⟩, ⟨%d2, H2⟩, ⟨%d3, H3⟩⟩
      iapply ((kernelRun4_A c (grid4.coords t) _ _ _ _ _ _ _ _ _ _ ((hcond4_0 t).mpr h0) (fun h => h1 ((hcond4_1 t).mp h)) (iblk4 V c 0 t) (iblk4 V c 1 t) (iblk4 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scover4_A c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 49 = 48
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t ((hcond4_1 t).mpr h1)], after4_3]
      rw [outsAt4_C V c t h0 h1]
      unfold out4_C sout4_C; (try dsimp only)
      rw [PhiS4_castSucc V c t, PhiS4_pos V c _ _ hz]
      iintro ⟨⟨⟨HS, HR⟩, Hg⟩, Ho, ⟨%d0, H0⟩, ⟨%d1, H1⟩, ⟨%d2, H2⟩, ⟨%d3, H3⟩⟩
      iapply ((kernelRun4_C c (grid4.coords t) _ _ _ _ _ _ _ _ _ _ (fun h => h0 ((hcond4_0 t).mp h)) ((hcond4_1 t).mpr h1) (iblk4 V c 0 t) (iblk4 V c 1 t) (iblk4 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%eo, H3⟩, ⟨%es, HS⟩⟩
      isplitl [HS HR Hg]
      · isplitl [HS HR]
        · isplitl [HS]
          · unfold owns; iexists _; isplitr
            swap; · iexact HS
            ipureintro; exact View.read_writes_of_cover _ _ _ _ _ (scover4_C c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover4_C c _ _ _ _ _ _ _ _ _ _ _ _ _ _ _ _ _)
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [Dat.leavesExact_idle (dat4 V c) 3 t (idleAt4_3 t (fun h => h1 ((hcond4_1 t).mp h))) (noFlush4_3 t (fun h => h1 ((hcond4_1 t).mp h)))]
      rw [outsAt4_B V c t h0 h1]
      unfold sout4_B; (try dsimp only)
      rw [PhiS4_castSucc V c t, PhiS4_pos V c _ _ hz]
      iintro ⟨⟨⟨HS, HR⟩, Hg⟩, Ho, ⟨%d0, H0⟩, ⟨%d1, H1⟩, ⟨%d2, H2⟩, ⟨%d3, H3⟩⟩
      iapply ((kernelRun4_B c (grid4.coords t) _ _ _ _ _ _ _ _ _ _ (fun h => h0 ((hcond4_0 t).mp h)) (fun h => h1 ((hcond4_1 t).mp h)) (iblk4 V c 0 t) (iblk4 V c 1 t) (iblk4 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scover4_B c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The body obligation of region 4, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives back what the launch handed over: the accumulator's contents are forgotten. -/
theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 38318 := N_4; omega), PhiA4_eq]
  iintro ⟨⟨HS, HR⟩, Hg⟩
  isplitl [HS HR]
  · isplitl [HS]
    · iexists _; iexact HS
    iexact HR
  iexact Hg

end Cert.KernelIdeal.Hand

end
-- ==== Proof.KI.Scatter5.lean ====
/-
  The one-hot scatter-add of the second layer: the sum, for every node of a tile of 2048, of the messages of the
  edges whose target it is, computed as a matrix product with the 0/1 matrix "node r is edge e's target", one tile
  of 4096 edges at a time, accumulated in a scratch buffer over the 782 edge tiles and finished with the self-loop's
  term and the bias.  Here: the body's three control cases run on whole staging buffers, what each leaves, the
  accumulation point by point, and the per-point obligation the launch asks for, for any contents `V` of the buffers
  at the region's entry.
-/
import proofs.«138531_j42417097015621_1_alg».proof.Proof.Gen.KernelIdeal.Launch
import proofs.«138531_j42417097015621_1_alg».proof.Proof.Gen.KernelIdeal.Skeleton
import Idealize.ShloMosaic.Lib.Pipeline.Kit
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 5: the one-hot scatter-add (feature width 32)

  The grid is 49 node tiles by 782 edge tiles, the edge tile running fastest.  At edge tile 0 the accumulator (one
  row per node of the tile) is zeroed; at every edge tile the messages of the edges whose target is a node of the
  tile are added into that node's row; at edge tile 781 the self-loop's term and the bias are added and
  the node tile's rows stored.  Between points the accumulator is carried, and the result's buffer is idle except at
  edge tile 781. -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every point, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds its block at every point, fetched there or not. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's staging buffer holds its block at every point, fetched there or not. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's two conditions, in closed form over the grid -/

/-- The fast grid coordinate of the `t`-th point (the points run row-major, last axis fastest). -/
theorem coord5_fast (t : Fin cfg5.N) : ((grid5.coords t) 1).val = t.val % 782 := by
  show t.val / grid5.stride 1 % grid5.bound 1 = _
  rw [show grid5.stride 1 = 1 from by decide, show grid5.bound 1 = 782 from rfl, Nat.div_one]

/-- "The fast grid coordinate is 0": the accumulator is zeroed. -/
abbrev cond5_0 (i : grid5.Coords) : Prop := (Scalar.cmpi .ne (Scalar.extui (Scalar.cmpi .eq (BitVec.ofNat 32 (i 1).val) 0#32)) 0#32) = 1#1
theorem hcond5_0 (t : Fin cfg5.N) : cond5_0 (grid5.coords t) ↔ t.val % 782 = 0 := by
  have key : ∀ n : Fin 782, ((Scalar.cmpi .ne (Scalar.extui (Scalar.cmpi .eq (BitVec.ofNat 32 n.val) 0#32)) 0#32) = 1#1) ↔ n.val = 0 := by decide +kernel
  show ((Scalar.cmpi .ne (Scalar.extui (Scalar.cmpi .eq (BitVec.ofNat 32 ((grid5.coords t) 1).val) 0#32)) 0#32) = 1#1) ↔ _
  rw [coord5_fast t]
  exact key ⟨t.val % 782, Nat.mod_lt _ (by decide)⟩
/-- "The fast grid coordinate is 781": the result block is stored. -/
abbrev cond5_1 (i : grid5.Coords) : Prop := k5_cond2 i = 1#1
theorem hcond5_1 (t : Fin cfg5.N) : cond5_1 (grid5.coords t) ↔ t.val % 782 = 781 := by
  have key : ∀ n : Fin 782, ((Scalar.cmpi .ne (Scalar.extui (Scalar.cmpi .eq (BitVec.ofNat 32 n.val) 781#32)) 0#32) = 1#1) ↔ n.val = 781 := by decide +kernel
  show ((Scalar.cmpi .ne (Scalar.extui (Scalar.cmpi .eq (BitVec.ofNat 32 ((grid5.coords t) 1).val) 781#32)) 0#32) = 1#1) ↔ _
  rw [coord5_fast t]
  exact key ⟨t.val % 782, Nat.mod_lt _ (by decide)⟩

theorem liveAt5_0 (t : Fin cfg5.N) : cfg5.idle 0 (grid5.coords t) = false := rfl
theorem liveAt5_1 (t : Fin cfg5.N) : cfg5.idle 1 (grid5.coords t) = false := rfl
theorem liveAt5_2 (t : Fin cfg5.N) : cfg5.idle 2 (grid5.coords t) = false := rfl
theorem liveAt5_3 (t : Fin cfg5.N) : cfg5.idle 3 (grid5.coords t) = false := rfl
theorem liveAt5_4 (t : Fin cfg5.N) : cfg5.idle 4 (grid5.coords t) = false := rfl
/-- Away from the last fast coordinate the result's window is idle and not written back. -/
theorem idleAt5_5 (t : Fin cfg5.N) (h : ¬cond5_1 (grid5.coords t)) : cfg5.idle 5 (grid5.coords t) = true := by
  show (!(k5_cond2 (grid5.coords t) == 1#1)) = true
  rw [Bool.not_eq_true', beq_eq_false_iff_ne]; exact h
/-- Away from the last fast coordinate the next point has the same slow coordinate, hence the same result block:
    nothing is written back. -/
theorem noFlush5_5 (t : Fin cfg5.N) (h : ¬cond5_1 (grid5.coords t)) : (cfg5.win 5).flush t = false := by
  have hm : ¬ t.val % 782 = 781 := fun e => h ((hcond5_1 t).mpr e)
  have hN : grid5.N = 38318 := N_5
  have ht : t.val < 38318 := lt_of_lt_of_eq t.isLt hN
  refine Bool.eq_false_iff.mpr fun e => ?_
  have e2 : win5_5.flush t = true := e
  unfold Pipeline.Window.flush at e2
  simp only [Bool.and_eq_true, Bool.or_eq_true, decide_eq_true_eq] at e2
  obtain ⟨-, e3 | ⟨h1, hne⟩⟩ := e2
  · omega
  · refine hne ?_
    have e0 : ((grid5.coords ⟨t.val + 1, h1⟩) 0) = ((grid5.coords t) 0) := by
      apply Fin.ext
      show (t.val + 1) / grid5.stride 0 % grid5.bound 0 = t.val / grid5.stride 0 % grid5.bound 0
      rw [show grid5.stride 0 = 782 from by decide, show grid5.bound 0 = 49 from rfl]; omega
    exact hreads5_5 _ _ (fun a ha => match a, ha with
      | ⟨0, _⟩, _ => e0
      | ⟨1, _⟩, ha => absurd ha Bool.false_ne_true)
theorem liveAt5_5 (t : Fin cfg5.N) (h : cond5_1 (grid5.coords t)) : cfg5.idle 5 (grid5.coords t) = false := by
  show (!(k5_cond2 (grid5.coords t) == 1#1)) = false
  rw [Bool.not_eq_false', beq_iff_eq]; exact h

/-! ## The staging buffers at a point, and the accumulator -/

abbrev VO5 : View sig .tc .vmem S2048x32 .f32 := (Memref.whole cc5_stg5_0 : Memref sig .tc .vmem S2048x32 .f32).view
abbrev ms5_0 (t : Fin cfg5.N) : Memref sig .tc .vmem S4096 .i32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S4096x32 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S2048x32 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S2048 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S32 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S2048x32 .f32 := win5_5.stage (cfg5.slots t 5)
abbrev hs5_5 (t : Fin cfg5.N) : (ms5_5 t).IsWhole := hstage5_5 ((cfg5.slots t 5).cast nbuf5_5)
/-- The body as the launch calls it at point `t`: on the windows' current staging buffers and the accumulator. -/
abbrev pointBody5 (t : Fin cfg5.N) : Prog (TpuEff nD τ sig (Elt F) Λ₀ .tc) PUnit :=
  cc5__kernel (grid5.coords t) (ms5_0 t) (hs5_0 t) (ms5_1 t) (hs5_1 t) (ms5_2 t) (hs5_2 t) (ms5_3 t) (hs5_3 t) (ms5_4 t) (hs5_4 t) (ms5_5 t) (hs5_5 t) (Memref.whole cc5_scratch0) (Memref.isWhole_whole _)

/-- The accumulator: a whole scoped buffer of the kernel's own. -/
abbrev scM5 : Memref sig .tc .vmem S2048x32 .f32 := Memref.whole cc5_scratch0
abbrev VS5 : View sig .tc .vmem S2048x32 .f32 := scM5.view

/-- The region's invariant as the launch hands it over: the accumulator at some contents, the other scoped buffers
    unopened, the generator register at some state. -/
theorem PhiA5_eq (c : Dev nD) :
    (Pipeline.ΦA spec5 c : sProp 𝕄)
      = iprop(iprop(iprop((∃ d, owns (c : Thread nD τ) scM5 fullShare d))
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; try rfl

/-! ## The body in each of its three cases: the pieces its stores leave, found by running it -/

set_option maxHeartbeats 4000000 in
/-- First fast coordinate: the accumulator (at anything) is zeroed and this tile's contribution added; the result's
    buffer is handed back untouched. -/
noncomputable def kernelRun5_A (c : Dev nD) (i : grid5.Coords) (arg2 : Memref sig .tc .vmem S4096 .i32) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048 .f32) (harg5 : arg5.IsWhole) (arg6 : Memref sig .tc .vmem S32 .f32) (harg6 : arg6.IsWhole) (arg7 : Memref sig .tc .vmem S2048x32 .f32) (harg7 : arg7.IsWhole) (arg8 : Memref sig .tc .vmem S2048x32 .f32) (harg8 : arg8.IsWhole) (hc0 : cond5_0 i) (hc1 : ¬cond5_1 i)
    (x0 : Vec F S4096 .i32) (x1 : Vec F S4096x32 .bf16) (x2 : Vec F S2048x32 .f32) (x3 : Vec F S2048 .f32) (x4 : Vec F S32 .f32) :
    { LS : List (View.Piece (Elt F) S2048x32 .f32) //
      ∀ (xi : Vec F S2048x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc5__kernel i arg2 harg2 arg3 harg3 arg4 harg4 arg5 harg5 arg6 harg6 arg7 harg7 arg8 harg8) K } := by
  refine ⟨?_, fun xi E K => ?run⟩
  case run =>
    simp only [cc5__kernel_eq_skeleton]; unfold cc5__kernel_skel
    unfold owns
    iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfo
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HO]
    · iexists _; isplitr; · ipureintro; exact harg7.read_unread _
      iexact HO
    iexists _; iexact HS

set_option maxHeartbeats 4000000 in
/-- A fast coordinate strictly inside: this tile's contribution is added to the accumulator the point before left. -/
noncomputable def kernelRun5_B (c : Dev nD) (i : grid5.Coords) (arg2 : Memref sig .tc .vmem S4096 .i32) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048 .f32) (harg5 : arg5.IsWhole) (arg6 : Memref sig .tc .vmem S32 .f32) (harg6 : arg6.IsWhole) (arg7 : Memref sig .tc .vmem S2048x32 .f32) (harg7 : arg7.IsWhole) (arg8 : Memref sig .tc .vmem S2048x32 .f32) (harg8 : arg8.IsWhole) (hc0 : ¬cond5_0 i) (hc1 : ¬cond5_1 i)
    (x0 : Vec F S4096 .i32) (x1 : Vec F S4096x32 .bf16) (x2 : Vec F S2048x32 .f32) (x3 : Vec F S2048 .f32) (x4 : Vec F S32 .f32) (xs0 : Vec F S2048x32 .f32) :
    { LS : List (View.Piece (Elt F) S2048x32 .f32) //
      ∀ (xi : Vec F S2048x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc5__kernel i arg2 harg2 arg3 harg3 arg4 harg4 arg5 harg5 arg6 harg6 arg7 harg7 arg8 harg8) K } := by
  refine ⟨?_, fun xi E K => ?run⟩
  case run =>
    simp only [cc5__kernel_eq_skeleton]; unfold cc5__kernel_skel
    unfold owns
    iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfo; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HO]
    · iexists _; isplitr; · ipureintro; exact harg7.read_unread _
      iexact HO
    iexists _; iexact HS

set_option maxHeartbeats 4000000 in
/-- Last fast coordinate: the last contribution is added, and the result block is computed from the accumulator and
    stored. -/
noncomputable def kernelRun5_C (c : Dev nD) (i : grid5.Coords) (arg2 : Memref sig .tc .vmem S4096 .i32) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048 .f32) (harg5 : arg5.IsWhole) (arg6 : Memref sig .tc .vmem S32 .f32) (harg6 : arg6.IsWhole) (arg7 : Memref sig .tc .vmem S2048x32 .f32) (harg7 : arg7.IsWhole) (arg8 : Memref sig .tc .vmem S2048x32 .f32) (harg8 : arg8.IsWhole) (hc0 : ¬cond5_0 i) (hc1 : cond5_1 i)
    (x0 : Vec F S4096 .i32) (x1 : Vec F S4096x32 .bf16) (x2 : Vec F S2048x32 .f32) (x3 : Vec F S2048 .f32) (x4 : Vec F S32 .f32) (xs0 : Vec F S2048x32 .f32) :
    Σ' (LO : List (View.Piece (Elt F) S2048x32 .f32)), { LS : List (View.Piece (Elt F) S2048x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LS)) -∗ K ⟨⟩))
          ⊢ wp frame (wpE (defs₀ (F := F)) Variants.none c none) E (cc5__kernel i arg2 harg2 arg3 harg3 arg4 harg4 arg5 harg5 arg6 harg6 arg7 harg7 arg8 harg8) K } := by
  refine ⟨?_, ?_, fun E K => ?run⟩
  case run =>
    simp only [cc5__kernel_eq_skeleton]; unfold cc5__kernel_skel
    unfold owns
    iintro ⟨⟨%f0, %hf0, H0⟩, ⟨%f1, %hf1, H1⟩, ⟨%f2, %hf2, H2⟩, ⟨%f3, %hf3, H3⟩, ⟨%f4, %hf4, H4⟩, ⟨%dO, %fo, -, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HO]; · iexists _; iexact HO
    iexists _; iexact HS

/-! ## Region 5: what each case leaves, the accumulation, the proof data -/

theorem scover5_A (c : Dev nD) (i : grid5.Coords) (arg2 : Memref sig .tc .vmem S4096 .i32) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048 .f32) (harg5 : arg5.IsWhole) (arg6 : Memref sig .tc .vmem S32 .f32) (harg6 : arg6.IsWhole) (arg7 : Memref sig .tc .vmem S2048x32 .f32) (harg7 : arg7.IsWhole) (arg8 : Memref sig .tc .vmem S2048x32 .f32) (harg8 : arg8.IsWhole) (hc0 : cond5_0 i) (hc1 : ¬cond5_1 i) (x0 : Vec F S4096 .i32) (x1 : Vec F S4096x32 .bf16) (x2 : Vec F S2048x32 .f32) (x3 : Vec F S2048 .f32) (x4 : Vec F S32 .f32) (y : S2048x32.Idx) :
    ∃ pc ∈ (kernelRun5_A c i arg2 harg2 arg3 harg3 arg4 harg4 arg5 harg5 arg6 harg6 arg7 harg7 arg8 harg8 hc0 hc1 x0 x1 x2 x3 x4).1, y ∈ pc.1.set :=
  View.cover_of_tiledL (kernelRun5_A c i arg2 harg2 arg3 harg3 arg4 harg4 arg5 harg5 arg6 harg6 arg7 harg7 arg8 harg8 hc0 hc1 x0 x1 x2 x3 x4).1 S2048x32.size (by sl_kernel_rfl) y
/-- What the first fast coordinate leaves in the accumulator. -/
def sout5_A (c : Dev nD) (i : grid5.Coords) (arg2 : Memref sig .tc .vmem S4096 .i32) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048 .f32) (harg5 : arg5.IsWhole) (arg6 : Memref sig .tc .vmem S32 .f32) (harg6 : arg6.IsWhole) (arg7 : Memref sig .tc .vmem S2048x32 .f32) (harg7 : arg7.IsWhole) (arg8 : Memref sig .tc .vmem S2048x32 .f32) (harg8 : arg8.IsWhole) (hc0 : cond5_0 i) (hc1 : ¬cond5_1 i) (x0 : Vec F S4096 .i32) (x1 : Vec F S4096x32 .bf16) (x2 : Vec F S2048x32 .f32) (x3 : Vec F S2048 .f32) (x4 : Vec F S32 .f32) : Vec F S2048x32 .f32 :=
  VS5.read (Elt F) (VS5.writes (Elt F) VS5.junk (kernelRun5_A c i arg2 harg2 arg3 harg3 arg4 harg4 arg5 harg5 arg6 harg6 arg7 harg7 arg8 harg8 hc0 hc1 x0 x1 x2 x3 x4).1)

theorem scover5_B (c : Dev nD) (i : grid5.Coords) (arg2 : Memref sig .tc .vmem S4096 .i32) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048 .f32) (harg5 : arg5.IsWhole) (arg6 : Memref sig .tc .vmem S32 .f32) (harg6 : arg6.IsWhole) (arg7 : Memref sig .tc .vmem S2048x32 .f32) (harg7 : arg7.IsWhole) (arg8 : Memref sig .tc .vmem S2048x32 .f32) (harg8 : arg8.IsWhole) (hc0 : ¬cond5_0 i) (hc1 : ¬cond5_1 i) (x0 : Vec F S4096 .i32) (x1 : Vec F S4096x32 .bf16) (x2 : Vec F S2048x32 .f32) (x3 : Vec F S2048 .f32) (x4 : Vec F S32 .f32) (xs0 : Vec F S2048x32 .f32) (y : S2048x32.Idx) :
    ∃ pc ∈ (kernelRun5_B c i arg2 harg2 arg3 harg3 arg4 harg4 arg5 harg5 arg6 harg6 arg7 harg7 arg8 harg8 hc0 hc1 x0 x1 x2 x3 x4 xs0).1, y ∈ pc.1.set :=
  View.cover_of_tiledL (kernelRun5_B c i arg2 harg2 arg3 harg3 arg4 harg4 arg5 harg5 arg6 harg6 arg7 harg7 arg8 harg8 hc0 hc1 x0 x1 x2 x3 x4 xs0).1 S2048x32.size (by sl_kernel_rfl) y
/-- What an inner fast coordinate leaves in the accumulator, over what the point before left. -/
def sout5_B (c : Dev nD) (i : grid5.Coords) (arg2 : Memref sig .tc .vmem S4096 .i32) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048 .f32) (harg5 : arg5.IsWhole) (arg6 : Memref sig .tc .vmem S32 .f32) (harg6 : arg6.IsWhole) (arg7 : Memref sig .tc .vmem S2048x32 .f32) (harg7 : arg7.IsWhole) (arg8 : Memref sig .tc .vmem S2048x32 .f32) (harg8 : arg8.IsWhole) (hc0 : ¬cond5_0 i) (hc1 : ¬cond5_1 i) (x0 : Vec F S4096 .i32) (x1 : Vec F S4096x32 .bf16) (x2 : Vec F S2048x32 .f32) (x3 : Vec F S2048 .f32) (x4 : Vec F S32 .f32) (xs0 : Vec F S2048x32 .f32) : Vec F S2048x32 .f32 :=
  VS5.read (Elt F) (VS5.writes (Elt F) VS5.junk (kernelRun5_B c i arg2 harg2 arg3 harg3 arg4 harg4 arg5 harg5 arg6 harg6 arg7 harg7 arg8 harg8 hc0 hc1 x0 x1 x2 x3 x4 xs0).1)

theorem cover5_C (c : Dev nD) (i : grid5.Coords) (arg2 : Memref sig .tc .vmem S4096 .i32) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048 .f32) (harg5 : arg5.IsWhole) (arg6 : Memref sig .tc .vmem S32 .f32) (harg6 : arg6.IsWhole) (arg7 : Memref sig .tc .vmem S2048x32 .f32) (harg7 : arg7.IsWhole) (arg8 : Memref sig .tc .vmem S2048x32 .f32) (harg8 : arg8.IsWhole) (hc0 : ¬cond5_0 i) (hc1 : cond5_1 i) (x0 : Vec F S4096 .i32) (x1 : Vec F S4096x32 .bf16) (x2 : Vec F S2048x32 .f32) (x3 : Vec F S2048 .f32) (x4 : Vec F S32 .f32) (xs0 : Vec F S2048x32 .f32) (y : S2048x32.Idx) :
    ∃ pc ∈ (kernelRun5_C c i arg2 harg2 arg3 harg3 arg4 harg4 arg5 harg5 arg6 harg6 arg7 harg7 arg8 harg8 hc0 hc1 x0 x1 x2 x3 x4 xs0).1, y ∈ pc.1.set :=
  View.cover_of_tiledL (kernelRun5_C c i arg2 harg2 arg3 harg3 arg4 harg4 arg5 harg5 arg6 harg6 arg7 harg7 arg8 harg8 hc0 hc1 x0 x1 x2 x3 x4 xs0).1 S2048x32.size (by sl_kernel_rfl) y
/-- The result block the last fast coordinate stores. -/
def out5_C (c : Dev nD) (i : grid5.Coords) (arg2 : Memref sig .tc .vmem S4096 .i32) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048 .f32) (harg5 : arg5.IsWhole) (arg6 : Memref sig .tc .vmem S32 .f32) (harg6 : arg6.IsWhole) (arg7 : Memref sig .tc .vmem S2048x32 .f32) (harg7 : arg7.IsWhole) (arg8 : Memref sig .tc .vmem S2048x32 .f32) (harg8 : arg8.IsWhole) (hc0 : ¬cond5_0 i) (hc1 : cond5_1 i) (x0 : Vec F S4096 .i32) (x1 : Vec F S4096x32 .bf16) (x2 : Vec F S2048x32 .f32) (x3 : Vec F S2048 .f32) (x4 : Vec F S32 .f32) (xs0 : Vec F S2048x32 .f32) : Vec F S2048x32 .f32 :=
  VO5.read (Elt F) (VO5.writes (Elt F) VO5.junk (kernelRun5_C c i arg2 harg2 arg3 harg3 arg4 harg4 arg5 harg5 arg6 harg6 arg7 harg7 arg8 harg8 hc0 hc1 x0 x1 x2 x3 x4 xs0).1)
theorem scover5_C (c : Dev nD) (i : grid5.Coords) (arg2 : Memref sig .tc .vmem S4096 .i32) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048 .f32) (harg5 : arg5.IsWhole) (arg6 : Memref sig .tc .vmem S32 .f32) (harg6 : arg6.IsWhole) (arg7 : Memref sig .tc .vmem S2048x32 .f32) (harg7 : arg7.IsWhole) (arg8 : Memref sig .tc .vmem S2048x32 .f32) (harg8 : arg8.IsWhole) (hc0 : ¬cond5_0 i) (hc1 : cond5_1 i) (x0 : Vec F S4096 .i32) (x1 : Vec F S4096x32 .bf16) (x2 : Vec F S2048x32 .f32) (x3 : Vec F S2048 .f32) (x4 : Vec F S32 .f32) (xs0 : Vec F S2048x32 .f32) (y : S2048x32.Idx) :
    ∃ pc ∈ (kernelRun5_C c i arg2 harg2 arg3 harg3 arg4 harg4 arg5 harg5 arg6 harg6 arg7 harg7 arg8 harg8 hc0 hc1 x0 x1 x2 x3 x4 xs0).2.1, y ∈ pc.1.set :=
  View.cover_of_tiledL (kernelRun5_C c i arg2 harg2 arg3 harg3 arg4 harg4 arg5 harg5 arg6 harg6 arg7 harg7 arg8 harg8 hc0 hc1 x0 x1 x2 x3 x4 xs0).2.1 S2048x32.size (by sl_kernel_rfl) y
/-- What the last fast coordinate leaves in the accumulator. -/
def sout5_C (c : Dev nD) (i : grid5.Coords) (arg2 : Memref sig .tc .vmem S4096 .i32) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048 .f32) (harg5 : arg5.IsWhole) (arg6 : Memref sig .tc .vmem S32 .f32) (harg6 : arg6.IsWhole) (arg7 : Memref sig .tc .vmem S2048x32 .f32) (harg7 : arg7.IsWhole) (arg8 : Memref sig .tc .vmem S2048x32 .f32) (harg8 : arg8.IsWhole) (hc0 : ¬cond5_0 i) (hc1 : cond5_1 i) (x0 : Vec F S4096 .i32) (x1 : Vec F S4096x32 .bf16) (x2 : Vec F S2048x32 .f32) (x3 : Vec F S2048 .f32) (x4 : Vec F S32 .f32) (xs0 : Vec F S2048x32 .f32) : Vec F S2048x32 .f32 :=
  VS5.read (Elt F) (VS5.writes (Elt F) VS5.junk (kernelRun5_C c i arg2 harg2 arg3 harg3 arg4 harg4 arg5 harg5 arg6 harg6 arg7 harg7 arg8 harg8 hc0 hc1 x0 x1 x2 x3 x4 xs0).2.1)

/-- THE ACCUMULATION: what the result's staging buffer and the accumulator hold after the body at position `n`: the
    case the closed forms select, run at the point's buffers and input blocks, over the accumulator the point before
    left.  (The first component is consulted only at the last fast coordinate.) -/
def outsAt5 (c : Dev nD) : (n : ℕ) → n < cfg5.N → Vec F S2048x32 .f32 × Vec F S2048x32 .f32
  | 0, hn => (VO5.junk, sout5_A c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) scM5 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩))
  | n + 1, hn =>
    if h0 : (n + 1) % 782 = 0 then
      (VO5.junk, sout5_A c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5 (Memref.isWhole_whole _) ((hcond5_0 ⟨n + 1, hn⟩).mpr h0) (fun h => (fun h => by (try dsimp only at h); omega) ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩))
    else
      if h1 : (n + 1) % 782 = 781 then
        (out5_C c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2,
         sout5_C c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2)
      else
        (VO5.junk, sout5_B c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2)

theorem outsAt5_A (c : Dev nD) (t : Fin cfg5.N) (h0 : t.val % 782 = 0) (h1 : ¬t.val % 782 = 781) :
    outsAt5 V c t.val t.isLt = (VO5.junk, sout5_A c (grid5.coords t) (ms5_0 t) (hs5_0 t) (ms5_1 t) (hs5_1 t) (ms5_2 t) (hs5_2 t) (ms5_3 t) (hs5_3 t) (ms5_4 t) (hs5_4 t) (ms5_5 t) (hs5_5 t) scM5 (Memref.isWhole_whole _) ((hcond5_0 t).mpr h0) (fun h => h1 ((hcond5_1 t).mp h)) (iblk5 V c 0 t) (iblk5 V c 1 t) (iblk5 V c 2 t) (iblk5 V c 3 t) (iblk5 V c 4 t)) := by
  obtain ⟨n, hn⟩ := t
  cases n with
  | zero => exact rfl
  | succ n => exact (dif_pos h0).trans rfl

theorem outsAt5_B (c : Dev nD) (t : Fin cfg5.N) (h0 : ¬t.val % 782 = 0) (h1 : ¬t.val % 782 = 781) :
    outsAt5 V c t.val t.isLt = (VO5.junk, sout5_B c (grid5.coords t) (ms5_0 t) (hs5_0 t) (ms5_1 t) (hs5_1 t) (ms5_2 t) (hs5_2 t) (ms5_3 t) (hs5_3 t) (ms5_4 t) (hs5_4 t) (ms5_5 t) (hs5_5 t) scM5 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt5_C (c : Dev nD) (t : Fin cfg5.N) (h0 : ¬t.val % 782 = 0) (h1 : t.val % 782 = 781) :
    outsAt5 V c t.val t.isLt = (out5_C c (grid5.coords t) (ms5_0 t) (hs5_0 t) (ms5_1 t) (hs5_1 t) (ms5_2 t) (hs5_2 t) (ms5_3 t) (hs5_3 t) (ms5_4 t) (hs5_4 t) (ms5_5 t) (hs5_5 t) scM5 (Memref.isWhole_whole _) (fun h => h0 ((hcond5_0 t).mp h)) ((hcond5_1 t).mpr h1) (iblk5 V c 0 t) (iblk5 V c 1 t) (iblk5 V c 2 t) (iblk5 V c 3 t) (iblk5 V c 4 t) (outsAt5 V c (t.val - 1) (Nat.lt_of_le_of_lt (Nat.sub_le _ _) t.isLt)).2,
      sout5_C c (grid5.coords t) (ms5_0 t) (hs5_0 t) (ms5_1 t) (hs5_1 t) (ms5_2 t) (hs5_2 t) (ms5_3 t) (hs5_3 t) (ms5_4 t) (hs5_4 t) (ms5_5 t) (hs5_5 t) scM5 (Memref.isWhole_whole _) (fun h => h0 ((hcond5_0 t).mp h)) ((hcond5_1 t).mpr h1) (iblk5 V c 0 t) (iblk5 V c 1 t) (iblk5 V c 2 t) (iblk5 V c 3 t) (iblk5 V c 4 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the launch hands over; afterwards the
    accumulator at what the point before left, the other scoped buffers unopened, the generator register at some state. -/
def PhiS5 (c : Dev nD) : (n : ℕ) → n ≤ cfg5.N → sProp 𝕄
  | 0, _ => Pipeline.ΦA spec5 c
  | n + 1, hn => iprop(iprop(iprop(owns (c : Thread nD τ) scM5 fullShare ((outsAt5 V c n hn).2))
      ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl
theorem PhiS5_succ (c : Dev nD) (n : ℕ) (hn : n < cfg5.N) :
    PhiS5 V c (n + 1) hn = iprop(iprop(iprop(owns (c : Thread nD τ) scM5 fullShare ((outsAt5 V c n hn).2))
      ∗ Pipeline.scopedRestBut (Ix := Unit) (Name := ℕ) (U := UR sig nD τ) (Lvl := ℕ) (Val := Elt F) spec5 c [cc5_scratch0]) ∗ (∃ r, prngReg c r)) := rfl
theorem PhiS5_pos (c : Dev nD) (n : ℕ) (h : n ≤ cfg5.N) (hz : n ≠ 0) :
    PhiS5 V c n h = iprop(iprop(iprop(owns (c : Thread nD τ) scM5 fullShare ((outsAt5 V c (n - 1) (by omega)).2))
      ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-- The proof data of region 5: the arrays as the region finds them; after the body each input's buffer at its
    block and the result's at the accumulation's first component; the invariant carries the accumulator; nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem PhiS5_castSucc (c : Dev nD) (t : Fin cfg5.N) :
    (dat5 V c).Φ t.castSucc = PhiS5 V c t.val (Nat.le_of_lt t.isLt) := by
  dsimp only [dat5]; simp only [Fin.coe_castSucc]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = (outsAt5 V c t.val t.isLt).1 := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t)

set_option maxHeartbeats 8000000 in
/-- The body at any point: the closed forms say which case the point is in; the invariant hands the body the
    accumulator at what the point before left (at anything before the first point) and takes it back at this point's
    contents; away from the last fast coordinate the result's buffer is handed back as found. -/
theorem sound_body5 (c : Dev nD) (t : Fin cfg5.N) :
    bodyPre5 V c t ⊢ wp frame (wpE (defs₀ (F := F)) Variants.none c none) Set.univ (pointBody5 t) (fun _ => bodyPost5 V c t) := by
  unfold bodyPre5 bodyPost5 pointBody5
  simp only [before5_0, before5_1, before5_2, before5_3, before5_4]
  rw [show (dat5 V c).owesAt () t.succ = (dat5 V c).owesAt () t.castSucc from rfl]
  rw [show (dat5 V c).Φ t.succ = PhiS5 V c (t.val + 1) t.isLt from rfl, PhiS5_succ]
  have hN : t.val < 38318 := lt_of_lt_of_eq t.isLt (show cfg5.N = 38318 from N_5)
  by_cases h0 : t.val % 782 = 0
  · have h1 : ¬t.val % 782 = 781 := by omega
    rw [show (dat5 V c).leavesExact 0 t = owns (c : Thread nD τ) (ms5_0 t) fullShare ((dat5 V c).after 0 t) from by
      unfold Dat.leavesExact; rw [liveAt5_0 t], after5_0]
    rw [show (dat5 V c).leavesExact 1 t = owns (c : Thread nD τ) (ms5_1 t) fullShare ((dat5 V c).after 1 t) from by
      unfold Dat.leavesExact; rw [liveAt5_1 t], after5_1]
    rw [show (dat5 V c).leavesExact 2 t = owns (c : Thread nD τ) (ms5_2 t) fullShare ((dat5 V c).after 2 t) from by
      unfold Dat.leavesExact; rw [liveAt5_2 t], after5_2]
    rw [show (dat5 V c).leavesExact 3 t = owns (c : Thread nD τ) (ms5_3 t) fullShare ((dat5 V c).after 3 t) from by
      unfold Dat.leavesExact; rw [liveAt5_3 t], after5_3]
    rw [show (dat5 V c).leavesExact 4 t = owns (c : Thread nD τ) (ms5_4 t) fullShare ((dat5 V c).after 4 t) from by
      unfold Dat.leavesExact; rw [liveAt5_4 t], after5_4]
    rw [Dat.leavesExact_idle (dat5 V c) 5 t (idleAt5_5 t (fun h => h1 ((hcond5_1 t).mp h))) (noFlush5_5 t (fun h => h1 ((hcond5_1 t).mp h)))]
    rw [outsAt5_A V c t h0 h1]
    unfold sout5_A; (try dsimp only)
    by_cases hz : t.val = 0
    · rw [PhiS5_castSucc V c t, PhiS5_zero V c _ _ hz, PhiA5_eq]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply ((kernelRun5_A c (grid5.coords t) _ _ _ _ _ _ _ _ _ _ _ _ _ _ ((hcond5_0 t).mpr h0) (fun h => h1 ((hcond5_1 t).mp h)) (iblk5 V c 0 t) (iblk5 V c 1 t) (iblk5 V c 2 t) (iblk5 V c 3 t) (iblk5 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS HR Hg]
      · isplitl [HS HR]
        · isplitl [HS]
          · unfold owns; iexists _; isplitr
            swap; · iexact HS
            ipureintro; exact View.read_writes_of_cover _ _ _ _ _ (scover5_A c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS5_castSucc V c t, PhiS5_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply ((kernelRun5_A c (grid5.coords t) _ _ _ _ _ _ _ _ _ _ _ _ _ _ ((hcond5_0 t).mpr h0) (fun h => h1 ((hcond5_1 t).mp h)) (iblk5 V c 0 t) (iblk5 V c 1 t) (iblk5 V c 2 t) (iblk5 V c 3 t) (iblk5 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS HR Hg]
      · isplitl [HS HR]
        · isplitl [HS]
          · unfold owns; iexists _; isplitr
            swap; · iexact HS
            ipureintro; exact View.read_writes_of_cover _ _ _ _ _ (scover5_A c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    by_cases h1 : t.val % 782 = 781
    · rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [show (dat5 V c).leavesExact 3 t = owns (c : Thread nD τ) (ms5_3 t) fullShare ((dat5 V c).after 3 t) from by
        unfold Dat.leavesExact; rw [liveAt5_3 t], after5_3]
      rw [show (dat5 V c).leavesExact 4 t = owns (c : Thread nD τ) (ms5_4 t) fullShare ((dat5 V c).after 4 t) from by
        unfold Dat.leavesExact; rw [liveAt5_4 t], after5_4]
      rw [show (dat5 V c).leavesExact 5 t = owns (c : Thread nD τ) (ms5_5 t) fullShare ((dat5 V c).after 5 t) from by
        unfold Dat.leavesExact; rw [liveAt5_5 t ((hcond5_1 t).mpr h1)], after5_5]
      rw [outsAt5_C V c t h0 h1]
      unfold out5_C sout5_C; (try dsimp only)
      rw [PhiS5_castSucc V c t, PhiS5_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply ((kernelRun5_C c (grid5.coords t) _ _ _ _ _ _ _ _ _ _ _ _ _ _ (fun h => h0 ((hcond5_0 t).mp h)) ((hcond5_1 t).mpr h1) (iblk5 V c 0 t) (iblk5 V c 1 t) (iblk5 V c 2 t) (iblk5 V c 3 t) (iblk5 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%eo, H5⟩, ⟨%es, HS⟩⟩
      isplitl [HS HR Hg]
      · isplitl [HS HR]
        · isplitl [HS]
          · unfold owns; iexists _; isplitr
            swap; · iexact HS
            ipureintro; exact View.read_writes_of_cover _ _ _ _ _ (scover5_C c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover5_C c _ _ _ _ _ _ _ _ _ _ _ _ _ _ _ _ _ _ _ _ _ _ _)
    · rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [show (dat5 V c).leavesExact 3 t = owns (c : Thread nD τ) (ms5_3 t) fullShare ((dat5 V c).after 3 t) from by
        unfold Dat.leavesExact; rw [liveAt5_3 t], after5_3]
      rw [show (dat5 V c).leavesExact 4 t = owns (c : Thread nD τ) (ms5_4 t) fullShare ((dat5 V c).after 4 t) from by
        unfold Dat.leavesExact; rw [liveAt5_4 t], after5_4]
      rw [Dat.leavesExact_idle (dat5 V c) 5 t (idleAt5_5 t (fun h => h1 ((hcond5_1 t).mp h))) (noFlush5_5 t (fun h => h1 ((hcond5_1 t).mp h)))]
      rw [outsAt5_B V c t h0 h1]
      unfold sout5_B; (try dsimp only)
      rw [PhiS5_castSucc V c t, PhiS5_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply ((kernelRun5_B c (grid5.coords t) _ _ _ _ _ _ _ _ _ _ _ _ _ _ (fun h => h0 ((hcond5_0 t).mp h)) (fun h => h1 ((hcond5_1 t).mp h)) (iblk5 V c 0 t) (iblk5 V c 1 t) (iblk5 V c 2 t) (iblk5 V c 3 t) (iblk5 V c 4 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS HR Hg]
      · isplitl [HS HR]
        · isplitl [HS]
          · unfold owns; iexists _; isplitr
            swap; · iexact HS
            ipureintro; exact View.read_writes_of_cover _ _ _ _ _ (scover5_B c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation of region 5, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After the last point the invariant gives back what the launch handed over: the accumulator's contents are forgotten. -/
theorem hout5 (c : Dev nD) : (dat5 V c).Φ (Fin.last cfg5.N) ⊢ Pipeline.ΦA spec5 c := by
  rw [show (dat5 V c).Φ (Fin.last cfg5.N) = PhiS5 V c (Fin.last cfg5.N).val (Nat.le_of_lt_succ (Fin.last cfg5.N).isLt) from rfl,
    PhiS5_pos V c _ _ (by rw [Fin.val_last]; have : cfg5.N = 38318 := N_5; omega), PhiA5_eq]
  iintro ⟨⟨HS, HR⟩, Hg⟩
  isplitl [HS HR]
  · isplitl [HS]
    · iexists _; iexact HS
    iexact HR
  iexact Hg

end Cert.KernelIdeal.Hand

end
-- ==== Proof.KI.Run.lean ====
/-
  The whole run of the program: twenty items — stretches of host operations and six kernel regions — composed in
  order from the launch to the return.  The contents of every buffer at every boundary are named as a fold through
  the program (a host stretch applies its operations; a region leaves its arrays at what its write-backs wrote and
  every other buffer as it found it); each region is entered from the boundary before it and left at the one after;
  at the end every buffer is read at the last boundary's contents, and the argument arrays, which nothing writes, are
  there as launched.
-/
import proofs.«138531_j42417097015621_1_alg».proof.Proof.Gen.KernelIdeal.Launch
import proofs.«138531_j42417097015621_1_alg».proof.Proof.Gen.KernelIdeal.Skeleton
import Idealize.ShloMosaic.Lib.Pipeline.Kit
import proofs.«138531_j42417097015621_1_alg».proof.Proof.Gen.KernelIdeal.Regions
import proofs.«138531_j42417097015621_1_alg».proof.Proof.KI.Linear
import proofs.«138531_j42417097015621_1_alg».proof.Proof.KI.Gather1
import proofs.«138531_j42417097015621_1_alg».proof.Proof.KI.Scatter2
import proofs.«138531_j42417097015621_1_alg».proof.Proof.KI.Gather4
import proofs.«138531_j42417097015621_1_alg».proof.Proof.KI.Scatter5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's twenty items from the launch to the return

## The buffer contents at each boundary: a fold through @main -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After `hostOps0_1`. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
/-- After `hostOps0_2`. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- After `hostOps0_3`. -/
abbrev W4 : Dev nD → Valuation τ sig (Elt F) := fun c => StableHlo.after hostOps0_3 (W3 m ρ c)
abbrev V4 : (c : Dev nD) → (b : Ref sig .tc) → Buf (Elt F) ((c : Thread nD τ).loc b) := fun c b => W4 m ρ c b
/-- After `hostOps0_4`. -/
abbrev W5 : Dev nD → Valuation τ sig (Elt F) := fun c => StableHlo.after hostOps0_4 (W4 m ρ c)
abbrev V5 : (c : Dev nD) → (b : Ref sig .tc) → Buf (Elt F) ((c : Thread nD τ).loc b) := fun c b => W5 m ρ c b
/-- After `hostOps0_5`. -/
abbrev W6 : Dev nD → Valuation τ sig (Elt F) := fun c => StableHlo.after hostOps0_5 (W5 m ρ c)
abbrev V6 : (c : Dev nD) → (b : Ref sig .tc) → Buf (Elt F) ((c : Thread nD τ).loc b) := fun c b => W6 m ρ c b
/-- After `hostOps0_6`. -/
abbrev W7 : Dev nD → Valuation τ sig (Elt F) := fun c => StableHlo.after hostOps0_6 (W6 m ρ c)
abbrev V7 : (c : Dev nD) → (b : Ref sig .tc) → Buf (Elt F) ((c : Thread nD τ).loc b) := fun c b => W7 m ρ c b
/-- After `hostOps0_7`. -/
abbrev W8 : Dev nD → Valuation τ sig (Elt F) := fun c => StableHlo.after hostOps0_7 (W7 m ρ c)
abbrev V8 : (c : Dev nD) → (b : Ref sig .tc) → Buf (Elt F) ((c : Thread nD τ).loc b) := fun c b => W8 m ρ c b
/-- At region 0's exit: its arrays at what its write-backs leave, every other buffer as entered. -/
def W9 (c : Dev nD) : Valuation τ sig (Elt F) :=
  Pipeline.withArrays spec0 c (W8 m ρ c) fun w => (dat0 (V8 m ρ) c).arrAt w cfg0.N
theorem W9_arr (c : Dev nD) (w : Fin cfg0.W) :
    W9 m ρ c (Proc.devRef .tc (Pipeline.arrRef spec0 w)) = (dat0 (V8 m ρ) c).arrAt w cfg0.N := by
  unfold W9; exact Pipeline.withArrays_arr spec0 launch0.win.arr_inj c _ _ w
theorem W9_of_ne (c : Dev nD) (b : Ref sig .tc) (hb : ∀ w, Pipeline.arrRef spec0 w ≠ b) :
    W9 m ρ c (Proc.devRef .tc b) = W8 m ρ c (Proc.devRef .tc b) := by
  unfold W9; exact Pipeline.withArrays_of_ne spec0 c _ _ b hb
abbrev V9 : (c : Dev nD) → (b : Ref sig .tc) → Buf (Elt F) ((c : Thread nD τ).loc b) := fun c b => W9 m ρ c b
theorem hF0 (c : Dev nD) (w : Fin cfg0.W) : (dat0 (V8 m ρ) c).arrAt w cfg0.N = V9 m ρ c (Pipeline.arrRef spec0 w) :=
  (W9_arr m ρ c w).symm
theorem hrest0 (c : Dev nD) : ∀ b, b ∉ Finset.univ.image (Pipeline.arrRef spec0) → V9 m ρ c b = V8 m ρ c b :=
  fun b hb => W9_of_ne m ρ c b fun w e => hb (Finset.mem_image.mpr ⟨w, Finset.mem_univ _, e⟩)
/-- After `hostOps1`. -/
abbrev W10 : Dev nD → Valuation τ sig (Elt F) := fun c => StableHlo.after hostOps1 (W9 m ρ c)
abbrev V10 : (c : Dev nD) → (b : Ref sig .tc) → Buf (Elt F) ((c : Thread nD τ).loc b) := fun c b => W10 m ρ c b
/-- After `hostOps1_1`. -/
abbrev W11 : Dev nD → Valuation τ sig (Elt F) := fun c => StableHlo.after hostOps1_1 (W10 m ρ c)
abbrev V11 : (c : Dev nD) → (b : Ref sig .tc) → Buf (Elt F) ((c : Thread nD τ).loc b) := fun c b => W11 m ρ c b
/-- At region 1's exit: its arrays at what its write-backs leave, every other buffer as entered. -/
def W12 (c : Dev nD) : Valuation τ sig (Elt F) :=
  Pipeline.withArrays spec1 c (W11 m ρ c) fun w => (dat1 (V11 m ρ) c).arrAt w cfg1.N
theorem W12_arr (c : Dev nD) (w : Fin cfg1.W) :
    W12 m ρ c (Proc.devRef .tc (Pipeline.arrRef spec1 w)) = (dat1 (V11 m ρ) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m ρ c (Proc.devRef .tc b) = W11 m ρ c (Proc.devRef .tc b) := by
  unfold W12; exact Pipeline.withArrays_of_ne spec1 c _ _ b hb
abbrev V12 : (c : Dev nD) → (b : Ref sig .tc) → Buf (Elt F) ((c : Thread nD τ).loc b) := fun c b => W12 m ρ c b
theorem hF1 (c : Dev nD) (w : Fin cfg1.W) : (dat1 (V11 m ρ) c).arrAt w cfg1.N = V12 m ρ c (Pipeline.arrRef spec1 w) :=
  (W12_arr m ρ c w).symm
theorem hrest1 (c : Dev nD) : ∀ b, b ∉ Finset.univ.image (Pipeline.arrRef spec1) → V12 m ρ c b = V11 m ρ c b :=
  fun b hb => W12_of_ne m ρ c b fun w e => hb (Finset.mem_image.mpr ⟨w, Finset.mem_univ _, e⟩)
/-- At region 2's exit: its arrays at what its write-backs leave, every other buffer as entered. -/
def W13 (c : Dev nD) : Valuation τ sig (Elt F) :=
  Pipeline.withArrays spec2 c (W12 m ρ c) fun w => (dat2 (V12 m ρ) c).arrAt w cfg2.N
theorem W13_arr (c : Dev nD) (w : Fin cfg2.W) :
    W13 m ρ c (Proc.devRef .tc (Pipeline.arrRef spec2 w)) = (dat2 (V12 m ρ) c).arrAt w cfg2.N := by
  unfold W13; exact Pipeline.withArrays_arr spec2 launch2.win.arr_inj c _ _ w
theorem W13_of_ne (c : Dev nD) (b : Ref sig .tc) (hb : ∀ w, Pipeline.arrRef spec2 w ≠ b) :
    W13 m ρ c (Proc.devRef .tc b) = W12 m ρ c (Proc.devRef .tc b) := by
  unfold W13; exact Pipeline.withArrays_of_ne spec2 c _ _ b hb
abbrev V13 : (c : Dev nD) → (b : Ref sig .tc) → Buf (Elt F) ((c : Thread nD τ).loc b) := fun c b => W13 m ρ c b
theorem hF2 (c : Dev nD) (w : Fin cfg2.W) : (dat2 (V12 m ρ) c).arrAt w cfg2.N = V13 m ρ c (Pipeline.arrRef spec2 w) :=
  (W13_arr m ρ c w).symm
theorem hrest2 (c : Dev nD) : ∀ b, b ∉ Finset.univ.image (Pipeline.arrRef spec2) → V13 m ρ c b = V12 m ρ c b :=
  fun b hb => W13_of_ne m ρ c b fun w e => hb (Finset.mem_image.mpr ⟨w, Finset.mem_univ _, e⟩)
/-- After `hostOps3`. -/
abbrev W14 : Dev nD → Valuation τ sig (Elt F) := fun c => StableHlo.after hostOps3 (W13 m ρ c)
abbrev V14 : (c : Dev nD) → (b : Ref sig .tc) → Buf (Elt F) ((c : Thread nD τ).loc b) := fun c b => W14 m ρ c b
/-- At region 3's exit: its arrays at what its write-backs leave, every other buffer as entered. -/
def W15 (c : Dev nD) : Valuation τ sig (Elt F) :=
  Pipeline.withArrays spec3 c (W14 m ρ c) fun w => (dat3 (V14 m ρ) c).arrAt w cfg3.N
theorem W15_arr (c : Dev nD) (w : Fin cfg3.W) :
    W15 m ρ c (Proc.devRef .tc (Pipeline.arrRef spec3 w)) = (dat3 (V14 m ρ) c).arrAt w cfg3.N := by
  unfold W15; exact Pipeline.withArrays_arr spec3 launch3.win.arr_inj c _ _ w
theorem W15_of_ne (c : Dev nD) (b : Ref sig .tc) (hb : ∀ w, Pipeline.arrRef spec3 w ≠ b) :
    W15 m ρ c (Proc.devRef .tc b) = W14 m ρ c (Proc.devRef .tc b) := by
  unfold W15; exact Pipeline.withArrays_of_ne spec3 c _ _ b hb
abbrev V15 : (c : Dev nD) → (b : Ref sig .tc) → Buf (Elt F) ((c : Thread nD τ).loc b) := fun c b => W15 m ρ c b
theorem hF3 (c : Dev nD) (w : Fin cfg3.W) : (dat3 (V14 m ρ) c).arrAt w cfg3.N = V15 m ρ c (Pipeline.arrRef spec3 w) :=
  (W15_arr m ρ c w).symm
theorem hrest3 (c : Dev nD) : ∀ b, b ∉ Finset.univ.image (Pipeline.arrRef spec3) → V15 m ρ c b = V14 m ρ c b :=
  fun b hb => W15_of_ne m ρ c b fun w e => hb (Finset.mem_image.mpr ⟨w, Finset.mem_univ _, e⟩)
/-- After `hostOps4`. -/
abbrev W16 : Dev nD → Valuation τ sig (Elt F) := fun c => StableHlo.after hostOps4 (W15 m ρ c)
abbrev V16 : (c : Dev nD) → (b : Ref sig .tc) → Buf (Elt F) ((c : Thread nD τ).loc b) := fun c b => W16 m ρ c b
/-- After `hostOps4_1`. -/
abbrev W17 : Dev nD → Valuation τ sig (Elt F) := fun c => StableHlo.after hostOps4_1 (W16 m ρ c)
abbrev V17 : (c : Dev nD) → (b : Ref sig .tc) → Buf (Elt F) ((c : Thread nD τ).loc b) := fun c b => W17 m ρ c b
/-- At region 4's exit: its arrays at what its write-backs leave, every other buffer as entered. -/
def W18 (c : Dev nD) : Valuation τ sig (Elt F) :=
  Pipeline.withArrays spec4 c (W17 m ρ c) fun w => (dat4 (V17 m ρ) c).arrAt w cfg4.N
theorem W18_arr (c : Dev nD) (w : Fin cfg4.W) :
    W18 m ρ c (Proc.devRef .tc (Pipeline.arrRef spec4 w)) = (dat4 (V17 m ρ) c).arrAt w cfg4.N := by
  unfold W18; exact Pipeline.withArrays_arr spec4 launch4.win.arr_inj c _ _ w
theorem W18_of_ne (c : Dev nD) (b : Ref sig .tc) (hb : ∀ w, Pipeline.arrRef spec4 w ≠ b) :
    W18 m ρ c (Proc.devRef .tc b) = W17 m ρ c (Proc.devRef .tc b) := by
  unfold W18; exact Pipeline.withArrays_of_ne spec4 c _ _ b hb
abbrev V18 : (c : Dev nD) → (b : Ref sig .tc) → Buf (Elt F) ((c : Thread nD τ).loc b) := fun c b => W18 m ρ c b
theorem hF4 (c : Dev nD) (w : Fin cfg4.W) : (dat4 (V17 m ρ) c).arrAt w cfg4.N = V18 m ρ c (Pipeline.arrRef spec4 w) :=
  (W18_arr m ρ c w).symm
theorem hrest4 (c : Dev nD) : ∀ b, b ∉ Finset.univ.image (Pipeline.arrRef spec4) → V18 m ρ c b = V17 m ρ c b :=
  fun b hb => W18_of_ne m ρ c b fun w e => hb (Finset.mem_image.mpr ⟨w, Finset.mem_univ _, e⟩)
/-- At region 5's exit: its arrays at what its write-backs leave, every other buffer as entered. -/
def W19 (c : Dev nD) : Valuation τ sig (Elt F) :=
  Pipeline.withArrays spec5 c (W18 m ρ c) fun w => (dat5 (V18 m ρ) c).arrAt w cfg5.N
theorem W19_arr (c : Dev nD) (w : Fin cfg5.W) :
    W19 m ρ c (Proc.devRef .tc (Pipeline.arrRef spec5 w)) = (dat5 (V18 m ρ) c).arrAt w cfg5.N := by
  unfold W19; exact Pipeline.withArrays_arr spec5 launch5.win.arr_inj c _ _ w
theorem W19_of_ne (c : Dev nD) (b : Ref sig .tc) (hb : ∀ w, Pipeline.arrRef spec5 w ≠ b) :
    W19 m ρ c (Proc.devRef .tc b) = W18 m ρ c (Proc.devRef .tc b) := by
  unfold W19; exact Pipeline.withArrays_of_ne spec5 c _ _ b hb
abbrev V19 : (c : Dev nD) → (b : Ref sig .tc) → Buf (Elt F) ((c : Thread nD τ).loc b) := fun c b => W19 m ρ c b
theorem hF5 (c : Dev nD) (w : Fin cfg5.W) : (dat5 (V18 m ρ) c).arrAt w cfg5.N = V19 m ρ c (Pipeline.arrRef spec5 w) :=
  (W19_arr m ρ c w).symm
theorem hrest5 (c : Dev nD) : ∀ b, b ∉ Finset.univ.image (Pipeline.arrRef spec5) → V19 m ρ c b = V18 m ρ c b :=
  fun b hb => W19_of_ne m ρ c b fun w e => hb (Finset.mem_image.mpr ⟨w, Finset.mem_univ _, e⟩)
/-- After `hostOps6`. -/
abbrev W20 : Dev nD → Valuation τ sig (Elt F) := fun c => StableHlo.after hostOps6 (W19 m ρ c)
abbrev V20 : (c : Dev nD) → (b : Ref sig .tc) → Buf (Elt F) ((c : Thread nD τ).loc b) := fun c b => W20 m ρ c b

/-! ### The arguments end as launched -/
theorem keep0_main_arg0 (c : Dev nD) : W9 m ρ c (Proc.devRef .tc main_arg0) = W8 m ρ c (Proc.devRef .tc main_arg0) :=
  (W9_arr m ρ c 0).trans (((dat0 (V8 m ρ) c).arrAt_in 0 rfl _).trans (A_eq0 (V8 m ρ) c 0))
theorem keep0_main_arg1 (c : Dev nD) : W9 m ρ c (Proc.devRef .tc main_arg1) = W8 m ρ c (Proc.devRef .tc main_arg1) :=
  W9_of_ne m ρ c main_arg1 (by decide)
theorem keep0_main_arg2 (c : Dev nD) : W9 m ρ c (Proc.devRef .tc main_arg2) = W8 m ρ c (Proc.devRef .tc main_arg2) :=
  (W9_arr m ρ c 1).trans (((dat0 (V8 m ρ) c).arrAt_in 1 rfl _).trans (A_eq0 (V8 m ρ) c 1))
theorem keep0_main_arg3 (c : Dev nD) : W9 m ρ c (Proc.devRef .tc main_arg3) = W8 m ρ c (Proc.devRef .tc main_arg3) :=
  W9_of_ne m ρ c main_arg3 (by decide)
theorem keep0_main_arg4 (c : Dev nD) : W9 m ρ c (Proc.devRef .tc main_arg4) = W8 m ρ c (Proc.devRef .tc main_arg4) :=
  W9_of_ne m ρ c main_arg4 (by decide)
theorem keep0_main_arg5 (c : Dev nD) : W9 m ρ c (Proc.devRef .tc main_arg5) = W8 m ρ c (Proc.devRef .tc main_arg5) :=
  W9_of_ne m ρ c main_arg5 (by decide)
theorem keep1_main_arg0 (c : Dev nD) : W12 m ρ c (Proc.devRef .tc main_arg0) = W11 m ρ c (Proc.devRef .tc main_arg0) :=
  W12_of_ne m ρ c main_arg0 (by decide)
theorem keep1_main_arg1 (c : Dev nD) : W12 m ρ c (Proc.devRef .tc main_arg1) = W11 m ρ c (Proc.devRef .tc main_arg1) :=
  W12_of_ne m ρ c main_arg1 (by decide)
theorem keep1_main_arg2 (c : Dev nD) : W12 m ρ c (Proc.devRef .tc main_arg2) = W11 m ρ c (Proc.devRef .tc main_arg2) :=
  W12_of_ne m ρ c main_arg2 (by decide)
theorem keep1_main_arg3 (c : Dev nD) : W12 m ρ c (Proc.devRef .tc main_arg3) = W11 m ρ c (Proc.devRef .tc main_arg3) :=
  W12_of_ne m ρ c main_arg3 (by decide)
theorem keep1_main_arg4 (c : Dev nD) : W12 m ρ c (Proc.devRef .tc main_arg4) = W11 m ρ c (Proc.devRef .tc main_arg4) :=
  W12_of_ne m ρ c main_arg4 (by decide)
theorem keep1_main_arg5 (c : Dev nD) : W12 m ρ c (Proc.devRef .tc main_arg5) = W11 m ρ c (Proc.devRef .tc main_arg5) :=
  W12_of_ne m ρ c main_arg5 (by decide)
theorem keep2_main_arg0 (c : Dev nD) : W13 m ρ c (Proc.devRef .tc main_arg0) = W12 m ρ c (Proc.devRef .tc main_arg0) :=
  W13_of_ne m ρ c main_arg0 (by decide)
theorem keep2_main_arg1 (c : Dev nD) : W13 m ρ c (Proc.devRef .tc main_arg1) = W12 m ρ c (Proc.devRef .tc main_arg1) :=
  W13_of_ne m ρ c main_arg1 (by decide)
theorem keep2_main_arg2 (c : Dev nD) : W13 m ρ c (Proc.devRef .tc main_arg2) = W12 m ρ c (Proc.devRef .tc main_arg2) :=
  W13_of_ne m ρ c main_arg2 (by decide)
theorem keep2_main_arg3 (c : Dev nD) : W13 m ρ c (Proc.devRef .tc main_arg3) = W12 m ρ c (Proc.devRef .tc main_arg3) :=
  (W13_arr m ρ c 4).trans (((dat2 (V12 m ρ) c).arrAt_in 4 rfl _).trans (A_eq2 (V12 m ρ) c 4))
theorem keep2_main_arg4 (c : Dev nD) : W13 m ρ c (Proc.devRef .tc main_arg4) = W12 m ρ c (Proc.devRef .tc main_arg4) :=
  W13_of_ne m ρ c main_arg4 (by decide)
theorem keep2_main_arg5 (c : Dev nD) : W13 m ρ c (Proc.devRef .tc main_arg5) = W12 m ρ c (Proc.devRef .tc main_arg5) :=
  W13_of_ne m ρ c main_arg5 (by decide)
theorem keep3_main_arg0 (c : Dev nD) : W15 m ρ c (Proc.devRef .tc main_arg0) = W14 m ρ c (Proc.devRef .tc main_arg0) :=
  W15_of_ne m ρ c main_arg0 (by decide)
theorem keep3_main_arg1 (c : Dev nD) : W15 m ρ c (Proc.devRef .tc main_arg1) = W14 m ρ c (Proc.devRef .tc main_arg1) :=
  W15_of_ne m ρ c main_arg1 (by decide)
theorem keep3_main_arg2 (c : Dev nD) : W15 m ρ c (Proc.devRef .tc main_arg2) = W14 m ρ c (Proc.devRef .tc main_arg2) :=
  W15_of_ne m ρ c main_arg2 (by decide)
theorem keep3_main_arg3 (c : Dev nD) : W15 m ρ c (Proc.devRef .tc main_arg3) = W14 m ρ c (Proc.devRef .tc main_arg3) :=
  W15_of_ne m ρ c main_arg3 (by decide)
theorem keep3_main_arg4 (c : Dev nD) : W15 m ρ c (Proc.devRef .tc main_arg4) = W14 m ρ c (Proc.devRef .tc main_arg4) :=
  (W15_arr m ρ c 1).trans (((dat3 (V14 m ρ) c).arrAt_in 1 rfl _).trans (A_eq3 (V14 m ρ) c 1))
theorem keep3_main_arg5 (c : Dev nD) : W15 m ρ c (Proc.devRef .tc main_arg5) = W14 m ρ c (Proc.devRef .tc main_arg5) :=
  W15_of_ne m ρ c main_arg5 (by decide)
theorem keep4_main_arg0 (c : Dev nD) : W18 m ρ c (Proc.devRef .tc main_arg0) = W17 m ρ c (Proc.devRef .tc main_arg0) :=
  W18_of_ne m ρ c main_arg0 (by decide)
theorem keep4_main_arg1 (c : Dev nD) : W18 m ρ c (Proc.devRef .tc main_arg1) = W17 m ρ c (Proc.devRef .tc main_arg1) :=
  W18_of_ne m ρ c main_arg1 (by decide)
theorem keep4_main_arg2 (c : Dev nD) : W18 m ρ c (Proc.devRef .tc main_arg2) = W17 m ρ c (Proc.devRef .tc main_arg2) :=
  W18_of_ne m ρ c main_arg2 (by decide)
theorem keep4_main_arg3 (c : Dev nD) : W18 m ρ c (Proc.devRef .tc main_arg3) = W17 m ρ c (Proc.devRef .tc main_arg3) :=
  W18_of_ne m ρ c main_arg3 (by decide)
theorem keep4_main_arg4 (c : Dev nD) : W18 m ρ c (Proc.devRef .tc main_arg4) = W17 m ρ c (Proc.devRef .tc main_arg4) :=
  W18_of_ne m ρ c main_arg4 (by decide)
theorem keep4_main_arg5 (c : Dev nD) : W18 m ρ c (Proc.devRef .tc main_arg5) = W17 m ρ c (Proc.devRef .tc main_arg5) :=
  W18_of_ne m ρ c main_arg5 (by decide)
theorem keep5_main_arg0 (c : Dev nD) : W19 m ρ c (Proc.devRef .tc main_arg0) = W18 m ρ c (Proc.devRef .tc main_arg0) :=
  W19_of_ne m ρ c main_arg0 (by decide)
theorem keep5_main_arg1 (c : Dev nD) : W19 m ρ c (Proc.devRef .tc main_arg1) = W18 m ρ c (Proc.devRef .tc main_arg1) :=
  W19_of_ne m ρ c main_arg1 (by decide)
theorem keep5_main_arg2 (c : Dev nD) : W19 m ρ c (Proc.devRef .tc main_arg2) = W18 m ρ c (Proc.devRef .tc main_arg2) :=
  W19_of_ne m ρ c main_arg2 (by decide)
theorem keep5_main_arg3 (c : Dev nD) : W19 m ρ c (Proc.devRef .tc main_arg3) = W18 m ρ c (Proc.devRef .tc main_arg3) :=
  W19_of_ne m ρ c main_arg3 (by decide)
theorem keep5_main_arg4 (c : Dev nD) : W19 m ρ c (Proc.devRef .tc main_arg4) = W18 m ρ c (Proc.devRef .tc main_arg4) :=
  W19_of_ne m ρ c main_arg4 (by decide)
theorem keep5_main_arg5 (c : Dev nD) : W19 m ρ c (Proc.devRef .tc main_arg5) = W18 m ρ c (Proc.devRef .tc main_arg5) :=
  (W19_arr m ρ c 4).trans (((dat5 (V18 m ρ) c).arrAt_in 4 rfl _).trans (A_eq5 (V18 m ρ) c 4))
/-- `main_arg0` reaches the end as launched: no host operation writes it and every region either reads it through an
    input window or bypasses it. -/
theorem W20_main_arg0 (c : Dev nD) : W20 m ρ c (Proc.devRef .tc main_arg0) = m ((c : Thread nD τ).loc main_arg0) :=
  calc W20 m ρ c (Proc.devRef .tc main_arg0)
    _ = W19 m ρ c (Proc.devRef .tc main_arg0) := StableHlo.after_of_writes_sub hostOps6 _ hostOps6_writes (show main_arg0 ∉ hostOps6_W from by decide)
    _ = W18 m ρ c (Proc.devRef .tc main_arg0) := keep5_main_arg0 m ρ c
    _ = W17 m ρ c (Proc.devRef .tc main_arg0) := keep4_main_arg0 m ρ c
    _ = W16 m ρ c (Proc.devRef .tc main_arg0) := StableHlo.after_of_writes_sub hostOps4_1 _ hostOps4_1_writes (show main_arg0 ∉ hostOps4_1_W from by decide)
    _ = W15 m ρ c (Proc.devRef .tc main_arg0) := StableHlo.after_of_writes_sub hostOps4 _ hostOps4_writes (show main_arg0 ∉ hostOps4_W from by decide)
    _ = W14 m ρ c (Proc.devRef .tc main_arg0) := keep3_main_arg0 m ρ c
    _ = W13 m ρ c (Proc.devRef .tc main_arg0) := StableHlo.after_of_writes_sub hostOps3 _ hostOps3_writes (show main_arg0 ∉ hostOps3_W from by decide)
    _ = W12 m ρ c (Proc.devRef .tc main_arg0) := keep2_main_arg0 m ρ c
    _ = W11 m ρ c (Proc.devRef .tc main_arg0) := keep1_main_arg0 m ρ c
    _ = W10 m ρ c (Proc.devRef .tc main_arg0) := StableHlo.after_of_writes_sub hostOps1_1 _ hostOps1_1_writes (show main_arg0 ∉ hostOps1_1_W from by decide)
    _ = W9 m ρ c (Proc.devRef .tc main_arg0) := StableHlo.after_of_writes_sub hostOps1 _ hostOps1_writes (show main_arg0 ∉ hostOps1_W from by decide)
    _ = W8 m ρ c (Proc.devRef .tc main_arg0) := keep0_main_arg0 m ρ c
    _ = W7 m ρ c (Proc.devRef .tc main_arg0) := StableHlo.after_of_writes_sub hostOps0_7 _ hostOps0_7_writes (show main_arg0 ∉ hostOps0_7_W from by decide)
    _ = W6 m ρ c (Proc.devRef .tc main_arg0) := StableHlo.after_of_writes_sub hostOps0_6 _ hostOps0_6_writes (show main_arg0 ∉ hostOps0_6_W from by decide)
    _ = W5 m ρ c (Proc.devRef .tc main_arg0) := StableHlo.after_of_writes_sub hostOps0_5 _ hostOps0_5_writes (show main_arg0 ∉ hostOps0_5_W from by decide)
    _ = W4 m ρ c (Proc.devRef .tc main_arg0) := StableHlo.after_of_writes_sub hostOps0_4 _ hostOps0_4_writes (show main_arg0 ∉ hostOps0_4_W from by decide)
    _ = W3 m ρ c (Proc.devRef .tc main_arg0) := StableHlo.after_of_writes_sub hostOps0_3 _ hostOps0_3_writes (show main_arg0 ∉ hostOps0_3_W from by decide)
    _ = W2 m ρ c (Proc.devRef .tc main_arg0) := StableHlo.after_of_writes_sub hostOps0_2 _ hostOps0_2_writes (show main_arg0 ∉ hostOps0_2_W from by decide)
    _ = W1 m ρ c (Proc.devRef .tc main_arg0) := StableHlo.after_of_writes_sub hostOps0_1 _ hostOps0_1_writes (show main_arg0 ∉ hostOps0_1_W from by decide)
    _ = W0 m ρ c (Proc.devRef .tc main_arg0) := StableHlo.after_of_writes_sub hostOps0 _ hostOps0_writes (show main_arg0 ∉ hostOps0_W from by decide)
    _ = m ((c : Thread nD τ).loc main_arg0) := rfl
/-- `main_arg1` reaches the end as launched: no host operation writes it and every region either reads it through an
    input window or bypasses it. -/
theorem W20_main_arg1 (c : Dev nD) : W20 m ρ c (Proc.devRef .tc main_arg1) = m ((c : Thread nD τ).loc main_arg1) :=
  calc W20 m ρ c (Proc.devRef .tc main_arg1)
    _ = W19 m ρ c (Proc.devRef .tc main_arg1) := StableHlo.after_of_writes_sub hostOps6 _ hostOps6_writes (show main_arg1 ∉ hostOps6_W from by decide)
    _ = W18 m ρ c (Proc.devRef .tc main_arg1) := keep5_main_arg1 m ρ c
    _ = W17 m ρ c (Proc.devRef .tc main_arg1) := keep4_main_arg1 m ρ c
    _ = W16 m ρ c (Proc.devRef .tc main_arg1) := StableHlo.after_of_writes_sub hostOps4_1 _ hostOps4_1_writes (show main_arg1 ∉ hostOps4_1_W from by decide)
    _ = W15 m ρ c (Proc.devRef .tc main_arg1) := StableHlo.after_of_writes_sub hostOps4 _ hostOps4_writes (show main_arg1 ∉ hostOps4_W from by decide)
    _ = W14 m ρ c (Proc.devRef .tc main_arg1) := keep3_main_arg1 m ρ c
    _ = W13 m ρ c (Proc.devRef .tc main_arg1) := StableHlo.after_of_writes_sub hostOps3 _ hostOps3_writes (show main_arg1 ∉ hostOps3_W from by decide)
    _ = W12 m ρ c (Proc.devRef .tc main_arg1) := keep2_main_arg1 m ρ c
    _ = W11 m ρ c (Proc.devRef .tc main_arg1) := keep1_main_arg1 m ρ c
    _ = W10 m ρ c (Proc.devRef .tc main_arg1) := StableHlo.after_of_writes_sub hostOps1_1 _ hostOps1_1_writes (show main_arg1 ∉ hostOps1_1_W from by decide)
    _ = W9 m ρ c (Proc.devRef .tc main_arg1) := StableHlo.after_of_writes_sub hostOps1 _ hostOps1_writes (show main_arg1 ∉ hostOps1_W from by decide)
    _ = W8 m ρ c (Proc.devRef .tc main_arg1) := keep0_main_arg1 m ρ c
    _ = W7 m ρ c (Proc.devRef .tc main_arg1) := StableHlo.after_of_writes_sub hostOps0_7 _ hostOps0_7_writes (show main_arg1 ∉ hostOps0_7_W from by decide)
    _ = W6 m ρ c (Proc.devRef .tc main_arg1) := StableHlo.after_of_writes_sub hostOps0_6 _ hostOps0_6_writes (show main_arg1 ∉ hostOps0_6_W from by decide)
    _ = W5 m ρ c (Proc.devRef .tc main_arg1) := StableHlo.after_of_writes_sub hostOps0_5 _ hostOps0_5_writes (show main_arg1 ∉ hostOps0_5_W from by decide)
    _ = W4 m ρ c (Proc.devRef .tc main_arg1) := StableHlo.after_of_writes_sub hostOps0_4 _ hostOps0_4_writes (show main_arg1 ∉ hostOps0_4_W from by decide)
    _ = W3 m ρ c (Proc.devRef .tc main_arg1) := StableHlo.after_of_writes_sub hostOps0_3 _ hostOps0_3_writes (show main_arg1 ∉ hostOps0_3_W from by decide)
    _ = W2 m ρ c (Proc.devRef .tc main_arg1) := StableHlo.after_of_writes_sub hostOps0_2 _ hostOps0_2_writes (show main_arg1 ∉ hostOps0_2_W from by decide)
    _ = W1 m ρ c (Proc.devRef .tc main_arg1) := StableHlo.after_of_writes_sub hostOps0_1 _ hostOps0_1_writes (show main_arg1 ∉ hostOps0_1_W from by decide)
    _ = W0 m ρ c (Proc.devRef .tc main_arg1) := StableHlo.after_of_writes_sub hostOps0 _ hostOps0_writes (show main_arg1 ∉ hostOps0_W from by decide)
    _ = m ((c : Thread nD τ).loc main_arg1) := rfl
/-- `main_arg2` reaches the end as launched: no host operation writes it and every region either reads it through an
    input window or bypasses it. -/
theorem W20_main_arg2 (c : Dev nD) : W20 m ρ c (Proc.devRef .tc main_arg2) = m ((c : Thread nD τ).loc main_arg2) :=
  calc W20 m ρ c (Proc.devRef .tc main_arg2)
    _ = W19 m ρ c (Proc.devRef .tc main_arg2) := StableHlo.after_of_writes_sub hostOps6 _ hostOps6_writes (show main_arg2 ∉ hostOps6_W from by decide)
    _ = W18 m ρ c (Proc.devRef .tc main_arg2) := keep5_main_arg2 m ρ c
    _ = W17 m ρ c (Proc.devRef .tc main_arg2) := keep4_main_arg2 m ρ c
    _ = W16 m ρ c (Proc.devRef .tc main_arg2) := StableHlo.after_of_writes_sub hostOps4_1 _ hostOps4_1_writes (show main_arg2 ∉ hostOps4_1_W from by decide)
    _ = W15 m ρ c (Proc.devRef .tc main_arg2) := StableHlo.after_of_writes_sub hostOps4 _ hostOps4_writes (show main_arg2 ∉ hostOps4_W from by decide)
    _ = W14 m ρ c (Proc.devRef .tc main_arg2) := keep3_main_arg2 m ρ c
    _ = W13 m ρ c (Proc.devRef .tc main_arg2) := StableHlo.after_of_writes_sub hostOps3 _ hostOps3_writes (show main_arg2 ∉ hostOps3_W from by decide)
    _ = W12 m ρ c (Proc.devRef .tc main_arg2) := keep2_main_arg2 m ρ c
    _ = W11 m ρ c (Proc.devRef .tc main_arg2) := keep1_main_arg2 m ρ c
    _ = W10 m ρ c (Proc.devRef .tc main_arg2) := StableHlo.after_of_writes_sub hostOps1_1 _ hostOps1_1_writes (show main_arg2 ∉ hostOps1_1_W from by decide)
    _ = W9 m ρ c (Proc.devRef .tc main_arg2) := StableHlo.after_of_writes_sub hostOps1 _ hostOps1_writes (show main_arg2 ∉ hostOps1_W from by decide)
    _ = W8 m ρ c (Proc.devRef .tc main_arg2) := keep0_main_arg2 m ρ c
    _ = W7 m ρ c (Proc.devRef .tc main_arg2) := StableHlo.after_of_writes_sub hostOps0_7 _ hostOps0_7_writes (show main_arg2 ∉ hostOps0_7_W from by decide)
    _ = W6 m ρ c (Proc.devRef .tc main_arg2) := StableHlo.after_of_writes_sub hostOps0_6 _ hostOps0_6_writes (show main_arg2 ∉ hostOps0_6_W from by decide)
    _ = W5 m ρ c (Proc.devRef .tc main_arg2) := StableHlo.after_of_writes_sub hostOps0_5 _ hostOps0_5_writes (show main_arg2 ∉ hostOps0_5_W from by decide)
    _ = W4 m ρ c (Proc.devRef .tc main_arg2) := StableHlo.after_of_writes_sub hostOps0_4 _ hostOps0_4_writes (show main_arg2 ∉ hostOps0_4_W from by decide)
    _ = W3 m ρ c (Proc.devRef .tc main_arg2) := StableHlo.after_of_writes_sub hostOps0_3 _ hostOps0_3_writes (show main_arg2 ∉ hostOps0_3_W from by decide)
    _ = W2 m ρ c (Proc.devRef .tc main_arg2) := StableHlo.after_of_writes_sub hostOps0_2 _ hostOps0_2_writes (show main_arg2 ∉ hostOps0_2_W from by decide)
    _ = W1 m ρ c (Proc.devRef .tc main_arg2) := StableHlo.after_of_writes_sub hostOps0_1 _ hostOps0_1_writes (show main_arg2 ∉ hostOps0_1_W from by decide)
    _ = W0 m ρ c (Proc.devRef .tc main_arg2) := StableHlo.after_of_writes_sub hostOps0 _ hostOps0_writes (show main_arg2 ∉ hostOps0_W from by decide)
    _ = m ((c : Thread nD τ).loc main_arg2) := rfl
/-- `main_arg3` reaches the end as launched: no host operation writes it and every region either reads it through an
    input window or bypasses it. -/
theorem W20_main_arg3 (c : Dev nD) : W20 m ρ c (Proc.devRef .tc main_arg3) = m ((c : Thread nD τ).loc main_arg3) :=
  calc W20 m ρ c (Proc.devRef .tc main_arg3)
    _ = W19 m ρ c (Proc.devRef .tc main_arg3) := StableHlo.after_of_writes_sub hostOps6 _ hostOps6_writes (show main_arg3 ∉ hostOps6_W from by decide)
    _ = W18 m ρ c (Proc.devRef .tc main_arg3) := keep5_main_arg3 m ρ c
    _ = W17 m ρ c (Proc.devRef .tc main_arg3) := keep4_main_arg3 m ρ c
    _ = W16 m ρ c (Proc.devRef .tc main_arg3) := StableHlo.after_of_writes_sub hostOps4_1 _ hostOps4_1_writes (show main_arg3 ∉ hostOps4_1_W from by decide)
    _ = W15 m ρ c (Proc.devRef .tc main_arg3) := StableHlo.after_of_writes_sub hostOps4 _ hostOps4_writes (show main_arg3 ∉ hostOps4_W from by decide)
    _ = W14 m ρ c (Proc.devRef .tc main_arg3) := keep3_main_arg3 m ρ c
    _ = W13 m ρ c (Proc.devRef .tc main_arg3) := StableHlo.after_of_writes_sub hostOps3 _ hostOps3_writes (show main_arg3 ∉ hostOps3_W from by decide)
    _ = W12 m ρ c (Proc.devRef .tc main_arg3) := keep2_main_arg3 m ρ c
    _ = W11 m ρ c (Proc.devRef .tc main_arg3) := keep1_main_arg3 m ρ c
    _ = W10 m ρ c (Proc.devRef .tc main_arg3) := StableHlo.after_of_writes_sub hostOps1_1 _ hostOps1_1_writes (show main_arg3 ∉ hostOps1_1_W from by decide)
    _ = W9 m ρ c (Proc.devRef .tc main_arg3) := StableHlo.after_of_writes_sub hostOps1 _ hostOps1_writes (show main_arg3 ∉ hostOps1_W from by decide)
    _ = W8 m ρ c (Proc.devRef .tc main_arg3) := keep0_main_arg3 m ρ c
    _ = W7 m ρ c (Proc.devRef .tc main_arg3) := StableHlo.after_of_writes_sub hostOps0_7 _ hostOps0_7_writes (show main_arg3 ∉ hostOps0_7_W from by decide)
    _ = W6 m ρ c (Proc.devRef .tc main_arg3) := StableHlo.after_of_writes_sub hostOps0_6 _ hostOps0_6_writes (show main_arg3 ∉ hostOps0_6_W from by decide)
    _ = W5 m ρ c (Proc.devRef .tc main_arg3) := StableHlo.after_of_writes_sub hostOps0_5 _ hostOps0_5_writes (show main_arg3 ∉ hostOps0_5_W from by decide)
    _ = W4 m ρ c (Proc.devRef .tc main_arg3) := StableHlo.after_of_writes_sub hostOps0_4 _ hostOps0_4_writes (show main_arg3 ∉ hostOps0_4_W from by decide)
    _ = W3 m ρ c (Proc.devRef .tc main_arg3) := StableHlo.after_of_writes_sub hostOps0_3 _ hostOps0_3_writes (show main_arg3 ∉ hostOps0_3_W from by decide)
    _ = W2 m ρ c (Proc.devRef .tc main_arg3) := StableHlo.after_of_writes_sub hostOps0_2 _ hostOps0_2_writes (show main_arg3 ∉ hostOps0_2_W from by decide)
    _ = W1 m ρ c (Proc.devRef .tc main_arg3) := StableHlo.after_of_writes_sub hostOps0_1 _ hostOps0_1_writes (show main_arg3 ∉ hostOps0_1_W from by decide)
    _ = W0 m ρ c (Proc.devRef .tc main_arg3) := StableHlo.after_of_writes_sub hostOps0 _ hostOps0_writes (show main_arg3 ∉ hostOps0_W from by decide)
    _ = m ((c : Thread nD τ).loc main_arg3) := rfl
/-- `main_arg4` reaches the end as launched: no host operation writes it and every region either reads it through an
    input window or bypasses it. -/
theorem W20_main_arg4 (c : Dev nD) : W20 m ρ c (Proc.devRef .tc main_arg4) = m ((c : Thread nD τ).loc main_arg4) :=
  calc W20 m ρ c (Proc.devRef .tc main_arg4)
    _ = W19 m ρ c (Proc.devRef .tc main_arg4) := StableHlo.after_of_writes_sub hostOps6 _ hostOps6_writes (show main_arg4 ∉ hostOps6_W from by decide)
    _ = W18 m ρ c (Proc.devRef .tc main_arg4) := keep5_main_arg4 m ρ c
    _ = W17 m ρ c (Proc.devRef .tc main_arg4) := keep4_main_arg4 m ρ c
    _ = W16 m ρ c (Proc.devRef .tc main_arg4) := StableHlo.after_of_writes_sub hostOps4_1 _ hostOps4_1_writes (show main_arg4 ∉ hostOps4_1_W from by decide)
    _ = W15 m ρ c (Proc.devRef .tc main_arg4) := StableHlo.after_of_writes_sub hostOps4 _ hostOps4_writes (show main_arg4 ∉ hostOps4_W from by decide)
    _ = W14 m ρ c (Proc.devRef .tc main_arg4) := keep3_main_arg4 m ρ c
    _ = W13 m ρ c (Proc.devRef .tc main_arg4) := StableHlo.after_of_writes_sub hostOps3 _ hostOps3_writes (show main_arg4 ∉ hostOps3_W from by decide)
    _ = W12 m ρ c (Proc.devRef .tc main_arg4) := keep2_main_arg4 m ρ c
    _ = W11 m ρ c (Proc.devRef .tc main_arg4) := keep1_main_arg4 m ρ c
    _ = W10 m ρ c (Proc.devRef .tc main_arg4) := StableHlo.after_of_writes_sub hostOps1_1 _ hostOps1_1_writes (show main_arg4 ∉ hostOps1_1_W from by decide)
    _ = W9 m ρ c (Proc.devRef .tc main_arg4) := StableHlo.after_of_writes_sub hostOps1 _ hostOps1_writes (show main_arg4 ∉ hostOps1_W from by decide)
    _ = W8 m ρ c (Proc.devRef .tc main_arg4) := keep0_main_arg4 m ρ c
    _ = W7 m ρ c (Proc.devRef .tc main_arg4) := StableHlo.after_of_writes_sub hostOps0_7 _ hostOps0_7_writes (show main_arg4 ∉ hostOps0_7_W from by decide)
    _ = W6 m ρ c (Proc.devRef .tc main_arg4) := StableHlo.after_of_writes_sub hostOps0_6 _ hostOps0_6_writes (show main_arg4 ∉ hostOps0_6_W from by decide)
    _ = W5 m ρ c (Proc.devRef .tc main_arg4) := StableHlo.after_of_writes_sub hostOps0_5 _ hostOps0_5_writes (show main_arg4 ∉ hostOps0_5_W from by decide)
    _ = W4 m ρ c (Proc.devRef .tc main_arg4) := StableHlo.after_of_writes_sub hostOps0_4 _ hostOps0_4_writes (show main_arg4 ∉ hostOps0_4_W from by decide)
    _ = W3 m ρ c (Proc.devRef .tc main_arg4) := StableHlo.after_of_writes_sub hostOps0_3 _ hostOps0_3_writes (show main_arg4 ∉ hostOps0_3_W from by decide)
    _ = W2 m ρ c (Proc.devRef .tc main_arg4) := StableHlo.after_of_writes_sub hostOps0_2 _ hostOps0_2_writes (show main_arg4 ∉ hostOps0_2_W from by decide)
    _ = W1 m ρ c (Proc.devRef .tc main_arg4) := StableHlo.after_of_writes_sub hostOps0_1 _ hostOps0_1_writes (show main_arg4 ∉ hostOps0_1_W from by decide)
    _ = W0 m ρ c (Proc.devRef .tc main_arg4) := StableHlo.after_of_writes_sub hostOps0 _ hostOps0_writes (show main_arg4 ∉ hostOps0_W from by decide)
    _ = m ((c : Thread nD τ).loc main_arg4) := rfl
/-- `main_arg5` reaches the end as launched: no host operation writes it and every region either reads it through an
    input window or bypasses it. -/
theorem W20_main_arg5 (c : Dev nD) : W20 m ρ c (Proc.devRef .tc main_arg5) = m ((c : Thread nD τ).loc main_arg5) :=
  calc W20 m ρ c (Proc.devRef .tc main_arg5)
    _ = W19 m ρ c (Proc.devRef .tc main_arg5) := StableHlo.after_of_writes_sub hostOps6 _ hostOps6_writes (show main_arg5 ∉ hostOps6_W from by decide)
    _ = W18 m ρ c (Proc.devRef .tc main_arg5) := keep5_main_arg5 m ρ c
    _ = W17 m ρ c (Proc.devRef .tc main_arg5) := keep4_main_arg5 m ρ c
    _ = W16 m ρ c (Proc.devRef .tc main_arg5) := StableHlo.after_of_writes_sub hostOps4_1 _ hostOps4_1_writes (show main_arg5 ∉ hostOps4_1_W from by decide)
    _ = W15 m ρ c (Proc.devRef .tc main_arg5) := StableHlo.after_of_writes_sub hostOps4 _ hostOps4_writes (show main_arg5 ∉ hostOps4_W from by decide)
    _ = W14 m ρ c (Proc.devRef .tc main_arg5) := keep3_main_arg5 m ρ c
    _ = W13 m ρ c (Proc.devRef .tc main_arg5) := StableHlo.after_of_writes_sub hostOps3 _ hostOps3_writes (show main_arg5 ∉ hostOps3_W from by decide)
    _ = W12 m ρ c (Proc.devRef .tc main_arg5) := keep2_main_arg5 m ρ c
    _ = W11 m ρ c (Proc.devRef .tc main_arg5) := keep1_main_arg5 m ρ c
    _ = W10 m ρ c (Proc.devRef .tc main_arg5) := StableHlo.after_of_writes_sub hostOps1_1 _ hostOps1_1_writes (show main_arg5 ∉ hostOps1_1_W from by decide)
    _ = W9 m ρ c (Proc.devRef .tc main_arg5) := StableHlo.after_of_writes_sub hostOps1 _ hostOps1_writes (show main_arg5 ∉ hostOps1_W from by decide)
    _ = W8 m ρ c (Proc.devRef .tc main_arg5) := keep0_main_arg5 m ρ c
    _ = W7 m ρ c (Proc.devRef .tc main_arg5) := StableHlo.after_of_writes_sub hostOps0_7 _ hostOps0_7_writes (show main_arg5 ∉ hostOps0_7_W from by decide)
    _ = W6 m ρ c (Proc.devRef .tc main_arg5) := StableHlo.after_of_writes_sub hostOps0_6 _ hostOps0_6_writes (show main_arg5 ∉ hostOps0_6_W from by decide)
    _ = W5 m ρ c (Proc.devRef .tc main_arg5) := StableHlo.after_of_writes_sub hostOps0_5 _ hostOps0_5_writes (show main_arg5 ∉ hostOps0_5_W from by decide)
    _ = W4 m ρ c (Proc.devRef .tc main_arg5) := StableHlo.after_of_writes_sub hostOps0_4 _ hostOps0_4_writes (show main_arg5 ∉ hostOps0_4_W from by decide)
    _ = W3 m ρ c (Proc.devRef .tc main_arg5) := StableHlo.after_of_writes_sub hostOps0_3 _ hostOps0_3_writes (show main_arg5 ∉ hostOps0_3_W from by decide)
    _ = W2 m ρ c (Proc.devRef .tc main_arg5) := StableHlo.after_of_writes_sub hostOps0_2 _ hostOps0_2_writes (show main_arg5 ∉ hostOps0_2_W from by decide)
    _ = W1 m ρ c (Proc.devRef .tc main_arg5) := StableHlo.after_of_writes_sub hostOps0_1 _ hostOps0_1_writes (show main_arg5 ∉ hostOps0_1_W from by decide)
    _ = W0 m ρ c (Proc.devRef .tc main_arg5) := StableHlo.after_of_writes_sub hostOps0 _ hostOps0_writes (show main_arg5 ∉ hostOps0_W from by decide)
    _ = m ((c : Thread nD τ).loc main_arg5) := rfl

/-! ## The proof data family and the thread state -/

abbrev adm : (p : Fin 6) → (pcfgs (F := F) p).Adm := fun p => (cfgs p).toPCfg_adm
/-- Every region's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (V8 m ρ) c
  | ⟨1, _⟩ => fun c => dat1 (V11 m ρ) c
  | ⟨2, _⟩ => fun c => dat2 (V12 m ρ) c
  | ⟨3, _⟩ => fun c => dat3 (V14 m ρ) c
  | ⟨4, _⟩ => fun c => dat4 (V17 m ρ) c
  | ⟨5, _⟩ => fun c => dat5 (V18 m ρ) c
  | ⟨_ + 6, h⟩ => absurd h (Nat.not_lt.2 (Nat.le_add_left _ _))
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at `W8`, left at `W9`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V8 m ρ) c).loose
  hwaits := Pipeline.hwaits_of_owed_zero _ _ _ _ L lv 0 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec0 c (V8 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V8 m ρ c) (V9 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W11`, left at `W12`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V11 m ρ) c).loose
  hwaits := Pipeline.hwaits_of_owed_zero _ _ _ _ L lv 1 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec1 c (V11 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (V11 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V11 m ρ c) (V12 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W12`, left at `W13`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V12 m ρ) c).loose
  hwaits := Pipeline.hwaits_of_owed_zero _ _ _ _ L lv 2 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec2 c (V12 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (hout2 (V12 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V12 m ρ c) (V13 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W14`, left at `W15`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V14 m ρ) c).loose
  hwaits := Pipeline.hwaits_of_owed_zero _ _ _ _ L lv 3 fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := UR sig nD τ) (Lvl := ℕ) spec3 c (V14 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V14 m ρ c) (V15 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W17`, left at `W18`. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V17 m ρ) c).loose
  hwaits := Pipeline.hwaits_of_owed_zero _ _ _ _ L lv 4 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec4 c (V17 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none]
    refine (hout4 (V17 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V17 m ρ c) (V18 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W18`, left at `W19`. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V18 m ρ) c).loose
  hwaits := Pipeline.hwaits_of_owed_zero _ _ _ _ L lv 5 fun _ _ => rfl
  pre c := iprop(StableHlo.held (c : Thread nD τ) (Pipeline.ucRefs τ sig) (W18 m ρ c) ∗ R c)
  post c := iprop(StableHlo.held (c : Thread nD τ) (Pipeline.ucRefs τ sig) (W19 m ρ c) ∗ R c)
  X c := iprop(∃ r, prngReg c r)
  Y c := iprop(∃ r, prngReg c r)
  Z c := Pipeline.unscopedRest (Ix := Unit) (Name := ℕ) (U := UR sig nD τ) (Lvl := ℕ) spec5 c (V18 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V18 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none]
    refine (hout5 (V18 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V18 m ρ c) (V19 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .region (reg0 m ρ),
    .host (hseg hostOps1 hostOps1_sub hostOps1_fresh (W9 m ρ)),
    .host (hseg hostOps1_1 hostOps1_1_sub hostOps1_1_fresh (W10 m ρ)),
    .region (reg1 m ρ),
    .region (reg2 m ρ),
    .host (hseg hostOps3 hostOps3_sub hostOps3_fresh (W13 m ρ)),
    .region (reg3 m ρ),
    .host (hseg hostOps4 hostOps4_sub hostOps4_fresh (W15 m ρ)),
    .host (hseg hostOps4_1 hostOps4_1_sub hostOps4_1_fresh (W16 m ρ)),
    .region (reg4 m ρ),
    .region (reg5 m ρ),
    .host (hseg hostOps6 hostOps6_sub hostOps6_fresh (W19 m ρ)) ]

theorem main_run (c : Dev nD) : main (F := F) c = Pipeline.Seg.run (segs m ρ) := (main_chain c).trans (by chain_rfl)

set_option backward.isDefEq.respectTransparency.types false in
/-- THE RUN: from any memory with zero counters, every weakly fair execution of @main terminates, nothing faulting,
    and in every final state each unscoped buffer of each core holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W20 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W20 m ρ c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W20 m ρ c) ∗ R c)
        ⊢ iprop(iprop(StableHlo.held (c : Thread nD τ) (Pipeline.ucRefs τ sig) (W20 m ρ c) ∗ ∃ r, prngReg c r)
            ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
    (h c _ (mem_uc main_arg0 (by decide))).trans (W20_main_arg0 m ρ c),
    (h c _ (mem_uc main_arg1 (by decide))).trans (W20_main_arg1 m ρ c),
    (h c _ (mem_uc main_arg2 (by decide))).trans (W20_main_arg2 m ρ c),
    (h c _ (mem_uc main_arg3 (by decide))).trans (W20_main_arg3 m ρ c),
    (h c _ (mem_uc main_arg4 (by decide))).trans (W20_main_arg4 m ρ c),
    (h c _ (mem_uc main_arg5 (by decide))).trans (W20_main_arg5 m ρ c)⟩) (run_main m ρ)

end Cert.KernelIdeal.Hand

end
-- ==== Proof.Spec.lean ====
/-
  The mathematics both programs compute, as ONE function of the argument arrays over the extended reals.

  A graph on 100000 nodes is given by 3200000 directed edges `(src e, dst e)`, each end an index into the
  node axis.  With `deg n = 1 + #{e | dst e = n}` (every node also carries a self-loop) and
  `dinv n = deg n ^ (-1/2)`, one graph-convolution layer sends node features `h` (one row per node) and a
  bias `b` to

      agg h b n d = (∑ over the edges e into n of  h (src e) d * (dinv (src e) * dinv (dst e)))
                    + (dinv n * dinv n) * h n d + b d :

  the symmetric normalisation `D^(-1/2) (A + I) D^(-1/2)` applied to `h`, the self-loop's term written apart.
  The network is two such layers around dense maps: `agg (relu (agg (x W1) b1) W2) b2`.

  Everything here is stated over curried index types of the literal extents, so that neither program's
  shapes are mentioned; the sums are never evaluated.
-/
import Idealize.ShloMosaic.PureOps.Ideal
import Mathlib.Algebra.BigOperators.Group.Finset.Basic
import Mathlib.Data.EReal.Basic

noncomputable section

namespace Cert.Spec

open Idealize.ShloMosaic

/-- A node index read off a 32-bit word: the signed value, brought into `[0, 99999]`.  On a word that already
    lies in that range this is the word's value; the range is what the precondition states of every edge end. -/
def nodeOf (v : BitVec 32) : Fin 100000 := ⟨min v.toInt.toNat 99999, by omega⟩

/-- The edge list: row 0 holds the sources, row 1 the targets. -/
abbrev Edges : Type := Fin 2 → Fin 3200000 → BitVec 32

/-- The source node of edge `e`. -/
def src (ei : Edges) (e : Fin 3200000) : Fin 100000 := nodeOf (ei 0 e)
/-- The target node of edge `e`. -/
def dst (ei : Edges) (e : Fin 3200000) : Fin 100000 := nodeOf (ei 1 e)

/-- The edges whose target is node `n`. -/
def into (ei : Edges) (n : Fin 100000) : Finset (Fin 3200000) := Finset.univ.filter fun e => dst ei e = n

/-- The degree of node `n` in the graph with a self-loop at every node: one more than its in-degree. -/
def deg (ei : Edges) (n : Fin 100000) : EReal := (∑ _e ∈ into ei n, (1 : EReal)) + 1

/-- `deg n ^ (-1/2)`. -/
def dinv (ei : Edges) (n : Fin 100000) : EReal := Ideal.rsqrt (deg ei n)

/-- The weight of edge `e` under the symmetric normalisation. -/
def norm (ei : Edges) (e : Fin 3200000) : EReal := dinv ei (src ei e) * dinv ei (dst ei e)

/-- A dense map: the rows of `x` times the matrix `W`. -/
def lin {K D : Nat} (x : Fin 100000 → Fin K → EReal) (W : Fin K → Fin D → EReal) (n : Fin 100000) (d : Fin D) : EReal :=
  ∑ k : Fin K, x n k * W k d

/-- One layer's aggregation: the normalised sum over the edges into `n`, the self-loop's term, the bias. -/
def agg {D : Nat} (ei : Edges) (h : Fin 100000 → Fin D → EReal) (b : Fin D → EReal) (n : Fin 100000) (d : Fin D) : EReal :=
  (∑ e ∈ into ei n, h (src ei e) d * norm ei e) + (dinv ei n * dinv ei n) * h n d + b d

/-- The positive part, entry by entry. -/
def relu {D : Nat} (h : Fin 100000 → Fin D → EReal) (n : Fin 100000) (d : Fin D) : EReal := max (h n d) 0

/-- THE RESULT: two layers, the first followed by the positive part. -/
def gcn (x : Fin 100000 → Fin 128 → EReal) (ei : Edges) (W1 : Fin 128 → Fin 64 → EReal) (b1 : Fin 64 → EReal)
    (W2 : Fin 64 → Fin 32 → EReal) (b2 : Fin 32 → EReal) : Fin 100000 → Fin 32 → EReal :=
  agg ei (lin (relu (agg ei (lin x W1) b1)) W2) b2

end Cert.Spec

end
-- ==== Proof.KI.Carry.lean ====
/-
  Which buffers survive which stretches of the program: each array a later region reads was written once (by the
  host glue, or by an earlier region) and is touched by nothing in between — a host stretch writes only its own
  results, a region changes only its own output array and leaves the arrays it reads as it found them.
-/
import proofs.«138531_j42417097015621_1_alg».proof.Proof.Gen.KernelIdeal.Launch
import proofs.«138531_j42417097015621_1_alg».proof.Proof.Gen.KernelIdeal.Skeleton
import Idealize.ShloMosaic.Lib.Pipeline.Kit
import proofs.«138531_j42417097015621_1_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- `main_v26` is not written between boundaries 8 and 11. -/
theorem carry_main_v26_8_11 (c : Dev nD) : W11 m ρ c (Proc.devRef .tc main_v26) = W8 m ρ c (Proc.devRef .tc main_v26) :=
  calc W11 m ρ c (Proc.devRef .tc main_v26)
    _ = W10 m ρ c (Proc.devRef .tc main_v26) := StableHlo.after_of_writes_sub hostOps1_1 _ hostOps1_1_writes (show main_v26 ∉ hostOps1_1_W from by decide)
    _ = W9 m ρ c (Proc.devRef .tc main_v26) := StableHlo.after_of_writes_sub hostOps1 _ hostOps1_writes (show main_v26 ∉ hostOps1_W from by decide)
    _ = W8 m ρ c (Proc.devRef .tc main_v26) := W9_of_ne m ρ c main_v26 (by decide)

/-- `main_v26` is not written between boundaries 8 and 17. -/
theorem carry_main_v26_8_17 (c : Dev nD) : W17 m ρ c (Proc.devRef .tc main_v26) = W8 m ρ c (Proc.devRef .tc main_v26) :=
  calc W17 m ρ c (Proc.devRef .tc main_v26)
    _ = W16 m ρ c (Proc.devRef .tc main_v26) := StableHlo.after_of_writes_sub hostOps4_1 _ hostOps4_1_writes (show main_v26 ∉ hostOps4_1_W from by decide)
    _ = W15 m ρ c (Proc.devRef .tc main_v26) := StableHlo.after_of_writes_sub hostOps4 _ hostOps4_writes (show main_v26 ∉ hostOps4_W from by decide)
    _ = W14 m ρ c (Proc.devRef .tc main_v26) := W15_of_ne m ρ c main_v26 (by decide)
    _ = W13 m ρ c (Proc.devRef .tc main_v26) := StableHlo.after_of_writes_sub hostOps3 _ hostOps3_writes (show main_v26 ∉ hostOps3_W from by decide)
    _ = W12 m ρ c (Proc.devRef .tc main_v26) := W13_of_ne m ρ c main_v26 (by decide)
    _ = W11 m ρ c (Proc.devRef .tc main_v26) := (W12_arr m ρ c 0).trans (((dat1 (V11 m ρ) c).arrAt_in 0 rfl _).trans (A_eq1 (V11 m ρ) c 0))
    _ = W10 m ρ c (Proc.devRef .tc main_v26) := StableHlo.after_of_writes_sub hostOps1_1 _ hostOps1_1_writes (show main_v26 ∉ hostOps1_1_W from by decide)
    _ = W9 m ρ c (Proc.devRef .tc main_v26) := StableHlo.after_of_writes_sub hostOps1 _ hostOps1_writes (show main_v26 ∉ hostOps1_W from by decide)
    _ = W8 m ρ c (Proc.devRef .tc main_v26) := W9_of_ne m ρ c main_v26 (by decide)

/-- `main_v28` is not written between boundaries 8 and 11. -/
theorem carry_main_v28_8_11 (c : Dev nD) : W11 m ρ c (Proc.devRef .tc main_v28) = W8 m ρ c (Proc.devRef .tc main_v28) :=
  calc W11 m ρ c (Proc.devRef .tc main_v28)
    _ = W10 m ρ c (Proc.devRef .tc main_v28) := StableHlo.after_of_writes_sub hostOps1_1 _ hostOps1_1_writes (show main_v28 ∉ hostOps1_1_W from by decide)
    _ = W9 m ρ c (Proc.devRef .tc main_v28) := StableHlo.after_of_writes_sub hostOps1 _ hostOps1_writes (show main_v28 ∉ hostOps1_W from by decide)
    _ = W8 m ρ c (Proc.devRef .tc main_v28) := W9_of_ne m ρ c main_v28 (by decide)

/-- `main_v28` is not written between boundaries 8 and 17. -/
theorem carry_main_v28_8_17 (c : Dev nD) : W17 m ρ c (Proc.devRef .tc main_v28) = W8 m ρ c (Proc.devRef .tc main_v28) :=
  calc W17 m ρ c (Proc.devRef .tc main_v28)
    _ = W16 m ρ c (Proc.devRef .tc main_v28) := StableHlo.after_of_writes_sub hostOps4_1 _ hostOps4_1_writes (show main_v28 ∉ hostOps4_1_W from by decide)
    _ = W15 m ρ c (Proc.devRef .tc main_v28) := StableHlo.after_of_writes_sub hostOps4 _ hostOps4_writes (show main_v28 ∉ hostOps4_W from by decide)
    _ = W14 m ρ c (Proc.devRef .tc main_v28) := W15_of_ne m ρ c main_v28 (by decide)
    _ = W13 m ρ c (Proc.devRef .tc main_v28) := StableHlo.after_of_writes_sub hostOps3 _ hostOps3_writes (show main_v28 ∉ hostOps3_W from by decide)
    _ = W12 m ρ c (Proc.devRef .tc main_v28) := W13_of_ne m ρ c main_v28 (by decide)
    _ = W11 m ρ c (Proc.devRef .tc main_v28) := (W12_arr m ρ c 1).trans (((dat1 (V11 m ρ) c).arrAt_in 1 rfl _).trans (A_eq1 (V11 m ρ) c 1))
    _ = W10 m ρ c (Proc.devRef .tc main_v28) := StableHlo.after_of_writes_sub hostOps1_1 _ hostOps1_1_writes (show main_v28 ∉ hostOps1_1_W from by decide)
    _ = W9 m ρ c (Proc.devRef .tc main_v28) := StableHlo.after_of_writes_sub hostOps1 _ hostOps1_writes (show main_v28 ∉ hostOps1_W from by decide)
    _ = W8 m ρ c (Proc.devRef .tc main_v28) := W9_of_ne m ρ c main_v28 (by decide)

/-- `main_v27` is not written between boundaries 8 and 12. -/
theorem carry_main_v27_8_12 (c : Dev nD) : W12 m ρ c (Proc.devRef .tc main_v27) = W8 m ρ c (Proc.devRef .tc main_v27) :=
  calc W12 m ρ c (Proc.devRef .tc main_v27)
    _ = W11 m ρ c (Proc.devRef .tc main_v27) := W12_of_ne m ρ c main_v27 (by decide)
    _ = W10 m ρ c (Proc.devRef .tc main_v27) := StableHlo.after_of_writes_sub hostOps1_1 _ hostOps1_1_writes (show main_v27 ∉ hostOps1_1_W from by decide)
    _ = W9 m ρ c (Proc.devRef .tc main_v27) := StableHlo.after_of_writes_sub hostOps1 _ hostOps1_writes (show main_v27 ∉ hostOps1_W from by decide)
    _ = W8 m ρ c (Proc.devRef .tc main_v27) := W9_of_ne m ρ c main_v27 (by decide)

/-- `main_v27` is not written between boundaries 8 and 18. -/
theorem carry_main_v27_8_18 (c : Dev nD) : W18 m ρ c (Proc.devRef .tc main_v27) = W8 m ρ c (Proc.devRef .tc main_v27) :=
  calc W18 m ρ c (Proc.devRef .tc main_v27)
    _ = W17 m ρ c (Proc.devRef .tc main_v27) := W18_of_ne m ρ c main_v27 (by decide)
    _ = W16 m ρ c (Proc.devRef .tc main_v27) := StableHlo.after_of_writes_sub hostOps4_1 _ hostOps4_1_writes (show main_v27 ∉ hostOps4_1_W from by decide)
    _ = W15 m ρ c (Proc.devRef .tc main_v27) := StableHlo.after_of_writes_sub hostOps4 _ hostOps4_writes (show main_v27 ∉ hostOps4_W from by decide)
    _ = W14 m ρ c (Proc.devRef .tc main_v27) := W15_of_ne m ρ c main_v27 (by decide)
    _ = W13 m ρ c (Proc.devRef .tc main_v27) := StableHlo.after_of_writes_sub hostOps3 _ hostOps3_writes (show main_v27 ∉ hostOps3_W from by decide)
    _ = W12 m ρ c (Proc.devRef .tc main_v27) := (W13_arr m ρ c 0).trans (((dat2 (V12 m ρ) c).arrAt_in 0 rfl _).trans (A_eq2 (V12 m ρ) c 0))
    _ = W11 m ρ c (Proc.devRef .tc main_v27) := W12_of_ne m ρ c main_v27 (by decide)
    _ = W10 m ρ c (Proc.devRef .tc main_v27) := StableHlo.after_of_writes_sub hostOps1_1 _ hostOps1_1_writes (show main_v27 ∉ hostOps1_1_W from by decide)
    _ = W9 m ρ c (Proc.devRef .tc main_v27) := StableHlo.after_of_writes_sub hostOps1 _ hostOps1_writes (show main_v27 ∉ hostOps1_W from by decide)
    _ = W8 m ρ c (Proc.devRef .tc main_v27) := W9_of_ne m ρ c main_v27 (by decide)

/-- `main_v29` is not written between boundaries 8 and 12. -/
theorem carry_main_v29_8_12 (c : Dev nD) : W12 m ρ c (Proc.devRef .tc main_v29) = W8 m ρ c (Proc.devRef .tc main_v29) :=
  calc W12 m ρ c (Proc.devRef .tc main_v29)
    _ = W11 m ρ c (Proc.devRef .tc main_v29) := W12_of_ne m ρ c main_v29 (by decide)
    _ = W10 m ρ c (Proc.devRef .tc main_v29) := StableHlo.after_of_writes_sub hostOps1_1 _ hostOps1_1_writes (show main_v29 ∉ hostOps1_1_W from by decide)
    _ = W9 m ρ c (Proc.devRef .tc main_v29) := StableHlo.after_of_writes_sub hostOps1 _ hostOps1_writes (show main_v29 ∉ hostOps1_W from by decide)
    _ = W8 m ρ c (Proc.devRef .tc main_v29) := W9_of_ne m ρ c main_v29 (by decide)

/-- `main_v29` is not written between boundaries 8 and 18. -/
theorem carry_main_v29_8_18 (c : Dev nD) : W18 m ρ c (Proc.devRef .tc main_v29) = W8 m ρ c (Proc.devRef .tc main_v29) :=
  calc W18 m ρ c (Proc.devRef .tc main_v29)
    _ = W17 m ρ c (Proc.devRef .tc main_v29) := W18_of_ne m ρ c main_v29 (by decide)
    _ = W16 m ρ c (Proc.devRef .tc main_v29) := StableHlo.after_of_writes_sub hostOps4_1 _ hostOps4_1_writes (show main_v29 ∉ hostOps4_1_W from by decide)
    _ = W15 m ρ c (Proc.devRef .tc main_v29) := StableHlo.after_of_writes_sub hostOps4 _ hostOps4_writes (show main_v29 ∉ hostOps4_W from by decide)
    _ = W14 m ρ c (Proc.devRef .tc main_v29) := W15_of_ne m ρ c main_v29 (by decide)
    _ = W13 m ρ c (Proc.devRef .tc main_v29) := StableHlo.after_of_writes_sub hostOps3 _ hostOps3_writes (show main_v29 ∉ hostOps3_W from by decide)
    _ = W12 m ρ c (Proc.devRef .tc main_v29) := (W13_arr m ρ c 3).trans (((dat2 (V12 m ρ) c).arrAt_in 3 rfl _).trans (A_eq2 (V12 m ρ) c 3))
    _ = W11 m ρ c (Proc.devRef .tc main_v29) := W12_of_ne m ρ c main_v29 (by decide)
    _ = W10 m ρ c (Proc.devRef .tc main_v29) := StableHlo.after_of_writes_sub hostOps1_1 _ hostOps1_1_writes (show main_v29 ∉ hostOps1_1_W from by decide)
    _ = W9 m ρ c (Proc.devRef .tc main_v29) := StableHlo.after_of_writes_sub hostOps1 _ hostOps1_writes (show main_v29 ∉ hostOps1_W from by decide)
    _ = W8 m ρ c (Proc.devRef .tc main_v29) := W9_of_ne m ρ c main_v29 (by decide)

/-- `main_v31` is not written between boundaries 11 and 12. -/
theorem carry_main_v31_11_12 (c : Dev nD) : W12 m ρ c (Proc.devRef .tc main_v31) = W11 m ρ c (Proc.devRef .tc main_v31) :=
  calc W12 m ρ c (Proc.devRef .tc main_v31)
    _ = W11 m ρ c (Proc.devRef .tc main_v31) := (W12_arr m ρ c 2).trans (((dat1 (V11 m ρ) c).arrAt_in 2 rfl _).trans (A_eq1 (V11 m ρ) c 2))

/-- `main_v36` is not written between boundaries 17 and 18. -/
theorem carry_main_v36_17_18 (c : Dev nD) : W18 m ρ c (Proc.devRef .tc main_v36) = W17 m ρ c (Proc.devRef .tc main_v36) :=
  calc W18 m ρ c (Proc.devRef .tc main_v36)
    _ = W17 m ρ c (Proc.devRef .tc main_v36) := (W18_arr m ρ c 2).trans (((dat4 (V17 m ρ) c).arrAt_in 2 rfl _).trans (A_eq4 (V17 m ρ) c 2))

/-- `main_arg3` is not written between boundaries 0 and 12. -/
theorem carry_main_arg3_0_12 (c : Dev nD) : W12 m ρ c (Proc.devRef .tc main_arg3) = W0 m ρ c (Proc.devRef .tc main_arg3) :=
  calc W12 m ρ c (Proc.devRef .tc main_arg3)
    _ = W11 m ρ c (Proc.devRef .tc main_arg3) := W12_of_ne m ρ c main_arg3 (by decide)
    _ = W10 m ρ c (Proc.devRef .tc main_arg3) := StableHlo.after_of_writes_sub hostOps1_1 _ hostOps1_1_writes (show main_arg3 ∉ hostOps1_1_W from by decide)
    _ = W9 m ρ c (Proc.devRef .tc main_arg3) := StableHlo.after_of_writes_sub hostOps1 _ hostOps1_writes (show main_arg3 ∉ hostOps1_W from by decide)
    _ = W8 m ρ c (Proc.devRef .tc main_arg3) := W9_of_ne m ρ c main_arg3 (by decide)
    _ = W7 m ρ c (Proc.devRef .tc main_arg3) := StableHlo.after_of_writes_sub hostOps0_7 _ hostOps0_7_writes (show main_arg3 ∉ hostOps0_7_W from by decide)
    _ = W6 m ρ c (Proc.devRef .tc main_arg3) := StableHlo.after_of_writes_sub hostOps0_6 _ hostOps0_6_writes (show main_arg3 ∉ hostOps0_6_W from by decide)
    _ = W5 m ρ c (Proc.devRef .tc main_arg3) := StableHlo.after_of_writes_sub hostOps0_5 _ hostOps0_5_writes (show main_arg3 ∉ hostOps0_5_W from by decide)
    _ = W4 m ρ c (Proc.devRef .tc main_arg3) := StableHlo.after_of_writes_sub hostOps0_4 _ hostOps0_4_writes (show main_arg3 ∉ hostOps0_4_W from by decide)
    _ = W3 m ρ c (Proc.devRef .tc main_arg3) := StableHlo.after_of_writes_sub hostOps0_3 _ hostOps0_3_writes (show main_arg3 ∉ hostOps0_3_W from by decide)
    _ = W2 m ρ c (Proc.devRef .tc main_arg3) := StableHlo.after_of_writes_sub hostOps0_2 _ hostOps0_2_writes (show main_arg3 ∉ hostOps0_2_W from by decide)
    _ = W1 m ρ c (Proc.devRef .tc main_arg3) := StableHlo.after_of_writes_sub hostOps0_1 _ hostOps0_1_writes (show main_arg3 ∉ hostOps0_1_W from by decide)
    _ = W0 m ρ c (Proc.devRef .tc main_arg3) := StableHlo.after_of_writes_sub hostOps0 _ hostOps0_writes (show main_arg3 ∉ hostOps0_W from by decide)

/-- `main_arg5` is not written between boundaries 0 and 18. -/
theorem carry_main_arg5_0_18 (c : Dev nD) : W18 m ρ c (Proc.devRef .tc main_arg5) = W0 m ρ c (Proc.devRef .tc main_arg5) :=
  calc W18 m ρ c (Proc.devRef .tc main_arg5)
    _ = W17 m ρ c (Proc.devRef .tc main_arg5) := W18_of_ne m ρ c main_arg5 (by decide)
    _ = W16 m ρ c (Proc.devRef .tc main_arg5) := StableHlo.after_of_writes_sub hostOps4_1 _ hostOps4_1_writes (show main_arg5 ∉ hostOps4_1_W from by decide)
    _ = W15 m ρ c (Proc.devRef .tc main_arg5) := StableHlo.after_of_writes_sub hostOps4 _ hostOps4_writes (show main_arg5 ∉ hostOps4_W from by decide)
    _ = W14 m ρ c (Proc.devRef .tc main_arg5) := W15_of_ne m ρ c main_arg5 (by decide)
    _ = W13 m ρ c (Proc.devRef .tc main_arg5) := StableHlo.after_of_writes_sub hostOps3 _ hostOps3_writes (show main_arg5 ∉ hostOps3_W from by decide)
    _ = W12 m ρ c (Proc.devRef .tc main_arg5) := W13_of_ne m ρ c main_arg5 (by decide)
    _ = W11 m ρ c (Proc.devRef .tc main_arg5) := W12_of_ne m ρ c main_arg5 (by decide)
    _ = W10 m ρ c (Proc.devRef .tc main_arg5) := StableHlo.after_of_writes_sub hostOps1_1 _ hostOps1_1_writes (show main_arg5 ∉ hostOps1_1_W from by decide)
    _ = W9 m ρ c (Proc.devRef .tc main_arg5) := StableHlo.after_of_writes_sub hostOps1 _ hostOps1_writes (show main_arg5 ∉ hostOps1_W from by decide)
    _ = W8 m ρ c (Proc.devRef .tc main_arg5) := W9_of_ne m ρ c main_arg5 (by decide)
    _ = W7 m ρ c (Proc.devRef .tc main_arg5) := StableHlo.after_of_writes_sub hostOps0_7 _ hostOps0_7_writes (show main_arg5 ∉ hostOps0_7_W from by decide)
    _ = W6 m ρ c (Proc.devRef .tc main_arg5) := StableHlo.after_of_writes_sub hostOps0_6 _ hostOps0_6_writes (show main_arg5 ∉ hostOps0_6_W from by decide)
    _ = W5 m ρ c (Proc.devRef .tc main_arg5) := StableHlo.after_of_writes_sub hostOps0_5 _ hostOps0_5_writes (show main_arg5 ∉ hostOps0_5_W from by decide)
    _ = W4 m ρ c (Proc.devRef .tc main_arg5) := StableHlo.after_of_writes_sub hostOps0_4 _ hostOps0_4_writes (show main_arg5 ∉ hostOps0_4_W from by decide)
    _ = W3 m ρ c (Proc.devRef .tc main_arg5) := StableHlo.after_of_writes_sub hostOps0_3 _ hostOps0_3_writes (show main_arg5 ∉ hostOps0_3_W from by decide)
    _ = W2 m ρ c (Proc.devRef .tc main_arg5) := StableHlo.after_of_writes_sub hostOps0_2 _ hostOps0_2_writes (show main_arg5 ∉ hostOps0_2_W from by decide)
    _ = W1 m ρ c (Proc.devRef .tc main_arg5) := StableHlo.after_of_writes_sub hostOps0_1 _ hostOps0_1_writes (show main_arg5 ∉ hostOps0_1_W from by decide)
    _ = W0 m ρ c (Proc.devRef .tc main_arg5) := StableHlo.after_of_writes_sub hostOps0 _ hostOps0_writes (show main_arg5 ∉ hostOps0_W from by decide)

/-- `main_arg0` is not written between boundaries 0 and 8. -/
theorem carry_main_arg0_0_8 (c : Dev nD) : W8 m ρ c (Proc.devRef .tc main_arg0) = W0 m ρ c (Proc.devRef .tc main_arg0) :=
  calc W8 m ρ c (Proc.devRef .tc main_arg0)
    _ = W7 m ρ c (Proc.devRef .tc main_arg0) := StableHlo.after_of_writes_sub hostOps0_7 _ hostOps0_7_writes (show main_arg0 ∉ hostOps0_7_W from by decide)
    _ = W6 m ρ c (Proc.devRef .tc main_arg0) := StableHlo.after_of_writes_sub hostOps0_6 _ hostOps0_6_writes (show main_arg0 ∉ hostOps0_6_W from by decide)
    _ = W5 m ρ c (Proc.devRef .tc main_arg0) := StableHlo.after_of_writes_sub hostOps0_5 _ hostOps0_5_writes (show main_arg0 ∉ hostOps0_5_W from by decide)
    _ = W4 m ρ c (Proc.devRef .tc main_arg0) := StableHlo.after_of_writes_sub hostOps0_4 _ hostOps0_4_writes (show main_arg0 ∉ hostOps0_4_W from by decide)
    _ = W3 m ρ c (Proc.devRef .tc main_arg0) := StableHlo.after_of_writes_sub hostOps0_3 _ hostOps0_3_writes (show main_arg0 ∉ hostOps0_3_W from by decide)
    _ = W2 m ρ c (Proc.devRef .tc main_arg0) := StableHlo.after_of_writes_sub hostOps0_2 _ hostOps0_2_writes (show main_arg0 ∉ hostOps0_2_W from by decide)
    _ = W1 m ρ c (Proc.devRef .tc main_arg0) := StableHlo.after_of_writes_sub hostOps0_1 _ hostOps0_1_writes (show main_arg0 ∉ hostOps0_1_W from by decide)
    _ = W0 m ρ c (Proc.devRef .tc main_arg0) := StableHlo.after_of_writes_sub hostOps0 _ hostOps0_writes (show main_arg0 ∉ hostOps0_W from by decide)

/-- `main_arg2` is not written between boundaries 0 and 8. -/
theorem carry_main_arg2_0_8 (c : Dev nD) : W8 m ρ c (Proc.devRef .tc main_arg2) = W0 m ρ c (Proc.devRef .tc main_arg2) :=
  calc W8 m ρ c (Proc.devRef .tc main_arg2)
    _ = W7 m ρ c (Proc.devRef .tc main_arg2) := StableHlo.after_of_writes_sub hostOps0_7 _ hostOps0_7_writes (show main_arg2 ∉ hostOps0_7_W from by decide)
    _ = W6 m ρ c (Proc.devRef .tc main_arg2) := StableHlo.after_of_writes_sub hostOps0_6 _ hostOps0_6_writes (show main_arg2 ∉ hostOps0_6_W from by decide)
    _ = W5 m ρ c (Proc.devRef .tc main_arg2) := StableHlo.after_of_writes_sub hostOps0_5 _ hostOps0_5_writes (show main_arg2 ∉ hostOps0_5_W from by decide)
    _ = W4 m ρ c (Proc.devRef .tc main_arg2) := StableHlo.after_of_writes_sub hostOps0_4 _ hostOps0_4_writes (show main_arg2 ∉ hostOps0_4_W from by decide)
    _ = W3 m ρ c (Proc.devRef .tc main_arg2) := StableHlo.after_of_writes_sub hostOps0_3 _ hostOps0_3_writes (show main_arg2 ∉ hostOps0_3_W from by decide)
    _ = W2 m ρ c (Proc.devRef .tc main_arg2) := StableHlo.after_of_writes_sub hostOps0_2 _ hostOps0_2_writes (show main_arg2 ∉ hostOps0_2_W from by decide)
    _ = W1 m ρ c (Proc.devRef .tc main_arg2) := StableHlo.after_of_writes_sub hostOps0_1 _ hostOps0_1_writes (show main_arg2 ∉ hostOps0_1_W from by decide)
    _ = W0 m ρ c (Proc.devRef .tc main_arg2) := StableHlo.after_of_writes_sub hostOps0 _ hostOps0_writes (show main_arg2 ∉ hostOps0_W from by decide)

/-- `main_arg4` is not written between boundaries 0 and 14. -/
theorem carry_main_arg4_0_14 (c : Dev nD) : W14 m ρ c (Proc.devRef .tc main_arg4) = W0 m ρ c (Proc.devRef .tc main_arg4) :=
  calc W14 m ρ c (Proc.devRef .tc main_arg4)
    _ = W13 m ρ c (Proc.devRef .tc main_arg4) := StableHlo.after_of_writes_sub hostOps3 _ hostOps3_writes (show main_arg4 ∉ hostOps3_W from by decide)
    _ = W12 m ρ c (Proc.devRef .tc main_arg4) := W13_of_ne m ρ c main_arg4 (by decide)
    _ = W11 m ρ c (Proc.devRef .tc main_arg4) := W12_of_ne m ρ c main_arg4 (by decide)
    _ = W10 m ρ c (Proc.devRef .tc main_arg4) := StableHlo.after_of_writes_sub hostOps1_1 _ hostOps1_1_writes (show main_arg4 ∉ hostOps1_1_W from by decide)
    _ = W9 m ρ c (Proc.devRef .tc main_arg4) := StableHlo.after_of_writes_sub hostOps1 _ hostOps1_writes (show main_arg4 ∉ hostOps1_W from by decide)
    _ = W8 m ρ c (Proc.devRef .tc main_arg4) := W9_of_ne m ρ c main_arg4 (by decide)
    _ = W7 m ρ c (Proc.devRef .tc main_arg4) := StableHlo.after_of_writes_sub hostOps0_7 _ hostOps0_7_writes (show main_arg4 ∉ hostOps0_7_W from by decide)
    _ = W6 m ρ c (Proc.devRef .tc main_arg4) := StableHlo.after_of_writes_sub hostOps0_6 _ hostOps0_6_writes (show main_arg4 ∉ hostOps0_6_W from by decide)
    _ = W5 m ρ c (Proc.devRef .tc main_arg4) := StableHlo.after_of_writes_sub hostOps0_5 _ hostOps0_5_writes (show main_arg4 ∉ hostOps0_5_W from by decide)
    _ = W4 m ρ c (Proc.devRef .tc main_arg4) := StableHlo.after_of_writes_sub hostOps0_4 _ hostOps0_4_writes (show main_arg4 ∉ hostOps0_4_W from by decide)
    _ = W3 m ρ c (Proc.devRef .tc main_arg4) := StableHlo.after_of_writes_sub hostOps0_3 _ hostOps0_3_writes (show main_arg4 ∉ hostOps0_3_W from by decide)
    _ = W2 m ρ c (Proc.devRef .tc main_arg4) := StableHlo.after_of_writes_sub hostOps0_2 _ hostOps0_2_writes (show main_arg4 ∉ hostOps0_2_W from by decide)
    _ = W1 m ρ c (Proc.devRef .tc main_arg4) := StableHlo.after_of_writes_sub hostOps0_1 _ hostOps0_1_writes (show main_arg4 ∉ hostOps0_1_W from by decide)
    _ = W0 m ρ c (Proc.devRef .tc main_arg4) := StableHlo.after_of_writes_sub hostOps0 _ hostOps0_writes (show main_arg4 ∉ hostOps0_W from by decide)

end Cert.KernelIdeal.Hand

end
-- ==== Proof.RefStages.lean ====
/-
  The index-dependent host operations of a graph convolution, each READ AT AN INDEX, over the extended reals.

  The node axis has N entries; the list of M entries (edges, then self-loops) is the join of two lists.
  Four facts:
    * a join of two lists read below / from the first list's length;
    * an element gather and a row gather read at an entry: the operand at the entry's start index, read signed
      and clamped into [0, N - 1];
    * an accumulating scatter of elements, and of rows, read at a bin: the operand's element plus the sum of the
      updates whose start index (read signed, in range by hypothesis) is that bin.
-/
import Idealize.ShloMosaic.Lib.Pipeline.Value
import Idealize.ShloMosaic.Lib.ValueIdx
import Idealize.ShloMosaic.PureOps.Ideal
import Mathlib.Algebra.BigOperators.Fin

noncomputable section

open scoped BigOperators

namespace Cert.RefValue

open Idealize.ShloMosaic Idealize.ShloMosaic.ValueIdx

/-! ## The 3300000 entries: 3200000 edges, then 100000 self-loops -/

/-- An edge as an entry of the joined list. -/
def lo (e : Fin 3200000) : Fin 3300000 := ⟨e.val, by have := e.isLt; omega⟩
/-- A node's self-loop as an entry of the joined list. -/
def hi (m : Fin 100000) : Fin 3300000 := ⟨3200000 + m.val, by have := m.isLt; omega⟩

/-- A sum over the entries is the sum over the edges plus the sum over the self-loops. -/
theorem sum_entries {A : Type*} [AddCommMonoid A] (f : Fin 3300000 → A) :
    ∑ j, f j = ∑ e, f (lo e) + ∑ m, f (hi m) := by
  have h := Fin.sum_univ_add (M := A) (a := 3200000) (b := 100000) (fun j => f ⟨j.val, j.isLt⟩)
  exact h

/-- A rank-1 index set is its coordinate's range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {A : Type*} [AddCommMonoid A] {n : Nat} (f : (⟨1, ![n]⟩ : Shape).Idx → A) :
    ∑ i, f i = ∑ a : Fin n, f (ix1 a) :=
  (Equiv.sum_comp (idxEquiv1 (n := n)).symm f).symm

/-! ## The join of the edge ends with the loop ends -/

section Join
variable {α : Type}

/-- The join read at an edge entry is the first list at that edge. -/
theorem join_lo (x₁ : (⟨1, ![3200000]⟩ : Shape).Idx → α) (x₂ : (⟨1, ![100000]⟩ : Shape).Idx → α)
    (h : Shape.Concatenates [(⟨1, ![3200000]⟩ : Shape), ⟨1, ![100000]⟩] ⟨1, ![3300000]⟩ 0) (e : Fin 3200000) :
    concatenate (⟨1, ![3300000]⟩ : Shape) 0 [⟨_, x₁⟩, ⟨_, x₂⟩] h (ix1 (lo e)) = x₁ (ix1 e) :=
  concatenate_pair_apply_left 0 x₁ x₂ h (ix1 (lo e)) rfl (ix1 e) (fun b => by
    obtain rfl : b = 0 := Subsingleton.elim _ _
    rfl)

/-- The join read at a loop entry is the second list at that node. -/
theorem join_hi (x₁ : (⟨1, ![3200000]⟩ : Shape).Idx → α) (x₂ : (⟨1, ![100000]⟩ : Shape).Idx → α)
    (h : Shape.Concatenates [(⟨1, ![3200000]⟩ : Shape), ⟨1, ![100000]⟩] ⟨1, ![3300000]⟩ 0) (m : Fin 100000) :
    concatenate (⟨1, ![3300000]⟩ : Shape) 0 [⟨_, x₁⟩, ⟨_, x₂⟩] h (ix1 (hi m)) = x₂ (ix1 m) :=
  concatenate_pair_apply_right 0 x₁ x₂ h (ix1 (hi m)) rfl rfl (ix1 m)
    (fun b hb => absurd (Subsingleton.elim _ _) hb)
    (by show m.val + 3200000 = 3200000 + m.val; omega)

end Join

/-! ## The gathers: an element of a list, a row of a table, at each entry's start index -/

section Gather
variable {α : Type}

/-- The dimension numbers of an element gather: operand [N], start indices [M, 1], result [M]. -/
abbrev elemGather (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE ELEMENT GATHER READ AT AN ENTRY: the operand at the entry's start index, read signed and clamped. -/
theorem elemGather_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (j : Fin M) :
    Host.gather (elemGather N M wf) x idx (ix1 j)
      = x (ix1 ⟨min (idx (ix2 j (0 : Fin 1))).toInt.toNat (N - 1), by omega⟩) := by
  unfold Host.gather
  congr 1
  funext a
  obtain rfl : a = 0 := Subsingleton.elim _ _
  refine Fin.ext ?_
  show (elemGather N M wf).start (ix1 j) idx 0 + (elemGather N M wf).batchCoord (ix1 j) 0
    + (elemGather N M wf).offCoord (ix1 j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (elemGather N M wf).startIndexMap from List.mem_singleton.mpr rfl)]
  have hsi : (elemGather N M wf).siIdx (ix1 j) ⟨List.idxOf (0 : Fin 1) (elemGather N M wf).startIndexMap,
      List.idxOf_lt_length_iff.2 (List.mem_singleton.mpr rfl)⟩ = ix2 j (0 : Fin 1) := by
    funext b; refine Fin.ext ?_
    match b with
    | ⟨0, _⟩ => rfl
    | ⟨1, _⟩ => rfl
  rw [hsi]
  rfl

/-- The dimension numbers of a row gather: operand [N, D], start indices [M, 1], result [M, D]. -/
abbrev rowGather (N M D : Nat)
    (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- THE ROW GATHER READ AT AN ENTRY AND A COLUMN: the operand's row at the entry's start index, read signed and
    clamped, at that column. -/
theorem rowGather_apply {N M D w : Nat} (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (j : Fin M) (c : Fin D) :
    Host.gather (rowGather N M D wf) x idx (ix2 j c)
      = x (ix2 ⟨min (idx (ix2 j (0 : Fin 1))).toInt.toNat (N - 1), by omega⟩ c) := by
  unfold Host.gather
  congr 1
  funext a
  refine Fin.ext ?_
  match a with
  | ⟨0, _⟩ =>
    show (rowGather N M D wf).start (ix2 j c) idx 0 + (rowGather N M D wf).batchCoord (ix2 j c) 0
      + (rowGather N M D wf).offCoord (ix2 j c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N M D wf).startIndexMap from List.mem_singleton.mpr rfl)]
    have hsi : (rowGather N M D wf).siIdx (ix2 j c) ⟨List.idxOf (0 : Fin 2) (rowGather N M D wf).startIndexMap,
        List.idxOf_lt_length_iff.2 (List.mem_singleton.mpr rfl)⟩ = ix2 j (0 : Fin 1) := by
      funext b; refine Fin.ext ?_
      match b with
      | ⟨0, _⟩ => rfl
      | ⟨1, _⟩ => rfl
    rw [hsi]
    rfl
  | ⟨1, _⟩ =>
    show (rowGather N M D wf).start (ix2 j c) idx 1 + (rowGather N M D wf).batchCoord (ix2 j c) 1
      + (rowGather N M D wf).offCoord (ix2 j c) 1 = c.val
    rw [GatherDims.batchCoord_eq_zero _ _ _ List.not_mem_nil]
    have hst : (rowGather N M D wf).start (ix2 j c) idx 1 = 0 := by
      unfold GatherDims.start
      rw [dif_neg (show ¬ (1 : Fin 2) ∈ ([0] : List (Fin 2)) by decide)]
    rw [hst]
    simp only [Nat.add_zero, Nat.zero_add]
    rfl

end Gather

/-! ## The accumulating scatters: each bin is its operand's element plus the updates whose start index is that bin -/

section Scatter

/-- The dimension numbers of an element scatter: operand [N], scatter indices [M, 1], updates [M]. -/
abbrev elemScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Where update j of an element scatter lands on the one operand axis: its start index, read signed. -/
theorem elemScatter_pos {N M w : Nat} (wf : ScatterDims.WF ⟨1, ![N]⟩ ⟨2, ![M, 1]⟩ ⟨1, ![M]⟩ [] [0] [0] 1)
    (idx : IVec ⟨2, ![M, 1]⟩ w) (j : Fin M) (a : Fin 1) :
    (elemScatter N M wf).start (ix1 j) idx a + ((elemScatter N M wf).window (ix1 j) a : Int)
      = (idx (ix2 j (0 : Fin 1))).toInt := by
  obtain rfl : a = 0 := Subsingleton.elim _ _
  have hw : (elemScatter N M wf).window (ix1 j) 0 = 0 := by
    unfold ScatterDims.window
    rw [dif_neg (show ¬ (0 : Fin 1) ∈ Shape.kept (⟨1, ![N]⟩ : Shape) [0] by simp [Shape.kept])]
  rw [hw]
  unfold ScatterDims.start
  rw [dif_pos (show (0 : Fin 1) ∈ (elemScatter N M wf).scatterDimsToOperandDims from List.mem_singleton.mpr rfl)]
  have hsi : (elemScatter N M wf).siIdx (ix1 j) ⟨List.idxOf (0 : Fin 1) (elemScatter N M wf).scatterDimsToOperandDims,
      List.idxOf_lt_length_iff.2 (List.mem_singleton.mpr rfl)⟩ = ix2 j (0 : Fin 1) := by
    funext b; refine Fin.ext ?_
    match b with
    | ⟨0, _⟩ => rfl
    | ⟨1, _⟩ => rfl
  rw [hsi]
  simp

/-- An update whose start index is in range lands at that bin. -/
theorem elemScatter_resultIdx {N M w : Nat} (wf : ScatterDims.WF ⟨1, ![N]⟩ ⟨2, ![M, 1]⟩ ⟨1, ![M]⟩ [] [0] [0] 1)
    (idx : IVec ⟨2, ![M, 1]⟩ w) (j : Fin M)
    (h0 : 0 ≤ (idx (ix2 j (0 : Fin 1))).toInt) (h1 : (idx (ix2 j (0 : Fin 1))).toInt < N) :
    (elemScatter N M wf).resultIdx? (ix1 j) idx
      = some (ix1 ⟨(idx (ix2 j (0 : Fin 1))).toInt.toNat, by omega⟩) := by
  unfold ScatterDims.resultIdx?
  rw [dif_pos (fun a => by
    rw [elemScatter_pos wf idx j a]
    obtain rfl : a = 0 := Subsingleton.elim _ _
    exact ⟨h0, h1⟩)]
  congr 1
  funext a
  obtain rfl : a = 0 := Subsingleton.elim _ _
  refine Fin.ext ?_
  show ((elemScatter N M wf).start (ix1 j) idx 0 + ((elemScatter N M wf).window (ix1 j) 0 : Int)).toNat = _
  rw [elemScatter_pos wf idx j 0]
  rfl

/-- THE ELEMENT SCATTER-ADD READ AT A BIN: the operand's element plus the sum of the updates whose start index,
    read signed, is that bin; every start index in range. -/
theorem elemScatterAdd_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (hidx : ∀ j : Fin M, 0 ≤ (idx (ix2 j (0 : Fin 1))).toInt ∧ (idx (ix2 j (0 : Fin 1))).toInt < N) (n : Fin N) :
    Ideal.hostScatterAdd (elemScatter N M wf) x idx upd (ix1 n)
      = x (ix1 n) + ∑ j : Fin M, if (idx (ix2 j (0 : Fin 1))).toInt.toNat = n.val then upd (ix1 j) else 0 := by
  unfold Ideal.hostScatterAdd
  congr 1
  rw [Finset.sum_filter, sum_idx1]
  refine Finset.sum_congr rfl fun j _ => ?_
  rw [elemScatter_resultIdx wf idx j (hidx j).1 (hidx j).2]
  refine if_congr ⟨fun h => ?_, fun h => ?_⟩ rfl rfl
  · exact congrArg Fin.val (congrFun (Option.some.inj h) 0)
  · congr 1
    funext a
    obtain rfl : a = 0 := Subsingleton.elim _ _
    exact Fin.ext h

end Scatter

section RowScatter

/-- The dimension numbers of a row scatter: operand [N, D], scatter indices [M, 1], updates [M, D]. -/
abbrev rowScatter (N M D : Nat) (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

/-- Where element (j, c) of the updates of a row scatter lands: on the row axis at row j's start index, read
    signed; on the column axis at c. -/
theorem rowScatter_pos {N M D w : Nat} (wf : ScatterDims.WF ⟨2, ![N, D]⟩ ⟨2, ![M, 1]⟩ ⟨2, ![M, D]⟩ [1] [0] [0] 1)
    (idx : IVec ⟨2, ![M, 1]⟩ w) (j : Fin M) (c : Fin D) (a : Fin 2) :
    (rowScatter N M D wf).start (ix2 j c) idx a + ((rowScatter N M D wf).window (ix2 j c) a : Int)
      = if a = 0 then (idx (ix2 j (0 : Fin 1))).toInt else (c.val : Int) := by
  match a with
  | ⟨0, _⟩ =>
    have hw : (rowScatter N M D wf).window (ix2 j c) 0 = 0 := by
      unfold ScatterDims.window
      rw [dif_neg (show ¬ (0 : Fin 2) ∈ Shape.kept (⟨2, ![N, D]⟩ : Shape) [0] by simp [Shape.kept])]
    show (rowScatter N M D wf).start (ix2 j c) idx 0 + ((rowScatter N M D wf).window (ix2 j c) 0 : Int) = _
    rw [hw]
    unfold ScatterDims.start
    rw [dif_pos (show (0 : Fin 2) ∈ (rowScatter N M D wf).scatterDimsToOperandDims from List.mem_singleton.mpr rfl)]
    have hsi : (rowScatter N M D wf).siIdx (ix2 j c) ⟨List.idxOf (0 : Fin 2) (rowScatter N M D wf).scatterDimsToOperandDims,
        List.idxOf_lt_length_iff.2 (List.mem_singleton.mpr rfl)⟩ = ix2 j (0 : Fin 1) := by
      funext b; refine Fin.ext ?_
      match b with
      | ⟨0, _⟩ => rfl
      | ⟨1, _⟩ => rfl
    rw [hsi]
    simp
  | ⟨1, _⟩ =>
    have hs : (rowScatter N M D wf).start (ix2 j c) idx 1 = 0 := by
      unfold ScatterDims.start
      rw [dif_neg (show ¬ (1 : Fin 2) ∈ ([0] : List (Fin 2)) by decide)]
    have hw : (rowScatter N M D wf).window (ix2 j c) 1 = c.val := by
      unfold ScatterDims.window
      rw [dif_pos (show (1 : Fin 2) ∈ Shape.kept (⟨2, ![N, D]⟩ : Shape) [0] by simp [Shape.kept])]
      rfl
    show (rowScatter N M D wf).start (ix2 j c) idx 1 + ((rowScatter N M D wf).window (ix2 j c) 1 : Int) = _
    rw [hs, hw]
    simp

/-- An element of the updates whose row's start index is in range lands in that row, at its own column. -/
theorem rowScatter_resultIdx {N M D w : Nat} (wf : ScatterDims.WF ⟨2, ![N, D]⟩ ⟨2, ![M, 1]⟩ ⟨2, ![M, D]⟩ [1] [0] [0] 1)
    (idx : IVec ⟨2, ![M, 1]⟩ w) (j : Fin M) (c : Fin D)
    (h0 : 0 ≤ (idx (ix2 j (0 : Fin 1))).toInt) (h1 : (idx (ix2 j (0 : Fin 1))).toInt < N) :
    (rowScatter N M D wf).resultIdx? (ix2 j c) idx
      = some (ix2 ⟨(idx (ix2 j (0 : Fin 1))).toInt.toNat, by omega⟩ c) := by
  unfold ScatterDims.resultIdx?
  rw [dif_pos (fun a => by
    rw [rowScatter_pos wf idx j c a]
    match a with
    | ⟨0, _⟩ => exact ⟨h0, h1⟩
    | ⟨1, _⟩ => exact ⟨Int.natCast_nonneg _, Int.ofNat_lt.mpr c.isLt⟩)]
  congr 1
  funext a
  refine Fin.ext ?_
  show ((rowScatter N M D wf).start (ix2 j c) idx a + ((rowScatter N M D wf).window (ix2 j c) a : Int)).toNat = _
  rw [rowScatter_pos wf idx j c a]
  match a with
  | ⟨0, _⟩ => rfl
  | ⟨1, _⟩ => exact Int.toNat_natCast _

/-- THE ROW SCATTER-ADD READ AT A BIN AND A COLUMN: the operand's element plus the sum, over the rows of the updates
    whose start index, read signed, is that bin, of the row's element at that column; every start index in range. -/
theorem rowScatterAdd_apply {N M D w : Nat} (wf : ScatterDims.WF ⟨2, ![N, D]⟩ ⟨2, ![M, 1]⟩ ⟨2, ![M, D]⟩ [1] [0] [0] 1)
    (x : (⟨2, ![N, D]⟩ : Shape).Idx → EReal) (idx : IVec ⟨2, ![M, 1]⟩ w) (upd : (⟨2, ![M, D]⟩ : Shape).Idx → EReal)
    (hidx : ∀ j : Fin M, 0 ≤ (idx (ix2 j (0 : Fin 1))).toInt ∧ (idx (ix2 j (0 : Fin 1))).toInt < N)
    (n : Fin N) (d : Fin D) :
    Ideal.hostScatterAdd (rowScatter N M D wf) x idx upd (ix2 n d)
      = x (ix2 n d) + ∑ j : Fin M, if (idx (ix2 j (0 : Fin 1))).toInt.toNat = n.val then upd (ix2 j d) else 0 := by
  unfold Ideal.hostScatterAdd
  congr 1
  rw [Finset.sum_filter, sum_idx2]
  refine Finset.sum_congr rfl fun j _ => ?_
  have hc : ∀ c : Fin D, ((rowScatter N M D wf).resultIdx? (ix2 j c) idx = some (ix2 n d))
      ↔ ((idx (ix2 j (0 : Fin 1))).toInt.toNat = n.val ∧ c = d) := by
    intro c
    rw [rowScatter_resultIdx wf idx j c (hidx j).1 (hidx j).2]
    constructor
    · intro h
      have h' := Option.some.inj h
      exact ⟨congrArg Fin.val (congrFun h' 0), congrFun h' 1⟩
    · rintro ⟨h1, rfl⟩
      congr 1
      funext a
      match a with
      | ⟨0, _⟩ => exact Fin.ext h1
      | ⟨1, _⟩ => rfl
  simp only [hc]
  by_cases hn : (idx (ix2 j (0 : Fin 1))).toInt.toNat = n.val
  · simp [hn]
  · simp [hn]

end RowScatter

end Cert.RefValue

end
-- ==== Proof.RefMath.lean ====
/-
  Words and sums for the graph convolution's entries (3200000 edges, then 100000 self-loops).

  A start index that is not negative is not wrapped; a loop entry's word is its node's number; a word in range
  names the node whose number it is.  A sum over the entries whose target is node n is the sum over the edges
  into n plus the one loop entry of n: from it the degree, and one layer's aggregation.
-/
import proofs.«138531_j42417097015621_1_alg».proof.Proof.Spec
import proofs.«138531_j42417097015621_1_alg».proof.Proof.RefStages
import Idealize.ShloMosaic.Lib.IdealHost

noncomputable section

open scoped BigOperators

namespace Cert.RefValue

open Idealize.ShloMosaic Idealize.ShloMosaic.ValueIdx

/-! ## The same four facts for any dimension numbers with those fields -/

section AnyRecord

/-- A start index read signed and clamped into the operand's range, as a function of the index word. -/
def clampIdx {w : Nat} (N : Nat) (hN : 0 < N) (v : BitVec w) : Fin N := ⟨min v.toInt.toNat (N - 1), by omega⟩

/-- The element gather, for dimension numbers given by their fields. -/
theorem gather_elem_apply {α : Type} {N M w : Nat} (hN : 0 < N) (d : GatherDims ⟨1, ![N]⟩ ⟨2, ![M, 1]⟩ ⟨1, ![M]⟩)
    (h1 : d.offsetDims = []) (h2 : d.collapsedSliceDims = ([0] : List (Fin 1))) (h3 : d.operandBatchingDims = [])
    (h4 : d.startIndicesBatchingDims = []) (h5 : d.startIndexMap = ([0] : List (Fin 1))) (h6 : d.indexVectorDim = 1)
    (h7 : d.sliceSizes = ![1])
    (x : (⟨1, ![N]⟩ : Shape).Idx → α) (idx : IVec ⟨2, ![M, 1]⟩ w) (j : Fin M) :
    Host.gather d x idx (ix1 j) = x (ix1 (clampIdx N hN (idx (ix2 j (0 : Fin 1))))) := by
  obtain ⟨od, cd, ob, sb, sm, iv, ss, wf⟩ := d
  dsimp only at h1 h2 h3 h4 h5 h6 h7
  subst h1 h2 h3 h4 h5 h6 h7
  exact elemGather_apply hN wf x idx j

/-- The row gather, for dimension numbers given by their fields. -/
theorem gather_row_apply {α : Type} {N M D w : Nat} (hN : 0 < N) (d : GatherDims ⟨2, ![N, D]⟩ ⟨2, ![M, 1]⟩ ⟨2, ![M, D]⟩)
    (h1 : d.offsetDims = ([1] : List (Fin 2))) (h2 : d.collapsedSliceDims = ([0] : List (Fin 2)))
    (h3 : d.operandBatchingDims = [])
    (h4 : d.startIndicesBatchingDims = []) (h5 : d.startIndexMap = ([0] : List (Fin 2))) (h6 : d.indexVectorDim = 1)
    (h7 : d.sliceSizes = ![1, D])
    (x : (⟨2, ![N, D]⟩ : Shape).Idx → α) (idx : IVec ⟨2, ![M, 1]⟩ w) (j : Fin M) (c : Fin D) :
    Host.gather d x idx (ix2 j c) = x (ix2 (clampIdx N hN (idx (ix2 j (0 : Fin 1)))) c) := by
  obtain ⟨od, cd, ob, sb, sm, iv, ss, wf⟩ := d
  dsimp only at h1 h2 h3 h4 h5 h6 h7
  subst h1 h2 h3 h4 h5 h6 h7
  exact rowGather_apply hN wf x idx j c

/-- The element scatter-add at the extended reals, for dimension numbers given by their fields. -/
theorem scatterAdd_elem_apply {N M w : Nat} {φ : FTy} (d : ScatterDims ⟨1, ![N]⟩ ⟨2, ![M, 1]⟩ ⟨1, ![M]⟩)
    (h1 : d.updateWindowDims = []) (h2 : d.insertedWindowDims = ([0] : List (Fin 1)))
    (h3 : d.scatterDimsToOperandDims = ([0] : List (Fin 1))) (h4 : d.indexVectorDim = 1)
    (x : FVec Ideal ⟨1, ![N]⟩ φ) (idx : IVec ⟨2, ![M, 1]⟩ w) (upd : FVec Ideal ⟨1, ![M]⟩ φ)
    (hidx : ∀ j : Fin M, 0 ≤ (idx (ix2 j (0 : Fin 1))).toInt ∧ (idx (ix2 j (0 : Fin 1))).toInt < N) (n : Fin N) :
    Host.scatterAdd (F := Ideal) d x idx upd (ix1 n)
      = (x (ix1 n) : EReal) + ∑ j : Fin M, if (idx (ix2 j (0 : Fin 1))).toInt.toNat = n.val then (upd (ix1 j) : EReal) else 0 := by
  obtain ⟨uw, iw, sd, iv, wf⟩ := d
  dsimp only at h1 h2 h3 h4
  subst h1 h2 h3 h4
  exact elemScatterAdd_apply wf x idx upd hidx n

/-- The row scatter-add at the extended reals, for dimension numbers given by their fields. -/
theorem scatterAdd_row_apply {N M D w : Nat} {φ : FTy} (d : ScatterDims ⟨2, ![N, D]⟩ ⟨2, ![M, 1]⟩ ⟨2, ![M, D]⟩)
    (h1 : d.updateWindowDims = ([1] : List (Fin 2))) (h2 : d.insertedWindowDims = ([0] : List (Fin 2)))
    (h3 : d.scatterDimsToOperandDims = ([0] : List (Fin 2))) (h4 : d.indexVectorDim = 1)
    (x : FVec Ideal ⟨2, ![N, D]⟩ φ) (idx : IVec ⟨2, ![M, 1]⟩ w) (upd : FVec Ideal ⟨2, ![M, D]⟩ φ)
    (hidx : ∀ j : Fin M, 0 ≤ (idx (ix2 j (0 : Fin 1))).toInt ∧ (idx (ix2 j (0 : Fin 1))).toInt < N)
    (n : Fin N) (c : Fin D) :
    Host.scatterAdd (F := Ideal) d x idx upd (ix2 n c)
      = (x (ix2 n c) : EReal) + ∑ j : Fin M, if (idx (ix2 j (0 : Fin 1))).toInt.toNat = n.val then (upd (ix2 j c) : EReal) else 0 := by
  obtain ⟨uw, iw, sd, iv, wf⟩ := d
  dsimp only at h1 h2 h3 h4
  subst h1 h2 h3 h4
  exact rowScatterAdd_apply wf x idx upd hidx n c

end AnyRecord

/-! ## Words: a start index that is not negative is not wrapped; a loop entry's word is its node -/

section Words

/-- The wrap of a negative index (add the extent when below zero) leaves a non-negative index as it is. -/
theorem wrap_eq (v : BitVec 32) (h : 0 ≤ v.toInt) :
    Scalar.select (IntOp.cmpi .slt v 0#32) (IntOp.addi v 100000#32) v = v := by
  have hc : IntOp.cmpi .slt v 0#32 = 0#1 := by
    have : v.slt 0#32 = false := by
      rw [BitVec.slt]
      simp only [BitVec.toInt_zero, decide_eq_false_iff_not, not_lt]
      exact h
    simp [IntOp.cmpi, this]
  rw [hc]
  exact select_zero _ _

/-- The word of a node number is that number, read signed. -/
theorem toInt_ofNat_node (m : Fin 100000) : (BitVec.ofNat 32 m.val).toInt = (m.val : Int) := by
  have hm := m.isLt
  have h1 : (BitVec.ofNat 32 m.val).toNat = m.val := by
    rw [BitVec.toNat_ofNat]
    exact Nat.mod_eq_of_lt (by omega)
  rw [BitVec.toInt_eq_toNat_of_lt (by rw [h1]; omega), h1]

/-- A word in range names the node whose number it is. -/
theorem nodeOf_eq_iff (v : BitVec 32) (h0 : 0 ≤ v.toInt) (h1 : v.toInt < 100000) (n : Fin 100000) :
    v.toInt.toNat = n.val ↔ Cert.Spec.nodeOf v = n := by
  unfold Cert.Spec.nodeOf
  rw [Fin.ext_iff]
  show _ ↔ min v.toInt.toNat 99999 = n.val
  rw [min_eq_left (by omega)]

/-- Clamping a word into the node range is reading the node it names. -/
theorem clamp_node (h : 0 < 100000) (v : BitVec 32) : clampIdx 100000 h v = Cert.Spec.nodeOf v := rfl

/-- A loop entry's word names its own node. -/
theorem nodeOf_ofNat (m : Fin 100000) : Cert.Spec.nodeOf (BitVec.ofNat 32 m.val) = m := by
  have hm := m.isLt
  unfold Cert.Spec.nodeOf
  refine Fin.ext ?_
  show min (BitVec.ofNat 32 m.val).toInt.toNat 99999 = m.val
  rw [toInt_ofNat_node m, Int.toNat_natCast]
  omega

end Words

/-! ## The entries' two ends, and the sums over the entries -/

section Sums

variable (ei : Cert.Spec.Edges) (sw dw : Fin 3300000 → BitVec 32)

/-- What is assumed of the two lists of entry ends: on an edge entry the edge's end, on a loop entry the node. -/
structure Ends : Prop where
  s_lo : ∀ e, sw (lo e) = ei 0 e
  s_hi : ∀ m, sw (hi m) = BitVec.ofNat 32 m.val
  d_lo : ∀ e, dw (lo e) = ei 1 e
  d_hi : ∀ m, dw (hi m) = BitVec.ofNat 32 m.val

variable {ei sw dw}

/-- Every entry is an edge or a loop. -/
theorem entry_cases (j : Fin 3300000) : (∃ e, j = lo e) ∨ (∃ m, j = hi m) := by
  by_cases h : j.val < 3200000
  · exact Or.inl ⟨⟨j.val, h⟩, rfl⟩
  · exact Or.inr ⟨⟨j.val - 3200000, by have := j.isLt; omega⟩, Fin.ext (by show j.val = 3200000 + (j.val - 3200000); omega)⟩

/-- Under the edge array's range, every entry's target word is in range. -/
theorem Ends.d_range (H : Ends ei sw dw)
    (hE : ∀ (r : Fin 2) (e : Fin 3200000), 0 ≤ (ei r e).toInt ∧ (ei r e).toInt < 100000) (j : Fin 3300000) :
    0 ≤ (dw j).toInt ∧ (dw j).toInt < 100000 := by
  rcases entry_cases j with ⟨e, rfl⟩ | ⟨m, rfl⟩
  · rw [H.d_lo]; exact hE 1 e
  · rw [H.d_hi, toInt_ofNat_node]; have := m.isLt; omega

/-- Under the edge array's range, every entry's source word is in range. -/
theorem Ends.s_range (H : Ends ei sw dw)
    (hE : ∀ (r : Fin 2) (e : Fin 3200000), 0 ≤ (ei r e).toInt ∧ (ei r e).toInt < 100000) (j : Fin 3300000) :
    0 ≤ (sw j).toInt ∧ (sw j).toInt < 100000 := by
  rcases entry_cases j with ⟨e, rfl⟩ | ⟨m, rfl⟩
  · rw [H.s_lo]; exact hE 0 e
  · rw [H.s_hi, toInt_ofNat_node]; have := m.isLt; omega

/-- THE SPLIT: a sum over the entries whose target is node n is the sum over the edges into n plus the one
    loop entry of n. -/
theorem sum_into_split (H : Ends ei sw dw)
    (hE : ∀ (r : Fin 2) (e : Fin 3200000), 0 ≤ (ei r e).toInt ∧ (ei r e).toInt < 100000)
    (g : Fin 3300000 → EReal) (n : Fin 100000) :
    (∑ j : Fin 3300000, if (dw j).toInt.toNat = n.val then g j else 0)
      = (∑ e ∈ Cert.Spec.into ei n, g (lo e)) + g (hi n) := by
  rw [sum_entries]
  refine congrArg₂ (· + ·) ?_ ?_
  · unfold Cert.Spec.into
    rw [Finset.sum_filter]
    refine Finset.sum_congr rfl fun e _ => ?_
    refine if_congr ?_ rfl rfl
    rw [H.d_lo]
    exact nodeOf_eq_iff _ (hE 1 e).1 (hE 1 e).2 n
  · have : ∀ m : Fin 100000, (if (dw (hi m)).toInt.toNat = n.val then g (hi m) else 0)
        = if m = n then g (hi m) else 0 := by
      intro m
      refine if_congr ?_ rfl rfl
      rw [H.d_hi, toInt_ofNat_node, Int.toNat_natCast]
      exact Fin.ext_iff.symm
    simp only [this]
    rw [Finset.sum_ite_eq' Finset.univ n (fun m => g (hi m))]
    simp

/-- The degree: the ones scattered to node n, one per entry into n, sum to its degree. -/
theorem deg_split (H : Ends ei sw dw)
    (hE : ∀ (r : Fin 2) (e : Fin 3200000), 0 ≤ (ei r e).toInt ∧ (ei r e).toInt < 100000) (n : Fin 100000) :
    (0 : EReal) + ∑ j : Fin 3300000, (if (dw j).toInt.toNat = n.val then (1 : EReal) else 0) = Cert.Spec.deg ei n := by
  rw [sum_into_split H hE (fun _ => (1 : EReal)) n, zero_add]
  rfl

/-- The degree is positive. -/
theorem deg_pos (ei : Cert.Spec.Edges) (n : Fin 100000) : 0 < Cert.Spec.deg ei n := by
  unfold Cert.Spec.deg
  exact lt_of_lt_of_le zero_lt_one (le_add_of_nonneg_left (Finset.sum_nonneg fun _ _ => zero_le_one))

/-- ONE LAYER: the scattered messages at node n and column d, plus the bias, are the layer's aggregation. -/
theorem agg_split {D : Nat} (H : Ends ei sw dw)
    (hE : ∀ (r : Fin 2) (e : Fin 3200000), 0 ≤ (ei r e).toInt ∧ (ei r e).toInt < 100000)
    (h : Fin 100000 → Fin D → EReal) (b : Fin D → EReal) (n : Fin 100000) (d : Fin D) :
    ((0 : EReal) + ∑ j : Fin 3300000, (if (dw j).toInt.toNat = n.val then
        h (Cert.Spec.nodeOf (sw j)) d
          * (Cert.Spec.dinv ei (Cert.Spec.nodeOf (sw j)) * Cert.Spec.dinv ei (Cert.Spec.nodeOf (dw j))) else 0)) + b d
      = Cert.Spec.agg ei h b n d := by
  rw [sum_into_split H hE _ n, zero_add]
  unfold Cert.Spec.agg
  refine congrArg₂ (· + ·) (congrArg₂ (· + ·) ?_ ?_) rfl
  · refine Finset.sum_congr rfl fun e _ => ?_
    rw [H.s_lo, H.d_lo]
    rfl
  · rw [H.s_hi, H.d_hi, nodeOf_ofNat]
    exact mul_comm _ _

end Sums

end Cert.RefValue

end
-- ==== Proof.KStages.lean ====
/-
  Layout operations of the host program READ AT AN INDEX, over literal ranks and generic extents:
  a row of a two-row table taken as a list; a list spread as a one-column table; a scalar spread over a shape;
  a list, and the rows of a table, padded at the end with a scalar; the leading rows of a table.
-/
import Idealize.ShloMosaic.Lib.Pipeline.Value
import Idealize.ShloMosaic.Lib.ValueIdx
import Idealize.ShloMosaic.PureOps.Ideal

noncomputable section

namespace Cert.KernelValue

open Idealize.ShloMosaic Idealize.ShloMosaic.ValueIdx

section Layout
variable {α : Type}

/-- Row 0 of a two-row table, as a list, at position e. -/
theorem row0_apply {E : Nat} (x : (⟨2, ![2, E]⟩ : Shape).Idx → α)
    (hs : (⟨2, ![2, E]⟩ : Shape).Slices ![0, 0] ⟨2, ![1, E]⟩) (hc : (⟨2, ![1, E]⟩ : Shape).ShapeCasts ⟨1, ![E]⟩) (e : Fin E) :
    shapeCast (⟨1, ![E]⟩ : Shape) (extractStridedSlice (⟨2, ![1, E]⟩ : Shape) ![0, 0] x hs) hc (ix1 e) = x (ix2 (0 : Fin 2) e) := by
  refine (shapeCast_apply _ hc (ix1 e) (ix2 (0 : Fin 1) e) ?_).trans ?_
  · rw [Shape.rowMajor_val_two, Shape.rowMajor_val_one]
    show 0 * E + e.val = e.val
    omega
  · exact extractStridedSlice_apply ![0, 0] x hs (ix2 (0 : Fin 1) e) (ix2 (0 : Fin 2) e) (fun a => match a with
      | ⟨0, _⟩ => rfl
      | ⟨1, _⟩ => by show e.val = 0 + e.val; omega)

/-- Row 1 of a two-row table, as a list, at position e. -/
theorem row1_apply {E : Nat} (x : (⟨2, ![2, E]⟩ : Shape).Idx → α)
    (hs : (⟨2, ![2, E]⟩ : Shape).Slices ![1, 0] ⟨2, ![1, E]⟩) (hc : (⟨2, ![1, E]⟩ : Shape).ShapeCasts ⟨1, ![E]⟩) (e : Fin E) :
    shapeCast (⟨1, ![E]⟩ : Shape) (extractStridedSlice (⟨2, ![1, E]⟩ : Shape) ![1, 0] x hs) hc (ix1 e) = x (ix2 (1 : Fin 2) e) := by
  refine (shapeCast_apply _ hc (ix1 e) (ix2 (0 : Fin 1) e) ?_).trans ?_
  · rw [Shape.rowMajor_val_two, Shape.rowMajor_val_one]
    show 0 * E + e.val = e.val
    omega
  · exact extractStridedSlice_apply ![1, 0] x hs (ix2 (0 : Fin 1) e) (ix2 (1 : Fin 2) e) (fun a => match a with
      | ⟨0, _⟩ => rfl
      | ⟨1, _⟩ => by show e.val = 0 + e.val; omega)

/-- A list spread as a one-column table, at row e. -/
theorem col_apply {E : Nat} (x : (⟨1, ![E]⟩ : Shape).Idx → α)
    (h : (⟨1, ![E]⟩ : Shape).BroadcastsInDim ⟨2, ![E, 1]⟩ ![0]) (e : Fin E) :
    broadcastInDim (⟨2, ![E, 1]⟩ : Shape) ![0] h x (ix2 e (0 : Fin 1)) = x (ix1 e) :=
  broadcastInDim_apply ![0] h x (ix2 e (0 : Fin 1)) (ix1 e) (fun a => by
    obtain rfl : a = 0 := Subsingleton.elim _ _
    show e.val = if E = 1 then 0 else e.val
    have := e.isLt
    split <;> omega)

/-- A scalar spread over a shape, anywhere. -/
theorem splat_apply {t : Shape} (c : (⟨0, ![]⟩ : Shape).Idx → α)
    (h : (⟨0, ![]⟩ : Shape).BroadcastsInDim t ![]) (j : t.Idx) :
    broadcastInDim t ![] h c j = c ix0 :=
  broadcastInDim_apply ![] h c j ix0 (fun a => a.elim0)

/-- A list padded at the end, read inside the list. -/
theorem pad_vec_lt {E T P : Nat} {u : Shape} (x : (⟨1, ![E]⟩ : Shape).Idx → α) (v : u.Idx → α)
    (h : (⟨1, ![E]⟩ : Shape).Pads ![0] ![P] ![0] ⟨1, ![T]⟩) (hu : 0 < u.numel) (e : Fin T) (he : e.val < E) :
    pad (⟨1, ![T]⟩ : Shape) ![0] ![P] ![0] x v h hu (ix1 e) = x (ix1 ⟨e.val, he⟩) := by
  unfold pad
  rw [dif_pos (fun a => by
    obtain rfl : a = 0 := Subsingleton.elim _ _
    show 0 ≤ e.val ∧ (e.val - 0) % (0 + 1) = 0 ∧ (e.val - 0) / (0 + 1) < E
    omega)]
  refine congrArg x (funext fun a => Fin.ext ?_)
  obtain rfl : a = 0 := Subsingleton.elim _ _
  show (e.val - 0) / (0 + 1) = e.val
  omega

/-- A list padded at the end, read in the padding. -/
theorem pad_vec_ge {E T P : Nat} {u : Shape} (x : (⟨1, ![E]⟩ : Shape).Idx → α) (v : u.Idx → α)
    (h : (⟨1, ![E]⟩ : Shape).Pads ![0] ![P] ![0] ⟨1, ![T]⟩) (hu : 0 < u.numel) (e : Fin T) (he : E ≤ e.val) :
    pad (⟨1, ![T]⟩ : Shape) ![0] ![P] ![0] x v h hu (ix1 e) = v (Shape.Idx.first hu) := by
  unfold pad
  rw [dif_neg (fun hin => by
    have h0 := (hin 0).2.2
    have h1 : (e.val - 0) / (0 + 1) < E := h0
    omega)]

/-- The rows of a table padded at the end, read inside the table. -/
theorem pad_rows_lt {N T P D : Nat} {u : Shape} (x : (⟨2, ![N, D]⟩ : Shape).Idx → α) (v : u.Idx → α)
    (h : (⟨2, ![N, D]⟩ : Shape).Pads ![0, 0] ![P, 0] ![0, 0] ⟨2, ![T, D]⟩) (hu : 0 < u.numel)
    (n : Fin T) (q : Fin D) (hn : n.val < N) :
    pad (⟨2, ![T, D]⟩ : Shape) ![0, 0] ![P, 0] ![0, 0] x v h hu (ix2 n q) = x (ix2 ⟨n.val, hn⟩ q) := by
  unfold pad
  rw [dif_pos (fun a => match a with
    | ⟨0, _⟩ => by
      show 0 ≤ n.val ∧ (n.val - 0) % (0 + 1) = 0 ∧ (n.val - 0) / (0 + 1) < N
      omega
    | ⟨1, _⟩ => by
      show 0 ≤ q.val ∧ (q.val - 0) % (0 + 1) = 0 ∧ (q.val - 0) / (0 + 1) < D
      have := q.isLt
      omega)]
  refine congrArg x (funext fun a => Fin.ext ?_)
  match a with
  | ⟨0, _⟩ => show (n.val - 0) / (0 + 1) = n.val; omega
  | ⟨1, _⟩ => show (q.val - 0) / (0 + 1) = q.val; omega

/-- The rows of a table padded at the end, read in the padding. -/
theorem pad_rows_ge {N T P D : Nat} {u : Shape} (x : (⟨2, ![N, D]⟩ : Shape).Idx → α) (v : u.Idx → α)
    (h : (⟨2, ![N, D]⟩ : Shape).Pads ![0, 0] ![P, 0] ![0, 0] ⟨2, ![T, D]⟩) (hu : 0 < u.numel)
    (n : Fin T) (q : Fin D) (hn : N ≤ n.val) :
    pad (⟨2, ![T, D]⟩ : Shape) ![0, 0] ![P, 0] ![0, 0] x v h hu (ix2 n q) = v (Shape.Idx.first hu) := by
  unfold pad
  rw [dif_neg (fun hin => by
    have h0 := (hin 0).2.2
    have h1 : (n.val - 0) / (0 + 1) < N := h0
    omega)]

/-- The leading rows of a table. -/
theorem lead_rows_apply {T N D : Nat} (x : (⟨2, ![T, D]⟩ : Shape).Idx → α)
    (h : (⟨2, ![T, D]⟩ : Shape).Slices ![0, 0] ⟨2, ![N, D]⟩) (n : Fin N) (q : Fin D) (hn : n.val < T) :
    extractStridedSlice (⟨2, ![N, D]⟩ : Shape) ![0, 0] x h (ix2 n q) = x (ix2 ⟨n.val, hn⟩ q) :=
  extractStridedSlice_apply ![0, 0] x h (ix2 n q) (ix2 ⟨n.val, hn⟩ q) (fun a => match a with
    | ⟨0, _⟩ => by show n.val = 0 + n.val; omega
    | ⟨1, _⟩ => by show q.val = 0 + q.val; omega)

end Layout

end Cert.KernelValue

end
-- ==== Proof.KHost.lean ====
/-
  The host operations of the kernel program READ AT AN INDEX, over the extended reals.

  Before the first region the program takes the two rows of the edge array as lists, scatters ones to the targets and
  adds one (the degree with the self-loop), takes the inverse square root, gathers it at both ends of every edge and
  multiplies (the edges' weights), and pads the four lists with zeros to the regions' block sizes.  Read at an index,
  the padded lists hold the specification's quantities inside the lists and zero in the padding.  Between the regions
  the program pads the rows of a features table with zeros and takes the leading rows of an aggregation.
  Everything is stated for an arbitrary valuation of the buffers in place of the launch contents.
-/
import proofs.«138531_j42417097015621_1_alg».proof.Proof.Gen.KernelIdeal.Launch
import proofs.«138531_j42417097015621_1_alg».proof.Proof.Gen.KernelIdeal.Regions
import proofs.«138531_j42417097015621_1_alg».proof.Proof.Spec
import proofs.«138531_j42417097015621_1_alg».proof.Proof.RefStages
import proofs.«138531_j42417097015621_1_alg».proof.Proof.RefMath
import Idealize.ShloMosaic.Lib.StableHlo.Run
import Idealize.ShloMosaic.Lib.IdealHost
import proofs.«138531_j42417097015621_1_alg».proof.Proof.KStages

noncomputable section

open scoped BigOperators

namespace Cert.KernelValue

open Cert.KernelIdeal Cert.KernelIdeal.Gen Cert.RefValue
open Idealize.ShloMosaic Idealize.ShloMosaic.TcCoe Idealize.ShloMosaic.ValueIdx Idealize.ShloMosaic.StableHlo
open Idealize.SL.Sem

/-! ## The host operations before the first region, as functions of the edge array -/

section Pure

variable (x1 : (⟨S2x3200000, .i32⟩ : BufTy).Contents (Elt Ideal))

/-- The sources: row 0 of the edge array, as a list. -/
def kSrc : (⟨S3200000, .i32⟩ : BufTy).Contents (Elt Ideal) := fun i =>
  shapeCast S3200000 (extractStridedSlice S1x3200000 ![0, 0] x1 slices_S2x3200000_S1x3200000_0_0) shapeCasts_S1x3200000_S3200000 i
/-- The targets: row 1 of the edge array, as a list. -/
def kDst : (⟨S3200000, .i32⟩ : BufTy).Contents (Elt Ideal) := fun i =>
  shapeCast S3200000 (extractStridedSlice S1x3200000 ![1, 0] x1 slices_S2x3200000_S1x3200000_1_0) shapeCasts_S1x3200000_S3200000 i
/-- The degree: ones scattered to the targets, plus one. -/
def kDeg : (⟨S100000, .f32⟩ : BufTy).Contents (Elt Ideal) :=
  addf (F := Ideal) (s := S100000) (φ := .f32)
    (Host.scatterAdd (F := Ideal) (φ := .f32) scatter_S100000_S3200000x1_S3200000_n_0_0_1
      (broadcastInDim S100000 ![] bcast_S_S100000 (constant (F := Ideal) S_ .f32 0x00000000#32))
      (broadcastInDim S3200000x1 ![0] bcast_S3200000_S3200000x1_0 (kDst x1))
      (broadcastInDim S3200000 ![] bcast_S_S3200000 (constant (F := Ideal) S_ .f32 0x3F800000#32)))
    (broadcastInDim S100000 ![] bcast_S_S100000 (constant (F := Ideal) S_ .f32 0x3F800000#32))
/-- Its inverse square root. -/
def kDinv : (⟨S100000, .f32⟩ : BufTy).Contents (Elt Ideal) :=
  Host.rsqrt (F := Ideal) (s := S100000) (φ := .f32) (kDeg x1)
/-- A list of indices with the negative ones wrapped. -/
def kWrap (v : (⟨S3200000, .i32⟩ : BufTy).Contents (Elt Ideal)) : (⟨S3200000, .i32⟩ : BufTy).Contents (Elt Ideal) :=
  select (cmpi .slt v (broadcastInDim S3200000 ![] bcast_S_S3200000 (constantI S_ 32 0#32)))
    (addi v (broadcastInDim S3200000 ![] bcast_S_S3200000 (constantI S_ 32 100000#32))) v
/-- The inverse square root gathered at a list of indices. -/
def kGath (v : (⟨S3200000, .i32⟩ : BufTy).Contents (Elt Ideal)) : (⟨S3200000, .f32⟩ : BufTy).Contents (Elt Ideal) :=
  Host.gather gather_S100000_S3200000x1_S3200000_n_0_n_n_0_1_1 (kDinv x1)
    (broadcastInDim S3200000x1 ![0] bcast_S3200000_S3200000x1_0 (kWrap v))
/-- The edges' weights. -/
def kNorm : (⟨S3200000, .f32⟩ : BufTy).Contents (Elt Ideal) :=
  mulf (F := Ideal) (s := S3200000) (φ := .f32) (kGath x1 (kSrc x1)) (kGath x1 (kDst x1))

variable {x1}

/-- The specification's edge list of an edge array. -/
abbrev edgesOf (x1 : (⟨S2x3200000, .i32⟩ : BufTy).Contents (Elt Ideal)) : Cert.Spec.Edges := fun r e => x1 (ix2 r e)

theorem kSrc_at (e : Fin 3200000) : kSrc x1 (ix1 e) = x1 (ix2 (0 : Fin 2) e) :=
  row0_apply x1 slices_S2x3200000_S1x3200000_0_0 shapeCasts_S1x3200000_S3200000 e

theorem kDst_at (e : Fin 3200000) : kDst x1 (ix1 e) = x1 (ix2 (1 : Fin 2) e) :=
  row1_apply x1 slices_S2x3200000_S1x3200000_1_0 shapeCasts_S1x3200000_S3200000 e

/-- A sum over the edges whose target is node n. -/
theorem sum_into_edges (ei : Cert.Spec.Edges)
    (hE : ∀ (r : Fin 2) (e : Fin 3200000), 0 ≤ (ei r e).toInt ∧ (ei r e).toInt < 100000)
    (g : Fin 3200000 → EReal) (n : Fin 100000) :
    (∑ e : Fin 3200000, if (ei 1 e).toInt.toNat = n.val then g e else 0) = ∑ e ∈ Cert.Spec.into ei n, g e := by
  unfold Cert.Spec.into
  rw [Finset.sum_filter]
  refine Finset.sum_congr rfl fun e _ => ?_
  refine if_congr ?_ rfl rfl
  exact nodeOf_eq_iff _ (hE 1 e).1 (hE 1 e).2 n

/-- The degree the host computes is the specification's. -/
theorem kDeg_at (hE : ∀ (r : Fin 2) (e : Fin 3200000), 0 ≤ (x1 (ix2 r e)).toInt ∧ (x1 (ix2 r e)).toInt < 100000)
    (n : Fin 100000) : kDeg x1 (ix1 n) = Cert.Spec.deg (edgesOf x1) n := by
  unfold kDeg
  rw [addf_apply, scatterAdd_elem_apply scatter_S100000_S3200000x1_S3200000_n_0_0_1 rfl rfl rfl rfl _ _ _
    (fun j => by rw [col_apply, kDst_at]; exact_mod_cast hE 1 j) n]
  have hz : broadcastInDim S100000 ![] bcast_S_S100000 (constant (F := Ideal) S_ .f32 0x00000000#32) (ix1 n) = (0 : EReal) :=
    (splat_apply _ _ _).trans Ideal.ofBits_zero_f32
  have ho : broadcastInDim S100000 ![] bcast_S_S100000 (constant (F := Ideal) S_ .f32 0x3F800000#32) (ix1 n) = (1 : EReal) :=
    (splat_apply _ _ _).trans Ideal.ofBits_one_f32
  have hu : ∀ j : Fin 3200000,
      broadcastInDim S3200000 ![] bcast_S_S3200000 (constant (F := Ideal) S_ .f32 0x3F800000#32) (ix1 j) = (1 : EReal) :=
    fun j => (splat_apply _ _ _).trans Ideal.ofBits_one_f32
  have hd : ∀ j : Fin 3200000,
      broadcastInDim S3200000x1 ![0] bcast_S3200000_S3200000x1_0 (kDst x1) (ix2 j (0 : Fin 1)) = x1 (ix2 (1 : Fin 2) j) :=
    fun j => (col_apply _ _ j).trans (kDst_at j)
  rw [hz, ho]
  simp only [hu, hd]
  rw [zero_add, sum_into_edges (edgesOf x1) hE (fun _ => (1 : EReal)) n]
  rfl

/-- The host's inverse square root at an index is the extended reals' of the element. -/
theorem rsqrt_apply {s : Shape} {φ : FTy} (v : FVec Ideal s φ) (i : s.Idx) :
    Host.rsqrt (F := Ideal) v i = Ideal.rsqrt (v i) := rfl

/-- The inverse square root the host computes is the specification's. -/
theorem kDinv_at (hE : ∀ (r : Fin 2) (e : Fin 3200000), 0 ≤ (x1 (ix2 r e)).toInt ∧ (x1 (ix2 r e)).toInt < 100000)
    (n : Fin 100000) : kDinv x1 (ix1 n) = Cert.Spec.dinv (edgesOf x1) n := by
  unfold kDinv
  rw [rsqrt_apply, kDeg_at hE n]
  unfold Cert.Spec.dinv
  rfl

/-- An index that is not negative is not wrapped. -/
theorem kWrap_at (v : (⟨S3200000, .i32⟩ : BufTy).Contents (Elt Ideal)) (e : Fin 3200000) (h : 0 ≤ (v (ix1 e)).toInt) :
    kWrap v (ix1 e) = v (ix1 e) := by
  have h0 : broadcastInDim S3200000 ![] bcast_S_S3200000 (constantI S_ 32 0#32) (ix1 e) = 0#32 :=
    (splat_apply _ _ _).trans rfl
  have h1 : broadcastInDim S3200000 ![] bcast_S_S3200000 (constantI S_ 32 100000#32) (ix1 e) = 100000#32 :=
    (splat_apply _ _ _).trans rfl
  show Scalar.select (IntOp.cmpi .slt (v (ix1 e)) (broadcastInDim S3200000 ![] bcast_S_S3200000 (constantI S_ 32 0#32) (ix1 e)))
    (IntOp.addi (v (ix1 e)) (broadcastInDim S3200000 ![] bcast_S_S3200000 (constantI S_ 32 100000#32) (ix1 e))) (v (ix1 e)) = _
  rw [h0, h1]
  exact wrap_eq _ h

/-- The gathered inverse square root at an index in range. -/
theorem kGath_at (hE : ∀ (r : Fin 2) (e : Fin 3200000), 0 ≤ (x1 (ix2 r e)).toInt ∧ (x1 (ix2 r e)).toInt < 100000)
    (v : (⟨S3200000, .i32⟩ : BufTy).Contents (Elt Ideal)) (e : Fin 3200000) (h : 0 ≤ (v (ix1 e)).toInt) :
    kGath x1 v (ix1 e) = Cert.Spec.dinv (edgesOf x1) (Cert.Spec.nodeOf (v (ix1 e))) := by
  unfold kGath
  refine (gather_elem_apply (by decide) gather_S100000_S3200000x1_S3200000_n_0_n_n_0_1_1 rfl rfl rfl rfl rfl rfl rfl
    _ _ e).trans ?_
  rw [col_apply, kWrap_at v e h, clamp_node]
  exact kDinv_at hE _

/-- The weights the host computes are the specification's. -/
theorem kNorm_at (hE : ∀ (r : Fin 2) (e : Fin 3200000), 0 ≤ (x1 (ix2 r e)).toInt ∧ (x1 (ix2 r e)).toInt < 100000)
    (e : Fin 3200000) : kNorm x1 (ix1 e) = Cert.Spec.norm (edgesOf x1) e := by
  unfold kNorm
  rw [mulf_apply, kGath_at hE (kSrc x1) e (by rw [kSrc_at]; exact (hE 0 e).1),
    kGath_at hE (kDst x1) e (by rw [kDst_at]; exact (hE 1 e).1), kSrc_at, kDst_at]
  unfold Cert.Spec.norm Cert.Spec.src Cert.Spec.dst
  rfl

end Pure

/-! ## The buffers after each host stretch before the first region -/

section Fold

variable (W : Valuation τ sig (Elt Ideal))

/-- The contents after the first stretch, the second, ... the eighth. -/
abbrev G1 : Valuation τ sig (Elt Ideal) := StableHlo.after hostOps0 W
abbrev G2 : Valuation τ sig (Elt Ideal) := StableHlo.after hostOps0_1 (G1 W)
abbrev G3 : Valuation τ sig (Elt Ideal) := StableHlo.after hostOps0_2 (G2 W)
abbrev G4 : Valuation τ sig (Elt Ideal) := StableHlo.after hostOps0_3 (G3 W)
abbrev G5 : Valuation τ sig (Elt Ideal) := StableHlo.after hostOps0_4 (G4 W)
abbrev G6 : Valuation τ sig (Elt Ideal) := StableHlo.after hostOps0_5 (G5 W)
abbrev G7 : Valuation τ sig (Elt Ideal) := StableHlo.after hostOps0_6 (G6 W)
abbrev G8 : Valuation τ sig (Elt Ideal) := StableHlo.after hostOps0_7 (G7 W)

/-- The edge array a valuation holds. -/
abbrev argEdges : (⟨S2x3200000, .i32⟩ : BufTy).Contents (Elt Ideal) := W (Proc.devRef .tc main_arg1)

/-! ### What each stretch writes -/

theorem s0_v1 : StableHlo.after hostOps0 W (Proc.devRef .tc main_v1) = kSrc (argEdges W) := by
  after_results_simp <;> rfl
theorem s0_v3 : StableHlo.after hostOps0 W (Proc.devRef .tc main_v3) = kDst (argEdges W) := by
  after_results_simp <;> rfl
theorem s0_v10 : StableHlo.after hostOps0 W (Proc.devRef .tc main_v10) = kDinv (argEdges W) := by
  after_results_simp <;> rfl
theorem s0_v25 : StableHlo.after hostOps0 W (Proc.devRef .tc main_v25) = kNorm (argEdges W) := by
  after_results_simp <;> rfl
theorem s0_c5 : StableHlo.after hostOps0 W (Proc.devRef .tc main_c_5) = constantI S_ 32 0#32 := by
  after_results_simp <;> rfl

theorem s1_v26 : StableHlo.after hostOps0_1 W (Proc.devRef .tc main_v26)
    = pad S3203072 ![0] ![3072] ![0] (W (Proc.devRef .tc main_v1) : (⟨S3200000, .i32⟩ : BufTy).Contents (Elt Ideal))
        (W (Proc.devRef .tc main_c_5) : (⟨S_, .i32⟩ : BufTy).Contents (Elt Ideal)) pads_S3200000_S3203072_030720 h_S_ := by
  after_results <;> rfl
theorem s2_c6 : StableHlo.after hostOps0_2 W (Proc.devRef .tc main_c_6) = constantI S_ 32 0#32 := by
  after_results <;> rfl
theorem s3_v27 : StableHlo.after hostOps0_3 W (Proc.devRef .tc main_v27)
    = pad S3203072 ![0] ![3072] ![0] (W (Proc.devRef .tc main_v3) : (⟨S3200000, .i32⟩ : BufTy).Contents (Elt Ideal))
        (W (Proc.devRef .tc main_c_6) : (⟨S_, .i32⟩ : BufTy).Contents (Elt Ideal)) pads_S3200000_S3203072_030720 h_S_ := by
  after_results <;> rfl
theorem s4_c7 : StableHlo.after hostOps0_4 W (Proc.devRef .tc main_c_7) = constantI S_ 32 0#32 := by
  after_results <;> rfl
theorem s5_v28 : StableHlo.after hostOps0_5 W (Proc.devRef .tc main_v28)
    = pad S3203072 ![0] ![3072] ![0] (W (Proc.devRef .tc main_v25) : (⟨S3200000, .f32⟩ : BufTy).Contents (Elt Ideal))
        (sitofp (F := Ideal) .f32 (W (Proc.devRef .tc main_c_7) : (⟨S_, .i32⟩ : BufTy).Contents (Elt Ideal)))
        pads_S3200000_S3203072_030720 h_S_ := by
  after_results <;> rfl
theorem s6_c8 : StableHlo.after hostOps0_6 W (Proc.devRef .tc main_c_8) = constantI S_ 32 0#32 := by
  after_results <;> rfl
theorem s7_v29 : StableHlo.after hostOps0_7 W (Proc.devRef .tc main_v29)
    = pad S100352 ![0] ![352] ![0] (W (Proc.devRef .tc main_v10) : (⟨S100000, .f32⟩ : BufTy).Contents (Elt Ideal))
        (sitofp (F := Ideal) .f32 (W (Proc.devRef .tc main_c_8) : (⟨S_, .i32⟩ : BufTy).Contents (Elt Ideal)))
        pads_S100000_S100352_03520 h_S_ := by
  after_results <;> rfl

/-! ### What each stretch leaves alone -/

theorem fr0 (r : Ref sig .tc) (h : r ∉ hostOps0_W) : StableHlo.after hostOps0 W (Proc.devRef .tc r) = W (Proc.devRef .tc r) :=
  StableHlo.after_of_writes_sub hostOps0 W hostOps0_writes h
theorem fr1 (r : Ref sig .tc) (h : r ∉ hostOps0_1_W) : StableHlo.after hostOps0_1 W (Proc.devRef .tc r) = W (Proc.devRef .tc r) :=
  StableHlo.after_of_writes_sub hostOps0_1 W hostOps0_1_writes h
theorem fr2 (r : Ref sig .tc) (h : r ∉ hostOps0_2_W) : StableHlo.after hostOps0_2 W (Proc.devRef .tc r) = W (Proc.devRef .tc r) :=
  StableHlo.after_of_writes_sub hostOps0_2 W hostOps0_2_writes h
theorem fr3 (r : Ref sig .tc) (h : r ∉ hostOps0_3_W) : StableHlo.after hostOps0_3 W (Proc.devRef .tc r) = W (Proc.devRef .tc r) :=
  StableHlo.after_of_writes_sub hostOps0_3 W hostOps0_3_writes h
theorem fr4 (r : Ref sig .tc) (h : r ∉ hostOps0_4_W) : StableHlo.after hostOps0_4 W (Proc.devRef .tc r) = W (Proc.devRef .tc r) :=
  StableHlo.after_of_writes_sub hostOps0_4 W hostOps0_4_writes h
theorem fr5 (r : Ref sig .tc) (h : r ∉ hostOps0_5_W) : StableHlo.after hostOps0_5 W (Proc.devRef .tc r) = W (Proc.devRef .tc r) :=
  StableHlo.after_of_writes_sub hostOps0_5 W hostOps0_5_writes h
theorem fr6 (r : Ref sig .tc) (h : r ∉ hostOps0_6_W) : StableHlo.after hostOps0_6 W (Proc.devRef .tc r) = W (Proc.devRef .tc r) :=
  StableHlo.after_of_writes_sub hostOps0_6 W hostOps0_6_writes h
theorem fr7 (r : Ref sig .tc) (h : r ∉ hostOps0_7_W) : StableHlo.after hostOps0_7 W (Proc.devRef .tc r) = W (Proc.devRef .tc r) :=
  StableHlo.after_of_writes_sub hostOps0_7 W hostOps0_7_writes h

/-! ### The padded lists at the first region's entry -/

/-- The padded sources. -/
theorem G8_v26 : G8 W (Proc.devRef .tc main_v26)
    = pad S3203072 ![0] ![3072] ![0] (kSrc (argEdges W)) (constantI S_ 32 0#32 : (⟨S_, .i32⟩ : BufTy).Contents (Elt Ideal))
        pads_S3200000_S3203072_030720 h_S_ := by
  unfold G8 G7 G6 G5 G4 G3 G2 G1
  rw [fr7 _ main_v26 (by decide), fr6 _ main_v26 (by decide), fr5 _ main_v26 (by decide), fr4 _ main_v26 (by decide),
    fr3 _ main_v26 (by decide), fr2 _ main_v26 (by decide), s1_v26, s0_v1, s0_c5]

/-- The padded targets. -/
theorem G8_v27 : G8 W (Proc.devRef .tc main_v27)
    = pad S3203072 ![0] ![3072] ![0] (kDst (argEdges W)) (constantI S_ 32 0#32 : (⟨S_, .i32⟩ : BufTy).Contents (Elt Ideal))
        pads_S3200000_S3203072_030720 h_S_ := by
  unfold G8 G7 G6 G5 G4 G3 G2 G1
  rw [fr7 _ main_v27 (by decide), fr6 _ main_v27 (by decide), fr5 _ main_v27 (by decide), fr4 _ main_v27 (by decide),
    s3_v27, s2_c6, fr2 _ main_v3 (by decide), fr1 _ main_v3 (by decide), s0_v3]

/-- The padded weights. -/
theorem G8_v28 : G8 W (Proc.devRef .tc main_v28)
    = pad S3203072 ![0] ![3072] ![0] (kNorm (argEdges W))
        (sitofp (F := Ideal) .f32 (constantI S_ 32 0#32 : (⟨S_, .i32⟩ : BufTy).Contents (Elt Ideal)))
        pads_S3200000_S3203072_030720 h_S_ := by
  unfold G8 G7 G6 G5 G4 G3 G2 G1
  rw [fr7 _ main_v28 (by decide), fr6 _ main_v28 (by decide), s5_v28, s4_c7,
    fr4 _ main_v25 (by decide), fr3 _ main_v25 (by decide), fr2 _ main_v25 (by decide), fr1 _ main_v25 (by decide), s0_v25]

/-- The padded inverse square roots. -/
theorem G8_v29 : G8 W (Proc.devRef .tc main_v29)
    = pad S100352 ![0] ![352] ![0] (kDinv (argEdges W))
        (sitofp (F := Ideal) .f32 (constantI S_ 32 0#32 : (⟨S_, .i32⟩ : BufTy).Contents (Elt Ideal)))
        pads_S100000_S100352_03520 h_S_ := by
  unfold G8 G7 G6 G5 G4 G3 G2 G1
  rw [s7_v29, s6_c8, fr6 _ main_v10 (by decide), fr5 _ main_v10 (by decide), fr4 _ main_v10 (by decide),
    fr3 _ main_v10 (by decide), fr2 _ main_v10 (by decide), fr1 _ main_v10 (by decide), s0_v10]

end Fold

/-! ## The statements: the first region's inputs, and the glue between the regions -/

section Statements

variable (W : Valuation τ sig (Elt Ideal))

/-- The padding value of the float pads: the integer zero converted is the extended real zero. -/
theorem sitofp_zero (i : S_.Idx) :
    (sitofp (F := Ideal) .f32 (constantI S_ 32 0#32 : (⟨S_, .i32⟩ : BufTy).Contents (Elt Ideal))) i = (0 : EReal) := by
  show ((((0#32 : BitVec 32).toInt : ℝ)) : EReal) = 0
  simp

/-- The padded sources: the edge's source word inside the list, the zero word in the padding. -/
theorem src_pad_lt (e : Fin 3203072) (he : e.val < 3200000) :
    (G8 W (Proc.devRef .tc main_v26) : (⟨S3203072, .i32⟩ : BufTy).Contents (Elt Ideal)) (ix1 e)
      = argEdges W (ix2 (0 : Fin 2) (⟨e.val, he⟩ : Fin 3200000)) := by
  rw [G8_v26]
  exact (pad_vec_lt _ _ _ _ e he).trans (kSrc_at _)
theorem src_pad_ge (e : Fin 3203072) (he : 3200000 ≤ e.val) :
    (G8 W (Proc.devRef .tc main_v26) : (⟨S3203072, .i32⟩ : BufTy).Contents (Elt Ideal)) (ix1 e) = 0#32 := by
  rw [G8_v26]
  exact (pad_vec_ge _ _ _ _ e he).trans rfl

/-- The padded targets. -/
theorem dst_pad_lt (e : Fin 3203072) (he : e.val < 3200000) :
    (G8 W (Proc.devRef .tc main_v27) : (⟨S3203072, .i32⟩ : BufTy).Contents (Elt Ideal)) (ix1 e)
      = argEdges W (ix2 (1 : Fin 2) (⟨e.val, he⟩ : Fin 3200000)) := by
  rw [G8_v27]
  exact (pad_vec_lt _ _ _ _ e he).trans (kDst_at _)
theorem dst_pad_ge (e : Fin 3203072) (he : 3200000 ≤ e.val) :
    (G8 W (Proc.devRef .tc main_v27) : (⟨S3203072, .i32⟩ : BufTy).Contents (Elt Ideal)) (ix1 e) = 0#32 := by
  rw [G8_v27]
  exact (pad_vec_ge _ _ _ _ e he).trans rfl

/-- The padded weights: the edge's weight inside the list, zero in the padding. -/
theorem norm_pad_lt
    (hE : ∀ (r : Fin 2) (e : Fin 3200000), 0 ≤ (argEdges W (ix2 r e)).toInt ∧ (argEdges W (ix2 r e)).toInt < 100000)
    (e : Fin 3203072) (he : e.val < 3200000) :
    (G8 W (Proc.devRef .tc main_v28) : (⟨S3203072, .f32⟩ : BufTy).Contents (Elt Ideal)) (ix1 e)
      = Cert.Spec.norm (edgesOf (argEdges W)) (⟨e.val, he⟩ : Fin 3200000) := by
  rw [G8_v28]
  exact (pad_vec_lt _ _ _ _ e he).trans (kNorm_at hE _)
theorem norm_pad_ge (e : Fin 3203072) (he : 3200000 ≤ e.val) :
    (G8 W (Proc.devRef .tc main_v28) : (⟨S3203072, .f32⟩ : BufTy).Contents (Elt Ideal)) (ix1 e) = (0 : EReal) := by
  rw [G8_v28]
  exact (pad_vec_ge _ _ _ _ e he).trans (sitofp_zero _)

/-- The padded inverse square roots: the node's inside the list, zero in the padding. -/
theorem dinv_pad_lt
    (hE : ∀ (r : Fin 2) (e : Fin 3200000), 0 ≤ (argEdges W (ix2 r e)).toInt ∧ (argEdges W (ix2 r e)).toInt < 100000)
    (n : Fin 100352) (hn : n.val < 100000) :
    (G8 W (Proc.devRef .tc main_v29) : (⟨S100352, .f32⟩ : BufTy).Contents (Elt Ideal)) (ix1 n)
      = Cert.Spec.dinv (edgesOf (argEdges W)) (⟨n.val, hn⟩ : Fin 100000) := by
  rw [G8_v29]
  exact (pad_vec_lt _ _ _ _ n hn).trans (kDinv_at hE _)
theorem dinv_pad_ge (n : Fin 100352) (hn : 100000 ≤ n.val) :
    (G8 W (Proc.devRef .tc main_v29) : (⟨S100352, .f32⟩ : BufTy).Contents (Elt Ideal)) (ix1 n) = (0 : EReal) := by
  rw [G8_v29]
  exact (pad_vec_ge _ _ _ _ n hn).trans (sitofp_zero _)

/-- A buffer none of the eight stretches writes is as launched. -/
theorem G8_of (r : Ref sig .tc) (h0 : r ∉ hostOps0_W) (h1 : r ∉ hostOps0_1_W) (h2 : r ∉ hostOps0_2_W) (h3 : r ∉ hostOps0_3_W)
    (h4 : r ∉ hostOps0_4_W) (h5 : r ∉ hostOps0_5_W) (h6 : r ∉ hostOps0_6_W) (h7 : r ∉ hostOps0_7_W) :
    G8 W (Proc.devRef .tc r) = W (Proc.devRef .tc r) := by
  unfold G8 G7 G6 G5 G4 G3 G2 G1
  rw [fr7 _ r h7, fr6 _ r h6, fr5 _ r h5, fr4 _ r h4, fr3 _ r h3, fr2 _ r h2, fr1 _ r h1, fr0 _ r h0]
theorem G8_arg0 : G8 W (Proc.devRef .tc main_arg0) = W (Proc.devRef .tc main_arg0) :=
  G8_of W main_arg0 (by decide) (by decide) (by decide) (by decide) (by decide) (by decide) (by decide) (by decide)
theorem G8_arg1 : G8 W (Proc.devRef .tc main_arg1) = W (Proc.devRef .tc main_arg1) :=
  G8_of W main_arg1 (by decide) (by decide) (by decide) (by decide) (by decide) (by decide) (by decide) (by decide)
theorem G8_arg2 : G8 W (Proc.devRef .tc main_arg2) = W (Proc.devRef .tc main_arg2) :=
  G8_of W main_arg2 (by decide) (by decide) (by decide) (by decide) (by decide) (by decide) (by decide) (by decide)
theorem G8_arg3 : G8 W (Proc.devRef .tc main_arg3) = W (Proc.devRef .tc main_arg3) :=
  G8_of W main_arg3 (by decide) (by decide) (by decide) (by decide) (by decide) (by decide) (by decide) (by decide)
theorem G8_arg4 : G8 W (Proc.devRef .tc main_arg4) = W (Proc.devRef .tc main_arg4) :=
  G8_of W main_arg4 (by decide) (by decide) (by decide) (by decide) (by decide) (by decide) (by decide) (by decide)
theorem G8_arg5 : G8 W (Proc.devRef .tc main_arg5) = W (Proc.devRef .tc main_arg5) :=
  G8_of W main_arg5 (by decide) (by decide) (by decide) (by decide) (by decide) (by decide) (by decide) (by decide)

/-! ### The glue between the regions -/

theorem t1_c9 : StableHlo.after hostOps1 W (Proc.devRef .tc main_c_9) = constantI S_ 32 0#32 := by
  after_results <;> rfl
theorem t1_v31 : StableHlo.after hostOps1_1 W (Proc.devRef .tc main_v31)
    = pad S100352x64 ![0, 0] ![352, 0] ![0, 0] (W (Proc.devRef .tc main_v30) : (⟨S100000x64, .f32⟩ : BufTy).Contents (Elt Ideal))
        (sitofp (F := Ideal) .f32 (W (Proc.devRef .tc main_c_9) : (⟨S_, .i32⟩ : BufTy).Contents (Elt Ideal)))
        pads_S100000x64_S100352x64_03520_000 h_S_ := by
  after_results <;> rfl
/-- The first layer's features with their rows padded. -/
theorem G_v31 : StableHlo.after hostOps1_1 (StableHlo.after hostOps1 W) (Proc.devRef .tc main_v31)
    = pad S100352x64 ![0, 0] ![352, 0] ![0, 0] (W (Proc.devRef .tc main_v30) : (⟨S100000x64, .f32⟩ : BufTy).Contents (Elt Ideal))
        (sitofp (F := Ideal) .f32 (constantI S_ 32 0#32 : (⟨S_, .i32⟩ : BufTy).Contents (Elt Ideal)))
        pads_S100000x64_S100352x64_03520_000 h_S_ := by
  rw [t1_v31, t1_c9, StableHlo.after_of_writes_sub hostOps1 W hostOps1_writes (show main_v30 ∉ hostOps1_W by decide)]
theorem v31_lt (n : Fin 100352) (q : Fin 64) (hn : n.val < 100000) :
    (StableHlo.after hostOps1_1 (StableHlo.after hostOps1 W) (Proc.devRef .tc main_v31) : (⟨S100352x64, .f32⟩ : BufTy).Contents (Elt Ideal)) (ix2 n q)
      = (W (Proc.devRef .tc main_v30) : (⟨S100000x64, .f32⟩ : BufTy).Contents (Elt Ideal)) (ix2 (⟨n.val, hn⟩ : Fin 100000) q) := by
  rw [G_v31]
  exact pad_rows_lt _ _ _ _ n q hn
theorem v31_ge (n : Fin 100352) (q : Fin 64) (hn : 100000 ≤ n.val) :
    (StableHlo.after hostOps1_1 (StableHlo.after hostOps1 W) (Proc.devRef .tc main_v31) : (⟨S100352x64, .f32⟩ : BufTy).Contents (Elt Ideal)) (ix2 n q)
      = (0 : EReal) := by
  rw [G_v31]
  exact (pad_rows_ge _ _ _ _ n q hn).trans (sitofp_zero _)

/-- The first aggregation's leading rows. -/
theorem v34_at (n : Fin 100000) (q : Fin 64) :
    (StableHlo.after hostOps3 W (Proc.devRef .tc main_v34) : (⟨S100000x64, .f32⟩ : BufTy).Contents (Elt Ideal)) (ix2 n q)
      = (W (Proc.devRef .tc main_v33) : (⟨S100352x64, .f32⟩ : BufTy).Contents (Elt Ideal))
          (ix2 (⟨n.val, by have := n.isLt; omega⟩ : Fin 100352) q) := by
  have e : StableHlo.after hostOps3 W (Proc.devRef .tc main_v34)
      = extractStridedSlice S100000x64 ![0, 0] (W (Proc.devRef .tc main_v33) : (⟨S100352x64, .f32⟩ : BufTy).Contents (Elt Ideal))
          slices_S100352x64_S100000x64_0_0 := by
    after_results <;> rfl
  rw [e]
  exact lead_rows_apply _ _ n q _

theorem t4_c10 : StableHlo.after hostOps4 W (Proc.devRef .tc main_c_10) = constantI S_ 32 0#32 := by
  after_results <;> rfl
theorem t4_v36 : StableHlo.after hostOps4_1 W (Proc.devRef .tc main_v36)
    = pad S100352x32 ![0, 0] ![352, 0] ![0, 0] (W (Proc.devRef .tc main_v35) : (⟨S100000x32, .f32⟩ : BufTy).Contents (Elt Ideal))
        (sitofp (F := Ideal) .f32 (W (Proc.devRef .tc main_c_10) : (⟨S_, .i32⟩ : BufTy).Contents (Elt Ideal)))
        pads_S100000x32_S100352x32_03520_000 h_S_ := by
  after_results <;> rfl
/-- The second layer's features with their rows padded. -/
theorem G_v36 : StableHlo.after hostOps4_1 (StableHlo.after hostOps4 W) (Proc.devRef .tc main_v36)
    = pad S100352x32 ![0, 0] ![352, 0] ![0, 0] (W (Proc.devRef .tc main_v35) : (⟨S100000x32, .f32⟩ : BufTy).Contents (Elt Ideal))
        (sitofp (F := Ideal) .f32 (constantI S_ 32 0#32 : (⟨S_, .i32⟩ : BufTy).Contents (Elt Ideal)))
        pads_S100000x32_S100352x32_03520_000 h_S_ := by
  rw [t4_v36, t4_c10, StableHlo.after_of_writes_sub hostOps4 W hostOps4_writes (show main_v35 ∉ hostOps4_W by decide)]
theorem v36_lt (n : Fin 100352) (q : Fin 32) (hn : n.val < 100000) :
    (StableHlo.after hostOps4_1 (StableHlo.after hostOps4 W) (Proc.devRef .tc main_v36) : (⟨S100352x32, .f32⟩ : BufTy).Contents (Elt Ideal)) (ix2 n q)
      = (W (Proc.devRef .tc main_v35) : (⟨S100000x32, .f32⟩ : BufTy).Contents (Elt Ideal)) (ix2 (⟨n.val, hn⟩ : Fin 100000) q) := by
  rw [G_v36]
  exact pad_rows_lt _ _ _ _ n q hn
theorem v36_ge (n : Fin 100352) (q : Fin 32) (hn : 100000 ≤ n.val) :
    (StableHlo.after hostOps4_1 (StableHlo.after hostOps4 W) (Proc.devRef .tc main_v36) : (⟨S100352x32, .f32⟩ : BufTy).Contents (Elt Ideal)) (ix2 n q)
      = (0 : EReal) := by
  rw [G_v36]
  exact (pad_rows_ge _ _ _ _ n q hn).trans (sitofp_zero _)

/-- The second aggregation's leading rows: the result. -/
theorem v39_at (n : Fin 100000) (q : Fin 32) :
    (StableHlo.after hostOps6 W (Proc.devRef .tc main_v39) : (⟨S100000x32, .f32⟩ : BufTy).Contents (Elt Ideal)) (ix2 n q)
      = (W (Proc.devRef .tc main_v38) : (⟨S100352x32, .f32⟩ : BufTy).Contents (Elt Ideal))
          (ix2 (⟨n.val, by have := n.isLt; omega⟩ : Fin 100352) q) := by
  have e : StableHlo.after hostOps6 W (Proc.devRef .tc main_v39)
      = extractStridedSlice S100000x32 ![0, 0] (W (Proc.devRef .tc main_v38) : (⟨S100352x32, .f32⟩ : BufTy).Contents (Elt Ideal))
          slices_S100352x32_S100000x32_0_0 := by
    after_results <;> rfl
  rw [e]
  exact lead_rows_apply _ _ n q _

end Statements

end Cert.KernelValue

end
-- ==== Proof.KLayer.lean ====
/-
  One layer of the graph convolution, from the padded tables the regions work on.

  The regions see the edge lists padded from 3200000 to 3203072 entries (zero words, zero weights) and the node tables
  padded from 100000 to 100352 rows (zero rows).  A message is the feature row the edge's source word selects from
  the padded features (nothing if the word names no row), times the edge's weight; a node's aggregate is the sum of
  the messages of the entries whose target word is the node, plus the self term and the bias.  Under the
  precondition that every edge end names a node, the aggregate of a node is the specification's: the padded entries
  carry weight zero, and the words of the real edges name the specification's sources and targets.
-/
import proofs.«138531_j42417097015621_1_alg».proof.Proof.Spec
import proofs.«138531_j42417097015621_1_alg».proof.Proof.RefMath
import Mathlib.Algebra.BigOperators.Fin

noncomputable section

open scoped BigOperators

namespace Cert.KernelValue

open Cert.Spec

/-- A sum over the padded entries is the sum over the edges plus the sum over the padding. -/
theorem sum_padded {A : Type*} [AddCommMonoid A] (f : Fin 3203072 → A) :
    ∑ e, f e = ∑ e : Fin 3200000, f ⟨e.val, by have := e.isLt; omega⟩
      + ∑ k : Fin 3072, f ⟨3200000 + k.val, by have := k.isLt; omega⟩ := by
  have h := Fin.sum_univ_add (M := A) (a := 3200000) (b := 3072) (fun j => f ⟨j.val, j.isLt⟩)
  exact h

/-- A word in range names the node whose number is its value. -/
theorem nodeOf_val (v : BitVec 32) (h0 : 0 ≤ v.toInt) (h1 : v.toInt < 100000) : (nodeOf v).val = v.toInt.toNat := by
  unfold nodeOf
  show min v.toInt.toNat 99999 = v.toInt.toNat
  omega

section Layer

variable {D : ℕ}

/-- The feature row a source word selects from the padded features, at column q: nothing if the word names no row. -/
def gath (sw : Fin 3203072 → BitVec 32) (hp : Fin 100352 → Fin D → EReal) (e : Fin 3203072) (q : Fin D) : EReal :=
  if h : 0 ≤ (sw e).toInt ∧ (sw e).toInt < (100352 : ℕ) ∧ (sw e).toInt < 100352 then
    hp ⟨(sw e).toInt.toNat, by omega⟩ q
  else 0

/-- What the padded tables are to the edge list: the edges' words, weights and the nodes' inverse root degrees
    inside, zero weights in the padding. -/
structure Padded (ei : Edges) (sw dw : Fin 3203072 → BitVec 32) (nw : Fin 3203072 → EReal) (dv : Fin 100352 → EReal) : Prop where
  s_lt : ∀ (e : Fin 3203072) (he : e.val < 3200000), sw e = ei 0 ⟨e.val, he⟩
  d_lt : ∀ (e : Fin 3203072) (he : e.val < 3200000), dw e = ei 1 ⟨e.val, he⟩
  n_lt : ∀ (e : Fin 3203072) (he : e.val < 3200000), nw e = norm ei ⟨e.val, he⟩
  n_ge : ∀ e : Fin 3203072, 3200000 ≤ e.val → nw e = 0
  v_lt : ∀ (n : Fin 100352) (hn : n.val < 100000), dv n = dinv ei ⟨n.val, hn⟩

variable {ei : Edges} {sw dw : Fin 3203072 → BitVec 32} {nw : Fin 3203072 → EReal} {dv : Fin 100352 → EReal}
  {hp : Fin 100352 → Fin D → EReal} {h : Fin 100000 → Fin D → EReal}

/-- A real edge's message: its source's feature times its weight. -/
theorem msg_lt (P : Padded ei sw dw nw dv)
    (hE : ∀ (r : Fin 2) (e : Fin 3200000), 0 ≤ (ei r e).toInt ∧ (ei r e).toInt < 100000)
    (hh : ∀ (n : Fin 100352) (hn : n.val < 100000) (q : Fin D), hp n q = h ⟨n.val, hn⟩ q)
    (e : Fin 3200000) (q : Fin D) :
    gath sw hp ⟨e.val, by have := e.isLt; omega⟩ q * nw ⟨e.val, by have := e.isLt; omega⟩ = h (src ei e) q * norm ei e := by
  have hs : sw ⟨e.val, by have := e.isLt; omega⟩ = ei 0 e := P.s_lt ⟨e.val, by have := e.isLt; omega⟩ e.isLt
  have h0 := (hE 0 e).1
  have h1 := (hE 0 e).2
  have hn : nw ⟨e.val, by have := e.isLt; omega⟩ = norm ei e := P.n_lt ⟨e.val, by have := e.isLt; omega⟩ e.isLt
  rw [hn]
  unfold gath
  rw [dif_pos (by rw [hs]; exact ⟨h0, by omega, by omega⟩), hh _ (by show ((sw _).toInt.toNat) < 100000; rw [hs]; omega)]
  congr 2
  refine Fin.ext ?_
  show (sw _).toInt.toNat = (src ei e).val
  rw [hs]
  exact (nodeOf_val _ h0 h1).symm

/-- A padded entry's message is nothing: its weight is zero. -/
theorem msg_ge (P : Padded ei sw dw nw dv) (k : Fin 3072) (q : Fin D) :
    gath sw hp ⟨3200000 + k.val, by have := k.isLt; omega⟩ q * nw ⟨3200000 + k.val, by have := k.isLt; omega⟩ = 0 := by
  rw [P.n_ge _ (by show 3200000 ≤ 3200000 + k.val; omega), mul_zero]

/-- The messages into a node: the entries whose target word is the node are the edges into it. -/
theorem sum_msgs (P : Padded ei sw dw nw dv)
    (hE : ∀ (r : Fin 2) (e : Fin 3200000), 0 ≤ (ei r e).toInt ∧ (ei r e).toInt < 100000)
    (hh : ∀ (n : Fin 100352) (hn : n.val < 100000) (q : Fin D), hp n q = h ⟨n.val, hn⟩ q)
    (n : Fin 100000) (q : Fin D) :
    (∑ e ∈ Finset.univ.filter (fun e : Fin 3203072 => (dw e).toInt = (n.val : ℤ)), gath sw hp e q * nw e)
      = ∑ e ∈ into ei n, h (src ei e) q * norm ei e := by
  rw [Finset.sum_filter, sum_padded]
  have hpad : (∑ k : Fin 3072, if (dw ⟨3200000 + k.val, by have := k.isLt; omega⟩).toInt = (n.val : ℤ)
      then gath sw hp ⟨3200000 + k.val, by have := k.isLt; omega⟩ q * nw ⟨3200000 + k.val, by have := k.isLt; omega⟩ else 0) = 0 :=
    Finset.sum_eq_zero fun k _ => by rw [msg_ge P k q]; exact ite_self 0
  rw [hpad, add_zero]
  unfold into
  rw [Finset.sum_filter]
  refine Finset.sum_congr rfl fun e _ => ?_
  have hdw : dw ⟨e.val, by have := e.isLt; omega⟩ = ei 1 e := P.d_lt ⟨e.val, by have := e.isLt; omega⟩ e.isLt
  rw [msg_lt P hE hh e q, hdw]
  refine if_congr ?_ rfl rfl
  have h0 := (hE 1 e).1
  have h1 := (hE 1 e).2
  constructor
  · intro hd
    exact Fin.ext (by rw [show (dst ei e).val = (ei 1 e).toInt.toNat from nodeOf_val _ h0 h1]; omega)
  · intro hd
    have : (dst ei e).val = (ei 1 e).toInt.toNat := nodeOf_val _ h0 h1
    rw [hd] at this
    omega

/-- ONE LAYER: the aggregate the regions compute at a node is the specification's. -/
theorem layer_eq (P : Padded ei sw dw nw dv)
    (hE : ∀ (r : Fin 2) (e : Fin 3200000), 0 ≤ (ei r e).toInt ∧ (ei r e).toInt < 100000)
    (hh : ∀ (n : Fin 100352) (hn : n.val < 100000) (q : Fin D), hp n q = h ⟨n.val, hn⟩ q)
    (b : Fin D → EReal) (n : Fin 100000) (q : Fin D) :
    (∑ e ∈ Finset.univ.filter (fun e : Fin 3203072 => (dw e).toInt = (n.val : ℤ)), gath sw hp e q * nw e)
        + dv ⟨n.val, by have := n.isLt; omega⟩ * dv ⟨n.val, by have := n.isLt; omega⟩ * hp ⟨n.val, by have := n.isLt; omega⟩ q + b q
      = agg ei h b n q := by
  rw [sum_msgs P hE hh n q, P.v_lt ⟨n.val, by have := n.isLt; omega⟩ n.isLt, hh ⟨n.val, by have := n.isLt; omega⟩ n.isLt q]
  rfl

end Layer

end Cert.KernelValue

end
-- ==== Proof.IndexRead.lean ====
import Idealize.ShloMosaic.Lib.ValueIdx
import Idealize.ShloMosaic.Lib.Pipeline.Value
import Idealize.ShloMosaic.Lib.ValueLayout
import Idealize.ShloMosaic.PureOps.Ideal.Laws

/-!
# Vectors read at an index: columns, a plain matrix product, a one-hot indicator

What the bodies of a blockwise one-hot gather and scatter need once a stored vector is read at one index,
with every float an exact extended real:

* a vector viewed as a one-column matrix, and a column repeated across a row, read at an index;
* a plain matrix product (rows by columns, one shared axis) accumulated into the zero matrix: at an index
  it is the sum over the shared axis of the products;
* two integer words compared for equality, the bit widened and converted to a float: 1 where they are
  equal, 0 where they are not;
* the word of position j of tile t, tiles of 2048, computed in 32 bits: below tile 49 it does not wrap.
-/

noncomputable section

open scoped BigOperators

namespace Cert.KernelValue

open Idealize.ShloMosaic Idealize.ShloMosaic.ValueIdx

/-! ## Columns: a vector viewed as a one-column matrix, and a column repeated across a row -/

section Columns
variable {α : Type}

/-- A vector of length `a` cast to an `a × 1` column reads, at row `i`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## A plain matrix product at an index -/

/-- A product of an m × k by a k × n matrix, contracted on the one shared axis and accumulated into
the zero matrix, is at (r, c) the sum over the shared axis of the products. -/
theorem matmul_plain_apply {m k n : ℕ} {φ₁ φ₂ : FTy} (D : DotDims ⟨2, ![m, k]⟩ ⟨2, ![k, n]⟩ ⟨2, ![m, n]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (lhs : FVec Ideal ⟨2, ![m, k]⟩ φ₁) (rhs : FVec Ideal ⟨2, ![k, n]⟩ φ₂)
    (r : Fin m) (c : Fin n) :
    FloatOps.matmul D prec lhs rhs (constant (F := Ideal) ⟨2, ![m, n]⟩ .f32 0x00000000#32) (ix2 r c)
      = ∑ j : Fin k, lhs (ix2 r j) * rhs (ix2 j c) := by
  obtain ⟨lc, rc, ln, rn, lb, rb, wf⟩ := D
  dsimp only at hlc hrc hln hrn hlb hrb
  subst hlc hrc hln hrn hlb hrb
  rw [Ideal.matmul_constant_zero_apply,
    ← Equiv.sum_comp (contrEquiv1 (⟨[1], [0], [0], [1], [], [], wf⟩ : DotDims ⟨2, ![m, k]⟩ ⟨2, ![k, n]⟩ ⟨2, ![m, n]⟩) k rfl rfl).symm]
  refine Finset.sum_congr rfl fun j _ => ?_
  have hj := contrEquiv1_symm_val (⟨[1], [0], [0], [1], [], [], wf⟩ : DotDims ⟨2, ![m, k]⟩ ⟨2, ![k, n]⟩ ⟨2, ![m, n]⟩) k rfl rfl j
  have el : DotDims.lhsIdx (⟨[1], [0], [0], [1], [], [], wf⟩ : DotDims ⟨2, ![m, k]⟩ ⟨2, ![k, n]⟩ ⟨2, ![m, n]⟩) (ix2 r c)
      ((contrEquiv1 (⟨[1], [0], [0], [1], [], [], wf⟩ : DotDims ⟨2, ![m, k]⟩ ⟨2, ![k, n]⟩ ⟨2, ![m, n]⟩) k rfl rfl).symm j) = ix2 r j :=
    funext fun a => Fin.ext (by
      match a with
      | ⟨0, _⟩ =>
        unfold DotDims.lhsIdx
        split
        · exact absurd ‹_› List.not_mem_nil
        · split
          · rfl
          · exact absurd (List.mem_singleton.mpr rfl) ‹_›
      | ⟨1, _⟩ => exact (DotDims.lhsIdx_val_of_single _ rfl _ _).trans hj)
  have er : DotDims.rhsIdx (⟨[1], [0], [0], [1], [], [], wf⟩ : DotDims ⟨2, ![m, k]⟩ ⟨2, ![k, n]⟩ ⟨2, ![m, n]⟩) (ix2 r c)
      ((contrEquiv1 (⟨[1], [0], [0], [1], [], [], wf⟩ : DotDims ⟨2, ![m, k]⟩ ⟨2, ![k, n]⟩ ⟨2, ![m, n]⟩) k rfl rfl).symm j) = ix2 j c :=
    funext fun a => Fin.ext (by
      match a with
      | ⟨0, _⟩ => exact (DotDims.rhsIdx_val_of_single _ rfl _ _).trans hj
      | ⟨1, _⟩ =>
        unfold DotDims.rhsIdx
        split
        · exact absurd ‹_› List.not_mem_nil
        · split
          · rfl
          · exact absurd (List.mem_singleton.mpr rfl) ‹_›)
  rw [el, er]

/-! ## Integer vectors at an index -/

section IntAtIndex
variable {s : Shape} {w : ℕ}

/-- A comparison of integer vectors at an index compares the elements. -/
theorem cmpi_apply (p : CmpIPredicate) (x y : IVec s w) (i : s.Idx) : cmpi p x y i = IntOp.cmpi p (x i) (y i) := rfl
/-- A sum of integer vectors at an index is the wrapping sum of the elements. -/
theorem addi_apply (x y : IVec s w) (i : s.Idx) : addi x y i = x i + y i := rfl

end IntAtIndex

/-! ## The one-hot indicator, and the words of a tile -/

/-- Two words compared for equality, the bit widened and converted to a float: 1 where they are equal,
0 where they are not. -/
theorem onehot_eq_ite (x y : BitVec 32) :
    (FloatOps.sitofp (F := Ideal) .f32 ((IntOp.cmpi .eq x y).setWidth 32) : EReal) = if x = y then 1 else 0 := by
  show ((((IntOp.cmpi .eq x y).setWidth 32).toInt : ℝ) : EReal) = _
  by_cases h : x = y
  · have e : IntOp.cmpi .eq x y = 1#1 := by simp [IntOp.cmpi, h]
    have e1 : ((1#1 : BitVec 1).setWidth 32).toInt = 1 := by decide
    rw [if_pos h, e, e1, Int.cast_one, EReal.coe_one]
  · have e : IntOp.cmpi .eq x y = 0#1 := by
      show BitVec.ofBool (x == y) = 0#1
      rw [beq_eq_false_iff_ne.mpr h]; rfl
    have e0 : ((0#1 : BitVec 1).setWidth 32).toInt = 0 := by decide
    rw [if_neg h, e, e0, Int.cast_zero, EReal.coe_zero]

/-- The word of position j of tile t, tiles of 2048: t · 2048 + j computed in 32 bits. -/
abbrev tileWord (t j : ℕ) : BitVec 32 := BitVec.ofNat 32 t * 2048#32 + BitVec.ofNat 32 j

/-- Below tile 49 nothing wraps: the word's signed value is t · 2048 + j. -/
theorem tileWord_toInt {t j : ℕ} (ht : t < 49) (hj : j < 2048) : (tileWord t j).toInt = (t * 2048 + j : ℤ) := by
  have e : tileWord t j = BitVec.ofNat 32 (t * 2048 + j) := by
    show BitVec.ofNat 32 t * BitVec.ofNat 32 2048 + BitVec.ofNat 32 j = _
    rw [BitVec.ofNat_mul_ofNat, BitVec.ofNat_add_ofNat]
  rw [e, BitVec.toInt_eq_toNat_of_lt, BitVec.toNat_ofNat]
  · have : (t * 2048 + j) % 2 ^ 32 = t * 2048 + j := Nat.mod_eq_of_lt (by omega)
    rw [this]; push_cast; rfl
  · rw [BitVec.toNat_ofNat]
    have : (t * 2048 + j) % 2 ^ 32 = t * 2048 + j := Nat.mod_eq_of_lt (by omega)
    rw [this]; omega

end Cert.KernelValue

end
-- ==== Proof.Payloads.lean ====
import proofs.«138531_j42417097015621_1_alg».proof.Proof.Gen.KernelIdeal.Skeleton
import proofs.«138531_j42417097015621_1_alg».proof.Proof.IndexRead

/-!
# The values the kernel bodies store, read at an index over the extended reals

Each body of the two-layer graph convolution stores vectors that are pure functions of the vectors it
loaded. Read at one index, with every float an exact extended real:

* the dense map stores a row of the input times a column of the weights (both layers, here);
* the gather sets its accumulator to zero at the first node tile; at every node tile it adds, over the
  nodes of the tile, a one-hot indicator ("this edge's source word is this node") times the node's
  feature, so that the step adds the source's feature when the source is in the tile and nothing
  otherwise; at the last node tile it stores the accumulator times the edge's weight;
* the scatter sets its accumulator to zero at the first edge tile; at every edge tile it adds the sum,
  over the edges of the tile whose destination word is this node, of the edge's message; at the last
  edge tile it stores the accumulator plus the self term plus the bias, and in the first layer the
  maximum of that with zero.

This module reads the first layer's bodies (feature width 64) and both dense maps.
-/

noncomputable section

open scoped BigOperators

namespace Cert.KernelValue

open Idealize.ShloMosaic Idealize.ShloMosaic.ValueIdx Cert.KernelIdeal Cert.KernelIdeal.Gen

/-! ## The dense map -/

/-- The dense map stores, at (r, d), row r of the input times column d of the weights. -/
theorem k0_pay1_apply (v0 : Vec Ideal S2000x128 .f32) (v2 : Vec Ideal S128x64 .f32) (r : Fin 2000) (d : Fin 64) :
    k0_pay1 (F := Ideal) v0 v2 (ix2 r d) = ∑ k : Fin 128, v0 (ix2 r k) * v2 (ix2 k d) := by
  unfold k0_pay1
  exact matmul_plain_apply dot_S2000x128_S128x64_S2000x64_1_0_0_1_n_n rfl rfl rfl rfl rfl rfl none _ _ r d

/-- The second layer's dense map likewise. -/
theorem k3_pay1_apply (v0 : Vec Ideal S2000x64 .f32) (v3 : Vec Ideal S64x32 .f32) (r : Fin 2000) (d : Fin 32) :
    k3_pay1 (F := Ideal) v0 v3 (ix2 r d) = ∑ k : Fin 64, v0 (ix2 r k) * v3 (ix2 k d) := by
  unfold k3_pay1
  refine (matmul_plain_apply dot_S2000x64_S64x32_S2000x32_1_0_0_1_n_n rfl rfl rfl rfl rfl rfl none _ _ r d).trans ?_
  refine Finset.sum_congr rfl fun k _ => ?_
  rw [truncf_apply, truncf_apply, shapeCast_self]

/-! ## The gather -/

/-- At the first node tile the gather's accumulator is set to zero. -/
theorem k1_pay1_apply (p : Fin 4096) (q : Fin 64) : k1_pay1 (F := Ideal) (ix2 p q) = 0 := by
  unfold k1_pay1
  rw [shapeCast_self]
  exact Ideal.ofBits_zero_f32

/-- One step of the gather's accumulation: the accumulator plus, over the nodes of the tile, the one-hot
indicator "edge p's source word is node j of tile (i 1)" times the node's feature. -/
theorem k1_pay2_apply (i : grid1.Coords) (v7 : Vec Ideal S4096 .i32) (v16 : Vec Ideal S2048x64 .f32)
    (v20 : Vec Ideal S4096x64 .f32) (p : Fin 4096) (q : Fin 64) :
    k1_pay2 (F := Ideal) i v7 v16 v20 (ix2 p q)
      = v20 (ix2 p q) + ∑ j : Fin 2048,
          (if v7 (ix1 p) = BitVec.ofNat 32 (i 1).val * 2048#32 + BitVec.ofNat 32 j.val then (1 : EReal) else 0)
            * v16 (ix2 j q) := by
  unfold k1_pay2
  simp only [shapeCast_self]
  rw [addf_apply]
  refine congrArg (v20 (ix2 p q) + ·) ?_
  refine (matmul_plain_apply dot_S4096x2048_S2048x64_S4096x64_1_0_0_1_n_n rfl rfl rfl rfl rfl rfl none _ _ p q).trans ?_
  refine Finset.sum_congr rfl fun j _ => ?_
  rw [truncf_apply, truncf_apply, sitofp_apply, extui_apply, cmpi_apply, onehot_eq_ite, broadcastTo_a1_ab_apply,
    shapeCast_a_a1_apply, broadcastTo_1b_ab_apply, addi_apply, broadcast_apply, iota_single_apply]
  rfl

/-- Where edge p's source is node j0 of the tile (the source word's signed value is the tile's first
node plus j0; there are 49 tiles, so nothing wraps), the step adds that node's feature. -/
theorem k1_pay2_apply_of_mem (i : grid1.Coords) (v7 : Vec Ideal S4096 .i32) (v16 : Vec Ideal S2048x64 .f32)
    (v20 : Vec Ideal S4096x64 .f32) (p : Fin 4096) (q : Fin 64) (j0 : Fin 2048)
    (h : BitVec.toInt (v7 (ix1 p)) = ((i 1).val * 2048 + j0.val : ℤ)) :
    k1_pay2 (F := Ideal) i v7 v16 v20 (ix2 p q) = v20 (ix2 p q) + v16 (ix2 j0 q) := by
  have hi : (i 1).val < 49 := (i 1).isLt
  rw [k1_pay2_apply]
  refine congrArg (v20 (ix2 p q) + ·) ?_
  rw [Finset.sum_eq_single j0]
  · rw [if_pos, one_mul]
    exact BitVec.eq_of_toInt_eq (h.trans (tileWord_toInt hi j0.isLt).symm)
  · intro j _ hj
    rw [if_neg, zero_mul]
    intro e
    apply hj
    have e' : BitVec.toInt (tileWord (i 1).val j.val) = ((i 1).val * 2048 + j0.val : ℤ) := (congrArg BitVec.toInt e).symm.trans h
    rw [tileWord_toInt hi j.isLt] at e'
    exact Fin.ext (by omega)
  · intro h'; exact absurd (Finset.mem_univ _) h'

/-- Where edge p's source is no node of the tile (the source word's signed value lies outside the tile's
2048 nodes), the step leaves the accumulator as it was. -/
theorem k1_pay2_apply_of_not_mem (i : grid1.Coords) (v7 : Vec Ideal S4096 .i32) (v16 : Vec Ideal S2048x64 .f32)
    (v20 : Vec Ideal S4096x64 .f32) (p : Fin 4096) (q : Fin 64)
    (h : BitVec.toInt (v7 (ix1 p)) < ((i 1).val * 2048 : ℤ) ∨ ((i 1).val * 2048 + 2048 : ℤ) ≤ BitVec.toInt (v7 (ix1 p))) :
    k1_pay2 (F := Ideal) i v7 v16 v20 (ix2 p q) = v20 (ix2 p q) := by
  have hi : (i 1).val < 49 := (i 1).isLt
  rw [k1_pay2_apply, Finset.sum_eq_zero, add_zero]
  intro j _
  rw [if_neg, zero_mul]
  intro e
  have e' : BitVec.toInt (v7 (ix1 p)) = BitVec.toInt (tileWord (i 1).val j.val) := congrArg BitVec.toInt e
  rw [tileWord_toInt hi j.isLt] at e'
  have := j.isLt
  omega

/-- At the last node tile the gather stores the accumulator times the edge's weight. -/
theorem k1_pay3_apply (v28 : Vec Ideal S4096x64 .f32) (v29 : Vec Ideal S4096 .f32) (p : Fin 4096) (q : Fin 64) :
    k1_pay3 (F := Ideal) v28 v29 (ix2 p q) = v28 (ix2 p q) * v29 (ix1 p) := by
  unfold k1_pay3
  rw [truncf_apply, mulf_apply, broadcastTo_a1_ab_apply, shapeCast_a_a1_apply, shapeCast_self]

/-! ## The scatter -/

/-- At the first edge tile the scatter's accumulator is set to zero. -/
theorem k2_pay1_apply (r : Fin 2048) (q : Fin 64) : k2_pay1 (F := Ideal) (ix2 r q) = 0 := by
  unfold k2_pay1
  rw [shapeCast_self]
  exact Ideal.ofBits_zero_f32

/-- One step of the scatter's accumulation: the accumulator plus, over the edges of the tile, the one-hot
indicator "node r of tile (i 0) is edge e's destination word" times the edge's message. -/
theorem k2_pay2_apply (i : grid2.Coords) (v7 : Vec Ideal S4096 .i32) (v16 : Vec Ideal S4096x64 .bf16)
    (v19 : Vec Ideal S2048x64 .f32) (r : Fin 2048) (q : Fin 64) :
    k2_pay2 (F := Ideal) i v7 v16 v19 (ix2 r q)
      = v19 (ix2 r q) + ∑ e : Fin 4096,
          (if BitVec.ofNat 32 (i 0).val * 2048#32 + BitVec.ofNat 32 r.val = v7 (ix1 e) then (1 : EReal) else 0)
            * v16 (ix2 e q) := by
  unfold k2_pay2
  simp only [shapeCast_self]
  rw [addf_apply]
  refine congrArg (v19 (ix2 r q) + ·) ?_
  refine (matmul_plain_apply (φ₂ := .bf16) dot_S2048x4096_S4096x64_S2048x64_1_0_0_1_n_n rfl rfl rfl rfl rfl rfl none _ v16 r q).trans ?_
  refine Finset.sum_congr rfl fun e _ => ?_
  rw [truncf_apply, sitofp_apply, extui_apply, cmpi_apply, onehot_eq_ite, broadcastTo_a1_ab_apply, addi_apply,
    broadcast_apply, iota_single_apply, broadcastTo_1b_ab_apply, shapeCast_a_1a_apply]
  rfl

/-- The same step as a sum over the edges of the tile whose destination is that node (the destination
word's signed value is the tile's first node plus r; there are 49 tiles, so nothing wraps). -/
theorem k2_pay2_apply_filter (i : grid2.Coords) (v7 : Vec Ideal S4096 .i32) (v16 : Vec Ideal S4096x64 .bf16)
    (v19 : Vec Ideal S2048x64 .f32) (r : Fin 2048) (q : Fin 64) :
    k2_pay2 (F := Ideal) i v7 v16 v19 (ix2 r q)
      = v19 (ix2 r q) + ∑ e ∈ Finset.univ.filter (fun e : Fin 4096 =>
            BitVec.toInt (v7 (ix1 e)) = ((i 0).val * 2048 + r.val : ℤ)), v16 (ix2 e q) := by
  have hi : (i 0).val < 49 := (i 0).isLt
  rw [k2_pay2_apply, Finset.sum_filter]
  refine congrArg (v19 (ix2 r q) + ·) (Finset.sum_congr rfl fun e _ => ?_)
  by_cases h : BitVec.toInt (v7 (ix1 e)) = ((i 0).val * 2048 + r.val : ℤ)
  · rw [if_pos h, if_pos, one_mul]
    exact BitVec.eq_of_toInt_eq ((tileWord_toInt hi r.isLt).trans h.symm)
  · rw [if_neg h, if_neg, zero_mul]
    intro e'
    apply h
    rw [← e']
    exact tileWord_toInt hi r.isLt

/-- At the last edge tile the first layer's scatter stores the maximum with zero of the accumulator
plus the self term (the squared inverse root degree times the node's own feature) plus the bias. -/
theorem k2_pay3_apply (v27 : Vec Ideal S2048 .f32) (v31 : Vec Ideal S2048x64 .f32) (v35 : Vec Ideal S2048x64 .f32)
    (v37 : Vec Ideal S64 .f32) (r : Fin 2048) (q : Fin 64) :
    k2_pay3 (F := Ideal) v27 v31 v35 v37 (ix2 r q)
      = max (v35 (ix2 r q) + v27 (ix1 r) * v27 (ix1 r) * v31 (ix2 r q) + v37 (ix1 q)) 0 := by
  unfold k2_pay3
  rw [maximumf_apply, addf_apply, addf_apply, mulf_apply, broadcastTo_a1_ab_apply, mulf_apply,
    shapeCast_a_a1_apply, shapeCast_self, shapeCast_self, broadcastTo_1b_ab_apply, shapeCast_a_1a_apply]
  exact congrArg (max _) Ideal.ofBits_zero_f32

end Cert.KernelValue

end
-- ==== Proof.Payloads32.lean ====
import proofs.«138531_j42417097015621_1_alg».proof.Proof.Gen.KernelIdeal.Skeleton
import proofs.«138531_j42417097015621_1_alg».proof.Proof.IndexRead

/-!
# The values the second layer's bodies store, read at an index over the extended reals

The second layer's gather and scatter are the first layer's at feature width 32, except that the scatter's
last step takes no maximum with zero. Read at one index, with every float an exact extended real:

* the gather sets its accumulator to zero at the first node tile; at every node tile it adds the
  source's feature when the edge's source is in the tile and nothing otherwise; at the last node tile
  it stores the accumulator times the edge's weight;
* the scatter sets its accumulator to zero at the first edge tile; at every edge tile it adds the sum,
  over the edges of the tile whose destination word is this node, of the edge's message; at the last
  edge tile it stores the accumulator plus the self term plus the bias.
-/

noncomputable section

open scoped BigOperators

namespace Cert.KernelValue

open Idealize.ShloMosaic Idealize.ShloMosaic.ValueIdx Cert.KernelIdeal Cert.KernelIdeal.Gen

/-! ## The gather -/

/-- At the first node tile the gather's accumulator is set to zero. -/
theorem k4_pay1_apply (p : Fin 4096) (q : Fin 32) : k4_pay1 (F := Ideal) (ix2 p q) = 0 := by
  unfold k4_pay1
  rw [shapeCast_self]
  exact Ideal.ofBits_zero_f32

/-- One step of the gather's accumulation: the accumulator plus, over the nodes of the tile, the one-hot
indicator "edge p's source word is node j of tile (i 1)" times the node's feature. -/
theorem k4_pay2_apply (i : grid4.Coords) (v7 : Vec Ideal S4096 .i32) (v16 : Vec Ideal S2048x32 .f32)
    (v20 : Vec Ideal S4096x32 .f32) (p : Fin 4096) (q : Fin 32) :
    k4_pay2 (F := Ideal) i v7 v16 v20 (ix2 p q)
      = v20 (ix2 p q) + ∑ j : Fin 2048,
          (if v7 (ix1 p) = BitVec.ofNat 32 (i 1).val * 2048#32 + BitVec.ofNat 32 j.val then (1 : EReal) else 0)
            * v16 (ix2 j q) := by
  unfold k4_pay2
  simp only [shapeCast_self]
  rw [addf_apply]
  refine congrArg (v20 (ix2 p q) + ·) ?_
  refine (matmul_plain_apply dot_S4096x2048_S2048x32_S4096x32_1_0_0_1_n_n rfl rfl rfl rfl rfl rfl none _ _ p q).trans ?_
  refine Finset.sum_congr rfl fun j _ => ?_
  rw [truncf_apply, truncf_apply, sitofp_apply, extui_apply, cmpi_apply, onehot_eq_ite, broadcastTo_a1_ab_apply,
    shapeCast_a_a1_apply, broadcastTo_1b_ab_apply, addi_apply, broadcast_apply, iota_single_apply]
  rfl

/-- Where edge p's source is node j0 of the tile (the source word's signed value is the tile's first
node plus j0; there are 49 tiles, so nothing wraps), the step adds that node's feature. -/
theorem k4_pay2_apply_of_mem (i : grid4.Coords) (v7 : Vec Ideal S4096 .i32) (v16 : Vec Ideal S2048x32 .f32)
    (v20 : Vec Ideal S4096x32 .f32) (p : Fin 4096) (q : Fin 32) (j0 : Fin 2048)
    (h : BitVec.toInt (v7 (ix1 p)) = ((i 1).val * 2048 + j0.val : ℤ)) :
    k4_pay2 (F := Ideal) i v7 v16 v20 (ix2 p q) = v20 (ix2 p q) + v16 (ix2 j0 q) := by
  have hi : (i 1).val < 49 := (i 1).isLt
  rw [k4_pay2_apply]
  refine congrArg (v20 (ix2 p q) + ·) ?_
  rw [Finset.sum_eq_single j0]
  · rw [if_pos, one_mul]
    exact BitVec.eq_of_toInt_eq (h.trans (tileWord_toInt hi j0.isLt).symm)
  · intro j _ hj
    rw [if_neg, zero_mul]
    intro e
    apply hj
    have e' : BitVec.toInt (tileWord (i 1).val j.val) = ((i 1).val * 2048 + j0.val : ℤ) := (congrArg BitVec.toInt e).symm.trans h
    rw [tileWord_toInt hi j.isLt] at e'
    exact Fin.ext (by omega)
  · intro h'; exact absurd (Finset.mem_univ _) h'

/-- Where edge p's source is no node of the tile (the source word's signed value lies outside the tile's
2048 nodes), the step leaves the accumulator as it was. -/
theorem k4_pay2_apply_of_not_mem (i : grid4.Coords) (v7 : Vec Ideal S4096 .i32) (v16 : Vec Ideal S2048x32 .f32)
    (v20 : Vec Ideal S4096x32 .f32) (p : Fin 4096) (q : Fin 32)
    (h : BitVec.toInt (v7 (ix1 p)) < ((i 1).val * 2048 : ℤ) ∨ ((i 1).val * 2048 + 2048 : ℤ) ≤ BitVec.toInt (v7 (ix1 p))) :
    k4_pay2 (F := Ideal) i v7 v16 v20 (ix2 p q) = v20 (ix2 p q) := by
  have hi : (i 1).val < 49 := (i 1).isLt
  rw [k4_pay2_apply, Finset.sum_eq_zero, add_zero]
  intro j _
  rw [if_neg, zero_mul]
  intro e
  have e' : BitVec.toInt (v7 (ix1 p)) = BitVec.toInt (tileWord (i 1).val j.val) := congrArg BitVec.toInt e
  rw [tileWord_toInt hi j.isLt] at e'
  have := j.isLt
  omega

/-- At the last node tile the gather stores the accumulator times the edge's weight. -/
theorem k4_pay3_apply (v28 : Vec Ideal S4096x32 .f32) (v29 : Vec Ideal S4096 .f32) (p : Fin 4096) (q : Fin 32) :
    k4_pay3 (F := Ideal) v28 v29 (ix2 p q) = v28 (ix2 p q) * v29 (ix1 p) := by
  unfold k4_pay3
  rw [truncf_apply, mulf_apply, broadcastTo_a1_ab_apply, shapeCast_a_a1_apply, shapeCast_self]

/-! ## The scatter -/

/-- At the first edge tile the scatter's accumulator is set to zero. -/
theorem k5_pay1_apply (r : Fin 2048) (q : Fin 32) : k5_pay1 (F := Ideal) (ix2 r q) = 0 := by
  unfold k5_pay1
  rw [shapeCast_self]
  exact Ideal.ofBits_zero_f32

/-- One step of the scatter's accumulation: the accumulator plus, over the edges of the tile, the one-hot
indicator "node r of tile (i 0) is edge e's destination word" times the edge's message. -/
theorem k5_pay2_apply (i : grid5.Coords) (v7 : Vec Ideal S4096 .i32) (v16 : Vec Ideal S4096x32 .bf16)
    (v19 : Vec Ideal S2048x32 .f32) (r : Fin 2048) (q : Fin 32) :
    k5_pay2 (F := Ideal) i v7 v16 v19 (ix2 r q)
      = v19 (ix2 r q) + ∑ e : Fin 4096,
          (if BitVec.ofNat 32 (i 0).val * 2048#32 + BitVec.ofNat 32 r.val = v7 (ix1 e) then (1 : EReal) else 0)
            * v16 (ix2 e q) := by
  unfold k5_pay2
  simp only [shapeCast_self]
  rw [addf_apply]
  refine congrArg (v19 (ix2 r q) + ·) ?_
  refine (matmul_plain_apply (φ₂ := .bf16) dot_S2048x4096_S4096x32_S2048x32_1_0_0_1_n_n rfl rfl rfl rfl rfl rfl none _ v16 r q).trans ?_
  refine Finset.sum_congr rfl fun e _ => ?_
  rw [truncf_apply, sitofp_apply, extui_apply, cmpi_apply, onehot_eq_ite, broadcastTo_a1_ab_apply, addi_apply,
    broadcast_apply, iota_single_apply, broadcastTo_1b_ab_apply, shapeCast_a_1a_apply]
  rfl

/-- The same step as a sum over the edges of the tile whose destination is that node (the destination
word's signed value is the tile's first node plus r; there are 49 tiles, so nothing wraps). -/
theorem k5_pay2_apply_filter (i : grid5.Coords) (v7 : Vec Ideal S4096 .i32) (v16 : Vec Ideal S4096x32 .bf16)
    (v19 : Vec Ideal S2048x32 .f32) (r : Fin 2048) (q : Fin 32) :
    k5_pay2 (F := Ideal) i v7 v16 v19 (ix2 r q)
      = v19 (ix2 r q) + ∑ e ∈ Finset.univ.filter (fun e : Fin 4096 =>
            BitVec.toInt (v7 (ix1 e)) = ((i 0).val * 2048 + r.val : ℤ)), v16 (ix2 e q) := by
  have hi : (i 0).val < 49 := (i 0).isLt
  rw [k5_pay2_apply, Finset.sum_filter]
  refine congrArg (v19 (ix2 r q) + ·) (Finset.sum_congr rfl fun e _ => ?_)
  by_cases h : BitVec.toInt (v7 (ix1 e)) = ((i 0).val * 2048 + r.val : ℤ)
  · rw [if_pos h, if_pos, one_mul]
    exact BitVec.eq_of_toInt_eq ((tileWord_toInt hi r.isLt).trans h.symm)
  · rw [if_neg h, if_neg, zero_mul]
    intro e'
    apply h
    rw [← e']
    exact tileWord_toInt hi r.isLt

/-- At the last edge tile the second layer's scatter stores the accumulator plus the self term (the
squared inverse root degree times the node's own feature) plus the bias; there is no maximum here. -/
theorem k5_pay3_apply (v27 : Vec Ideal S2048 .f32) (v31 : Vec Ideal S2048x32 .f32) (v35 : Vec Ideal S2048x32 .f32)
    (v37 : Vec Ideal S32 .f32) (r : Fin 2048) (q : Fin 32) :
    k5_pay3 (F := Ideal) v27 v31 v35 v37 (ix2 r q)
      = v35 (ix2 r q) + v27 (ix1 r) * v27 (ix1 r) * v31 (ix2 r q) + v37 (ix1 q) := by
  unfold k5_pay3
  rw [addf_apply, addf_apply, mulf_apply, broadcastTo_a1_ab_apply, mulf_apply,
    shapeCast_a_a1_apply, shapeCast_self, shapeCast_self, broadcastTo_1b_ab_apply, shapeCast_a_1a_apply]

end Cert.KernelValue

end
-- ==== Proof.KIV.LinearV.lean ====
/-
  The values of the two dense maps (regions 0 and 3), read off the frame's proof data: each of the 50 grid points
  writes back one block of 2000 rows of the product of the node features with the weight matrix, the blocks cover the
  array, so after the region the result array IS the product of the arrays the region was entered with.
-/
import proofs.«138531_j42417097015621_1_alg».proof.Proof.Gen.KernelIdeal.Launch
import proofs.«138531_j42417097015621_1_alg».proof.Proof.Gen.KernelIdeal.Skeleton
import Idealize.ShloMosaic.Lib.Pipeline.Kit
import Idealize.ShloMosaic.Lib.Pipeline.Value
import Idealize.ShloMosaic.Lib.ValueIdx
import proofs.«138531_j42417097015621_1_alg».proof.Proof.KI.Linear
import proofs.«138531_j42417097015621_1_alg».proof.Proof.Payloads
import proofs.«138531_j42417097015621_1_alg».proof.Proof.Payloads32
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.HandV

open Cert.KernelIdeal Cert.KernelIdeal.Gen Cert.KernelIdeal.Hand Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-! # Region 0: the product of the 100000 × 128 feature array with the 128 × 64 weight matrix, block by block -/

theorem hz0 : (![0, 0] : Fin 2 → Nat) = fun _ => 0 := funext fun a => by fin_cases a <;> rfl

/-- What the result array ends holding: row `n` of the features times column `d` of the weights. -/
def prod0 (a0 : S100000x128.Idx → EReal) (a1 : S128x64.Idx → EReal) : S100000x64.Idx → EReal := fun i =>
  ∑ k : Fin 128, a0 (ix2 (⟨(i 0).val, (i 0).isLt⟩ : Fin 100000) k) * a1 (ix2 k (⟨(i 1).val, (i 1).isLt⟩ : Fin 64))

/-- The body's one store is the product of the two loaded blocks. -/
theorem out0_2_eq (x0 : Vec Ideal S2000x128 .f32) (x1 : Vec Ideal S128x64 .f32) : out0_2 x0 x1 = k0_pay1 x0 x1 := by
  unfold out0_2
  rw [View.canon_unit_zero hz0]
  simp only [View.ld_unit_zero (S := S2000x128) hz0, View.ld_unit_zero (S := S128x64) hz0]

/-- The block indices over the 50 points: block `t` of rows, the whole weight matrix, block `t` of the result. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)
theorem flush0_2 : ∀ t : Fin cfg0.N, (cfg0.win 2).flush t = true :=
  (by decide +kernel : ∀ t : Fin grid0.N, win0_2.flush t = true)

/-- The product at explicit coordinates. -/
theorem prod0_apply (a0 : S100000x128.Idx → EReal) (a1 : S128x64.Idx → EReal) (n : Fin 100000) (d : Fin 64) :
    prod0 a0 a1 (ix2 n d) = ∑ k : Fin 128, a0 (ix2 n k) * a1 (ix2 k d) := rfl

/-- The row block at point `t` is rows `2000 t …` of the feature array. -/
theorem rowBlock0 (c : Dev nD) (t : Fin cfg0.N) (ht : t.val < 50) (r : Fin 2000) (k : Fin 128) :
    (iblk0 V c 0 t : Vec Ideal S2000x128 .f32) (ix2 r k) = (V c main_arg0 : S100000x128.Idx → EReal) (ix2 (⟨t.val * 2000 + r.val, by omega⟩ : Fin 100000) k) := by
  obtain ⟨e0, e1, -, -, -, -⟩ := idx_facts0 t
  unfold iblk0; rw [View.read_apply]
  show V c main_arg0 (((cfg0.win 0).blk t).view.emb (ix2 r k)) = _
  refine congrArg _ (funext fun a => Fin.ext ?_)
  match a with
  | ⟨0, _⟩ => show win0_0.index t (0 : Fin 2) * 2000 + 1 * r.val = t.val * 2000 + r.val; rw [e0]; omega
  | ⟨1, _⟩ => show win0_0.index t (1 : Fin 2) * 128 + 1 * k.val = k.val; rw [e1]; omega

/-- The weight block at every point is the whole weight matrix. -/
theorem weightBlock0 (c : Dev nD) (t : Fin cfg0.N) (k : Fin 128) (d : Fin 64) :
    (iblk0 V c 1 t : Vec Ideal S128x64 .f32) (ix2 k d) = (V c main_arg2 : S128x64.Idx → EReal) (ix2 k d) := by
  obtain ⟨-, -, e2, e3, -, -⟩ := idx_facts0 t
  unfold iblk0; rw [View.read_apply]
  show V c main_arg2 (((cfg0.win 1).blk t).view.emb (ix2 k d)) = _
  refine congrArg _ (funext fun a => Fin.ext ?_)
  match a with
  | ⟨0, _⟩ => show win0_1.index t (0 : Fin 2) * 128 + 1 * k.val = k.val; rw [e2]; omega
  | ⟨1, _⟩ => show win0_1.index t (1 : Fin 2) * 64 + 1 * d.val = d.val; rw [e3]; omega

/-- Where an entry of the result block lands in the result array. -/
theorem outEmb0 (t : Fin cfg0.N) (ht : t.val < 50) (r : Fin 2000) (d : Fin 64) :
    ((cfg0.win 2).blk t).view.emb (ix2 r d) = (ix2 (⟨t.val * 2000 + r.val, by omega⟩ : Fin 100000) d : S100000x64.Idx) := by
  obtain ⟨-, -, -, -, e4, e5⟩ := idx_facts0 t
  refine funext fun a => Fin.ext ?_
  match a with
  | ⟨0, _⟩ => show win0_2.index t (0 : Fin 2) * 2000 + 1 * r.val = t.val * 2000 + r.val; rw [e4]; omega
  | ⟨1, _⟩ => show win0_2.index t (1 : Fin 2) * 64 + 1 * d.val = d.val; rw [e5]; omega

set_option maxHeartbeats 1000000 in
/-- WHAT POINT `t` WRITES BACK is block `t` of the product of the arrays the region was entered with. -/
theorem flushed0_eq (c : Dev nD) (t : Fin cfg0.N) :
    (dat0 (F := Ideal) V c).flushed 2 t = ((cfg0.win 2).blk t).view.read (Elt Ideal) (prod0 (V c main_arg0) (V c main_arg2)) := by
  show (cfg0.win 2).cut (grid0.coords t) ((dat0 V c).after 2 t) = _
  rw [after0_2]
  unfold out0_2
  rw [View.canon_unit_zero hz0]
  simp only [View.ld_unit_zero (S := S2000x128) hz0, View.ld_unit_zero (S := S128x64) hz0]
  have hN : t.val < 50 := lt_of_lt_of_eq t.isLt (show cfg0.N = 50 from N_0)
  funext j
  obtain ⟨r, d, rfl⟩ : ∃ (r : Fin 2000) (d : Fin 64), j = ix2 r d := ⟨j 0, j 1, eq_ix2 j⟩
  refine (Cert.KernelValue.k0_pay1_apply (iblk0 V c 0 t) (iblk0 V c 1 t) r d).trans ?_
  rw [View.read_apply]
  show _ = prod0 (V c main_arg0) (V c main_arg2) (((cfg0.win 2).blk t).view.emb (ix2 r d))
  rw [outEmb0 t hN r d, prod0_apply]
  exact Finset.sum_congr rfl fun k _ => by rw [rowBlock0 V c t hN r k, weightBlock0 V c t k d]

/-- An index of the result array lies in point `t`'s block iff its row lies in the block's 2000 rows. -/
theorem mem_blk0 (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v30).slice (win0_2.rect t)).set ↔ _
  rw [View.set_slice_whole, Rect.mem_set_unit]
  exact Iff.rfl

/-- THE ARRAY after the region: the product, everywhere (the 50 blocks of 2000 rows cover the 100000 rows). -/
theorem final0 (c : Dev nD) : (dat0 (F := Ideal) V c).arrAt 2 cfg0.N = prod0 (V c main_arg0) (V c main_arg2) :=
  (dat0 V c).arrAt_eq_of_cover 2 _ (fun t _ => flushed0_eq V c t) fun i => by
    have hi0 : (i 0).val < 100000 := (i 0).isLt
    have hi1 : (i 1).val < 64 := (i 1).isLt
    have hN : cfg0.N = 50 := N_0
    refine ⟨⟨(i 0).val / 2000, by rw [hN]; omega⟩, flush0_2 _, ?_⟩
    rw [mem_blk0]
    obtain ⟨-, -, -, -, e4, e5⟩ := idx_facts0 ⟨(i 0).val / 2000, by rw [hN]; omega⟩
    intro a
    match a with
    | ⟨0, _⟩ => show win0_2.index _ (0 : Fin 2) * 2000 ≤ (i 0).val ∧ (i 0).val < win0_2.index _ (0 : Fin 2) * 2000 + 2000; rw [e4]; dsimp only; omega
    | ⟨1, _⟩ => show win0_2.index _ (1 : Fin 2) * 64 ≤ (i 1).val ∧ (i 1).val < win0_2.index _ (1 : Fin 2) * 64 + 64; rw [e5]; omega

/-! # Region 3: the product of the 100000 × 64 feature array with the 64 × 32 weight matrix, block by block -/

theorem hz3 : (![0, 0] : Fin 2 → Nat) = fun _ => 0 := funext fun a => by fin_cases a <;> rfl

/-- What the result array ends holding: row `n` of the features times column `d` of the weights. -/
def prod3 (a0 : S100000x64.Idx → EReal) (a1 : S64x32.Idx → EReal) : S100000x32.Idx → EReal := fun i =>
  ∑ k : Fin 64, a0 (ix2 (⟨(i 0).val, (i 0).isLt⟩ : Fin 100000) k) * a1 (ix2 k (⟨(i 1).val, (i 1).isLt⟩ : Fin 32))

/-- The body's one store is the product of the two loaded blocks. -/
theorem out3_2_eq (x0 : Vec Ideal S2000x64 .f32) (x1 : Vec Ideal S64x32 .f32) : out3_2 x0 x1 = k3_pay1 x0 x1 := by
  unfold out3_2
  rw [View.canon_unit_zero hz3]
  simp only [View.ld_unit_zero (S := S2000x64) hz3, View.ld_unit_zero (S := S64x32) hz3]

/-- The block indices over the 50 points: block `t` of rows, the whole weight matrix, block `t` of the result. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)
theorem flush3_2 : ∀ t : Fin cfg3.N, (cfg3.win 2).flush t = true :=
  (by decide +kernel : ∀ t : Fin grid3.N, win3_2.flush t = true)

/-- The product at explicit coordinates. -/
theorem prod3_apply (a0 : S100000x64.Idx → EReal) (a1 : S64x32.Idx → EReal) (n : Fin 100000) (d : Fin 32) :
    prod3 a0 a1 (ix2 n d) = ∑ k : Fin 64, a0 (ix2 n k) * a1 (ix2 k d) := rfl

/-- The row block at point `t` is rows `2000 t …` of the feature array. -/
theorem rowBlock3 (c : Dev nD) (t : Fin cfg3.N) (ht : t.val < 50) (r : Fin 2000) (k : Fin 64) :
    (iblk3 V c 0 t : Vec Ideal S2000x64 .f32) (ix2 r k) = (V c main_v34 : S100000x64.Idx → EReal) (ix2 (⟨t.val * 2000 + r.val, by omega⟩ : Fin 100000) k) := by
  obtain ⟨e0, e1, -, -, -, -⟩ := idx_facts3 t
  unfold iblk3; rw [View.read_apply]
  show V c main_v34 (((cfg3.win 0).blk t).view.emb (ix2 r k)) = _
  refine congrArg _ (funext fun a => Fin.ext ?_)
  match a with
  | ⟨0, _⟩ => show win3_0.index t (0 : Fin 2) * 2000 + 1 * r.val = t.val * 2000 + r.val; rw [e0]; omega
  | ⟨1, _⟩ => show win3_0.index t (1 : Fin 2) * 64 + 1 * k.val = k.val; rw [e1]; omega

/-- The weight block at every point is the whole weight matrix. -/
theorem weightBlock3 (c : Dev nD) (t : Fin cfg3.N) (k : Fin 64) (d : Fin 32) :
    (iblk3 V c 1 t : Vec Ideal S64x32 .f32) (ix2 k d) = (V c main_arg4 : S64x32.Idx → EReal) (ix2 k d) := by
  obtain ⟨-, -, e2, e3, -, -⟩ := idx_facts3 t
  unfold iblk3; rw [View.read_apply]
  show V c main_arg4 (((cfg3.win 1).blk t).view.emb (ix2 k d)) = _
  refine congrArg _ (funext fun a => Fin.ext ?_)
  match a with
  | ⟨0, _⟩ => show win3_1.index t (0 : Fin 2) * 64 + 1 * k.val = k.val; rw [e2]; omega
  | ⟨1, _⟩ => show win3_1.index t (1 : Fin 2) * 32 + 1 * d.val = d.val; rw [e3]; omega

/-- Where an entry of the result block lands in the result array. -/
theorem outEmb3 (t : Fin cfg3.N) (ht : t.val < 50) (r : Fin 2000) (d : Fin 32) :
    ((cfg3.win 2).blk t).view.emb (ix2 r d) = (ix2 (⟨t.val * 2000 + r.val, by omega⟩ : Fin 100000) d : S100000x32.Idx) := by
  obtain ⟨-, -, -, -, e4, e5⟩ := idx_facts3 t
  refine funext fun a => Fin.ext ?_
  match a with
  | ⟨0, _⟩ => show win3_2.index t (0 : Fin 2) * 2000 + 1 * r.val = t.val * 2000 + r.val; rw [e4]; omega
  | ⟨1, _⟩ => show win3_2.index t (1 : Fin 2) * 32 + 1 * d.val = d.val; rw [e5]; omega

set_option maxHeartbeats 1000000 in
/-- WHAT POINT `t` WRITES BACK is block `t` of the product of the arrays the region was entered with. -/
theorem flushed3_eq (c : Dev nD) (t : Fin cfg3.N) :
    (dat3 (F := Ideal) V c).flushed 2 t = ((cfg3.win 2).blk t).view.read (Elt Ideal) (prod3 (V c main_v34) (V c main_arg4)) := by
  show (cfg3.win 2).cut (grid3.coords t) ((dat3 V c).after 2 t) = _
  rw [after3_2]
  unfold out3_2
  rw [View.canon_unit_zero hz3]
  simp only [View.ld_unit_zero (S := S2000x64) hz3, View.ld_unit_zero (S := S64x32) hz3]
  have hN : t.val < 50 := lt_of_lt_of_eq t.isLt (show cfg3.N = 50 from N_3)
  funext j
  obtain ⟨r, d, rfl⟩ : ∃ (r : Fin 2000) (d : Fin 32), j = ix2 r d := ⟨j 0, j 1, eq_ix2 j⟩
  refine (Cert.KernelValue.k3_pay1_apply (iblk3 V c 0 t) (iblk3 V c 1 t) r d).trans ?_
  rw [View.read_apply]
  show _ = prod3 (V c main_v34) (V c main_arg4) (((cfg3.win 2).blk t).view.emb (ix2 r d))
  rw [outEmb3 t hN r d, prod3_apply]
  exact Finset.sum_congr rfl fun k _ => by rw [rowBlock3 V c t hN r k, weightBlock3 V c t k d]

/-- An index of the result array lies in point `t`'s block iff its row lies in the block's 2000 rows. -/
theorem mem_blk3 (t : Fin cfg3.N) (i : S100000x32.Idx) :
    i ∈ ((cfg3.win 2).blk t).view.set ↔ ∀ a : Fin 2, win3_2.index t a * S2000x32.size a ≤ (i a).val ∧ (i a).val < win3_2.index t a * S2000x32.size a + S2000x32.size a := by
  show i ∈ ((View.whole main_v35).slice (win3_2.rect t)).set ↔ _
  rw [View.set_slice_whole, Rect.mem_set_unit]
  exact Iff.rfl

/-- THE ARRAY after the region: the product, everywhere (the 50 blocks of 2000 rows cover the 100000 rows). -/
theorem final3 (c : Dev nD) : (dat3 (F := Ideal) V c).arrAt 2 cfg3.N = prod3 (V c main_v34) (V c main_arg4) :=
  (dat3 V c).arrAt_eq_of_cover 2 _ (fun t _ => flushed3_eq V c t) fun i => by
    have hi0 : (i 0).val < 100000 := (i 0).isLt
    have hi1 : (i 1).val < 32 := (i 1).isLt
    have hN : cfg3.N = 50 := N_3
    refine ⟨⟨(i 0).val / 2000, by rw [hN]; omega⟩, flush3_2 _, ?_⟩
    rw [mem_blk3]
    obtain ⟨-, -, -, -, e4, e5⟩ := idx_facts3 ⟨(i 0).val / 2000, by rw [hN]; omega⟩
    intro a
    match a with
    | ⟨0, _⟩ => show win3_2.index _ (0 : Fin 2) * 2000 ≤ (i 0).val ∧ (i 0).val < win3_2.index _ (0 : Fin 2) * 2000 + 2000; rw [e4]; dsimp only; omega
    | ⟨1, _⟩ => show win3_2.index _ (1 : Fin 2) * 32 ≤ (i 1).val ∧ (i 1).val < win3_2.index _ (1 : Fin 2) * 32 + 32; rw [e5]; omega

end Cert.KernelIdeal.HandV

end
-- ==== Proof.KIV.Gather1V.lean ====
import proofs.«138531_j42417097015621_1_alg».proof.Proof.Gen.KernelIdeal.Launch
import proofs.«138531_j42417097015621_1_alg».proof.Proof.Gen.KernelIdeal.Skeleton
import proofs.«138531_j42417097015621_1_alg».proof.Proof.KI.Gather1
import proofs.«138531_j42417097015621_1_alg».proof.Proof.Payloads
import Idealize.ShloMosaic.Lib.Pipeline.Kit
import Idealize.ShloMosaic.Lib.Pipeline.FrameBody
import Idealize.ShloMosaic.Lib.Pipeline.Value
import Idealize.ShloMosaic.Lib.ValueIdx
import Idealize.ShloMosaic.Lib.Tactic

/-!
# The first layer's one-hot gather, read: its accumulator point by point, and the messages it leaves

The region runs over 782 edge tiles by 49 node tiles, the node tile fastest. For any contents of the buffers at the
region's entry:

* each control case of the body leaves the payloads of the blocks it loaded: the accumulation step over the zero
  block at the first node tile, over the carried accumulator afterwards, and at the last node tile the accumulator
  scaled by the edges' weights as the tile's messages;
* the windows' blocks at a point are the padded arrays at the rows of the point's edge tile (sources, weights) and of
  its node tile (features);
* over the extended reals, after the point at node tile k of an edge tile the accumulator holds, at each edge, the
  feature of the edge's source if the source is a node of tiles 0 … k, and zero otherwise (by induction on the point);
* so the messages array ends holding, at edge e and column q, the feature of e's source (zero if the source word is
  no node of the padded array) times e's weight: the last point of each edge tile writes the tile's rows back, and
  every row is in one tile.
-/

set_option maxRecDepth 16384

noncomputable section

namespace Cert.KernelIdeal.HandV

open Cert.KernelIdeal Cert.KernelIdeal.Gen Cert.KernelIdeal.Hand Cert.KernelValue
open Idealize.ShloMosaic Idealize.ShloMosaic.TcCoe Idealize.ShloMosaic.ValueIdx Idealize.ShloMosaic.Tactic
open Idealize.SL.Sem
open Idealize.ShloMosaic.Pipeline (Dat Cfg Window)

variable {F : FTy → Type} [FloatOps F]
variable (V : (c : Dev nD) → (b : Ref sig .tc) → Buf (Elt F) ((c : Thread nD τ).loc b))

/-! ## The grid's points: edge tile and node tile -/

theorem lt_N1 (t : Fin cfg1.N) : t.val < 38318 := lt_of_lt_of_eq t.isLt (show cfg1.N = 38318 from N_1)

/-- The slow grid coordinate of the t-th point: the edge tile. -/
theorem coord1_slow (t : Fin cfg1.N) : ((grid1.coords t) 0).val = t.val / 49 := by
  have ht := lt_N1 t
  show t.val / grid1.stride 0 % grid1.bound 0 = _
  rw [show grid1.stride 0 = 49 from by decide, show grid1.bound 0 = 782 from rfl]
  omega

/-- Edge p of the point's edge tile, as a row of the padded edge arrays. -/
def edgeOf (t : Fin cfg1.N) (p : Fin 4096) : Fin 3203072 :=
  ⟨t.val / 49 * 4096 + p.val, by have := lt_N1 t; have := p.isLt; omega⟩

/-- Node j of the point's node tile, as a row of the padded node arrays. -/
def nodeOf (t : Fin cfg1.N) (j : Fin 2048) : Fin 100352 :=
  ⟨t.val % 49 * 2048 + j.val, by have := j.isLt; omega⟩

theorem index1_0 (t : Fin cfg1.N) : win1_0.index t 0 = t.val / 49 := by
  have ht := lt_N1 t
  show (BitVec.ofNat 32 ((grid1.coords t) 0).val).toNat = _
  rw [coord1_slow, BitVec.toNat_ofNat]
  exact Nat.mod_eq_of_lt (by omega)

theorem index1_1 (t : Fin cfg1.N) : win1_1.index t 0 = t.val / 49 := by
  have ht := lt_N1 t
  show (BitVec.ofNat 32 ((grid1.coords t) 0).val).toNat = _
  rw [coord1_slow, BitVec.toNat_ofNat]
  exact Nat.mod_eq_of_lt (by omega)

theorem index1_2 (t : Fin cfg1.N) : win1_2.index t 0 = t.val % 49 ∧ win1_2.index t 1 = 0 := by
  refine ⟨?_, rfl⟩
  show (BitVec.ofNat 32 ((grid1.coords t) 1).val).toNat = _
  rw [coord1_fast, BitVec.toNat_ofNat]
  exact Nat.mod_eq_of_lt (by omega)

theorem index1_3 (t : Fin cfg1.N) : win1_3.index t 0 = t.val / 49 ∧ win1_3.index t 1 = 0 := by
  have ht := lt_N1 t
  refine ⟨?_, rfl⟩
  show (BitVec.ofNat 32 ((grid1.coords t) 0).val).toNat = _
  rw [coord1_slow, BitVec.toNat_ofNat]
  exact Nat.mod_eq_of_lt (by omega)

/-! ## The windows' blocks, as the arrays at an index -/

/-- The sources' block at a point: the padded source words of the edge tile. -/
theorem iblk1_0_apply (c : Dev nD) (t : Fin cfg1.N) (p : Fin 4096) :
    (iblk1 V c 0 t : Vec F S4096 .i32) (ix1 p) = (V c main_v26 : Vec F S3203072 .i32) (ix1 (edgeOf t p)) := by
  unfold iblk1
  rw [View.read_apply]
  show V c main_v26 _ = V c main_v26 _
  congr 1
  funext a
  apply Fin.ext
  match a with
  | ⟨0, _⟩ => show win1_0.index t 0 * 4096 + 1 * p.val = t.val / 49 * 4096 + p.val; rw [index1_0]; omega

/-- The weights' block at a point: the padded edge weights of the edge tile. -/
theorem iblk1_1_apply (c : Dev nD) (t : Fin cfg1.N) (p : Fin 4096) :
    (iblk1 V c 1 t : Vec F S4096 .f32) (ix1 p) = (V c main_v28 : Vec F S3203072 .f32) (ix1 (edgeOf t p)) := by
  unfold iblk1
  rw [View.read_apply]
  show V c main_v28 _ = V c main_v28 _
  congr 1
  funext a
  apply Fin.ext
  match a with
  | ⟨0, _⟩ => show win1_1.index t 0 * 4096 + 1 * p.val = t.val / 49 * 4096 + p.val; rw [index1_1]; omega

/-- The features' block at a point: the padded node features of the node tile. -/
theorem iblk1_2_apply (c : Dev nD) (t : Fin cfg1.N) (j : Fin 2048) (q : Fin 64) :
    (iblk1 V c 2 t : Vec F S2048x64 .f32) (ix2 j q) = (V c main_v31 : Vec F S100352x64 .f32) (ix2 (nodeOf t j) q) := by
  unfold iblk1
  rw [View.read_apply]
  show V c main_v31 _ = V c main_v31 _
  congr 1
  funext a
  apply Fin.ext
  match a with
  | ⟨0, _⟩ => show win1_2.index t 0 * 2048 + 1 * j.val = t.val % 49 * 2048 + j.val; rw [(index1_2 t).1]; omega
  | ⟨1, _⟩ => show win1_2.index t 1 * 64 + 1 * q.val = q.val; rw [(index1_2 t).2]; omega

/-! ## The messages' window: which points write back, and what they cover -/

/-- The messages' block is written back exactly at the last node tile of each edge tile. -/
theorem flush1_3_iff (t : Fin cfg1.N) : (cfg1.win 3).flush t = true ↔ t.val % 49 = 48 := by
  have ht := lt_N1 t
  have hN : grid1.N = 38318 := N_1
  show win1_3.flush t = true ↔ _
  unfold Pipeline.Window.flush
  simp only [Bool.and_eq_true, Bool.or_eq_true, decide_eq_true_eq]
  constructor
  · rintro ⟨-, e3 | ⟨h1, hne⟩⟩
    · omega
    · by_contra hm
      refine hne (funext fun a => ?_)
      match a with
      | ⟨0, _⟩ =>
        show win1_3.index ⟨t.val + 1, h1⟩ 0 = win1_3.index t 0
        rw [(index1_3 _).1, (index1_3 _).1]
        show (t.val + 1) / 49 = t.val / 49
        omega
      | ⟨1, _⟩ =>
        show win1_3.index ⟨t.val + 1, h1⟩ 1 = win1_3.index t 1
        rw [(index1_3 _).2, (index1_3 _).2]
  · intro hm
    refine ⟨trivial, ?_⟩
    by_cases hl : t.val + 1 = grid1.N
    · exact Or.inl hl
    · refine Or.inr ⟨by omega, fun e => ?_⟩
      have e0 : win1_3.index ⟨t.val + 1, by omega⟩ 0 = win1_3.index t 0 := congrFun e 0
      rw [(index1_3 _).1, (index1_3 _).1] at e0
      have e1 : (t.val + 1) / 49 = t.val / 49 := e0
      omega

/-- A row and column of the messages array lie in a point's block iff they lie in its edge tile. -/
theorem mem_blk1_3 (t : Fin cfg1.N) (i : S3203072x64.Idx) :
    i ∈ ((cfg1.win 3).blk t).view.set ↔ ∀ a : Fin 2, win1_3.index t a * S4096x64.size a ≤ (i a).val ∧ (i a).val < win1_3.index t a * S4096x64.size a + S4096x64.size a := by
  show i ∈ ((View.whole main_v32).slice (win1_3.rect t)).set ↔ _
  rw [View.set_slice_whole, Rect.mem_set_unit]
  exact Iff.rfl

/-- Every row of the messages array is written back by the last point of its edge tile. -/
theorem cover1_3 (i : S3203072x64.Idx) : ∃ t : Fin cfg1.N, (cfg1.win 3).flush t = true ∧ i ∈ ((cfg1.win 3).blk t).view.set := by
  have hi0 : (i 0).val < 3203072 := (i 0).isLt
  have hi1 : (i 1).val < 64 := (i 1).isLt
  have hN : cfg1.N = 38318 := N_1
  have hlt : (i 0).val / 4096 * 49 + 48 < cfg1.N := by rw [hN]; omega
  refine ⟨⟨(i 0).val / 4096 * 49 + 48, hlt⟩, (flush1_3_iff _).mpr (by show ((i 0).val / 4096 * 49 + 48) % 49 = 48; omega), ?_⟩
  rw [mem_blk1_3]
  intro a
  match a with
  | ⟨0, _⟩ =>
    show win1_3.index ⟨(i 0).val / 4096 * 49 + 48, hlt⟩ 0 * 4096 ≤ (i 0).val ∧ (i 0).val < win1_3.index ⟨(i 0).val / 4096 * 49 + 48, hlt⟩ 0 * 4096 + 4096
    rw [(index1_3 _).1]
    show ((i 0).val / 4096 * 49 + 48) / 49 * 4096 ≤ (i 0).val ∧ (i 0).val < ((i 0).val / 4096 * 49 + 48) / 49 * 4096 + 4096
    omega
  | ⟨1, _⟩ =>
    show win1_3.index ⟨(i 0).val / 4096 * 49 + 48, hlt⟩ 1 * 64 ≤ (i 1).val ∧ (i 1).val < win1_3.index ⟨(i 0).val / 4096 * 49 + 48, hlt⟩ 1 * 64 + 64
    rw [(index1_3 _).2]
    omega

/-! ## What each case of the body leaves, as the payloads of the blocks it loaded (any float values) -/

theorem hz1 : (![0] : Fin 1 → Nat) = fun _ => 0 := funext fun a => by fin_cases a <;> rfl
theorem hz2 : (![0, 0] : Fin 2 → Nat) = fun _ => 0 := funext fun a => by fin_cases a <;> rfl

/-- An inner node tile leaves, in the accumulator holding xs0, the accumulation step of the tile's blocks over xs0. -/
theorem sout1_B_eq (c : Dev nD) (i : grid1.Coords) (a2 : Memref sig .tc .vmem S4096 .i32) (h2 : a2.IsWhole)
    (a3 : Memref sig .tc .vmem S4096 .f32) (h3 : a3.IsWhole) (a4 : Memref sig .tc .vmem S2048x64 .f32) (h4 : a4.IsWhole)
    (a5 : Memref sig .tc .vmem S4096x64 .bf16) (h5 : a5.IsWhole) (a6 : Memref sig .tc .vmem S4096x64 .f32) (h6 : a6.IsWhole)
    (hc0 : ¬cond1_0 i) (hc1 : ¬cond1_1 i) (x0 : Vec F S4096 .i32) (x1 : Vec F S4096 .f32) (x2 : Vec F S2048x64 .f32)
    (xs0 : Vec F S4096x64 .f32) :
    sout1_B c i a2 h2 a3 h3 a4 h4 a5 h5 a6 h6 hc0 hc1 x0 x1 x2 xs0 = k1_pay2 i x0 x2 xs0 := by
  unfold sout1_B
  rw [View.read_writes_eq_canon _ _ _ (scover1_B c i a2 h2 a3 h3 a4 h4 a5 h5 a6 h6 hc0 hc1 x0 x1 x2 xs0)]
  unfold kernelRun1_B
  dsimp only
  rw [View.canon_unit_zero hz2]
  simp only [View.readAt_eq_ld, h2.read_unread, h3.read_unread, h4.read_unread, h6.read_unread, View.ld_unit_zero (S := S4096) hz1,
    View.ld_unit_zero (S := S2048x64) hz2, View.ld_unit_zero (S := S4096x64) hz2]

/-- The last node tile leaves the same step in the accumulator, -/
theorem sout1_C_eq (c : Dev nD) (i : grid1.Coords) (a2 : Memref sig .tc .vmem S4096 .i32) (h2 : a2.IsWhole)
    (a3 : Memref sig .tc .vmem S4096 .f32) (h3 : a3.IsWhole) (a4 : Memref sig .tc .vmem S2048x64 .f32) (h4 : a4.IsWhole)
    (a5 : Memref sig .tc .vmem S4096x64 .bf16) (h5 : a5.IsWhole) (a6 : Memref sig .tc .vmem S4096x64 .f32) (h6 : a6.IsWhole)
    (hc0 : ¬cond1_0 i) (hc1 : cond1_1 i) (x0 : Vec F S4096 .i32) (x1 : Vec F S4096 .f32) (x2 : Vec F S2048x64 .f32)
    (xs0 : Vec F S4096x64 .f32) :
    sout1_C c i a2 h2 a3 h3 a4 h4 a5 h5 a6 h6 hc0 hc1 x0 x1 x2 xs0 = k1_pay2 i x0 x2 xs0 := by
  unfold sout1_C
  rw [View.read_writes_eq_canon _ _ _ (scover1_C c i a2 h2 a3 h3 a4 h4 a5 h5 a6 h6 hc0 hc1 x0 x1 x2 xs0)]
  unfold kernelRun1_C
  dsimp only
  sl_unfold_words
  rw [View.canon_unit_zero hz2]
  simp only [View.readAt_eq_ld, h2.read_unread, h3.read_unread, h4.read_unread, h6.read_unread, View.ld_unit_zero (S := S4096) hz1,
    View.ld_unit_zero (S := S2048x64) hz2, View.ld_unit_zero (S := S4096x64) hz2]

/-- and stores, as the tile's messages, that accumulator scaled row by row by the edges' weights. -/
theorem out1_C_eq (c : Dev nD) (i : grid1.Coords) (a2 : Memref sig .tc .vmem S4096 .i32) (h2 : a2.IsWhole)
    (a3 : Memref sig .tc .vmem S4096 .f32) (h3 : a3.IsWhole) (a4 : Memref sig .tc .vmem S2048x64 .f32) (h4 : a4.IsWhole)
    (a5 : Memref sig .tc .vmem S4096x64 .bf16) (h5 : a5.IsWhole) (a6 : Memref sig .tc .vmem S4096x64 .f32) (h6 : a6.IsWhole)
    (hc0 : ¬cond1_0 i) (hc1 : cond1_1 i) (x0 : Vec F S4096 .i32) (x1 : Vec F S4096 .f32) (x2 : Vec F S2048x64 .f32)
    (xs0 : Vec F S4096x64 .f32) :
    out1_C c i a2 h2 a3 h3 a4 h4 a5 h5 a6 h6 hc0 hc1 x0 x1 x2 xs0 = k1_pay3 (k1_pay2 i x0 x2 xs0) x1 := by
  unfold out1_C
  rw [View.read_writes_eq_canon _ _ _ (cover1_C c i a2 h2 a3 h3 a4 h4 a5 h5 a6 h6 hc0 hc1 x0 x1 x2 xs0)]
  unfold kernelRun1_C
  dsimp only
  sl_unfold_words
  rw [View.canon_unit_zero hz2, View.readCov_unit_zero (S := S4096x64) _ hz2]
  simp only [View.readAt_eq_ld, h2.read_unread, h3.read_unread, h4.read_unread, h6.read_unread, View.ld_unit_zero (S := S4096) hz1,
    View.ld_unit_zero (S := S2048x64) hz2, View.ld_unit_zero (S := S4096x64) hz2]

/-- The first node tile zeroes the accumulator and leaves the accumulation step over the zero block. -/
theorem sout1_A_eq (c : Dev nD) (i : grid1.Coords) (a2 : Memref sig .tc .vmem S4096 .i32) (h2 : a2.IsWhole)
    (a3 : Memref sig .tc .vmem S4096 .f32) (h3 : a3.IsWhole) (a4 : Memref sig .tc .vmem S2048x64 .f32) (h4 : a4.IsWhole)
    (a5 : Memref sig .tc .vmem S4096x64 .bf16) (h5 : a5.IsWhole) (a6 : Memref sig .tc .vmem S4096x64 .f32) (h6 : a6.IsWhole)
    (hc0 : cond1_0 i) (hc1 : ¬cond1_1 i) (x0 : Vec F S4096 .i32) (x1 : Vec F S4096 .f32) (x2 : Vec F S2048x64 .f32) :
    sout1_A c i a2 h2 a3 h3 a4 h4 a5 h5 a6 h6 hc0 hc1 x0 x1 x2 = k1_pay2 i x0 x2 k1_pay1 := by
  unfold sout1_A
  rw [View.read_writes_eq_canon _ _ _ (scover1_A c i a2 h2 a3 h3 a4 h4 a5 h5 a6 h6 hc0 hc1 x0 x1 x2)]
  unfold kernelRun1_A
  dsimp only
  sl_unfold_words
  rw [View.canon_cons_unit_zero (S := S4096x64) hz2, View.readCov_unit_zero (S := S4096x64) _ hz2]
  simp only [View.readAt_eq_ld, h2.read_unread, h3.read_unread, h4.read_unread, h6.read_unread, View.ld_unit_zero (S := S4096) hz1,
    View.ld_unit_zero (S := S2048x64) hz2, View.ld_unit_zero (S := S4096x64) hz2]

/-! ## The gathered feature, tile by tile, over the extended reals -/

section AtIdeal

variable (W : (c : Dev nD) → (b : Ref sig .tc) → Buf (Elt Ideal) ((c : Thread nD τ).loc b))

/-- The signed value of edge e's source word. -/
def srcInt (c : Dev nD) (e : Fin 3203072) : ℤ := BitVec.toInt ((W c main_v26 : Vec Ideal S3203072 .i32) (ix1 e))

/-- The feature, at column q, of edge e's source if the source is one of the first n nodes (and a node of the padded
    array at all), and zero otherwise: what the accumulator holds once the node tiles below n are done. -/
def gatheredBelow (c : Dev nD) (e : Fin 3203072) (q : Fin 64) (n : ℕ) : EReal :=
  if h : 0 ≤ srcInt W c e ∧ srcInt W c e < n ∧ srcInt W c e < 100352 then
    (W c main_v31 : Vec Ideal S100352x64 .f32) (ix2 (⟨(srcInt W c e).toNat, by omega⟩ : Fin 100352) q)
  else 0

theorem gatheredBelow_zero (c : Dev nD) (e : Fin 3203072) (q : Fin 64) : gatheredBelow W c e q 0 = 0 := by
  unfold gatheredBelow
  rw [dif_neg (by omega)]

/-- A tile that holds the source: before it nothing was gathered, after it the source's feature is. -/
theorem gatheredBelow_step_mem (c : Dev nD) (e : Fin 3203072) (q : Fin 64) (n : ℕ) (j0 : Fin 2048) (hn : n + 2048 ≤ 100352)
    (h : srcInt W c e = (n + j0.val : ℤ)) :
    gatheredBelow W c e q (n + 2048)
        = (W c main_v31 : Vec Ideal S100352x64 .f32) (ix2 (⟨n + j0.val, by have := j0.isLt; omega⟩ : Fin 100352) q)
      ∧ gatheredBelow W c e q n = 0 := by
  have hj := j0.isLt
  constructor
  · unfold gatheredBelow
    rw [dif_pos (by omega)]
    congr 2
    exact Fin.ext (by show (srcInt W c e).toNat = n + j0.val; omega)
  · unfold gatheredBelow
    rw [dif_neg (by omega)]

/-- A tile that does not hold the source changes nothing. -/
theorem gatheredBelow_step_not_mem (c : Dev nD) (e : Fin 3203072) (q : Fin 64) (n : ℕ)
    (h : srcInt W c e < (n : ℤ) ∨ (n + 2048 : ℤ) ≤ srcInt W c e) :
    gatheredBelow W c e q (n + 2048) = gatheredBelow W c e q n := by
  unfold gatheredBelow
  by_cases hc : 0 ≤ srcInt W c e ∧ srcInt W c e < n ∧ srcInt W c e < 100352
  · rw [dif_pos hc, dif_pos (by omega)]
  · rw [dif_neg hc, dif_neg (by omega)]

/-! ## The accumulation, point by point -/

/-- One accumulation step at a point on the point's own blocks: if the accumulator holds, at edge p, the source's
    feature when the source is below the point's node tile (zero otherwise), it then holds it when the source is
    below the next tile. -/
theorem step1 (c : Dev nD) (t : Fin cfg1.N) (acc : Vec Ideal S4096x64 .f32) (p : Fin 4096) (q : Fin 64)
    (hacc : acc (ix2 p q) = gatheredBelow W c (edgeOf t p) q (t.val % 49 * 2048)) :
    k1_pay2 (F := Ideal) (grid1.coords t) (iblk1 W c 0 t) (iblk1 W c 2 t) acc (ix2 p q)
      = gatheredBelow W c (edgeOf t p) q (t.val % 49 * 2048 + 2048) := by
  have hc : ((grid1.coords t) 1).val = t.val % 49 := coord1_fast t
  have hs : BitVec.toInt ((iblk1 W c 0 t : Vec Ideal S4096 .i32) (ix1 p)) = srcInt W c (edgeOf t p) := by
    rw [iblk1_0_apply]; rfl
  by_cases hin : ((t.val % 49 * 2048 : ℕ) : ℤ) ≤ srcInt W c (edgeOf t p)
      ∧ srcInt W c (edgeOf t p) < ((t.val % 49 * 2048 + 2048 : ℕ) : ℤ)
  · have hj : (srcInt W c (edgeOf t p) - ((t.val % 49 * 2048 : ℕ) : ℤ)).toNat < 2048 := by omega
    obtain ⟨e1, e2⟩ := gatheredBelow_step_mem W c (edgeOf t p) q (t.val % 49 * 2048) ⟨_, hj⟩ (by omega) (by dsimp only; omega)
    rw [k1_pay2_apply_of_mem (grid1.coords t) (iblk1 W c 0 t) (iblk1 W c 2 t) acc p q ⟨_, hj⟩ (by rw [hs, hc]; dsimp only; omega),
      hacc, e2, zero_add, iblk1_2_apply, e1]
    rfl
  · rw [k1_pay2_apply_of_not_mem (grid1.coords t) (iblk1 W c 0 t) (iblk1 W c 2 t) acc p q (by rw [hs, hc]; omega),
      hacc, gatheredBelow_step_not_mem W c _ q _ (by omega)]

/-- THE ACCUMULATOR after the point at position n: at edge p of the point's edge tile, the feature of the edge's source
    if the source is a node of the node tiles done so far, zero otherwise. By induction on the point. -/
theorem acc1_eq (c : Dev nD) : ∀ (n : ℕ) (hn : n < cfg1.N) (p : Fin 4096) (q : Fin 64),
    (outsAt1 W c n hn).2 (ix2 p q) = gatheredBelow W c (edgeOf ⟨n, hn⟩ p) q (n % 49 * 2048 + 2048)
  | 0, hn, p, q => by
    rw [outsAt1_A W c ⟨0, hn⟩ rfl (by show ¬(0 % 49 = 48); decide)]
    dsimp only
    rw [sout1_A_eq]
    refine step1 W c ⟨0, hn⟩ (k1_pay1 (F := Ideal)) p q ?_
    show _ = gatheredBelow W c _ q 0
    exact (k1_pay1_apply p q).trans (gatheredBelow_zero W c _ q).symm
  | n + 1, hn, p, q => by
    have ih := acc1_eq c n (Nat.lt_of_succ_lt hn) p q
    by_cases h0 : (n + 1) % 49 = 0
    · have h1 : ¬(n + 1) % 49 = 48 := by omega
      rw [outsAt1_A W c ⟨n + 1, hn⟩ h0 h1]
      dsimp only
      rw [sout1_A_eq]
      refine step1 W c ⟨n + 1, hn⟩ (k1_pay1 (F := Ideal)) p q ?_
      show _ = gatheredBelow W c _ q ((n + 1) % 49 * 2048)
      rw [h0, Nat.zero_mul]
      exact (k1_pay1_apply p q).trans (gatheredBelow_zero W c _ q).symm
    · have hprev : edgeOf ⟨n, Nat.lt_of_succ_lt hn⟩ p = edgeOf ⟨n + 1, hn⟩ p :=
        Fin.ext (by show n / 49 * 4096 + p.val = (n + 1) / 49 * 4096 + p.val; omega)
      have hm : n % 49 * 2048 + 2048 = (n + 1) % 49 * 2048 := by omega
      rw [hprev, hm] at ih
      by_cases h1 : (n + 1) % 49 = 48
      · rw [outsAt1_C W c ⟨n + 1, hn⟩ h0 h1]
        dsimp only
        rw [sout1_C_eq]
        exact step1 W c ⟨n + 1, hn⟩ _ p q ih
      · rw [outsAt1_B W c ⟨n + 1, hn⟩ h0 h1]
        dsimp only
        rw [sout1_B_eq]
        exact step1 W c ⟨n + 1, hn⟩ _ p q ih

/-! ## The messages array after the region -/

/-- The messages: at edge e and column q, the feature of e's source (zero if the source word is no node of the padded
    array) times e's weight. -/
def messages1 (c : Dev nD) : Vec Ideal S3203072x64 .bf16 := fun i =>
  gatheredBelow W c ⟨(i 0).val, (i 0).isLt⟩ ⟨(i 1).val, (i 1).isLt⟩ 100352
    * (W c main_v28 : Vec Ideal S3203072 .f32) (ix1 (⟨(i 0).val, (i 0).isLt⟩ : Fin 3203072))

theorem messages1_apply (c : Dev nD) (e : Fin 3203072) (q : Fin 64) :
    messages1 W c (ix2 e q) = gatheredBelow W c e q 100352 * (W c main_v28 : Vec Ideal S3203072 .f32) (ix1 e) := rfl

/-- What a point writes back of a block X of messages is its block of an array G, if X is G at the rows of the
    point's edge tile. -/
theorem cut1_3_eq_read (t : Fin cfg1.N) (X : Vec Ideal S4096x64 .bf16) (G : Vec Ideal S3203072x64 .bf16)
    (h : ∀ (p : Fin 4096) (q : Fin 64), X (ix2 p q) = G (ix2 (edgeOf t p) q)) :
    (cfg1.win 3).cut (grid1.coords t) X = ((cfg1.win 3).blk t).view.read (Elt Ideal) G := by
  funext j
  rw [View.read_apply]
  have hj0 : (j 0).val < 4096 := (j 0).isLt
  have hj1 : (j 1).val < 64 := (j 1).isLt
  show X ((cfg1.win 3).xinj (grid1.coords t) j) = G (((cfg1.win 3).blk t).view.emb j)
  have e1 : (cfg1.win 3).xinj (grid1.coords t) j = ix2 (⟨(j 0).val, hj0⟩ : Fin 4096) (⟨(j 1).val, hj1⟩ : Fin 64) := by
    funext a; apply Fin.ext
    match a with
    | ⟨0, _⟩ => rfl
    | ⟨1, _⟩ => rfl
  have e2 : ((cfg1.win 3).blk t).view.emb j = ix2 (edgeOf t ⟨(j 0).val, hj0⟩) (⟨(j 1).val, hj1⟩ : Fin 64) := by
    funext a; apply Fin.ext
    match a with
    | ⟨0, _⟩ => show win1_3.index t 0 * 4096 + 1 * (j 0).val = t.val / 49 * 4096 + (j 0).val; rw [(index1_3 t).1]; omega
    | ⟨1, _⟩ => show win1_3.index t 1 * 64 + 1 * (j 1).val = (j 1).val; rw [(index1_3 t).2]; omega
  rw [e1, e2]
  exact h _ _

/-- WHAT A WRITING POINT WRITES BACK is its block of the messages. -/
theorem flushed1_3_eq (c : Dev nD) (t : Fin cfg1.N) (hf : (cfg1.win 3).flush t = true) :
    (dat1 W c).flushed 3 t = ((cfg1.win 3).blk t).view.read (Elt Ideal) (messages1 W c) := by
  have h48 := (flush1_3_iff t).mp hf
  have h0 : ¬t.val % 49 = 0 := by omega
  show (cfg1.win 3).cut (grid1.coords t) ((dat1 W c).after 3 t) = _
  rw [after1_3]
  refine cut1_3_eq_read t _ _ fun p q => ?_
  have e := acc1_eq W c t.val t.isLt p q
  rw [outsAt1_C W c t h0 h48] at e ⊢
  dsimp only at e ⊢
  rw [sout1_C_eq] at e
  rw [out1_C_eq, k1_pay3_apply, e, iblk1_1_apply, messages1_apply, h48]

/-- THE MESSAGES ARRAY after the region: every row is written back by the last point of its edge tile. -/
theorem final1_3 (c : Dev nD) : (dat1 W c).arrAt 3 cfg1.N = messages1 W c :=
  (dat1 W c).arrAt_eq_of_cover 3 (messages1 W c) (flushed1_3_eq W c) cover1_3

end AtIdeal

end Cert.KernelIdeal.HandV

end
-- ==== Proof.KIV.Gather4V.lean ====
import proofs.«138531_j42417097015621_1_alg».proof.Proof.Gen.KernelIdeal.Launch
import proofs.«138531_j42417097015621_1_alg».proof.Proof.Gen.KernelIdeal.Skeleton
import proofs.«138531_j42417097015621_1_alg».proof.Proof.KI.Gather4
import proofs.«138531_j42417097015621_1_alg».proof.Proof.Payloads32
import Idealize.ShloMosaic.Lib.Pipeline.Kit
import Idealize.ShloMosaic.Lib.Pipeline.FrameBody
import Idealize.ShloMosaic.Lib.Pipeline.Value
import Idealize.ShloMosaic.Lib.ValueIdx
import Idealize.ShloMosaic.Lib.Tactic

/-!
# The second layer's one-hot gather, read: its accumulator point by point, and the messages it leaves

The same region as the first layer's at feature width 32. It runs over 782 edge tiles by 49 node tiles, the node tile fastest. For any contents of the buffers at the
region's entry:

* each control case of the body leaves the payloads of the blocks it loaded: the accumulation step over the zero
  block at the first node tile, over the carried accumulator afterwards, and at the last node tile the accumulator
  scaled by the edges' weights as the tile's messages;
* the windows' blocks at a point are the padded arrays at the rows of the point's edge tile (sources, weights) and of
  its node tile (features);
* over the extended reals, after the point at node tile k of an edge tile the accumulator holds, at each edge, the
  feature of the edge's source if the source is a node of tiles 0 … k, and zero otherwise (by induction on the point);
* so the messages array ends holding, at edge e and column q, the feature of e's source (zero if the source word is
  no node of the padded array) times e's weight: the last point of each edge tile writes the tile's rows back, and
  every row is in one tile.
-/

set_option maxRecDepth 16384

noncomputable section

namespace Cert.KernelIdeal.HandV

open Cert.KernelIdeal Cert.KernelIdeal.Gen Cert.KernelIdeal.Hand Cert.KernelValue
open Idealize.ShloMosaic Idealize.ShloMosaic.TcCoe Idealize.ShloMosaic.ValueIdx Idealize.ShloMosaic.Tactic
open Idealize.SL.Sem
open Idealize.ShloMosaic.Pipeline (Dat Cfg Window)

variable {F : FTy → Type} [FloatOps F]
variable (V : (c : Dev nD) → (b : Ref sig .tc) → Buf (Elt F) ((c : Thread nD τ).loc b))

/-! ## The grid's points: edge tile and node tile -/

theorem lt_N4 (t : Fin cfg4.N) : t.val < 38318 := lt_of_lt_of_eq t.isLt (show cfg4.N = 38318 from N_4)

/-- The slow grid coordinate of the t-th point: the edge tile. -/
theorem coord4_slow (t : Fin cfg4.N) : ((grid4.coords t) 0).val = t.val / 49 := by
  have ht := lt_N4 t
  show t.val / grid4.stride 0 % grid4.bound 0 = _
  rw [show grid4.stride 0 = 49 from by decide, show grid4.bound 0 = 782 from rfl]
  omega

/-- Edge p of the point's edge tile, as a row of the padded edge arrays. -/
def edgeOf4 (t : Fin cfg4.N) (p : Fin 4096) : Fin 3203072 :=
  ⟨t.val / 49 * 4096 + p.val, by have := lt_N4 t; have := p.isLt; omega⟩

/-- Node j of the point's node tile, as a row of the padded node arrays. -/
def nodeOf4 (t : Fin cfg4.N) (j : Fin 2048) : Fin 100352 :=
  ⟨t.val % 49 * 2048 + j.val, by have := j.isLt; omega⟩

theorem index4_0 (t : Fin cfg4.N) : win4_0.index t 0 = t.val / 49 := by
  have ht := lt_N4 t
  show (BitVec.ofNat 32 ((grid4.coords t) 0).val).toNat = _
  rw [coord4_slow, BitVec.toNat_ofNat]
  exact Nat.mod_eq_of_lt (by omega)

theorem index4_1 (t : Fin cfg4.N) : win4_1.index t 0 = t.val / 49 := by
  have ht := lt_N4 t
  show (BitVec.ofNat 32 ((grid4.coords t) 0).val).toNat = _
  rw [coord4_slow, BitVec.toNat_ofNat]
  exact Nat.mod_eq_of_lt (by omega)

theorem index4_2 (t : Fin cfg4.N) : win4_2.index t 0 = t.val % 49 ∧ win4_2.index t 1 = 0 := by
  refine ⟨?_, rfl⟩
  show (BitVec.ofNat 32 ((grid4.coords t) 1).val).toNat = _
  rw [coord4_fast, BitVec.toNat_ofNat]
  exact Nat.mod_eq_of_lt (by omega)

theorem index4_3 (t : Fin cfg4.N) : win4_3.index t 0 = t.val / 49 ∧ win4_3.index t 1 = 0 := by
  have ht := lt_N4 t
  refine ⟨?_, rfl⟩
  show (BitVec.ofNat 32 ((grid4.coords t) 0).val).toNat = _
  rw [coord4_slow, BitVec.toNat_ofNat]
  exact Nat.mod_eq_of_lt (by omega)

/-! ## The windows' blocks, as the arrays at an index -/

/-- The sources' block at a point: the padded source words of the edge tile. -/
theorem iblk4_0_apply (c : Dev nD) (t : Fin cfg4.N) (p : Fin 4096) :
    (iblk4 V c 0 t : Vec F S4096 .i32) (ix1 p) = (V c main_v26 : Vec F S3203072 .i32) (ix1 (edgeOf4 t p)) := by
  unfold iblk4
  rw [View.read_apply]
  show V c main_v26 _ = V c main_v26 _
  congr 1
  funext a
  apply Fin.ext
  match a with
  | ⟨0, _⟩ => show win4_0.index t 0 * 4096 + 1 * p.val = t.val / 49 * 4096 + p.val; rw [index4_0]; omega

/-- The weights' block at a point: the padded edge weights of the edge tile. -/
theorem iblk4_1_apply (c : Dev nD) (t : Fin cfg4.N) (p : Fin 4096) :
    (iblk4 V c 1 t : Vec F S4096 .f32) (ix1 p) = (V c main_v28 : Vec F S3203072 .f32) (ix1 (edgeOf4 t p)) := by
  unfold iblk4
  rw [View.read_apply]
  show V c main_v28 _ = V c main_v28 _
  congr 1
  funext a
  apply Fin.ext
  match a with
  | ⟨0, _⟩ => show win4_1.index t 0 * 4096 + 1 * p.val = t.val / 49 * 4096 + p.val; rw [index4_1]; omega

/-- The features' block at a point: the padded node features of the node tile. -/
theorem iblk4_2_apply (c : Dev nD) (t : Fin cfg4.N) (j : Fin 2048) (q : Fin 32) :
    (iblk4 V c 2 t : Vec F S2048x32 .f32) (ix2 j q) = (V c main_v36 : Vec F S100352x32 .f32) (ix2 (nodeOf4 t j) q) := by
  unfold iblk4
  rw [View.read_apply]
  show V c main_v36 _ = V c main_v36 _
  congr 1
  funext a
  apply Fin.ext
  match a with
  | ⟨0, _⟩ => show win4_2.index t 0 * 2048 + 1 * j.val = t.val % 49 * 2048 + j.val; rw [(index4_2 t).1]; omega
  | ⟨1, _⟩ => show win4_2.index t 1 * 32 + 1 * q.val = q.val; rw [(index4_2 t).2]; omega

/-! ## The messages' window: which points write back, and what they cover -/

/-- The messages' block is written back exactly at the last node tile of each edge tile. -/
theorem flush4_3_iff (t : Fin cfg4.N) : (cfg4.win 3).flush t = true ↔ t.val % 49 = 48 := by
  have ht := lt_N4 t
  have hN : grid4.N = 38318 := N_4
  show win4_3.flush t = true ↔ _
  unfold Pipeline.Window.flush
  simp only [Bool.and_eq_true, Bool.or_eq_true, decide_eq_true_eq]
  constructor
  · rintro ⟨-, e3 | ⟨h1, hne⟩⟩
    · omega
    · by_contra hm
      refine hne (funext fun a => ?_)
      match a with
      | ⟨0, _⟩ =>
        show win4_3.index ⟨t.val + 1, h1⟩ 0 = win4_3.index t 0
        rw [(index4_3 _).1, (index4_3 _).1]
        show (t.val + 1) / 49 = t.val / 49
        omega
      | ⟨1, _⟩ =>
        show win4_3.index ⟨t.val + 1, h1⟩ 1 = win4_3.index t 1
        rw [(index4_3 _).2, (index4_3 _).2]
  · intro hm
    refine ⟨trivial, ?_⟩
    by_cases hl : t.val + 1 = grid4.N
    · exact Or.inl hl
    · refine Or.inr ⟨by omega, fun e => ?_⟩
      have e0 : win4_3.index ⟨t.val + 1, by omega⟩ 0 = win4_3.index t 0 := congrFun e 0
      rw [(index4_3 _).1, (index4_3 _).1] at e0
      have e1 : (t.val + 1) / 49 = t.val / 49 := e0
      omega

/-- A row and column of the messages array lie in a point's block iff they lie in its edge tile. -/
theorem mem_blk4_3 (t : Fin cfg4.N) (i : S3203072x32.Idx) :
    i ∈ ((cfg4.win 3).blk t).view.set ↔ ∀ a : Fin 2, win4_3.index t a * S4096x32.size a ≤ (i a).val ∧ (i a).val < win4_3.index t a * S4096x32.size a + S4096x32.size a := by
  show i ∈ ((View.whole main_v37).slice (win4_3.rect t)).set ↔ _
  rw [View.set_slice_whole, Rect.mem_set_unit]
  exact Iff.rfl

/-- Every row of the messages array is written back by the last point of its edge tile. -/
theorem cover4_3 (i : S3203072x32.Idx) : ∃ t : Fin cfg4.N, (cfg4.win 3).flush t = true ∧ i ∈ ((cfg4.win 3).blk t).view.set := by
  have hi0 : (i 0).val < 3203072 := (i 0).isLt
  have hi1 : (i 1).val < 32 := (i 1).isLt
  have hN : cfg4.N = 38318 := N_4
  have hlt : (i 0).val / 4096 * 49 + 48 < cfg4.N := by rw [hN]; omega
  refine ⟨⟨(i 0).val / 4096 * 49 + 48, hlt⟩, (flush4_3_iff _).mpr (by show ((i 0).val / 4096 * 49 + 48) % 49 = 48; omega), ?_⟩
  rw [mem_blk4_3]
  intro a
  match a with
  | ⟨0, _⟩ =>
    show win4_3.index ⟨(i 0).val / 4096 * 49 + 48, hlt⟩ 0 * 4096 ≤ (i 0).val ∧ (i 0).val < win4_3.index ⟨(i 0).val / 4096 * 49 + 48, hlt⟩ 0 * 4096 + 4096
    rw [(index4_3 _).1]
    show ((i 0).val / 4096 * 49 + 48) / 49 * 4096 ≤ (i 0).val ∧ (i 0).val < ((i 0).val / 4096 * 49 + 48) / 49 * 4096 + 4096
    omega
  | ⟨1, _⟩ =>
    show win4_3.index ⟨(i 0).val / 4096 * 49 + 48, hlt⟩ 1 * 32 ≤ (i 1).val ∧ (i 1).val < win4_3.index ⟨(i 0).val / 4096 * 49 + 48, hlt⟩ 1 * 32 + 32
    rw [(index4_3 _).2]
    omega

/-! ## What each case of the body leaves, as the payloads of the blocks it loaded (any float values) -/

theorem hz1_32 : (![0] : Fin 1 → Nat) = fun _ => 0 := funext fun a => by fin_cases a <;> rfl
theorem hz2_32 : (![0, 0] : Fin 2 → Nat) = fun _ => 0 := funext fun a => by fin_cases a <;> rfl

/-- An inner node tile leaves, in the accumulator holding xs0, the accumulation step of the tile's blocks over xs0. -/
theorem sout4_B_eq (c : Dev nD) (i : grid4.Coords) (a2 : Memref sig .tc .vmem S4096 .i32) (h2 : a2.IsWhole)
    (a3 : Memref sig .tc .vmem S4096 .f32) (h3 : a3.IsWhole) (a4 : Memref sig .tc .vmem S2048x32 .f32) (h4 : a4.IsWhole)
    (a5 : Memref sig .tc .vmem S4096x32 .bf16) (h5 : a5.IsWhole) (a6 : Memref sig .tc .vmem S4096x32 .f32) (h6 : a6.IsWhole)
    (hc0 : ¬cond4_0 i) (hc1 : ¬cond4_1 i) (x0 : Vec F S4096 .i32) (x1 : Vec F S4096 .f32) (x2 : Vec F S2048x32 .f32)
    (xs0 : Vec F S4096x32 .f32) :
    sout4_B c i a2 h2 a3 h3 a4 h4 a5 h5 a6 h6 hc0 hc1 x0 x1 x2 xs0 = k4_pay2 i x0 x2 xs0 := by
  unfold sout4_B
  rw [View.read_writes_eq_canon _ _ _ (scover4_B c i a2 h2 a3 h3 a4 h4 a5 h5 a6 h6 hc0 hc1 x0 x1 x2 xs0)]
  unfold kernelRun4_B
  dsimp only
  rw [View.canon_unit_zero hz2_32]
  simp only [View.readAt_eq_ld, h2.read_unread, h3.read_unread, h4.read_unread, h6.read_unread, View.ld_unit_zero (S := S4096) hz1_32,
    View.ld_unit_zero (S := S2048x32) hz2_32, View.ld_unit_zero (S := S4096x32) hz2_32]

/-- The last node tile leaves the same step in the accumulator, -/
theorem sout4_C_eq (c : Dev nD) (i : grid4.Coords) (a2 : Memref sig .tc .vmem S4096 .i32) (h2 : a2.IsWhole)
    (a3 : Memref sig .tc .vmem S4096 .f32) (h3 : a3.IsWhole) (a4 : Memref sig .tc .vmem S2048x32 .f32) (h4 : a4.IsWhole)
    (a5 : Memref sig .tc .vmem S4096x32 .bf16) (h5 : a5.IsWhole) (a6 : Memref sig .tc .vmem S4096x32 .f32) (h6 : a6.IsWhole)
    (hc0 : ¬cond4_0 i) (hc1 : cond4_1 i) (x0 : Vec F S4096 .i32) (x1 : Vec F S4096 .f32) (x2 : Vec F S2048x32 .f32)
    (xs0 : Vec F S4096x32 .f32) :
    sout4_C c i a2 h2 a3 h3 a4 h4 a5 h5 a6 h6 hc0 hc1 x0 x1 x2 xs0 = k4_pay2 i x0 x2 xs0 := by
  unfold sout4_C
  rw [View.read_writes_eq_canon _ _ _ (scover4_C c i a2 h2 a3 h3 a4 h4 a5 h5 a6 h6 hc0 hc1 x0 x1 x2 xs0)]
  unfold kernelRun4_C
  dsimp only
  sl_unfold_words
  rw [View.canon_unit_zero hz2_32]
  simp only [View.readAt_eq_ld, h2.read_unread, h3.read_unread, h4.read_unread, h6.read_unread, View.ld_unit_zero (S := S4096) hz1_32,
    View.ld_unit_zero (S := S2048x32) hz2_32, View.ld_unit_zero (S := S4096x32) hz2_32]

/-- and stores, as the tile's messages, that accumulator scaled row by row by the edges' weights. -/
theorem out4_C_eq (c : Dev nD) (i : grid4.Coords) (a2 : Memref sig .tc .vmem S4096 .i32) (h2 : a2.IsWhole)
    (a3 : Memref sig .tc .vmem S4096 .f32) (h3 : a3.IsWhole) (a4 : Memref sig .tc .vmem S2048x32 .f32) (h4 : a4.IsWhole)
    (a5 : Memref sig .tc .vmem S4096x32 .bf16) (h5 : a5.IsWhole) (a6 : Memref sig .tc .vmem S4096x32 .f32) (h6 : a6.IsWhole)
    (hc0 : ¬cond4_0 i) (hc1 : cond4_1 i) (x0 : Vec F S4096 .i32) (x1 : Vec F S4096 .f32) (x2 : Vec F S2048x32 .f32)
    (xs0 : Vec F S4096x32 .f32) :
    out4_C c i a2 h2 a3 h3 a4 h4 a5 h5 a6 h6 hc0 hc1 x0 x1 x2 xs0 = k4_pay3 (k4_pay2 i x0 x2 xs0) x1 := by
  unfold out4_C
  rw [View.read_writes_eq_canon _ _ _ (cover4_C c i a2 h2 a3 h3 a4 h4 a5 h5 a6 h6 hc0 hc1 x0 x1 x2 xs0)]
  unfold kernelRun4_C
  dsimp only
  sl_unfold_words
  rw [View.canon_unit_zero hz2_32, View.readCov_unit_zero (S := S4096x32) _ hz2_32]
  simp only [View.readAt_eq_ld, h2.read_unread, h3.read_unread, h4.read_unread, h6.read_unread, View.ld_unit_zero (S := S4096) hz1_32,
    View.ld_unit_zero (S := S2048x32) hz2_32, View.ld_unit_zero (S := S4096x32) hz2_32]

/-- The first node tile zeroes the accumulator and leaves the accumulation step over the zero block. -/
theorem sout4_A_eq (c : Dev nD) (i : grid4.Coords) (a2 : Memref sig .tc .vmem S4096 .i32) (h2 : a2.IsWhole)
    (a3 : Memref sig .tc .vmem S4096 .f32) (h3 : a3.IsWhole) (a4 : Memref sig .tc .vmem S2048x32 .f32) (h4 : a4.IsWhole)
    (a5 : Memref sig .tc .vmem S4096x32 .bf16) (h5 : a5.IsWhole) (a6 : Memref sig .tc .vmem S4096x32 .f32) (h6 : a6.IsWhole)
    (hc0 : cond4_0 i) (hc1 : ¬cond4_1 i) (x0 : Vec F S4096 .i32) (x1 : Vec F S4096 .f32) (x2 : Vec F S2048x32 .f32) :
    sout4_A c i a2 h2 a3 h3 a4 h4 a5 h5 a6 h6 hc0 hc1 x0 x1 x2 = k4_pay2 i x0 x2 k4_pay1 := by
  unfold sout4_A
  rw [View.read_writes_eq_canon _ _ _ (scover4_A c i a2 h2 a3 h3 a4 h4 a5 h5 a6 h6 hc0 hc1 x0 x1 x2)]
  unfold kernelRun4_A
  dsimp only
  sl_unfold_words
  rw [View.canon_cons_unit_zero (S := S4096x32) hz2_32, View.readCov_unit_zero (S := S4096x32) _ hz2_32]
  simp only [View.readAt_eq_ld, h2.read_unread, h3.read_unread, h4.read_unread, h6.read_unread, View.ld_unit_zero (S := S4096) hz1_32,
    View.ld_unit_zero (S := S2048x32) hz2_32, View.ld_unit_zero (S := S4096x32) hz2_32]

/-! ## The gathered feature, tile by tile, over the extended reals -/

section AtIdeal

variable (W : (c : Dev nD) → (b : Ref sig .tc) → Buf (Elt Ideal) ((c : Thread nD τ).loc b))

/-- The signed value of edge e's source word. -/
def srcInt4 (c : Dev nD) (e : Fin 3203072) : ℤ := BitVec.toInt ((W c main_v26 : Vec Ideal S3203072 .i32) (ix1 e))

/-- The feature, at column q, of edge e's source if the source is one of the first n nodes (and a node of the padded
    array at all), and zero otherwise: what the accumulator holds once the node tiles below n are done. -/
def gatheredBelow4 (c : Dev nD) (e : Fin 3203072) (q : Fin 32) (n : ℕ) : EReal :=
  if h : 0 ≤ srcInt4 W c e ∧ srcInt4 W c e < n ∧ srcInt4 W c e < 100352 then
    (W c main_v36 : Vec Ideal S100352x32 .f32) (ix2 (⟨(srcInt4 W c e).toNat, by omega⟩ : Fin 100352) q)
  else 0

theorem gatheredBelow4_zero (c : Dev nD) (e : Fin 3203072) (q : Fin 32) : gatheredBelow4 W c e q 0 = 0 := by
  unfold gatheredBelow4
  rw [dif_neg (by omega)]

/-- A tile that holds the source: before it nothing was gathered, after it the source's feature is. -/
theorem gatheredBelow4_step_mem (c : Dev nD) (e : Fin 3203072) (q : Fin 32) (n : ℕ) (j0 : Fin 2048) (hn : n + 2048 ≤ 100352)
    (h : srcInt4 W c e = (n + j0.val : ℤ)) :
    gatheredBelow4 W c e q (n + 2048)
        = (W c main_v36 : Vec Ideal S100352x32 .f32) (ix2 (⟨n + j0.val, by have := j0.isLt; omega⟩ : Fin 100352) q)
      ∧ gatheredBelow4 W c e q n = 0 := by
  have hj := j0.isLt
  constructor
  · unfold gatheredBelow4
    rw [dif_pos (by omega)]
    congr 2
    exact Fin.ext (by show (srcInt4 W c e).toNat = n + j0.val; omega)
  · unfold gatheredBelow4
    rw [dif_neg (by omega)]

/-- A tile that does not hold the source changes nothing. -/
theorem gatheredBelow4_step_not_mem (c : Dev nD) (e : Fin 3203072) (q : Fin 32) (n : ℕ)
    (h : srcInt4 W c e < (n : ℤ) ∨ (n + 2048 : ℤ) ≤ srcInt4 W c e) :
    gatheredBelow4 W c e q (n + 2048) = gatheredBelow4 W c e q n := by
  unfold gatheredBelow4
  by_cases hc : 0 ≤ srcInt4 W c e ∧ srcInt4 W c e < n ∧ srcInt4 W c e < 100352
  · rw [dif_pos hc, dif_pos (by omega)]
  · rw [dif_neg hc, dif_neg (by omega)]

/-! ## The accumulation, point by point -/

/-- One accumulation step at a point on the point's own blocks: if the accumulator holds, at edge p, the source's
    feature when the source is below the point's node tile (zero otherwise), it then holds it when the source is
    below the next tile. -/
theorem step4 (c : Dev nD) (t : Fin cfg4.N) (acc : Vec Ideal S4096x32 .f32) (p : Fin 4096) (q : Fin 32)
    (hacc : acc (ix2 p q) = gatheredBelow4 W c (edgeOf4 t p) q (t.val % 49 * 2048)) :
    k4_pay2 (F := Ideal) (grid4.coords t) (iblk4 W c 0 t) (iblk4 W c 2 t) acc (ix2 p q)
      = gatheredBelow4 W c (edgeOf4 t p) q (t.val % 49 * 2048 + 2048) := by
  have hc : ((grid4.coords t) 1).val = t.val % 49 := coord4_fast t
  have hs : BitVec.toInt ((iblk4 W c 0 t : Vec Ideal S4096 .i32) (ix1 p)) = srcInt4 W c (edgeOf4 t p) := by
    rw [iblk4_0_apply]; rfl
  by_cases hin : ((t.val % 49 * 2048 : ℕ) : ℤ) ≤ srcInt4 W c (edgeOf4 t p)
      ∧ srcInt4 W c (edgeOf4 t p) < ((t.val % 49 * 2048 + 2048 : ℕ) : ℤ)
  · have hj : (srcInt4 W c (edgeOf4 t p) - ((t.val % 49 * 2048 : ℕ) : ℤ)).toNat < 2048 := by omega
    obtain ⟨e1, e2⟩ := gatheredBelow4_step_mem W c (edgeOf4 t p) q (t.val % 49 * 2048) ⟨_, hj⟩ (by omega) (by dsimp only; omega)
    rw [k4_pay2_apply_of_mem (grid4.coords t) (iblk4 W c 0 t) (iblk4 W c 2 t) acc p q ⟨_, hj⟩ (by rw [hs, hc]; dsimp only; omega),
      hacc, e2, zero_add, iblk4_2_apply, e1]
    rfl
  · rw [k4_pay2_apply_of_not_mem (grid4.coords t) (iblk4 W c 0 t) (iblk4 W c 2 t) acc p q (by rw [hs, hc]; omega),
      hacc, gatheredBelow4_step_not_mem W c _ q _ (by omega)]

/-- THE ACCUMULATOR after the point at position n: at edge p of the point's edge tile, the feature of the edge's source
    if the source is a node of the node tiles done so far, zero otherwise. By induction on the point. -/
theorem acc4_eq (c : Dev nD) : ∀ (n : ℕ) (hn : n < cfg4.N) (p : Fin 4096) (q : Fin 32),
    (outsAt4 W c n hn).2 (ix2 p q) = gatheredBelow4 W c (edgeOf4 ⟨n, hn⟩ p) q (n % 49 * 2048 + 2048)
  | 0, hn, p, q => by
    rw [outsAt4_A W c ⟨0, hn⟩ rfl (by show ¬(0 % 49 = 48); decide)]
    dsimp only
    rw [sout4_A_eq]
    refine step4 W c ⟨0, hn⟩ (k4_pay1 (F := Ideal)) p q ?_
    show _ = gatheredBelow4 W c _ q 0
    exact (k4_pay1_apply p q).trans (gatheredBelow4_zero W c _ q).symm
  | n + 1, hn, p, q => by
    have ih := acc4_eq c n (Nat.lt_of_succ_lt hn) p q
    by_cases h0 : (n + 1) % 49 = 0
    · have h1 : ¬(n + 1) % 49 = 48 := by omega
      rw [outsAt4_A W c ⟨n + 1, hn⟩ h0 h1]
      dsimp only
      rw [sout4_A_eq]
      refine step4 W c ⟨n + 1, hn⟩ (k4_pay1 (F := Ideal)) p q ?_
      show _ = gatheredBelow4 W c _ q ((n + 1) % 49 * 2048)
      rw [h0, Nat.zero_mul]
      exact (k4_pay1_apply p q).trans (gatheredBelow4_zero W c _ q).symm
    · have hprev : edgeOf4 ⟨n, Nat.lt_of_succ_lt hn⟩ p = edgeOf4 ⟨n + 1, hn⟩ p :=
        Fin.ext (by show n / 49 * 4096 + p.val = (n + 1) / 49 * 4096 + p.val; omega)
      have hm : n % 49 * 2048 + 2048 = (n + 1) % 49 * 2048 := by omega
      rw [hprev, hm] at ih
      by_cases h1 : (n + 1) % 49 = 48
      · rw [outsAt4_C W c ⟨n + 1, hn⟩ h0 h1]
        dsimp only
        rw [sout4_C_eq]
        exact step4 W c ⟨n + 1, hn⟩ _ p q ih
      · rw [outsAt4_B W c ⟨n + 1, hn⟩ h0 h1]
        dsimp only
        rw [sout4_B_eq]
        exact step4 W c ⟨n + 1, hn⟩ _ p q ih

/-! ## The messages array after the region -/

/-- The messages: at edge e and column q, the feature of e's source (zero if the source word is no node of the padded
    array) times e's weight. -/
def messages4 (c : Dev nD) : Vec Ideal S3203072x32 .bf16 := fun i =>
  gatheredBelow4 W c ⟨(i 0).val, (i 0).isLt⟩ ⟨(i 1).val, (i 1).isLt⟩ 100352
    * (W c main_v28 : Vec Ideal S3203072 .f32) (ix1 (⟨(i 0).val, (i 0).isLt⟩ : Fin 3203072))

theorem messages4_apply (c : Dev nD) (e : Fin 3203072) (q : Fin 32) :
    messages4 W c (ix2 e q) = gatheredBelow4 W c e q 100352 * (W c main_v28 : Vec Ideal S3203072 .f32) (ix1 e) := rfl

/-- What a point writes back of a block X of messages is its block of an array G, if X is G at the rows of the
    point's edge tile. -/
theorem cut4_3_eq_read (t : Fin cfg4.N) (X : Vec Ideal S4096x32 .bf16) (G : Vec Ideal S3203072x32 .bf16)
    (h : ∀ (p : Fin 4096) (q : Fin 32), X (ix2 p q) = G (ix2 (edgeOf4 t p) q)) :
    (cfg4.win 3).cut (grid4.coords t) X = ((cfg4.win 3).blk t).view.read (Elt Ideal) G := by
  funext j
  rw [View.read_apply]
  have hj0 : (j 0).val < 4096 := (j 0).isLt
  have hj1 : (j 1).val < 32 := (j 1).isLt
  show X ((cfg4.win 3).xinj (grid4.coords t) j) = G (((cfg4.win 3).blk t).view.emb j)
  have e1 : (cfg4.win 3).xinj (grid4.coords t) j = ix2 (⟨(j 0).val, hj0⟩ : Fin 4096) (⟨(j 1).val, hj1⟩ : Fin 32) := by
    funext a; apply Fin.ext
    match a with
    | ⟨0, _⟩ => rfl
    | ⟨1, _⟩ => rfl
  have e2 : ((cfg4.win 3).blk t).view.emb j = ix2 (edgeOf4 t ⟨(j 0).val, hj0⟩) (⟨(j 1).val, hj1⟩ : Fin 32) := by
    funext a; apply Fin.ext
    match a with
    | ⟨0, _⟩ => show win4_3.index t 0 * 4096 + 1 * (j 0).val = t.val / 49 * 4096 + (j 0).val; rw [(index4_3 t).1]; omega
    | ⟨1, _⟩ => show win4_3.index t 1 * 32 + 1 * (j 1).val = (j 1).val; rw [(index4_3 t).2]; omega
  rw [e1, e2]
  exact h _ _

/-- WHAT A WRITING POINT WRITES BACK is its block of the messages. -/
theorem flushed4_3_eq (c : Dev nD) (t : Fin cfg4.N) (hf : (cfg4.win 3).flush t = true) :
    (dat4 W c).flushed 3 t = ((cfg4.win 3).blk t).view.read (Elt Ideal) (messages4 W c) := by
  have h48 := (flush4_3_iff t).mp hf
  have h0 : ¬t.val % 49 = 0 := by omega
  show (cfg4.win 3).cut (grid4.coords t) ((dat4 W c).after 3 t) = _
  rw [after4_3]
  refine cut4_3_eq_read t _ _ fun p q => ?_
  have e := acc4_eq W c t.val t.isLt p q
  rw [outsAt4_C W c t h0 h48] at e ⊢
  dsimp only at e ⊢
  rw [sout4_C_eq] at e
  rw [out4_C_eq, k4_pay3_apply, e, iblk4_1_apply, messages4_apply, h48]

/-- THE MESSAGES ARRAY after the region: every row is written back by the last point of its edge tile. -/
theorem final4_3 (c : Dev nD) : (dat4 W c).arrAt 3 cfg4.N = messages4 W c :=
  (dat4 W c).arrAt_eq_of_cover 3 (messages4 W c) (flushed4_3_eq W c) cover4_3

end AtIdeal

end Cert.KernelIdeal.HandV

end
-- ==== Proof.KWalk.lean ====
/-
  The walk back through the program's buffer boundaries, from the result buffer to the arguments.

  The program's last buffer boundary (W20) holds, in the result buffer, the leading 100000 rows of what the second
  scatter-add region left; walking the boundaries back — each region's array as its accumulated closed form of the
  arrays it was entered with, each host stretch as its operations read at an index — gives, under the precondition
  that every edge end names a node, the two-layer graph convolution of the specification, entry by entry.

  The walk: the padded edge lists and inverse root degrees at boundary 8 are the specification's (zero in the
  padding); the first dense map's rows, padded, are the first layer's features; the gather's messages are the
  source's feature times the edge's weight; the scatter-add's array is, at a node, the layer's aggregate, its positive
  part taken; its leading rows go through the second dense map, and the second layer repeats the first at width 32
  without the positive part.
-/
import proofs.«138531_j42417097015621_1_alg».proof.Proof.KI.Run
import proofs.«138531_j42417097015621_1_alg».proof.Proof.KI.Carry
import proofs.«138531_j42417097015621_1_alg».proof.Proof.Spec
import proofs.«138531_j42417097015621_1_alg».proof.Proof.KHost
import proofs.«138531_j42417097015621_1_alg».proof.Proof.KLayer
import proofs.«138531_j42417097015621_1_alg».proof.Proof.KIV.LinearV
import proofs.«138531_j42417097015621_1_alg».proof.Proof.KIV.Gather1V
import proofs.«138531_j42417097015621_1_alg».proof.Proof.KIV.Gather4V
import Idealize.ShloMosaic.Lib.ValueIdx

noncomputable section

namespace Cert.KernelValue

open Idealize.ShloMosaic Idealize.ShloMosaic.TcCoe Idealize.ShloMosaic.ValueIdx Idealize.SL.Sem
open Cert.KernelIdeal Cert.KernelIdeal.Gen Cert.KernelIdeal.Hand Cert.KernelIdeal.HandV

variable (m : (ℓ : Loc nD τ sig) → Buf (Elt Ideal) ℓ) (ρ : Dev nD → PrngReg)

/-! ## The arguments, curried, and the padded tables at the first region's entry -/

section Walk

variable (c : Dev nD)

abbrev xArg : Fin 100000 → Fin 128 → EReal := fun n k => m ((c : Thread nD τ).loc main_arg0) (ix2 n k)
abbrev eArg : Cert.Spec.Edges := fun r e => m ((c : Thread nD τ).loc main_arg1) (ix2 r e)
abbrev w1Arg : Fin 128 → Fin 64 → EReal := fun k d => m ((c : Thread nD τ).loc main_arg2) (ix2 k d)
abbrev b1Arg : Fin 64 → EReal := fun d => m ((c : Thread nD τ).loc main_arg3) (ix1 d)
abbrev w2Arg : Fin 64 → Fin 32 → EReal := fun k d => m ((c : Thread nD τ).loc main_arg4) (ix2 k d)
abbrev b2Arg : Fin 32 → EReal := fun d => m ((c : Thread nD τ).loc main_arg5) (ix1 d)

/-- The padded source words, target words, weights and inverse root degrees at boundary 8. -/
abbrev sw8 : Fin 3203072 → BitVec 32 := fun e =>
  (W8 m ρ c (Proc.devRef .tc main_v26) : (⟨S3203072, .i32⟩ : BufTy).Contents (Elt Ideal)) (ix1 e)
abbrev dw8 : Fin 3203072 → BitVec 32 := fun e =>
  (W8 m ρ c (Proc.devRef .tc main_v27) : (⟨S3203072, .i32⟩ : BufTy).Contents (Elt Ideal)) (ix1 e)
abbrev nw8 : Fin 3203072 → EReal := fun e =>
  (W8 m ρ c (Proc.devRef .tc main_v28) : (⟨S3203072, .f32⟩ : BufTy).Contents (Elt Ideal)) (ix1 e)
abbrev dv8 : Fin 100352 → EReal := fun n =>
  (W8 m ρ c (Proc.devRef .tc main_v29) : (⟨S100352, .f32⟩ : BufTy).Contents (Elt Ideal)) (ix1 n)

/-- They are the edge list's, zero in the padding. -/
theorem padded8 (hE : ∀ (r : Fin 2) (e : Fin 3200000), 0 ≤ (eArg m c r e).toInt ∧ (eArg m c r e).toInt < 100000) :
    Padded (eArg m c) (sw8 m ρ c) (dw8 m ρ c) (nw8 m ρ c) (dv8 m ρ c) where
  s_lt e he := src_pad_lt (W0 m ρ c) e he
  d_lt e he := dst_pad_lt (W0 m ρ c) e he
  n_lt e he := norm_pad_lt (W0 m ρ c) hE e he
  n_ge e he := norm_pad_ge (W0 m ρ c) e he
  v_lt n hn := dinv_pad_lt (W0 m ρ c) hE n hn

/-! ## The first layer -/

/-- The first layer's features: the first dense map's rows. -/
abbrev hL1 : Fin 100000 → Fin 64 → EReal := Cert.Spec.lin (xArg m c) (w1Arg m c)

/-- The padded features at the gather's entry. -/
abbrev hp11 : Fin 100352 → Fin 64 → EReal := fun n q =>
  (W11 m ρ c (Proc.devRef .tc main_v31) : (⟨S100352x64, .f32⟩ : BufTy).Contents (Elt Ideal)) (ix2 n q)

theorem feat1 (n : Fin 100352) (hn : n.val < 100000) (q : Fin 64) : hp11 m ρ c n q = hL1 m c ⟨n.val, hn⟩ q := by
  refine (v31_lt (W9 m ρ c) n q hn).trans ?_
  have e9 : W9 m ρ c (Proc.devRef .tc main_v30) = prod0 (V8 m ρ c main_arg0) (V8 m ρ c main_arg2) :=
    (W9_arr m ρ c 2).trans (final0 (V8 m ρ) c)
  rw [e9]
  have a0 : V8 m ρ c main_arg0 = W0 m ρ c (Proc.devRef .tc main_arg0) := carry_main_arg0_0_8 m ρ c
  have a2 : V8 m ρ c main_arg2 = W0 m ρ c (Proc.devRef .tc main_arg2) := carry_main_arg2_0_8 m ρ c
  rw [a0, a2]
  rfl

/-- The first gather's messages: the source's feature row times the edge's weight. -/
theorem msg1 (e : Fin 3203072) (q : Fin 64) :
    (W12 m ρ c (Proc.devRef .tc main_v32) : (⟨S3203072x64, .bf16⟩ : BufTy).Contents (Elt Ideal)) (ix2 e q)
      = gath (sw8 m ρ c) (hp11 m ρ c) e q * nw8 m ρ c e := by
  have e12 : W12 m ρ c (Proc.devRef .tc main_v32) = messages1 (V11 m ρ) c := (W12_arr m ρ c 3).trans (final1_3 (V11 m ρ) c)
  rw [e12, messages1_apply]
  have s : V11 m ρ c main_v26 = W8 m ρ c (Proc.devRef .tc main_v26) := carry_main_v26_8_11 m ρ c
  have w : V11 m ρ c main_v28 = W8 m ρ c (Proc.devRef .tc main_v28) := carry_main_v28_8_11 m ρ c
  show gath (fun e => (V11 m ρ c main_v26 : (⟨S3203072, .i32⟩ : BufTy).Contents (Elt Ideal)) (ix1 e))
      (fun n q => (V11 m ρ c main_v31 : (⟨S100352x64, .f32⟩ : BufTy).Contents (Elt Ideal)) (ix2 n q)) e q
    * (V11 m ρ c main_v28 : (⟨S3203072, .f32⟩ : BufTy).Contents (Elt Ideal)) (ix1 e) = _
  rw [s, w]

/-- The tables the first scatter-add is entered with (boundary 12), and its array after the region. -/
abbrev dw12 : Fin 3203072 → BitVec 32 := fun e => (V12 m ρ c main_v27 : (⟨S3203072, .i32⟩ : BufTy).Contents (Elt Ideal)) (ix1 e)
abbrev mg12 : Fin 3203072 → Fin 64 → EReal := fun e q => (V12 m ρ c main_v32 : (⟨S3203072x64, .bf16⟩ : BufTy).Contents (Elt Ideal)) (ix2 e q)
abbrev dv12 : Fin 100352 → EReal := fun n => (V12 m ρ c main_v29 : (⟨S100352, .f32⟩ : BufTy).Contents (Elt Ideal)) (ix1 n)
abbrev hp12 : Fin 100352 → Fin 64 → EReal := fun n q => (V12 m ρ c main_v31 : (⟨S100352x64, .f32⟩ : BufTy).Contents (Elt Ideal)) (ix2 n q)
abbrev bb12 : Fin 64 → EReal := fun q => (V12 m ρ c main_arg3 : (⟨S64, .f32⟩ : BufTy).Contents (Elt Ideal)) (ix1 q)
abbrev out13 : Fin 100352 → Fin 64 → EReal := fun n q =>
  ((dat2 (F := Ideal) (V12 m ρ) c).arrAt 5 cfg2.N : (⟨S100352x64, .f32⟩ : BufTy).Contents (Elt Ideal)) (ix2 n q)

/-- WHAT THE FIRST SCATTER-ADD LEAVES, as its region's closed form states it of the arrays it was entered with: at node
    n and column q, the positive part of the sum of the messages of the entries whose target word is n, plus the self
    term, plus the bias. -/
def Scatter2At : Prop :=
  ∀ (n : Fin 100352) (q : Fin 64),
    out13 m ρ c n q
      = max ((∑ e ∈ Finset.univ.filter (fun e : Fin 3203072 => (dw12 m ρ c e).toInt = (n.val : ℤ)), mg12 m ρ c e q)
            + dv12 m ρ c n * dv12 m ρ c n * hp12 m ρ c n q + bb12 m ρ c q) 0

theorem dw12_eq : dw12 m ρ c = dw8 m ρ c := funext fun e => congrFun (carry_main_v27_8_12 m ρ c) (ix1 e)
theorem dv12_eq : dv12 m ρ c = dv8 m ρ c := funext fun n => congrFun (carry_main_v29_8_12 m ρ c) (ix1 n)
theorem hp12_eq : hp12 m ρ c = hp11 m ρ c := funext fun n => funext fun q => congrFun (carry_main_v31_11_12 m ρ c) (ix2 n q)
theorem bb12_eq : bb12 m ρ c = b1Arg m c := funext fun q => congrFun (carry_main_arg3_0_12 m ρ c) (ix1 q)
theorem mg12_eq (e : Fin 3203072) (q : Fin 64) : mg12 m ρ c e q = gath (sw8 m ρ c) (hp11 m ρ c) e q * nw8 m ρ c e :=
  msg1 m ρ c e q

/-- The first layer's aggregate, its positive part taken, at the real nodes. -/
theorem agg1 (hE : ∀ (r : Fin 2) (e : Fin 3200000), 0 ≤ (eArg m c r e).toInt ∧ (eArg m c r e).toInt < 100000)
    (H2 : Scatter2At m ρ c) (n : Fin 100000) (q : Fin 64) :
    (W13 m ρ c (Proc.devRef .tc main_v33) : (⟨S100352x64, .f32⟩ : BufTy).Contents (Elt Ideal)) (ix2 (⟨n.val, by have := n.isLt; omega⟩ : Fin 100352) q)
      = Cert.Spec.relu (Cert.Spec.agg (eArg m c) (hL1 m c) (b1Arg m c)) n q := by
  have e13 : W13 m ρ c (Proc.devRef .tc main_v33) = (dat2 (V12 m ρ) c).arrAt 5 cfg2.N := W13_arr m ρ c 5
  rw [e13]
  refine (H2 ⟨n.val, by have := n.isLt; omega⟩ q).trans ?_
  rw [dw12_eq, dv12_eq, hp12_eq, bb12_eq, Finset.sum_congr rfl fun e _ => mg12_eq m ρ c e q]
  unfold Cert.Spec.relu
  exact congrArg (max · 0) (layer_eq (ei := eArg m c) (sw := sw8 m ρ c) (dw := dw8 m ρ c) (nw := nw8 m ρ c) (dv := dv8 m ρ c)
    (hp := hp11 m ρ c) (h := hL1 m c) (padded8 m ρ c hE) hE (feat1 m ρ c) (b1Arg m c) n q)

/-! ## The second layer -/

/-- The first layer's result. -/
abbrev aL1 : Fin 100000 → Fin 64 → EReal := Cert.Spec.relu (Cert.Spec.agg (eArg m c) (hL1 m c) (b1Arg m c))
/-- The second layer's features: the second dense map's rows. -/
abbrev hL2 : Fin 100000 → Fin 32 → EReal := Cert.Spec.lin (aL1 m c) (w2Arg m c)
/-- The padded features at the second gather's entry. -/
abbrev hp17 : Fin 100352 → Fin 32 → EReal := fun n q =>
  (W17 m ρ c (Proc.devRef .tc main_v36) : (⟨S100352x32, .f32⟩ : BufTy).Contents (Elt Ideal)) (ix2 n q)

/-- The first aggregation's leading rows at the second dense map's entry. -/
abbrev r14 : Fin 100000 → Fin 64 → EReal := fun n k =>
  (W14 m ρ c (Proc.devRef .tc main_v34) : (⟨S100000x64, .f32⟩ : BufTy).Contents (Elt Ideal)) (ix2 n k)

theorem feat2 (hE : ∀ (r : Fin 2) (e : Fin 3200000), 0 ≤ (eArg m c r e).toInt ∧ (eArg m c r e).toInt < 100000)
    (H2 : Scatter2At m ρ c) (n : Fin 100352) (hn : n.val < 100000) (q : Fin 32) :
    hp17 m ρ c n q = hL2 m c ⟨n.val, hn⟩ q := by
  refine (v36_lt (W15 m ρ c) n q hn).trans ?_
  have e15 : W15 m ρ c (Proc.devRef .tc main_v35) = prod3 (V14 m ρ c main_v34) (V14 m ρ c main_arg4) :=
    (W15_arr m ρ c 2).trans (final3 (V14 m ρ) c)
  rw [e15]
  have a4 : V14 m ρ c main_arg4 = W0 m ρ c (Proc.devRef .tc main_arg4) := carry_main_arg4_0_14 m ρ c
  rw [a4]
  show (∑ k : Fin 64, r14 m ρ c ⟨n.val, hn⟩ k * w2Arg m c k q) = ∑ k : Fin 64, aL1 m c ⟨n.val, hn⟩ k * w2Arg m c k q
  refine Finset.sum_congr rfl fun k _ => ?_
  exact congrArg (· * w2Arg m c k q) ((v34_at (W13 m ρ c) ⟨n.val, hn⟩ k).trans (agg1 m ρ c hE H2 ⟨n.val, hn⟩ k))

/-- The second gather's messages. -/
theorem msg2 (e : Fin 3203072) (q : Fin 32) :
    (W18 m ρ c (Proc.devRef .tc main_v37) : (⟨S3203072x32, .bf16⟩ : BufTy).Contents (Elt Ideal)) (ix2 e q)
      = gath (sw8 m ρ c) (hp17 m ρ c) e q * nw8 m ρ c e := by
  have e18 : W18 m ρ c (Proc.devRef .tc main_v37) = messages4 (V17 m ρ) c := (W18_arr m ρ c 3).trans (final4_3 (V17 m ρ) c)
  rw [e18, messages4_apply]
  have s : V17 m ρ c main_v26 = W8 m ρ c (Proc.devRef .tc main_v26) := carry_main_v26_8_17 m ρ c
  have w : V17 m ρ c main_v28 = W8 m ρ c (Proc.devRef .tc main_v28) := carry_main_v28_8_17 m ρ c
  show gath (fun e => (V17 m ρ c main_v26 : (⟨S3203072, .i32⟩ : BufTy).Contents (Elt Ideal)) (ix1 e))
      (fun n q => (V17 m ρ c main_v36 : (⟨S100352x32, .f32⟩ : BufTy).Contents (Elt Ideal)) (ix2 n q)) e q
    * (V17 m ρ c main_v28 : (⟨S3203072, .f32⟩ : BufTy).Contents (Elt Ideal)) (ix1 e) = _
  rw [s, w]

/-- The tables the second scatter-add is entered with (boundary 18), and its array after the region. -/
abbrev dw18 : Fin 3203072 → BitVec 32 := fun e => (V18 m ρ c main_v27 : (⟨S3203072, .i32⟩ : BufTy).Contents (Elt Ideal)) (ix1 e)
abbrev mg18 : Fin 3203072 → Fin 32 → EReal := fun e q => (V18 m ρ c main_v37 : (⟨S3203072x32, .bf16⟩ : BufTy).Contents (Elt Ideal)) (ix2 e q)
abbrev dv18 : Fin 100352 → EReal := fun n => (V18 m ρ c main_v29 : (⟨S100352, .f32⟩ : BufTy).Contents (Elt Ideal)) (ix1 n)
abbrev hp18 : Fin 100352 → Fin 32 → EReal := fun n q => (V18 m ρ c main_v36 : (⟨S100352x32, .f32⟩ : BufTy).Contents (Elt Ideal)) (ix2 n q)
abbrev bb18 : Fin 32 → EReal := fun q => (V18 m ρ c main_arg5 : (⟨S32, .f32⟩ : BufTy).Contents (Elt Ideal)) (ix1 q)
abbrev out19 : Fin 100352 → Fin 32 → EReal := fun n q =>
  ((dat5 (F := Ideal) (V18 m ρ) c).arrAt 5 cfg5.N : (⟨S100352x32, .f32⟩ : BufTy).Contents (Elt Ideal)) (ix2 n q)

/-- WHAT THE SECOND SCATTER-ADD LEAVES, as its region's closed form states it: the same without the positive part. -/
def Scatter5At : Prop :=
  ∀ (n : Fin 100352) (q : Fin 32),
    out19 m ρ c n q
      = (∑ e ∈ Finset.univ.filter (fun e : Fin 3203072 => (dw18 m ρ c e).toInt = (n.val : ℤ)), mg18 m ρ c e q)
            + dv18 m ρ c n * dv18 m ρ c n * hp18 m ρ c n q + bb18 m ρ c q

theorem dw18_eq : dw18 m ρ c = dw8 m ρ c := funext fun e => congrFun (carry_main_v27_8_18 m ρ c) (ix1 e)
theorem dv18_eq : dv18 m ρ c = dv8 m ρ c := funext fun n => congrFun (carry_main_v29_8_18 m ρ c) (ix1 n)
theorem hp18_eq : hp18 m ρ c = hp17 m ρ c := funext fun n => funext fun q => congrFun (carry_main_v36_17_18 m ρ c) (ix2 n q)
theorem bb18_eq : bb18 m ρ c = b2Arg m c := funext fun q => congrFun (carry_main_arg5_0_18 m ρ c) (ix1 q)
theorem mg18_eq (e : Fin 3203072) (q : Fin 32) : mg18 m ρ c e q = gath (sw8 m ρ c) (hp17 m ρ c) e q * nw8 m ρ c e :=
  msg2 m ρ c e q

/-- The second layer's aggregate at the real nodes. -/
theorem agg2 (hE : ∀ (r : Fin 2) (e : Fin 3200000), 0 ≤ (eArg m c r e).toInt ∧ (eArg m c r e).toInt < 100000)
    (H2 : Scatter2At m ρ c) (H5 : Scatter5At m ρ c) (n : Fin 100000) (q : Fin 32) :
    (W19 m ρ c (Proc.devRef .tc main_v38) : (⟨S100352x32, .f32⟩ : BufTy).Contents (Elt Ideal)) (ix2 (⟨n.val, by have := n.isLt; omega⟩ : Fin 100352) q)
      = Cert.Spec.agg (eArg m c) (hL2 m c) (b2Arg m c) n q := by
  have e19 : W19 m ρ c (Proc.devRef .tc main_v38) = (dat5 (V18 m ρ) c).arrAt 5 cfg5.N := W19_arr m ρ c 5
  rw [e19]
  refine (H5 ⟨n.val, by have := n.isLt; omega⟩ q).trans ?_
  rw [dw18_eq, dv18_eq, hp18_eq, bb18_eq, Finset.sum_congr rfl fun e _ => mg18_eq m ρ c e q]
  exact layer_eq (ei := eArg m c) (sw := sw8 m ρ c) (dw := dw8 m ρ c) (nw := nw8 m ρ c) (dv := dv8 m ρ c)
    (hp := hp17 m ρ c) (h := hL2 m c) (padded8 m ρ c hE) hE (feat2 m ρ c hE H2) (b2Arg m c) n q

/-- THE KERNEL'S VALUE, given what the two scatter-add regions leave. -/
theorem final_of (hE : ∀ (r : Fin 2) (e : Fin 3200000), 0 ≤ (m ((c : Thread nD τ).loc main_arg1) (ix2 r e)).toInt
      ∧ (m ((c : Thread nD τ).loc main_arg1) (ix2 r e)).toInt < 100000)
    (H2 : Scatter2At m ρ c) (H5 : Scatter5At m ρ c) :
    W20 (F := Ideal) m ρ c (Proc.devRef .tc main_v39) = fun i =>
      Cert.Spec.gcn (xArg m c) (eArg m c) (w1Arg m c) (b1Arg m c) (w2Arg m c) (b2Arg m c) ⟨(i 0).val, (i 0).isLt⟩ ⟨(i 1).val, (i 1).isLt⟩ := by
  funext i
  obtain ⟨n, q, rfl⟩ : ∃ (n : Fin 100000) (q : Fin 32), i = ix2 n q := ⟨i 0, i 1, eq_ix2 i⟩
  exact (v39_at (W19 m ρ c) n q).trans (agg2 m ρ c hE H2 H5 n q)

end Walk

end Cert.KernelValue

end
-- ==== Proof.KTile.lean ====
/-
  Sums over a list cut into tiles of equal length: the sum over the entries before the end of tile k that satisfy
  a condition is the sum over those before tile k plus the sum over tile k's own.
-/
import Mathlib.Algebra.BigOperators.Fin
import Mathlib.Algebra.BigOperators.Group.Finset.Basic
import Mathlib.Data.Fintype.BigOperators

open scoped BigOperators

namespace Cert.KernelValue

/-- Entry j of tile k, as an entry of the whole list. -/
def tileIdx {N B : Nat} (k : Nat) (hk : (k + 1) * B ≤ N) (j : Fin B) : Fin N :=
  ⟨k * B + j.val, by have h : (k + 1) * B = k * B + B := Nat.succ_mul k B; have := j.isLt; omega⟩

theorem tileIdx_injective {N B : Nat} (k : Nat) (hk : (k + 1) * B ≤ N) :
    Function.Injective (tileIdx (N := N) k hk) := fun j j' h => by
  have := congrArg Fin.val h
  exact Fin.ext (by simp only [tileIdx] at this; omega)

/-- Nothing lies before tile 0. -/
theorem sum_tile_zero {A : Type*} [AddCommMonoid A] {N B : Nat} (P : Fin N → Prop) [DecidablePred P] (f : Fin N → A) :
    ∑ e ∈ Finset.univ.filter (fun e : Fin N => e.val < 0 * B ∧ P e), f e = 0 :=
  Finset.sum_eq_zero fun e he => absurd (Finset.mem_filter.mp he).2.1 (by rw [Nat.zero_mul]; omega)

/-- THE STEP: up to the end of tile k is up to its start, plus tile k. -/
theorem sum_tile_step {A : Type*} [AddCommMonoid A] {N B : Nat} (k : Nat) (hk : (k + 1) * B ≤ N)
    (P : Fin N → Prop) [DecidablePred P] (f : Fin N → A) :
    ∑ e ∈ Finset.univ.filter (fun e : Fin N => e.val < (k + 1) * B ∧ P e), f e
      = ∑ e ∈ Finset.univ.filter (fun e : Fin N => e.val < k * B ∧ P e), f e
        + ∑ j ∈ Finset.univ.filter (fun j : Fin B => P (tileIdx k hk j)), f (tileIdx k hk j) := by
  have h : (k + 1) * B = k * B + B := Nat.succ_mul k B
  rw [Finset.sum_filter, Finset.sum_filter, Finset.sum_filter]
  have hsplit : ∀ e : Fin N, (if e.val < (k + 1) * B ∧ P e then f e else 0)
      = (if e.val < k * B ∧ P e then f e else 0)
        + (if (k * B ≤ e.val ∧ e.val < (k + 1) * B) ∧ P e then f e else 0) := by
    intro e
    by_cases hp : P e
    · by_cases h1 : e.val < k * B
      · rw [if_pos ⟨by omega, hp⟩, if_pos ⟨h1, hp⟩, if_neg (fun hh => absurd hh.1.1 (by omega)), add_zero]
      · by_cases h2 : e.val < (k + 1) * B
        · rw [if_pos ⟨h2, hp⟩, if_neg (fun hh => h1 hh.1), if_pos ⟨⟨by omega, h2⟩, hp⟩, zero_add]
        · rw [if_neg (fun hh => h2 hh.1), if_neg (fun hh => h1 hh.1), if_neg (fun hh => h2 hh.1.2), add_zero]
    · rw [if_neg (fun hh => hp hh.2), if_neg (fun hh => hp hh.2), if_neg (fun hh => hp hh.2), add_zero]
  rw [Finset.sum_congr rfl (fun e _ => hsplit e), Finset.sum_add_distrib]
  refine congrArg (_ + ·) ?_
  symm
  refine Fintype.sum_of_injective (tileIdx k hk) (tileIdx_injective k hk) _ _ (fun e he => ?_) (fun j => ?_)
  · refine if_neg fun hh => he ⟨⟨e.val - k * B, by omega⟩, Fin.ext ?_⟩
    show k * B + (e.val - k * B) = e.val
    omega
  · refine if_congr ⟨fun hp => ⟨⟨?_, ?_⟩, hp⟩, fun hh => hh.2⟩ rfl rfl
    · show k * B ≤ k * B + j.val
      omega
    · show k * B + j.val < (k + 1) * B
      have := j.isLt
      omega

end Cert.KernelValue
-- ==== Proof.KIV.Scatter2V.lean ====
/-
  The one-hot scatter-add of layer one, READ: what each of the body's three cases leaves, the windows' blocks as the
  arrays at an index, the accumulator after every point (the messages of the edge tiles so far whose target is the
  row: by induction on the point, one tile of 4096 edges at a time), and the result array after the region: for
  every padded node and column the messages into the node, the self-loop's term and the bias, the positive part taken.
-/
import proofs.«138531_j42417097015621_1_alg».proof.Proof.KI.Scatter2
import proofs.«138531_j42417097015621_1_alg».proof.Proof.Payloads
import proofs.«138531_j42417097015621_1_alg».proof.Proof.KTile
import Idealize.ShloMosaic.Lib.Pipeline.Value
import Idealize.ShloMosaic.Lib.ValueIdx
import Idealize.ShloMosaic.Lib.Tactic

set_option maxRecDepth 16384

noncomputable section

open scoped BigOperators

namespace Cert.KernelIdeal.HandV

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

theorem hzz2 : (![0, 0] : Fin 2 → Nat) = fun _ => 0 := funext fun a => by fin_cases a <;> rfl
theorem hzo2 : (![0] : Fin 1 → Nat) = fun _ => 0 := funext fun a => by fin_cases a; rfl

/-- An inner edge tile leaves the accumulator at the tile's contribution added to what it held. -/
theorem sout2_B_eq (c : Dev nD) (i : grid2.Coords) (arg2 : Memref sig .tc .vmem S4096 .i32) (harg2 : arg2.IsWhole) (arg3 : Memref sig .tc .vmem S4096x64 .bf16) (harg3 : arg3.IsWhole) (arg4 : Memref sig .tc .vmem S2048x64 .f32) (harg4 : arg4.IsWhole) (arg5 : Memref sig .tc .vmem S2048 .f32) (harg5 : arg5.IsWhole) (arg6 : Memref sig .tc .vmem S64 .f32) (harg6 : arg6.IsWhole) (arg7 : Memref sig .tc .vmem S2048x64 .f32) (harg7 : arg7.IsWhole) (arg8 : Memref sig .tc .vmem S2048x64 .f32) (harg8 : arg8.IsWhole) (hc0 : ¬cond2_0 i) (hc1 : ¬cond2_1 i) (x0 : Vec F S4096 .i32) (x1 : Vec F S4096x64 .bf16) (x2 : Vec F S2048x64 .f32) (x3 : Vec F S2048 .f32) (x4 : Vec F S64 .f32) (xs0 : Vec F S2048x64 .f32) :
    sout2_B c i arg2 harg2 arg3 harg3 arg4 harg4 arg5 harg5 arg6 harg6 arg7 harg7 arg8 harg8 hc0 hc1 x0 x1 x2 x3 x4 xs0 = k2_pay2 i x0 x1 xs0 := by
  unfold sout2_B
  rw [View.read_writes_eq_canon _ _ _ (scover2_B c i arg2 harg2 arg3 harg3 arg4 harg4 arg5 harg5 arg6 harg6 arg7 harg7 arg8 harg8 hc0 hc1 x0 x1 x2 x3 x4 xs0)]
  unfold kernelRun2_B
  dsimp only
  rw [View.canon_unit_zero hzz2]
  simp only [View.readAt_eq_ld, harg2.read_unread, harg3.read_unread, harg8.read_unread,
    View.ld_unit_zero (S := S4096) hzo2, View.ld_unit_zero (S := S4096x64) hzz2, View.ld_unit_zero (S := S2048x64) hzz2, shapeCast_self]

/-- The last edge tile leaves the accumulator likewise. -/
theorem sout2_C_eq (c : Dev nD) (i : grid2.Coords) (arg2 : Memref sig .tc .vmem S4096 .i32) (harg2 : arg2.IsWhole) (arg3 : Memref sig .tc .vmem S4096x64 .bf16) (harg3 : arg3.IsWhole) (arg4 : Memref sig .tc .vmem S2048x64 .f32) (harg4 : arg4.IsWhole) (arg5 : Memref sig .tc .vmem S2048 .f32) (harg5 : arg5.IsWhole) (arg6 : Memref sig .tc .vmem S64 .f32) (harg6 : arg6.IsWhole) (arg7 : Memref sig .tc .vmem S2048x64 .f32) (harg7 : arg7.IsWhole) (arg8 : Memref sig .tc .vmem S2048x64 .f32) (harg8 : arg8.IsWhole) (hc0 : ¬cond2_0 i) (hc1 : cond2_1 i) (x0 : Vec F S4096 .i32) (x1 : Vec F S4096x64 .bf16) (x2 : Vec F S2048x64 .f32) (x3 : Vec F S2048 .f32) (x4 : Vec F S64 .f32) (xs0 : Vec F S2048x64 .f32) :
    sout2_C c i arg2 harg2 arg3 harg3 arg4 harg4 arg5 harg5 arg6 harg6 arg7 harg7 arg8 harg8 hc0 hc1 x0 x1 x2 x3 x4 xs0 = k2_pay2 i x0 x1 xs0 := by
  unfold sout2_C
  rw [View.read_writes_eq_canon _ _ _ (scover2_C c i arg2 harg2 arg3 harg3 arg4 harg4 arg5 harg5 arg6 harg6 arg7 harg7 arg8 harg8 hc0 hc1 x0 x1 x2 x3 x4 xs0)]
  unfold kernelRun2_C
  dsimp only
  sl_unfold_words
  rw [View.canon_unit_zero hzz2]
  simp only [View.readAt_eq_ld, harg2.read_unread, harg3.read_unread, harg8.read_unread,
    View.ld_unit_zero (S := S4096) hzo2, View.ld_unit_zero (S := S4096x64) hzz2, View.ld_unit_zero (S := S2048x64) hzz2, shapeCast_self]

/-- The last edge tile stores the finished block: the accumulator it leaves, the self-loop's term, the bias. -/
theorem out2_C_eq (c : Dev nD) (i : grid2.Coords) (arg2 : Memref sig .tc .vmem S4096 .i32) (harg2 : arg2.IsWhole) (arg3 : Memref sig .tc .vmem S4096x64 .bf16) (harg3 : arg3.IsWhole) (arg4 : Memref sig .tc .vmem S2048x64 .f32) (harg4 : arg4.IsWhole) (arg5 : Memref sig .tc .vmem S2048 .f32) (harg5 : arg5.IsWhole) (arg6 : Memref sig .tc .vmem S64 .f32) (harg6 : arg6.IsWhole) (arg7 : Memref sig .tc .vmem S2048x64 .f32) (harg7 : arg7.IsWhole) (arg8 : Memref sig .tc .vmem S2048x64 .f32) (harg8 : arg8.IsWhole) (hc0 : ¬cond2_0 i) (hc1 : cond2_1 i) (x0 : Vec F S4096 .i32) (x1 : Vec F S4096x64 .bf16) (x2 : Vec F S2048x64 .f32) (x3 : Vec F S2048 .f32) (x4 : Vec F S64 .f32) (xs0 : Vec F S2048x64 .f32) :
    out2_C c i arg2 harg2 arg3 harg3 arg4 harg4 arg5 harg5 arg6 harg6 arg7 harg7 arg8 harg8 hc0 hc1 x0 x1 x2 x3 x4 xs0 = k2_pay3 x3 x2 (k2_pay2 i x0 x1 xs0) x4 := by
  unfold out2_C
  rw [View.read_writes_eq_canon _ _ _ (cover2_C c i arg2 harg2 arg3 harg3 arg4 harg4 arg5 harg5 arg6 harg6 arg7 harg7 arg8 harg8 hc0 hc1 x0 x1 x2 x3 x4 xs0)]
  unfold kernelRun2_C
  dsimp only
  sl_unfold_words
  rw [View.canon_unit_zero hzz2, View.readCov_unit_zero (S := S2048x64) _ hzz2]
  simp only [View.readAt_eq_ld, harg2.read_unread, harg3.read_unread, harg4.read_unread, harg5.read_unread, harg6.read_unread, harg8.read_unread,
    View.ld_unit_zero (S := S4096) hzo2, View.ld_unit_zero (S := S2048) hzo2, View.ld_unit_zero (S := S64) hzo2,
    View.ld_unit_zero (S := S4096x64) hzz2, View.ld_unit_zero (S := S2048x64) hzz2, shapeCast_self]

/-- The first edge tile zeroes the accumulator and leaves the tile's contribution. -/
theorem sout2_A_eq (c : Dev nD) (i : grid2.Coords) (arg2 : Memref sig .tc .vmem S4096 .i32) (harg2 : arg2.IsWhole) (arg3 : Memref sig .tc .vmem S4096x64 .bf16) (harg3 : arg3.IsWhole) (arg4 : Memref sig .tc .vmem S2048x64 .f32) (harg4 : arg4.IsWhole) (arg5 : Memref sig .tc .vmem S2048 .f32) (harg5 : arg5.IsWhole) (arg6 : Memref sig .tc .vmem S64 .f32) (harg6 : arg6.IsWhole) (arg7 : Memref sig .tc .vmem S2048x64 .f32) (harg7 : arg7.IsWhole) (arg8 : Memref sig .tc .vmem S2048x64 .f32) (harg8 : arg8.IsWhole) (hc0 : cond2_0 i) (hc1 : ¬cond2_1 i) (x0 : Vec F S4096 .i32) (x1 : Vec F S4096x64 .bf16) (x2 : Vec F S2048x64 .f32) (x3 : Vec F S2048 .f32) (x4 : Vec F S64 .f32) :
    sout2_A c i arg2 harg2 arg3 harg3 arg4 harg4 arg5 harg5 arg6 harg6 arg7 harg7 arg8 harg8 hc0 hc1 x0 x1 x2 x3 x4 = k2_pay2 i x0 x1 (k2_pay1 (F := F)) := by
  unfold sout2_A
  rw [View.read_writes_eq_canon _ _ _ (scover2_A c i arg2 harg2 arg3 harg3 arg4 harg4 arg5 harg5 arg6 harg6 arg7 harg7 arg8 harg8 hc0 hc1 x0 x1 x2 x3 x4)]
  unfold kernelRun2_A
  dsimp only
  sl_unfold_words
  rw [View.canon_cons_unit_zero (S := S2048x64) hzz2, View.readCov_unit_zero (S := S2048x64) _ hzz2]
  simp only [View.readAt_eq_ld, harg2.read_unread, harg3.read_unread,
    View.ld_unit_zero (S := S4096) hzo2, View.ld_unit_zero (S := S4096x64) hzz2, View.ld_unit_zero (S := S2048x64) hzz2, shapeCast_self]

/-! ## The windows' blocks as the arrays at an index -/

section Blocks

variable (V : (c : Dev nD) → (b : Ref sig .tc) → Buf (Elt F) ((c : Thread nD τ).loc b))

theorem lt_N2 (t : Fin cfg2.N) : t.val < 38318 := lt_of_lt_of_eq t.isLt N_2

/-- The slow grid coordinate of the t-th point: the node tile. -/
theorem coord2_slow (t : Fin cfg2.N) : ((grid2.coords t) 0).val = t.val / 782 := by
  show t.val / grid2.stride 0 % grid2.bound 0 = _
  rw [show grid2.stride 0 = 782 from by decide, show grid2.bound 0 = 49 from rfl]
  have := lt_N2 t
  omega

/-- A small number's word read back is the number. -/
theorem toNat_ofNat_small2 (n : Nat) (h : n < 4294967296) : (BitVec.ofNat 32 n).toNat = n := by
  rw [BitVec.toNat_ofNat]
  exact Nat.mod_eq_of_lt (by omega)

theorem idx2_0 (t : Fin cfg2.N) : win2_0.index t 0 = t.val % 782 := by
  show (BitVec.ofNat 32 ((grid2.coords t) 1).val).toNat = _
  rw [coord2_fast t]
  exact toNat_ofNat_small2 _ (by omega)

/-- The targets' block at point t: edge tile t % 782 of the padded targets. -/
theorem iblk2_0_at (c : Dev nD) (t : Fin cfg2.N) (e : Fin 4096) :
    (iblk2 V c 0 t : Vec F S4096 .i32) (ix1 e)
      = (V c main_v27 : S3203072.Idx → BitVec 32)
          (ix1 ⟨t.val % 782 * 4096 + e.val, by have := e.isLt; have := Nat.mod_lt t.val (show 0 < 782 by decide); omega⟩) := by
  unfold iblk2
  rw [View.read_apply]
  show V c main_v27 _ = V c main_v27 _
  refine congrArg (V c main_v27) ?_
  funext a
  apply Fin.ext
  match a with
  | ⟨0, _⟩ =>
    show win2_0.index t 0 * 4096 + 1 * e.val = t.val % 782 * 4096 + e.val
    rw [idx2_0]
    omega

end Blocks

section Blocks2

variable (V : (c : Dev nD) → (b : Ref sig .tc) → Buf (Elt F) ((c : Thread nD τ).loc b))

theorem idx2_1_0 (t : Fin cfg2.N) : win2_1.index t 0 = t.val % 782 := by
  show (BitVec.ofNat 32 ((grid2.coords t) 1).val).toNat = _
  rw [coord2_fast t]
  exact toNat_ofNat_small2 _ (by omega)
theorem idx2_1_1 (t : Fin cfg2.N) : win2_1.index t 1 = 0 := rfl
theorem idx2_2_0 (t : Fin cfg2.N) : win2_2.index t 0 = t.val / 782 := by
  show (BitVec.ofNat 32 ((grid2.coords t) 0).val).toNat = _
  rw [coord2_slow t]
  have := lt_N2 t
  exact toNat_ofNat_small2 _ (by omega)
theorem idx2_2_1 (t : Fin cfg2.N) : win2_2.index t 1 = 0 := rfl
theorem idx2_3 (t : Fin cfg2.N) : win2_3.index t 0 = t.val / 782 := by
  show (BitVec.ofNat 32 ((grid2.coords t) 0).val).toNat = _
  rw [coord2_slow t]
  have := lt_N2 t
  exact toNat_ofNat_small2 _ (by omega)
theorem idx2_4 (t : Fin cfg2.N) : win2_4.index t 0 = 0 := rfl
theorem idx2_5_0 (t : Fin cfg2.N) : win2_5.index t 0 = t.val / 782 := by
  show (BitVec.ofNat 32 ((grid2.coords t) 0).val).toNat = _
  rw [coord2_slow t]
  have := lt_N2 t
  exact toNat_ofNat_small2 _ (by omega)
theorem idx2_5_1 (t : Fin cfg2.N) : win2_5.index t 1 = 0 := rfl

theorem tile_lt2 (t : Fin cfg2.N) : t.val / 782 < 49 := by have := lt_N2 t; omega

/-- The messages' block at point t: edge tile t % 782 of the messages. -/
theorem iblk2_1_at (c : Dev nD) (t : Fin cfg2.N) (e : Fin 4096) (q : Fin 64) :
    (iblk2 V c 1 t : Vec F S4096x64 .bf16) (ix2 e q)
      = (V c main_v32 : S3203072x64.Idx → Elt F .bf16)
          (ix2 ⟨t.val % 782 * 4096 + e.val, by have := e.isLt; have := Nat.mod_lt t.val (show 0 < 782 by decide); omega⟩ q) := by
  unfold iblk2
  rw [View.read_apply]
  show V c main_v32 _ = V c main_v32 _
  refine congrArg (V c main_v32) ?_
  funext a
  apply Fin.ext
  match a with
  | ⟨0, _⟩ =>
    show win2_1.index t 0 * 4096 + 1 * e.val = t.val % 782 * 4096 + e.val
    rw [idx2_1_0]
    omega
  | ⟨1, _⟩ =>
    show win2_1.index t 1 * 64 + 1 * q.val = q.val
    rw [idx2_1_1]
    omega

/-- The features' block at point t: node tile t / 782 of the padded features. -/
theorem iblk2_2_at (c : Dev nD) (t : Fin cfg2.N) (r : Fin 2048) (q : Fin 64) :
    (iblk2 V c 2 t : Vec F S2048x64 .f32) (ix2 r q)
      = (V c main_v31 : S100352x64.Idx → Elt F .f32)
          (ix2 ⟨t.val / 782 * 2048 + r.val, by have := r.isLt; have := tile_lt2 t; omega⟩ q) := by
  unfold iblk2
  rw [View.read_apply]
  show V c main_v31 _ = V c main_v31 _
  refine congrArg (V c main_v31) ?_
  funext a
  apply Fin.ext
  match a with
  | ⟨0, _⟩ =>
    show win2_2.index t 0 * 2048 + 1 * r.val = t.val / 782 * 2048 + r.val
    rw [idx2_2_0]
    omega
  | ⟨1, _⟩ =>
    show win2_2.index t 1 * 64 + 1 * q.val = q.val
    rw [idx2_2_1]
    omega

/-- The inverse square roots' block at point t: node tile t / 782. -/
theorem iblk2_3_at (c : Dev nD) (t : Fin cfg2.N) (r : Fin 2048) :
    (iblk2 V c 3 t : Vec F S2048 .f32) (ix1 r)
      = (V c main_v29 : S100352.Idx → Elt F .f32)
          (ix1 ⟨t.val / 782 * 2048 + r.val, by have := r.isLt; have := tile_lt2 t; omega⟩) := by
  unfold iblk2
  rw [View.read_apply]
  show V c main_v29 _ = V c main_v29 _
  refine congrArg (V c main_v29) ?_
  funext a
  apply Fin.ext
  match a with
  | ⟨0, _⟩ =>
    show win2_3.index t 0 * 2048 + 1 * r.val = t.val / 782 * 2048 + r.val
    rw [idx2_3]
    omega

/-- The bias block at every point: the bias. -/
theorem iblk2_4_at (c : Dev nD) (t : Fin cfg2.N) (q : Fin 64) :
    (iblk2 V c 4 t : Vec F S64 .f32) (ix1 q) = (V c main_arg3 : S64.Idx → Elt F .f32) (ix1 q) := by
  unfold iblk2
  rw [View.read_apply]
  show V c main_arg3 _ = V c main_arg3 _
  refine congrArg (V c main_arg3) ?_
  funext a
  apply Fin.ext
  match a with
  | ⟨0, _⟩ =>
    show win2_4.index t 0 * 64 + 1 * q.val = q.val
    rw [idx2_4]
    omega

end Blocks2

/-! ## The accumulator after each point, over the extended reals -/

section Acc

open Cert.KernelValue

variable (V : (c : Dev nD) → (b : Ref sig .tc) → Buf (Elt Ideal) ((c : Thread nD τ).loc b))

/-- The padded targets and the messages, as the region finds them. -/
abbrev dstP2 (c : Dev nD) : S3203072.Idx → BitVec 32 := V c main_v27
abbrev msgA2 (c : Dev nD) : S3203072x64.Idx → EReal := V c main_v32

/-- Edge e's target is row r of node tile nt. -/
abbrev hits2 (c : Dev nD) (nt : Nat) (r : Fin 2048) (e : Fin 3203072) : Prop :=
  (dstP2 V c (ix1 e)).toInt = ((nt : ℤ) * 2048 + (r.val : ℤ))

theorem tile_le2 (t : Fin cfg2.N) : (t.val % 782 + 1) * 4096 ≤ 3203072 := by
  have := Nat.mod_lt t.val (show 0 < 782 by decide)
  omega

/-- One point's contribution: the tile's messages whose target is the row, added to what the accumulator held. -/
theorem step2_at (c : Dev nD) (t : Fin cfg2.N) (xs0 : Vec Ideal S2048x64 .f32) (r : Fin 2048) (q : Fin 64) :
    k2_pay2 (F := Ideal) (grid2.coords t) (iblk2 V c 0 t) (iblk2 V c 1 t) xs0 (ix2 r q)
      = xs0 (ix2 r q)
        + ∑ j ∈ Finset.univ.filter (fun j : Fin 4096 => hits2 V c (t.val / 782) r (tileIdx (t.val % 782) (tile_le2 t) j)),
            msgA2 V c (ix2 (tileIdx (t.val % 782) (tile_le2 t) j) q) := by
  rw [k2_pay2_apply_filter]
  refine congrArg (xs0 (ix2 r q) + ·) ?_
  rw [Finset.sum_filter, Finset.sum_filter]
  refine Finset.sum_congr rfl fun j _ => ?_
  rw [iblk2_0_at V c t j, iblk2_1_at V c t j q, coord2_slow t]
  rfl

/-- Nothing lies before tile 0. -/
theorem sum_before_zero2 {A : Type*} [AddCommMonoid A] {N B : Nat} (k : Nat) (hk0 : k = 0) (P : Fin N → Prop) [DecidablePred P]
    (f : Fin N → A) : ∑ e ∈ Finset.univ.filter (fun e : Fin N => e.val < k * B ∧ P e), f e = 0 := by
  subst hk0
  exact sum_tile_zero P f

/-- THE ACCUMULATOR after point n: the messages of the edges of the tiles so far whose target is the row. -/
theorem acc2_eq (c : Dev nD) (r : Fin 2048) (q : Fin 64) : ∀ (n : ℕ) (hn : n < cfg2.N),
    (outsAt2 V c n hn).2 (ix2 r q)
      = ∑ e ∈ Finset.univ.filter (fun e : Fin 3203072 => e.val < (n % 782 + 1) * 4096 ∧ hits2 V c (n / 782) r e),
          msgA2 V c (ix2 e q) := by
  intro n
  induction n with
  | zero =>
    intro hn
    have hA : (outsAt2 V c 0 hn).2 = _ := congrArg Prod.snd (outsAt2_A V c ⟨0, hn⟩ (Nat.zero_mod _) (by show ¬ (0 : ℕ) % 782 = 781; decide))
    rw [hA]
    dsimp only
    rw [sout2_A_eq, step2_at V c ⟨0, hn⟩ _ r q, k2_pay1_apply, zero_add,
      sum_tile_step (0 % 782) (tile_le2 ⟨0, hn⟩) (hits2 V c (0 / 782) r) (fun e => msgA2 V c (ix2 e q)),
      sum_before_zero2 _ (Nat.zero_mod _), zero_add]
  | succ n ih =>
    intro hn
    by_cases h0 : (n + 1) % 782 = 0
    · have h1 : ¬ (n + 1) % 782 = 781 := by omega
      have hA : (outsAt2 V c (n + 1) hn).2 = _ := congrArg Prod.snd (outsAt2_A V c ⟨n + 1, hn⟩ h0 h1)
      rw [hA]
      dsimp only
      rw [sout2_A_eq, step2_at V c ⟨n + 1, hn⟩ _ r q, k2_pay1_apply, zero_add,
        sum_tile_step ((n + 1) % 782) (tile_le2 ⟨n + 1, hn⟩) (hits2 V c ((n + 1) / 782) r) (fun e => msgA2 V c (ix2 e q)),
        sum_before_zero2 _ h0, zero_add]
    · have ih' := ih (Nat.lt_of_succ_lt hn)
      have e1 : n % 782 + 1 = (n + 1) % 782 := by omega
      have e2 : n / 782 = (n + 1) / 782 := by omega
      rw [e1, e2] at ih'
      by_cases h1 : (n + 1) % 782 = 781
      · have hC : (outsAt2 V c (n + 1) hn).2 = _ := congrArg Prod.snd (outsAt2_C V c ⟨n + 1, hn⟩ h0 h1)
        rw [hC]
        dsimp only
        rw [sout2_C_eq, step2_at V c ⟨n + 1, hn⟩ _ r q,
          sum_tile_step ((n + 1) % 782) (tile_le2 ⟨n + 1, hn⟩) (hits2 V c ((n + 1) / 782) r) (fun e => msgA2 V c (ix2 e q))]
        exact congrArg (· + _) ih'
      · have hB : (outsAt2 V c (n + 1) hn).2 = _ := congrArg Prod.snd (outsAt2_B V c ⟨n + 1, hn⟩ h0 h1)
        rw [hB]
        dsimp only
        rw [sout2_B_eq, step2_at V c ⟨n + 1, hn⟩ _ r q,
          sum_tile_step ((n + 1) % 782) (tile_le2 ⟨n + 1, hn⟩) (hits2 V c ((n + 1) / 782) r) (fun e => msgA2 V c (ix2 e q))]
        exact congrArg (· + _) ih'

end Acc

/-! ## The result array after the region -/

section Final

open Cert.KernelValue

variable (V : (c : Dev nD) → (b : Ref sig .tc) → Buf (Elt Ideal) ((c : Thread nD τ).loc b))

/-- The padded features, the padded inverse square roots and the bias, as the region finds them. -/
abbrev hP2 (c : Dev nD) : S100352x64.Idx → EReal := V c main_v31
abbrev dinvP2 (c : Dev nD) : S100352.Idx → EReal := V c main_v29
abbrev biasA2 (c : Dev nD) : S64.Idx → EReal := V c main_arg3

/-- THE RESULT: for every padded node and column, the messages into the node, the self-loop's term, the bias, the positive part. -/
def result2 (c : Dev nD) : S100352x64.Idx → EReal := fun i =>
  max (((∑ e ∈ Finset.univ.filter (fun e : Fin 3203072 => (dstP2 V c (ix1 e)).toInt = ((i 0).val : ℤ)),
        msgA2 V c (ix2 e (⟨(i 1).val, (i 1).isLt⟩ : Fin 64)))
      + dinvP2 V c (ix1 (⟨(i 0).val, (i 0).isLt⟩ : Fin 100352)) * dinvP2 V c (ix1 (⟨(i 0).val, (i 0).isLt⟩ : Fin 100352))
        * hP2 V c (ix2 (⟨(i 0).val, (i 0).isLt⟩ : Fin 100352) (⟨(i 1).val, (i 1).isLt⟩ : Fin 64))
      + biasA2 V c (ix1 (⟨(i 1).val, (i 1).isLt⟩ : Fin 64)))) 0

theorem result2_at (c : Dev nD) (n : Fin 100352) (q : Fin 64) :
    result2 V c (ix2 n q)
      = max (((∑ e ∈ Finset.univ.filter (fun e : Fin 3203072 => (dstP2 V c (ix1 e)).toInt = (n.val : ℤ)), msgA2 V c (ix2 e q))
          + dinvP2 V c (ix1 n) * dinvP2 V c (ix1 n) * hP2 V c (ix2 n q) + biasA2 V c (ix1 q))) 0 := rfl

theorem row_lt2 (t : Fin cfg2.N) (r : Fin 2048) : t.val / 782 * 2048 + r.val < 100352 := by
  have := r.isLt; have := tile_lt2 t; omega

/-- The block the last edge tile of a node tile stores is the result's block. -/
theorem blockC2_at (c : Dev nD) (t : Fin cfg2.N) (h1 : t.val % 782 = 781) (r : Fin 2048) (q : Fin 64) :
    k2_pay3 (F := Ideal) (iblk2 V c 3 t) (iblk2 V c 2 t) (outsAt2 V c t.val t.isLt).2 (iblk2 V c 4 t) (ix2 r q)
      = result2 V c (ix2 (⟨t.val / 782 * 2048 + r.val, row_lt2 t r⟩ : Fin 100352) q) := by
  refine (k2_pay3_apply _ _ _ _ r q).trans ?_
  rw [acc2_eq V c r q t.val t.isLt]
  rw [iblk2_3_at V c t r]
  rw [iblk2_2_at V c t r q]
  rw [iblk2_4_at V c t q]
  rw [result2_at]
  have hs : (∑ e ∈ Finset.univ.filter (fun e : Fin 3203072 => e.val < (t.val % 782 + 1) * 4096 ∧ hits2 V c (t.val / 782) r e),
        msgA2 V c (ix2 e q))
      = ∑ e ∈ Finset.univ.filter (fun e : Fin 3203072 => (dstP2 V c (ix1 e)).toInt = ((t.val / 782 * 2048 + r.val : ℕ) : ℤ)),
        msgA2 V c (ix2 e q) := by
    refine Finset.sum_congr (Finset.filter_congr fun e _ => ?_) fun _ _ => rfl
    have he := e.isLt
    dsimp only [hits2]
    constructor
    · rintro ⟨-, h⟩
      omega
    · intro h
      exact ⟨by omega, by omega⟩
  rw [hs]

/-- The result's block is written back exactly at the last edge tile of each node tile. -/
theorem flush2_5_iff (t : Fin cfg2.N) : (cfg2.win 5).flush t = true ↔ t.val % 782 = 781 := by
  constructor
  · intro hf
    by_contra h
    have := noFlush2_5 t (fun hc => h ((hcond2_1 t).mp hc))
    rw [this] at hf
    exact Bool.false_ne_true hf
  · intro h
    have hN : grid2.N = 38318 := N_2
    have ht := lt_N2 t
    show win2_5.flush t = true
    unfold Pipeline.Window.flush
    simp only [Bool.and_eq_true, Bool.or_eq_true, decide_eq_true_eq]
    refine ⟨trivial, ?_⟩
    by_cases hl : t.val + 1 = grid2.N
    · exact Or.inl hl
    · refine Or.inr ⟨by omega, fun e => ?_⟩
      have e0 := congrFun e 0
      have a1 := idx2_5_0 ⟨t.val + 1, (show t.val + 1 < grid2.N by omega)⟩
      have a2 := idx2_5_0 t
      rw [a1, a2] at e0
      dsimp only at e0
      omega

/-- WHAT A FLUSHING POINT WRITES BACK is its block of the result. -/
theorem flushed2_eq (c : Dev nD) (t : Fin cfg2.N) (hf : (cfg2.win 5).flush t = true) :
    (dat2 V c).flushed 5 t = ((cfg2.win 5).blk t).view.read (Elt Ideal) (result2 V c) := by
  have h1 : t.val % 782 = 781 := (flush2_5_iff t).mp hf
  have h0 : ¬ t.val % 782 = 0 := by omega
  have hfst : (outsAt2 V c t.val t.isLt).1 = _ := congrArg Prod.fst (outsAt2_C V c t h0 h1)
  have hsnd : (outsAt2 V c t.val t.isLt).2 = _ := congrArg Prod.snd (outsAt2_C V c t h0 h1)
  dsimp only at hfst hsnd
  rw [out2_C_eq] at hfst
  rw [sout2_C_eq] at hsnd
  show (cfg2.win 5).cut (grid2.coords t) ((dat2 V c).after 5 t) = _
  rw [after2_5, hfst, ← hsnd]
  funext j
  rw [View.read_apply]
  have hj0 : (j 0).val < 2048 := (j 0).isLt
  have hj1 : (j 1).val < 64 := (j 1).isLt
  have hx : (cfg2.win 5).xinj (grid2.coords t) j = ix2 (⟨(j 0).val, hj0⟩ : Fin 2048) (⟨(j 1).val, hj1⟩ : Fin 64) := by
    funext a
    match a with
    | ⟨0, _⟩ => rfl
    | ⟨1, _⟩ => rfl
  have he : ((cfg2.win 5).blk t).view.emb j
      = ix2 (⟨t.val / 782 * 2048 + (j 0).val, row_lt2 t ⟨(j 0).val, hj0⟩⟩ : Fin 100352) (⟨(j 1).val, hj1⟩ : Fin 64) := by
    funext a
    apply Fin.ext
    match a with
    | ⟨0, _⟩ =>
      show win2_5.index t 0 * 2048 + 1 * (j 0).val = t.val / 782 * 2048 + (j 0).val
      rw [idx2_5_0]
      omega
    | ⟨1, _⟩ =>
      show win2_5.index t 1 * 64 + 1 * (j 1).val = (j 1).val
      rw [idx2_5_1]
      omega
  rw [he]
  dsimp only [Pipeline.Window.cut]
  rw [hx, cast_eq]
  exact blockC2_at V c t h1 ⟨(j 0).val, hj0⟩ ⟨(j 1).val, hj1⟩

/-- Every index of the result array lies in some flushing point's block: 49 node tiles of 2048 rows. -/
theorem covered2 (i : S100352x64.Idx) :
    ∃ t : Fin cfg2.N, (cfg2.win 5).flush t = true ∧ i ∈ ((cfg2.win 5).blk t).view.set := by
  have hi0 : (i 0).val < 100352 := (i 0).isLt
  have hi1 : (i 1).val < 64 := (i 1).isLt
  have hN : grid2.N = 38318 := N_2
  have hlt : (i 0).val / 2048 * 782 + 781 < cfg2.N := by
    show _ < grid2.N
    omega
  refine ⟨⟨(i 0).val / 2048 * 782 + 781, hlt⟩, (flush2_5_iff _).mpr (by show ((i 0).val / 2048 * 782 + 781) % 782 = 781; omega), ?_⟩
  have ha := idx2_5_0 ⟨(i 0).val / 2048 * 782 + 781, hlt⟩
  have hb := idx2_5_1 ⟨(i 0).val / 2048 * 782 + 781, hlt⟩
  dsimp only at ha
  show i ∈ ((View.whole main_v33).slice (win2_5.rect ⟨(i 0).val / 2048 * 782 + 781, hlt⟩)).set
  rw [View.set_slice_whole, Rect.mem_set_unit]
  intro a
  match a with
  | ⟨0, _⟩ =>
    show win2_5.index ⟨(i 0).val / 2048 * 782 + 781, hlt⟩ 0 * 2048 ≤ (i 0).val
      ∧ (i 0).val < win2_5.index ⟨(i 0).val / 2048 * 782 + 781, hlt⟩ 0 * 2048 + 2048
    rw [ha]
    omega
  | ⟨1, _⟩ =>
    show win2_5.index ⟨(i 0).val / 2048 * 782 + 781, hlt⟩ 1 * 64 ≤ (i 1).val
      ∧ (i 1).val < win2_5.index ⟨(i 0).val / 2048 * 782 + 781, hlt⟩ 1 * 64 + 64
    rw [hb]
    omega

/-- THE RESULT ARRAY after the region. -/
theorem final2 (c : Dev nD) : (dat2 V c).arrAt 5 cfg2.N = result2 V c :=
  (dat2 V c).arrAt_eq_of_cover 5 (result2 V c) (flushed2_eq V c) (covered2)

end Final

end Cert.KernelIdeal.HandV

end
-- ==== Proof.KIV.Scatter5V.lean ====
/-
  The one-hot scatter-add of layer two, READ: what each of the body's three cases leaves, the windows' blocks as the
  arrays at an index, the accumulator after every point (the messages of the edge tiles so far whose target is the
  row: by induction on the point, one tile of 4096 edges at a time), and the result array after the region: for
  every padded node and column the messages into the node, the self-loop's term and the bias.
-/
import proofs.«138531_j42417097015621_1_alg».proof.Proof.KI.Scatter5
import proofs.«138531_j42417097015621_1_alg».proof.Proof.Payloads32
import proofs.«138531_j42417097015621_1_alg».proof.Proof.KTile
import Idealize.ShloMosaic.Lib.Pipeline.Value
import Idealize.ShloMosaic.Lib.ValueIdx
import Idealize.ShloMosaic.Lib.Tactic

set_option maxRecDepth 16384

noncomputable section

open scoped BigOperators

namespace Cert.KernelIdeal.HandV

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

theorem hzz5 : (![0, 0] : Fin 2 → Nat) = fun _ => 0 := funext fun a => by fin_cases a <;> rfl
theorem hzo5 : (![0] : Fin 1 → Nat) = fun _ => 0 := funext fun a => by fin_cases a; rfl

/-- An inner edge tile leaves the accumulator at the tile's contribution added to what it held. -/
theorem sout5_B_eq (c : Dev nD) (i : grid5.Coords) (arg2 : Memref sig .tc .vmem S4096 .i32) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048 .f32) (harg5 : arg5.IsWhole) (arg6 : Memref sig .tc .vmem S32 .f32) (harg6 : arg6.IsWhole) (arg7 : Memref sig .tc .vmem S2048x32 .f32) (harg7 : arg7.IsWhole) (arg8 : Memref sig .tc .vmem S2048x32 .f32) (harg8 : arg8.IsWhole) (hc0 : ¬cond5_0 i) (hc1 : ¬cond5_1 i) (x0 : Vec F S4096 .i32) (x1 : Vec F S4096x32 .bf16) (x2 : Vec F S2048x32 .f32) (x3 : Vec F S2048 .f32) (x4 : Vec F S32 .f32) (xs0 : Vec F S2048x32 .f32) :
    sout5_B c i arg2 harg2 arg3 harg3 arg4 harg4 arg5 harg5 arg6 harg6 arg7 harg7 arg8 harg8 hc0 hc1 x0 x1 x2 x3 x4 xs0 = k5_pay2 i x0 x1 xs0 := by
  unfold sout5_B
  rw [View.read_writes_eq_canon _ _ _ (scover5_B c i arg2 harg2 arg3 harg3 arg4 harg4 arg5 harg5 arg6 harg6 arg7 harg7 arg8 harg8 hc0 hc1 x0 x1 x2 x3 x4 xs0)]
  unfold kernelRun5_B
  dsimp only
  rw [View.canon_unit_zero hzz5]
  simp only [View.readAt_eq_ld, harg2.read_unread, harg3.read_unread, harg8.read_unread,
    View.ld_unit_zero (S := S4096) hzo5, View.ld_unit_zero (S := S4096x32) hzz5, View.ld_unit_zero (S := S2048x32) hzz5, shapeCast_self]

/-- The last edge tile leaves the accumulator likewise. -/
theorem sout5_C_eq (c : Dev nD) (i : grid5.Coords) (arg2 : Memref sig .tc .vmem S4096 .i32) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048 .f32) (harg5 : arg5.IsWhole) (arg6 : Memref sig .tc .vmem S32 .f32) (harg6 : arg6.IsWhole) (arg7 : Memref sig .tc .vmem S2048x32 .f32) (harg7 : arg7.IsWhole) (arg8 : Memref sig .tc .vmem S2048x32 .f32) (harg8 : arg8.IsWhole) (hc0 : ¬cond5_0 i) (hc1 : cond5_1 i) (x0 : Vec F S4096 .i32) (x1 : Vec F S4096x32 .bf16) (x2 : Vec F S2048x32 .f32) (x3 : Vec F S2048 .f32) (x4 : Vec F S32 .f32) (xs0 : Vec F S2048x32 .f32) :
    sout5_C c i arg2 harg2 arg3 harg3 arg4 harg4 arg5 harg5 arg6 harg6 arg7 harg7 arg8 harg8 hc0 hc1 x0 x1 x2 x3 x4 xs0 = k5_pay2 i x0 x1 xs0 := by
  unfold sout5_C
  rw [View.read_writes_eq_canon _ _ _ (scover5_C c i arg2 harg2 arg3 harg3 arg4 harg4 arg5 harg5 arg6 harg6 arg7 harg7 arg8 harg8 hc0 hc1 x0 x1 x2 x3 x4 xs0)]
  unfold kernelRun5_C
  dsimp only
  sl_unfold_words
  rw [View.canon_unit_zero hzz5]
  simp only [View.readAt_eq_ld, harg2.read_unread, harg3.read_unread, harg8.read_unread,
    View.ld_unit_zero (S := S4096) hzo5, View.ld_unit_zero (S := S4096x32) hzz5, View.ld_unit_zero (S := S2048x32) hzz5, shapeCast_self]

/-- The last edge tile stores the finished block: the accumulator it leaves, the self-loop's term, the bias. -/
theorem out5_C_eq (c : Dev nD) (i : grid5.Coords) (arg2 : Memref sig .tc .vmem S4096 .i32) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048 .f32) (harg5 : arg5.IsWhole) (arg6 : Memref sig .tc .vmem S32 .f32) (harg6 : arg6.IsWhole) (arg7 : Memref sig .tc .vmem S2048x32 .f32) (harg7 : arg7.IsWhole) (arg8 : Memref sig .tc .vmem S2048x32 .f32) (harg8 : arg8.IsWhole) (hc0 : ¬cond5_0 i) (hc1 : cond5_1 i) (x0 : Vec F S4096 .i32) (x1 : Vec F S4096x32 .bf16) (x2 : Vec F S2048x32 .f32) (x3 : Vec F S2048 .f32) (x4 : Vec F S32 .f32) (xs0 : Vec F S2048x32 .f32) :
    out5_C c i arg2 harg2 arg3 harg3 arg4 harg4 arg5 harg5 arg6 harg6 arg7 harg7 arg8 harg8 hc0 hc1 x0 x1 x2 x3 x4 xs0 = k5_pay3 x3 x2 (k5_pay2 i x0 x1 xs0) x4 := by
  unfold out5_C
  rw [View.read_writes_eq_canon _ _ _ (cover5_C c i arg2 harg2 arg3 harg3 arg4 harg4 arg5 harg5 arg6 harg6 arg7 harg7 arg8 harg8 hc0 hc1 x0 x1 x2 x3 x4 xs0)]
  unfold kernelRun5_C
  dsimp only
  sl_unfold_words
  rw [View.canon_unit_zero hzz5, View.readCov_unit_zero (S := S2048x32) _ hzz5]
  simp only [View.readAt_eq_ld, harg2.read_unread, harg3.read_unread, harg4.read_unread, harg5.read_unread, harg6.read_unread, harg8.read_unread,
    View.ld_unit_zero (S := S4096) hzo5, View.ld_unit_zero (S := S2048) hzo5, View.ld_unit_zero (S := S32) hzo5,
    View.ld_unit_zero (S := S4096x32) hzz5, View.ld_unit_zero (S := S2048x32) hzz5, shapeCast_self]

/-- The first edge tile zeroes the accumulator and leaves the tile's contribution. -/
theorem sout5_A_eq (c : Dev nD) (i : grid5.Coords) (arg2 : Memref sig .tc .vmem S4096 .i32) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048 .f32) (harg5 : arg5.IsWhole) (arg6 : Memref sig .tc .vmem S32 .f32) (harg6 : arg6.IsWhole) (arg7 : Memref sig .tc .vmem S2048x32 .f32) (harg7 : arg7.IsWhole) (arg8 : Memref sig .tc .vmem S2048x32 .f32) (harg8 : arg8.IsWhole) (hc0 : cond5_0 i) (hc1 : ¬cond5_1 i) (x0 : Vec F S4096 .i32) (x1 : Vec F S4096x32 .bf16) (x2 : Vec F S2048x32 .f32) (x3 : Vec F S2048 .f32) (x4 : Vec F S32 .f32) :
    sout5_A c i arg2 harg2 arg3 harg3 arg4 harg4 arg5 harg5 arg6 harg6 arg7 harg7 arg8 harg8 hc0 hc1 x0 x1 x2 x3 x4 = k5_pay2 i x0 x1 (k5_pay1 (F := F)) := by
  unfold sout5_A
  rw [View.read_writes_eq_canon _ _ _ (scover5_A c i arg2 harg2 arg3 harg3 arg4 harg4 arg5 harg5 arg6 harg6 arg7 harg7 arg8 harg8 hc0 hc1 x0 x1 x2 x3 x4)]
  unfold kernelRun5_A
  dsimp only
  sl_unfold_words
  rw [View.canon_cons_unit_zero (S := S2048x32) hzz5, View.readCov_unit_zero (S := S2048x32) _ hzz5]
  simp only [View.readAt_eq_ld, harg2.read_unread, harg3.read_unread,
    View.ld_unit_zero (S := S4096) hzo5, View.ld_unit_zero (S := S4096x32) hzz5, View.ld_unit_zero (S := S2048x32) hzz5, shapeCast_self]

/-! ## The windows' blocks as the arrays at an index -/

section Blocks

variable (V : (c : Dev nD) → (b : Ref sig .tc) → Buf (Elt F) ((c : Thread nD τ).loc b))

theorem lt_N5 (t : Fin cfg5.N) : t.val < 38318 := lt_of_lt_of_eq t.isLt N_5

/-- The slow grid coordinate of the t-th point: the node tile. -/
theorem coord5_slow (t : Fin cfg5.N) : ((grid5.coords t) 0).val = t.val / 782 := by
  show t.val / grid5.stride 0 % grid5.bound 0 = _
  rw [show grid5.stride 0 = 782 from by decide, show grid5.bound 0 = 49 from rfl]
  have := lt_N5 t
  omega

/-- A small number's word read back is the number. -/
theorem toNat_ofNat_small5 (n : Nat) (h : n < 4294967296) : (BitVec.ofNat 32 n).toNat = n := by
  rw [BitVec.toNat_ofNat]
  exact Nat.mod_eq_of_lt (by omega)

theorem idx5_0 (t : Fin cfg5.N) : win5_0.index t 0 = t.val % 782 := by
  show (BitVec.ofNat 32 ((grid5.coords t) 1).val).toNat = _
  rw [coord5_fast t]
  exact toNat_ofNat_small5 _ (by omega)

/-- The targets' block at point t: edge tile t % 782 of the padded targets. -/
theorem iblk5_0_at (c : Dev nD) (t : Fin cfg5.N) (e : Fin 4096) :
    (iblk5 V c 0 t : Vec F S4096 .i32) (ix1 e)
      = (V c main_v27 : S3203072.Idx → BitVec 32)
          (ix1 ⟨t.val % 782 * 4096 + e.val, by have := e.isLt; have := Nat.mod_lt t.val (show 0 < 782 by decide); omega⟩) := by
  unfold iblk5
  rw [View.read_apply]
  show V c main_v27 _ = V c main_v27 _
  refine congrArg (V c main_v27) ?_
  funext a
  apply Fin.ext
  match a with
  | ⟨0, _⟩ =>
    show win5_0.index t 0 * 4096 + 1 * e.val = t.val % 782 * 4096 + e.val
    rw [idx5_0]
    omega

end Blocks

section Blocks2

variable (V : (c : Dev nD) → (b : Ref sig .tc) → Buf (Elt F) ((c : Thread nD τ).loc b))

theorem idx5_1_0 (t : Fin cfg5.N) : win5_1.index t 0 = t.val % 782 := by
  show (BitVec.ofNat 32 ((grid5.coords t) 1).val).toNat = _
  rw [coord5_fast t]
  exact toNat_ofNat_small5 _ (by omega)
theorem idx5_1_1 (t : Fin cfg5.N) : win5_1.index t 1 = 0 := rfl
theorem idx5_2_0 (t : Fin cfg5.N) : win5_2.index t 0 = t.val / 782 := by
  show (BitVec.ofNat 32 ((grid5.coords t) 0).val).toNat = _
  rw [coord5_slow t]
  have := lt_N5 t
  exact toNat_ofNat_small5 _ (by omega)
theorem idx5_2_1 (t : Fin cfg5.N) : win5_2.index t 1 = 0 := rfl
theorem idx5_3 (t : Fin cfg5.N) : win5_3.index t 0 = t.val / 782 := by
  show (BitVec.ofNat 32 ((grid5.coords t) 0).val).toNat = _
  rw [coord5_slow t]
  have := lt_N5 t
  exact toNat_ofNat_small5 _ (by omega)
theorem idx5_4 (t : Fin cfg5.N) : win5_4.index t 0 = 0 := rfl
theorem idx5_5_0 (t : Fin cfg5.N) : win5_5.index t 0 = t.val / 782 := by
  show (BitVec.ofNat 32 ((grid5.coords t) 0).val).toNat = _
  rw [coord5_slow t]
  have := lt_N5 t
  exact toNat_ofNat_small5 _ (by omega)
theorem idx5_5_1 (t : Fin cfg5.N) : win5_5.index t 1 = 0 := rfl

theorem tile_lt5 (t : Fin cfg5.N) : t.val / 782 < 49 := by have := lt_N5 t; omega

/-- The messages' block at point t: edge tile t % 782 of the messages. -/
theorem iblk5_1_at (c : Dev nD) (t : Fin cfg5.N) (e : Fin 4096) (q : Fin 32) :
    (iblk5 V c 1 t : Vec F S4096x32 .bf16) (ix2 e q)
      = (V c main_v37 : S3203072x32.Idx → Elt F .bf16)
          (ix2 ⟨t.val % 782 * 4096 + e.val, by have := e.isLt; have := Nat.mod_lt t.val (show 0 < 782 by decide); omega⟩ q) := by
  unfold iblk5
  rw [View.read_apply]
  show V c main_v37 _ = V c main_v37 _
  refine congrArg (V c main_v37) ?_
  funext a
  apply Fin.ext
  match a with
  | ⟨0, _⟩ =>
    show win5_1.index t 0 * 4096 + 1 * e.val = t.val % 782 * 4096 + e.val
    rw [idx5_1_0]
    omega
  | ⟨1, _⟩ =>
    show win5_1.index t 1 * 32 + 1 * q.val = q.val
    rw [idx5_1_1]
    omega

/-- The features' block at point t: node tile t / 782 of the padded features. -/
theorem iblk5_2_at (c : Dev nD) (t : Fin cfg5.N) (r : Fin 2048) (q : Fin 32) :
    (iblk5 V c 2 t : Vec F S2048x32 .f32) (ix2 r q)
      = (V c main_v36 : S100352x32.Idx → Elt F .f32)
          (ix2 ⟨t.val / 782 * 2048 + r.val, by have := r.isLt; have := tile_lt5 t; omega⟩ q) := by
  unfold iblk5
  rw [View.read_apply]
  show V c main_v36 _ = V c main_v36 _
  refine congrArg (V c main_v36) ?_
  funext a
  apply Fin.ext
  match a with
  | ⟨0, _⟩ =>
    show win5_2.index t 0 * 2048 + 1 * r.val = t.val / 782 * 2048 + r.val
    rw [idx5_2_0]
    omega
  | ⟨1, _⟩ =>
    show win5_2.index t 1 * 32 + 1 * q.val = q.val
    rw [idx5_2_1]
    omega

/-- The inverse square roots' block at point t: node tile t / 782. -/
theorem iblk5_3_at (c : Dev nD) (t : Fin cfg5.N) (r : Fin 2048) :
    (iblk5 V c 3 t : Vec F S2048 .f32) (ix1 r)
      = (V c main_v29 : S100352.Idx → Elt F .f32)
          (ix1 ⟨t.val / 782 * 2048 + r.val, by have := r.isLt; have := tile_lt5 t; omega⟩) := by
  unfold iblk5
  rw [View.read_apply]
  show V c main_v29 _ = V c main_v29 _
  refine congrArg (V c main_v29) ?_
  funext a
  apply Fin.ext
  match a with
  | ⟨0, _⟩ =>
    show win5_3.index t 0 * 2048 + 1 * r.val = t.val / 782 * 2048 + r.val
    rw [idx5_3]
    omega

/-- The bias block at every point: the bias. -/
theorem iblk5_4_at (c : Dev nD) (t : Fin cfg5.N) (q : Fin 32) :
    (iblk5 V c 4 t : Vec F S32 .f32) (ix1 q) = (V c main_arg5 : S32.Idx → Elt F .f32) (ix1 q) := by
  unfold iblk5
  rw [View.read_apply]
  show V c main_arg5 _ = V c main_arg5 _
  refine congrArg (V c main_arg5) ?_
  funext a
  apply Fin.ext
  match a with
  | ⟨0, _⟩ =>
    show win5_4.index t 0 * 32 + 1 * q.val = q.val
    rw [idx5_4]
    omega

end Blocks2

/-! ## The accumulator after each point, over the extended reals -/

section Acc

open Cert.KernelValue

variable (V : (c : Dev nD) → (b : Ref sig .tc) → Buf (Elt Ideal) ((c : Thread nD τ).loc b))

/-- The padded targets and the messages, as the region finds them. -/
abbrev dstP5 (c : Dev nD) : S3203072.Idx → BitVec 32 := V c main_v27
abbrev msgA5 (c : Dev nD) : S3203072x32.Idx → EReal := V c main_v37

/-- Edge e's target is row r of node tile nt. -/
abbrev hits5 (c : Dev nD) (nt : Nat) (r : Fin 2048) (e : Fin 3203072) : Prop :=
  (dstP5 V c (ix1 e)).toInt = ((nt : ℤ) * 2048 + (r.val : ℤ))

theorem tile_le5 (t : Fin cfg5.N) : (t.val % 782 + 1) * 4096 ≤ 3203072 := by
  have := Nat.mod_lt t.val (show 0 < 782 by decide)
  omega

/-- One point's contribution: the tile's messages whose target is the row, added to what the accumulator held. -/
theorem step5_at (c : Dev nD) (t : Fin cfg5.N) (xs0 : Vec Ideal S2048x32 .f32) (r : Fin 2048) (q : Fin 32) :
    k5_pay2 (F := Ideal) (grid5.coords t) (iblk5 V c 0 t) (iblk5 V c 1 t) xs0 (ix2 r q)
      = xs0 (ix2 r q)
        + ∑ j ∈ Finset.univ.filter (fun j : Fin 4096 => hits5 V c (t.val / 782) r (tileIdx (t.val % 782) (tile_le5 t) j)),
            msgA5 V c (ix2 (tileIdx (t.val % 782) (tile_le5 t) j) q) := by
  rw [k5_pay2_apply_filter]
  refine congrArg (xs0 (ix2 r q) + ·) ?_
  rw [Finset.sum_filter, Finset.sum_filter]
  refine Finset.sum_congr rfl fun j _ => ?_
  rw [iblk5_0_at V c t j, iblk5_1_at V c t j q, coord5_slow t]
  rfl

/-- Nothing lies before tile 0. -/
theorem sum_before_zero5 {A : Type*} [AddCommMonoid A] {N B : Nat} (k : Nat) (hk0 : k = 0) (P : Fin N → Prop) [DecidablePred P]
    (f : Fin N → A) : ∑ e ∈ Finset.univ.filter (fun e : Fin N => e.val < k * B ∧ P e), f e = 0 := by
  subst hk0
  exact sum_tile_zero P f

/-- THE ACCUMULATOR after point n: the messages of the edges of the tiles so far whose target is the row. -/
theorem acc5_eq (c : Dev nD) (r : Fin 2048) (q : Fin 32) : ∀ (n : ℕ) (hn : n < cfg5.N),
    (outsAt5 V c n hn).2 (ix2 r q)
      = ∑ e ∈ Finset.univ.filter (fun e : Fin 3203072 => e.val < (n % 782 + 1) * 4096 ∧ hits5 V c (n / 782) r e),
          msgA5 V c (ix2 e q) := by
  intro n
  induction n with
  | zero =>
    intro hn
    have hA : (outsAt5 V c 0 hn).2 = _ := congrArg Prod.snd (outsAt5_A V c ⟨0, hn⟩ (Nat.zero_mod _) (by show ¬ (0 : ℕ) % 782 = 781; decide))
    rw [hA]
    dsimp only
    rw [sout5_A_eq, step5_at V c ⟨0, hn⟩ _ r q, k5_pay1_apply, zero_add,
      sum_tile_step (0 % 782) (tile_le5 ⟨0, hn⟩) (hits5 V c (0 / 782) r) (fun e => msgA5 V c (ix2 e q)),
      sum_before_zero5 _ (Nat.zero_mod _), zero_add]
  | succ n ih =>
    intro hn
    by_cases h0 : (n + 1) % 782 = 0
    · have h1 : ¬ (n + 1) % 782 = 781 := by omega
      have hA : (outsAt5 V c (n + 1) hn).2 = _ := congrArg Prod.snd (outsAt5_A V c ⟨n + 1, hn⟩ h0 h1)
      rw [hA]
      dsimp only
      rw [sout5_A_eq, step5_at V c ⟨n + 1, hn⟩ _ r q, k5_pay1_apply, zero_add,
        sum_tile_step ((n + 1) % 782) (tile_le5 ⟨n + 1, hn⟩) (hits5 V c ((n + 1) / 782) r) (fun e => msgA5 V c (ix2 e q)),
        sum_before_zero5 _ h0, zero_add]
    · have ih' := ih (Nat.lt_of_succ_lt hn)
      have e1 : n % 782 + 1 = (n + 1) % 782 := by omega
      have e2 : n / 782 = (n + 1) / 782 := by omega
      rw [e1, e2] at ih'
      by_cases h1 : (n + 1) % 782 = 781
      · have hC : (outsAt5 V c (n + 1) hn).2 = _ := congrArg Prod.snd (outsAt5_C V c ⟨n + 1, hn⟩ h0 h1)
        rw [hC]
        dsimp only
        rw [sout5_C_eq, step5_at V c ⟨n + 1, hn⟩ _ r q,
          sum_tile_step ((n + 1) % 782) (tile_le5 ⟨n + 1, hn⟩) (hits5 V c ((n + 1) / 782) r) (fun e => msgA5 V c (ix2 e q))]
        exact congrArg (· + _) ih'
      · have hB : (outsAt5 V c (n + 1) hn).2 = _ := congrArg Prod.snd (outsAt5_B V c ⟨n + 1, hn⟩ h0 h1)
        rw [hB]
        dsimp only
        rw [sout5_B_eq, step5_at V c ⟨n + 1, hn⟩ _ r q,
          sum_tile_step ((n + 1) % 782) (tile_le5 ⟨n + 1, hn⟩) (hits5 V c ((n + 1) / 782) r) (fun e => msgA5 V c (ix2 e q))]
        exact congrArg (· + _) ih'

end Acc

/-! ## The result array after the region -/

section Final

open Cert.KernelValue

variable (V : (c : Dev nD) → (b : Ref sig .tc) → Buf (Elt Ideal) ((c : Thread nD τ).loc b))

/-- The padded features, the padded inverse square roots and the bias, as the region finds them. -/
abbrev hP5 (c : Dev nD) : S100352x32.Idx → EReal := V c main_v36
abbrev dinvP5 (c : Dev nD) : S100352.Idx → EReal := V c main_v29
abbrev biasA5 (c : Dev nD) : S32.Idx → EReal := V c main_arg5

/-- THE RESULT: for every padded node and column, the messages into the node, the self-loop's term, the bias. -/
def result5 (c : Dev nD) : S100352x32.Idx → EReal := fun i =>
  (((∑ e ∈ Finset.univ.filter (fun e : Fin 3203072 => (dstP5 V c (ix1 e)).toInt = ((i 0).val : ℤ)),
        msgA5 V c (ix2 e (⟨(i 1).val, (i 1).isLt⟩ : Fin 32)))
      + dinvP5 V c (ix1 (⟨(i 0).val, (i 0).isLt⟩ : Fin 100352)) * dinvP5 V c (ix1 (⟨(i 0).val, (i 0).isLt⟩ : Fin 100352))
        * hP5 V c (ix2 (⟨(i 0).val, (i 0).isLt⟩ : Fin 100352) (⟨(i 1).val, (i 1).isLt⟩ : Fin 32))
      + biasA5 V c (ix1 (⟨(i 1).val, (i 1).isLt⟩ : Fin 32))))

theorem result5_at (c : Dev nD) (n : Fin 100352) (q : Fin 32) :
    result5 V c (ix2 n q)
      = (((∑ e ∈ Finset.univ.filter (fun e : Fin 3203072 => (dstP5 V c (ix1 e)).toInt = (n.val : ℤ)), msgA5 V c (ix2 e q))
          + dinvP5 V c (ix1 n) * dinvP5 V c (ix1 n) * hP5 V c (ix2 n q) + biasA5 V c (ix1 q))) := rfl

theorem row_lt5 (t : Fin cfg5.N) (r : Fin 2048) : t.val / 782 * 2048 + r.val < 100352 := by
  have := r.isLt; have := tile_lt5 t; omega

/-- The block the last edge tile of a node tile stores is the result's block. -/
theorem blockC5_at (c : Dev nD) (t : Fin cfg5.N) (h1 : t.val % 782 = 781) (r : Fin 2048) (q : Fin 32) :
    k5_pay3 (F := Ideal) (iblk5 V c 3 t) (iblk5 V c 2 t) (outsAt5 V c t.val t.isLt).2 (iblk5 V c 4 t) (ix2 r q)
      = result5 V c (ix2 (⟨t.val / 782 * 2048 + r.val, row_lt5 t r⟩ : Fin 100352) q) := by
  refine (k5_pay3_apply _ _ _ _ r q).trans ?_
  rw [acc5_eq V c r q t.val t.isLt]
  rw [iblk5_3_at V c t r]
  rw [iblk5_2_at V c t r q]
  rw [iblk5_4_at V c t q]
  rw [result5_at]
  have hs : (∑ e ∈ Finset.univ.filter (fun e : Fin 3203072 => e.val < (t.val % 782 + 1) * 4096 ∧ hits5 V c (t.val / 782) r e),
        msgA5 V c (ix2 e q))
      = ∑ e ∈ Finset.univ.filter (fun e : Fin 3203072 => (dstP5 V c (ix1 e)).toInt = ((t.val / 782 * 2048 + r.val : ℕ) : ℤ)),
        msgA5 V c (ix2 e q) := by
    refine Finset.sum_congr (Finset.filter_congr fun e _ => ?_) fun _ _ => rfl
    have he := e.isLt
    dsimp only [hits5]
    constructor
    · rintro ⟨-, h⟩
      omega
    · intro h
      exact ⟨by omega, by omega⟩
  rw [hs]

/-- The result's block is written back exactly at the last edge tile of each node tile. -/
theorem flush5_5_iff (t : Fin cfg5.N) : (cfg5.win 5).flush t = true ↔ t.val % 782 = 781 := by
  constructor
  · intro hf
    by_contra h
    have := noFlush5_5 t (fun hc => h ((hcond5_1 t).mp hc))
    rw [this] at hf
    exact Bool.false_ne_true hf
  · intro h
    have hN : grid5.N = 38318 := N_5
    have ht := lt_N5 t
    show win5_5.flush t = true
    unfold Pipeline.Window.flush
    simp only [Bool.and_eq_true, Bool.or_eq_true, decide_eq_true_eq]
    refine ⟨trivial, ?_⟩
    by_cases hl : t.val + 1 = grid5.N
    · exact Or.inl hl
    · refine Or.inr ⟨by omega, fun e => ?_⟩
      have e0 := congrFun e 0
      have a1 := idx5_5_0 ⟨t.val + 1, (show t.val + 1 < grid5.N by omega)⟩
      have a2 := idx5_5_0 t
      rw [a1, a2] at e0
      dsimp only at e0
      omega

/-- WHAT A FLUSHING POINT WRITES BACK is its block of the result. -/
theorem flushed5_eq (c : Dev nD) (t : Fin cfg5.N) (hf : (cfg5.win 5).flush t = true) :
    (dat5 V c).flushed 5 t = ((cfg5.win 5).blk t).view.read (Elt Ideal) (result5 V c) := by
  have h1 : t.val % 782 = 781 := (flush5_5_iff t).mp hf
  have h0 : ¬ t.val % 782 = 0 := by omega
  have hfst : (outsAt5 V c t.val t.isLt).1 = _ := congrArg Prod.fst (outsAt5_C V c t h0 h1)
  have hsnd : (outsAt5 V c t.val t.isLt).2 = _ := congrArg Prod.snd (outsAt5_C V c t h0 h1)
  dsimp only at hfst hsnd
  rw [out5_C_eq] at hfst
  rw [sout5_C_eq] at hsnd
  show (cfg5.win 5).cut (grid5.coords t) ((dat5 V c).after 5 t) = _
  rw [after5_5, hfst, ← hsnd]
  funext j
  rw [View.read_apply]
  have hj0 : (j 0).val < 2048 := (j 0).isLt
  have hj1 : (j 1).val < 32 := (j 1).isLt
  have hx : (cfg5.win 5).xinj (grid5.coords t) j = ix2 (⟨(j 0).val, hj0⟩ : Fin 2048) (⟨(j 1).val, hj1⟩ : Fin 32) := by
    funext a
    match a with
    | ⟨0, _⟩ => rfl
    | ⟨1, _⟩ => rfl
  have he : ((cfg5.win 5).blk t).view.emb j
      = ix2 (⟨t.val / 782 * 2048 + (j 0).val, row_lt5 t ⟨(j 0).val, hj0⟩⟩ : Fin 100352) (⟨(j 1).val, hj1⟩ : Fin 32) := by
    funext a
    apply Fin.ext
    match a with
    | ⟨0, _⟩ =>
      show win5_5.index t 0 * 2048 + 1 * (j 0).val = t.val / 782 * 2048 + (j 0).val
      rw [idx5_5_0]
      omega
    | ⟨1, _⟩ =>
      show win5_5.index t 1 * 32 + 1 * (j 1).val = (j 1).val
      rw [idx5_5_1]
      omega
  rw [he]
  dsimp only [Pipeline.Window.cut]
  rw [hx, cast_eq]
  exact blockC5_at V c t h1 ⟨(j 0).val, hj0⟩ ⟨(j 1).val, hj1⟩

/-- Every index of the result array lies in some flushing point's block: 49 node tiles of 2048 rows. -/
theorem covered5 (i : S100352x32.Idx) :
    ∃ t : Fin cfg5.N, (cfg5.win 5).flush t = true ∧ i ∈ ((cfg5.win 5).blk t).view.set := by
  have hi0 : (i 0).val < 100352 := (i 0).isLt
  have hi1 : (i 1).val < 32 := (i 1).isLt
  have hN : grid5.N = 38318 := N_5
  have hlt : (i 0).val / 2048 * 782 + 781 < cfg5.N := by
    show _ < grid5.N
    omega
  refine ⟨⟨(i 0).val / 2048 * 782 + 781, hlt⟩, (flush5_5_iff _).mpr (by show ((i 0).val / 2048 * 782 + 781) % 782 = 781; omega), ?_⟩
  have ha := idx5_5_0 ⟨(i 0).val / 2048 * 782 + 781, hlt⟩
  have hb := idx5_5_1 ⟨(i 0).val / 2048 * 782 + 781, hlt⟩
  dsimp only at ha
  show i ∈ ((View.whole main_v38).slice (win5_5.rect ⟨(i 0).val / 2048 * 782 + 781, hlt⟩)).set
  rw [View.set_slice_whole, Rect.mem_set_unit]
  intro a
  match a with
  | ⟨0, _⟩ =>
    show win5_5.index ⟨(i 0).val / 2048 * 782 + 781, hlt⟩ 0 * 2048 ≤ (i 0).val
      ∧ (i 0).val < win5_5.index ⟨(i 0).val / 2048 * 782 + 781, hlt⟩ 0 * 2048 + 2048
    rw [ha]
    omega
  | ⟨1, _⟩ =>
    show win5_5.index ⟨(i 0).val / 2048 * 782 + 781, hlt⟩ 1 * 32 ≤ (i 1).val
      ∧ (i 1).val < win5_5.index ⟨(i 0).val / 2048 * 782 + 781, hlt⟩ 1 * 32 + 32
    rw [hb]
    omega

/-- THE RESULT ARRAY after the region. -/
theorem final5 (c : Dev nD) : (dat5 V c).arrAt 5 cfg5.N = result5 V c :=
  (dat5 V c).arrAt_eq_of_cover 5 (result5 V c) (flushed5_eq V c) (covered5)

end Final

end Cert.KernelIdeal.HandV

end
-- ==== Proof.KValue.lean ====
/-
  The kernel program's result as the specification's function of the arguments.

  The program's last buffer boundary (W20) holds, in the result buffer, the leading 100000 rows of what the second
  scatter-add region left; walking the boundaries back — each region's array as its accumulated closed form of the
  arrays it was entered with, each host stretch as its operations read at an index — gives, under the precondition
  that every edge end names a node, the two-layer graph convolution of the specification, entry by entry.
-/
import proofs.«138531_j42417097015621_1_alg».proof.Proof.KI.Run
import proofs.«138531_j42417097015621_1_alg».proof.Proof.Spec
import proofs.«138531_j42417097015621_1_alg».proof.Proof.KWalk
import proofs.«138531_j42417097015621_1_alg».proof.Proof.KIV.Scatter2V
import proofs.«138531_j42417097015621_1_alg».proof.Proof.KIV.Scatter5V
import Idealize.ShloMosaic.Lib.ValueIdx

noncomputable section

namespace Cert.KernelValue

open Idealize.ShloMosaic Idealize.ShloMosaic.TcCoe Idealize.ShloMosaic.ValueIdx Idealize.SL.Sem
open Cert.KernelIdeal Cert.KernelIdeal.Gen Cert.KernelIdeal.Hand Cert.KernelIdeal.HandV

variable (m : (ℓ : Loc nD τ sig) → Buf (Elt Ideal) ℓ) (ρ : Dev nD → PrngReg)

/-- The specification's result, laid out as the contents of the program's result buffer. -/
def result (c : Dev nD) : Buf (Elt Ideal) ((c : Thread nD τ).loc main_v39) := fun i =>
  Cert.Spec.gcn (fun n k => m ((c : Thread nD τ).loc main_arg0) (ix2 n k)) (fun r e => m ((c : Thread nD τ).loc main_arg1) (ix2 r e))
    (fun k d => m ((c : Thread nD τ).loc main_arg2) (ix2 k d)) (fun d => m ((c : Thread nD τ).loc main_arg3) (ix1 d))
    (fun k d => m ((c : Thread nD τ).loc main_arg4) (ix2 k d)) (fun d => m ((c : Thread nD τ).loc main_arg5) (ix1 d))
    ⟨(i 0).val, (i 0).isLt⟩ ⟨(i 1).val, (i 1).isLt⟩

/-- The first scatter-add's closed form, at the boundary the walk enters it from. -/
theorem scatter2At (c : Dev nD) : Scatter2At m ρ c := fun n q =>
  (congrFun (final2 (V12 m ρ) c) (ix2 n q)).trans (result2_at (V12 m ρ) c n q)

/-- The second scatter-add's closed form, at the boundary the walk enters it from. -/
theorem scatter5At (c : Dev nD) : Scatter5At m ρ c := fun n q =>
  (congrFun (final5 (V18 m ρ) c) (ix2 n q)).trans (result5_at (V18 m ρ) c n q)

/-- THE KERNEL'S VALUE: at the last boundary the result buffer holds the specification's function of the arguments. -/
theorem final (c : Dev nD)
    (hE : ∀ (r : Fin 2) (e : Fin 3200000), 0 ≤ (m ((c : Thread nD τ).loc main_arg1) (ix2 r e)).toInt
      ∧ (m ((c : Thread nD τ).loc main_arg1) (ix2 r e)).toInt < 100000) :
    W20 (F := Ideal) m ρ c (Proc.devRef .tc main_v39) = result m c :=
  final_of m ρ c hE (scatter2At m ρ c) (scatter5At m ρ c)

end Cert.KernelValue

end
-- ==== Proof.RefValue.lean ====
/-
  The reference's result, stage by stage, IS the specification's two-layer graph convolution.

  The reference lists every edge and then one self-loop per node (3300000 entries), scatters ones to get the
  degree, gathers its inverse square root at both ends of every entry, gathers the features' rows at the sources,
  scales them, and scatters the rows to the targets.  Read at an index, each stage is the specification's quantity:
  the degree (the self-loop's one comes from node n's own loop entry), the inverse square root (the guard
  "degree positive" always holds), the weights, the dense maps, and the aggregation, in which the sum over the entries
  into node n splits into the edges into n and the one loop entry of n.  Finiteness of the float arguments is
  not used: sums and products of extended reals commute and associate.
-/
import proofs.«138531_j42417097015621_1_alg».proof.Proof.RefRead
import proofs.«138531_j42417097015621_1_alg».proof.Proof.RefMath
import Idealize.ShloMosaic.Lib.IdealHost

noncomputable section

open scoped BigOperators

namespace Cert.RefValue

open Cert.ReferenceIdeal Cert.ReferenceIdeal.ReadP Idealize.ShloMosaic Idealize.ShloMosaic.ValueIdx

/-! ## Shared by both layers -/

/-- The edge array as the specification reads it: row, then edge. -/
abbrev edges (x1 : (⟨S2x3200000, .i32⟩ : BufTy).Contents (Elt Ideal)) : Cert.Spec.Edges := fun r e => x1 (ix2 r e)

/-- The zero word is the extended real zero. -/
theorem zero_word : (FloatOps.ofBits (F := Ideal) .f32 0x00000000#32 : EReal) = 0 := Ideal.ofBits_zero_f32
/-- The word of 1.0 is the extended real one. -/
theorem one_word : (FloatOps.ofBits (F := Ideal) .f32 0x3F800000#32 : EReal) = 1 := Ideal.ofBits_one_f32

/-- A positive extended real compares greater than zero. -/
theorem cmpf_ogt_pos (a : EReal) (ha : 0 < a) :
    FloatOps.cmpf (F := Ideal) (φ := .f32) .ogt a (0 : EReal) = 1#1 := by
  show Ideal.cmp .ogt a 0 = 1#1
  simp [Ideal.cmp, ha]

/-- The sources' row of the edge array, as a list. -/
theorem v1_at (x1 : (⟨S2x3200000, .i32⟩ : BufTy).Contents (Elt Ideal)) (e : Fin 3200000) :
    val_main_v1 (F := Ideal) x1 (ix1 e) = x1 (ix2 (0 : Fin 2) e) := by
  rw [val_main_v1_apply, val_main_v0_apply]
  refine congrArg x1 ?_
  funext a
  match a with
  | ⟨0, _⟩ => rfl
  | ⟨1, _⟩ => exact Fin.ext (Nat.mod_eq_of_lt e.isLt)

/-- The targets' row of the edge array, as a list. -/
theorem v3_at (x1 : (⟨S2x3200000, .i32⟩ : BufTy).Contents (Elt Ideal)) (e : Fin 3200000) :
    val_main_v3 (F := Ideal) x1 (ix1 e) = x1 (ix2 (1 : Fin 2) e) := by
  rw [val_main_v3_apply, val_main_v2_apply]
  refine congrArg x1 ?_
  funext a
  match a with
  | ⟨0, _⟩ => rfl
  | ⟨1, _⟩ => exact Fin.ext (Nat.mod_eq_of_lt e.isLt)

/-- The first dense map's features, as the specification writes them. -/
abbrev hs1 (x0 : (⟨S100000x128, .f32⟩ : BufTy).Contents (Elt Ideal)) (x2 : (⟨S128x64, .f32⟩ : BufTy).Contents (Elt Ideal)) :
    Fin 100000 → Fin 64 → EReal :=
  Cert.Spec.lin (fun n k => x0 (ix2 n k)) (fun k d => x2 (ix2 k d))

/-- The first dense map read at a node and a column. -/
theorem v30_at (x0 : (⟨S100000x128, .f32⟩ : BufTy).Contents (Elt Ideal)) (x2 : (⟨S128x64, .f32⟩ : BufTy).Contents (Elt Ideal))
    (n : Fin 100000) (d : Fin 64) :
    val_main_v30 (F := Ideal) x0 x2 (ix2 n d) = hs1 x0 x2 n d := by
  rw [val_main_v30_apply]
  refine Finset.sum_congr rfl fun k _ => ?_
  refine congrArg₂ (· * ·) (congrArg x0 ?_) (congrArg x2 ?_)
  · funext a
    match a with
    | ⟨0, _⟩ => rfl
    | ⟨1, _⟩ => rfl
  · funext a
    match a with
    | ⟨0, _⟩ => rfl
    | ⟨1, _⟩ => rfl

/-! ### Layer 1: the entries' ends, the degree, its inverse square root, the weights -/

/-- The source word of entry j. -/
def sw1 (x1 : (⟨S2x3200000, .i32⟩ : BufTy).Contents (Elt Ideal)) (j : Fin 3300000) : BitVec 32 := val_main_v5 (F := Ideal) x1 (ix1 j)
/-- The target word of entry j. -/
def dw1 (x1 : (⟨S2x3200000, .i32⟩ : BufTy).Contents (Elt Ideal)) (j : Fin 3300000) : BitVec 32 := val_main_v6 (F := Ideal) x1 (ix1 j)

/-- The two lists of entry ends are the edges' ends followed by the nodes. -/
theorem ends1 (x1 : (⟨S2x3200000, .i32⟩ : BufTy).Contents (Elt Ideal)) : Ends (edges x1) (sw1 x1) (dw1 x1) where
  s_lo e := by
    unfold sw1 val_main_v5
    exact (join_lo _ _ _ e).trans (v1_at x1 e)
  s_hi m := by
    unfold sw1 val_main_v5
    exact (join_hi _ _ _ m).trans rfl
  d_lo e := by
    unfold dw1 val_main_v6
    exact (join_lo _ _ _ e).trans (v3_at x1 e)
  d_hi m := by
    unfold dw1 val_main_v6
    exact (join_hi _ _ _ m).trans rfl

/-- The scatter indices of the degree's scatter are the target words. -/
theorem v9_at (x1 : (⟨S2x3200000, .i32⟩ : BufTy).Contents (Elt Ideal)) (j : Fin 3300000) :
    val_main_v9 (F := Ideal) x1 (ix2 j (0 : Fin 1)) = dw1 x1 j := by
  rw [val_main_v9_apply]
  unfold dw1
  refine congrArg (val_main_v6 (F := Ideal) x1) ?_
  funext a
  match a with
  | ⟨0, _⟩ => rfl

/-- The scattered ones sum to the degree. -/
theorem v10_at (x1 : (⟨S2x3200000, .i32⟩ : BufTy).Contents (Elt Ideal)) (hE : ∀ (r : Fin 2) (e : Fin 3200000), 0 ≤ (x1 (ix2 r e)).toInt ∧ (x1 (ix2 r e)).toInt < 100000) (n : Fin 100000) :
    val_main_v10 (F := Ideal) x1 (ix1 n) = Cert.Spec.deg (edges x1) n := by
  unfold val_main_v10
  refine (scatterAdd_elem_apply scatter_S100000_S3300000x1_S3300000_n_0_0_1 rfl rfl rfl rfl _ _ _
    (fun j => by rw [v9_at]; exact_mod_cast (ends1 x1).d_range hE j) n).trans ?_
  simp only [v9_at]
  rw [val_main_v8_apply, val_main_cst_0_apply, zero_word]
  simp only [val_main_v7_apply, val_main_cst_apply, one_word]
  exact deg_split (ends1 x1) hE n

/-- The guarded inverse square root of the degree is the inverse square root: the degree is positive. -/
theorem v14_at (x1 : (⟨S2x3200000, .i32⟩ : BufTy).Contents (Elt Ideal)) (hE : ∀ (r : Fin 2) (e : Fin 3200000), 0 ≤ (x1 (ix2 r e)).toInt ∧ (x1 (ix2 r e)).toInt < 100000) (n : Fin 100000) :
    val_main_v14 (F := Ideal) x1 (ix1 n) = Cert.Spec.dinv (edges x1) n := by
  rw [val_main_v14_apply, val_main_v12_apply, val_main_v13_apply, v10_at x1 hE n,
    val_main_v11_apply, val_main_cst_1_apply, zero_word, cmpf_ogt_pos _ (deg_pos _ _), select_one,
    Ideal.hostUnary_rsqrt_def]
  unfold Cert.Spec.dinv
  rfl

/-- The wrapped source index of entry j is its source word: it is not negative. -/
theorem v20_at (x1 : (⟨S2x3200000, .i32⟩ : BufTy).Contents (Elt Ideal)) (hE : ∀ (r : Fin 2) (e : Fin 3200000), 0 ≤ (x1 (ix2 r e)).toInt ∧ (x1 (ix2 r e)).toInt < 100000) (j : Fin 3300000) :
    val_main_v20 (F := Ideal) x1 (ix2 j (0 : Fin 1)) = sw1 x1 j := by
  rw [val_main_v20_apply]
  have hi : idx_main_v20 (ix2 j (0 : Fin 1)) = ix1 j := by
    funext a
    match a with
    | ⟨0, _⟩ => rfl
  rw [hi, val_main_v19_apply, val_main_v16_apply, val_main_v18_apply, val_main_v15_apply, val_main_c_apply,
    val_main_v17_apply, val_main_c_3_apply]
  exact wrap_eq _ ((ends1 x1).s_range hE j).1

/-- The wrapped target index of entry j is its target word. -/
theorem v27_at (x1 : (⟨S2x3200000, .i32⟩ : BufTy).Contents (Elt Ideal)) (hE : ∀ (r : Fin 2) (e : Fin 3200000), 0 ≤ (x1 (ix2 r e)).toInt ∧ (x1 (ix2 r e)).toInt < 100000) (j : Fin 3300000) :
    val_main_v27 (F := Ideal) x1 (ix2 j (0 : Fin 1)) = dw1 x1 j := by
  rw [val_main_v27_apply]
  have hi : idx_main_v27 (ix2 j (0 : Fin 1)) = ix1 j := by
    funext a
    match a with
    | ⟨0, _⟩ => rfl
  rw [hi, val_main_v26_apply, val_main_v23_apply, val_main_v25_apply, val_main_v22_apply, val_main_c_4_apply,
    val_main_v24_apply, val_main_c_5_apply]
  exact wrap_eq _ ((ends1 x1).d_range hE j).1

/-- The inverse square root gathered at the sources. -/
theorem v21_at (x1 : (⟨S2x3200000, .i32⟩ : BufTy).Contents (Elt Ideal)) (hE : ∀ (r : Fin 2) (e : Fin 3200000), 0 ≤ (x1 (ix2 r e)).toInt ∧ (x1 (ix2 r e)).toInt < 100000) (j : Fin 3300000) :
    val_main_v21 (F := Ideal) x1 (ix1 j) = Cert.Spec.dinv (edges x1) (Cert.Spec.nodeOf (sw1 x1 j)) := by
  unfold val_main_v21
  refine (gather_elem_apply (by decide) gather_S100000_S3300000x1_S3300000_n_0_n_n_0_1_1 rfl rfl rfl rfl rfl rfl rfl
    _ _ j).trans ?_
  rw [v20_at x1 hE j, clamp_node]
  exact v14_at x1 hE _

/-- The inverse square root gathered at the targets. -/
theorem v28_at (x1 : (⟨S2x3200000, .i32⟩ : BufTy).Contents (Elt Ideal)) (hE : ∀ (r : Fin 2) (e : Fin 3200000), 0 ≤ (x1 (ix2 r e)).toInt ∧ (x1 (ix2 r e)).toInt < 100000) (j : Fin 3300000) :
    val_main_v28 (F := Ideal) x1 (ix1 j) = Cert.Spec.dinv (edges x1) (Cert.Spec.nodeOf (dw1 x1 j)) := by
  unfold val_main_v28
  refine (gather_elem_apply (by decide) gather_S100000_S3300000x1_S3300000_n_0_n_n_0_1_1 rfl rfl rfl rfl rfl rfl rfl
    _ _ j).trans ?_
  rw [v27_at x1 hE j, clamp_node]
  exact v14_at x1 hE _

/-- The weight of entry j. -/
theorem v29_at (x1 : (⟨S2x3200000, .i32⟩ : BufTy).Contents (Elt Ideal)) (hE : ∀ (r : Fin 2) (e : Fin 3200000), 0 ≤ (x1 (ix2 r e)).toInt ∧ (x1 (ix2 r e)).toInt < 100000) (j : Fin 3300000) :
    val_main_v29 (F := Ideal) x1 (ix1 j)
      = Cert.Spec.dinv (edges x1) (Cert.Spec.nodeOf (sw1 x1 j)) * Cert.Spec.dinv (edges x1) (Cert.Spec.nodeOf (dw1 x1 j)) := by
  rw [val_main_v29_apply, v21_at x1 hE j, v28_at x1 hE j]
  rfl

/-! ### Layer 1: the messages and their scattered sum -/

/-- The wrapped source index of the row gather is the source word. -/
theorem v36_at (x1 : (⟨S2x3200000, .i32⟩ : BufTy).Contents (Elt Ideal)) (hE : ∀ (r : Fin 2) (e : Fin 3200000), 0 ≤ (x1 (ix2 r e)).toInt ∧ (x1 (ix2 r e)).toInt < 100000) (j : Fin 3300000) :
    val_main_v36 (F := Ideal) x1 (ix2 j (0 : Fin 1)) = sw1 x1 j := by
  rw [val_main_v36_apply]
  have hi : idx_main_v36 (ix2 j (0 : Fin 1)) = ix1 j := by
    funext a
    match a with
    | ⟨0, _⟩ => rfl
  rw [hi, val_main_v35_apply, val_main_v32_apply, val_main_v34_apply, val_main_v31_apply, val_main_c_6_apply,
    val_main_v33_apply, val_main_c_7_apply]
  exact wrap_eq _ ((ends1 x1).s_range hE j).1

/-- The gathered row of entry j is the features' row of its source. -/
theorem v37_at (x0 : (⟨S100000x128, .f32⟩ : BufTy).Contents (Elt Ideal)) (x1 : (⟨S2x3200000, .i32⟩ : BufTy).Contents (Elt Ideal)) (x2 : (⟨S128x64, .f32⟩ : BufTy).Contents (Elt Ideal)) (hE : ∀ (r : Fin 2) (e : Fin 3200000), 0 ≤ (x1 (ix2 r e)).toInt ∧ (x1 (ix2 r e)).toInt < 100000) (j : Fin 3300000) (d : Fin 64) :
    val_main_v37 (F := Ideal) x0 x1 x2 (ix2 j d) = hs1 x0 x2 (Cert.Spec.nodeOf (sw1 x1 j)) d := by
  unfold val_main_v37
  refine (gather_row_apply (by decide) gather_S100000x64_S3300000x1_S3300000x64_1_0_n_n_0_1_164 rfl rfl rfl rfl rfl rfl rfl _ _ j d).trans ?_
  rw [v36_at x1 hE j, clamp_node]
  exact v30_at x0 x2 _ d

/-- The weight of entry j, spread along its row. -/
theorem v39_at (x1 : (⟨S2x3200000, .i32⟩ : BufTy).Contents (Elt Ideal)) (j : Fin 3300000) (d : Fin 64) :
    val_main_v39 (F := Ideal) x1 (ix2 j d) = val_main_v29 (F := Ideal) x1 (ix1 j) := by
  rw [val_main_v39_apply, val_main_v38_apply]
  refine congrArg (val_main_v29 (F := Ideal) x1) ?_
  funext a
  match a with
  | ⟨0, _⟩ => rfl

/-- The message of entry j at column d. -/
theorem v40_at (x0 : (⟨S100000x128, .f32⟩ : BufTy).Contents (Elt Ideal)) (x1 : (⟨S2x3200000, .i32⟩ : BufTy).Contents (Elt Ideal)) (x2 : (⟨S128x64, .f32⟩ : BufTy).Contents (Elt Ideal)) (hE : ∀ (r : Fin 2) (e : Fin 3200000), 0 ≤ (x1 (ix2 r e)).toInt ∧ (x1 (ix2 r e)).toInt < 100000) (j : Fin 3300000) (d : Fin 64) :
    val_main_v40 (F := Ideal) x0 x1 x2 (ix2 j d)
      = hs1 x0 x2 (Cert.Spec.nodeOf (sw1 x1 j)) d
        * (Cert.Spec.dinv (edges x1) (Cert.Spec.nodeOf (sw1 x1 j)) * Cert.Spec.dinv (edges x1) (Cert.Spec.nodeOf (dw1 x1 j))) := by
  rw [val_main_v40_apply, v37_at x0 x1 x2 hE j d, v39_at x1 j d, v29_at x1 hE j]
  rfl

/-- The scatter indices of the messages' scatter are the target words. -/
theorem v42_at (x1 : (⟨S2x3200000, .i32⟩ : BufTy).Contents (Elt Ideal)) (j : Fin 3300000) :
    val_main_v42 (F := Ideal) x1 (ix2 j (0 : Fin 1)) = dw1 x1 j := by
  rw [val_main_v42_apply]
  unfold dw1
  refine congrArg (val_main_v6 (F := Ideal) x1) ?_
  funext a
  match a with
  | ⟨0, _⟩ => rfl

/-- LAYER 1: the scattered messages plus the bias are the layer's aggregation of the features. -/
theorem v46_at (x0 : (⟨S100000x128, .f32⟩ : BufTy).Contents (Elt Ideal)) (x1 : (⟨S2x3200000, .i32⟩ : BufTy).Contents (Elt Ideal)) (x2 : (⟨S128x64, .f32⟩ : BufTy).Contents (Elt Ideal)) (x3 : (⟨S64, .f32⟩ : BufTy).Contents (Elt Ideal)) (hE : ∀ (r : Fin 2) (e : Fin 3200000), 0 ≤ (x1 (ix2 r e)).toInt ∧ (x1 (ix2 r e)).toInt < 100000) (n : Fin 100000) (d : Fin 64) :
    val_main_v46 (F := Ideal) x0 x1 x2 x3 (ix2 n d) = Cert.Spec.agg (edges x1) (hs1 x0 x2) (fun c => x3 (ix1 c)) n d := by
  have h43 : val_main_v43 (F := Ideal) x0 x1 x2 (ix2 n d)
      = (0 : EReal) + ∑ j : Fin 3300000, (if (dw1 x1 j).toInt.toNat = n.val then
          hs1 x0 x2 (Cert.Spec.nodeOf (sw1 x1 j)) d
            * (Cert.Spec.dinv (edges x1) (Cert.Spec.nodeOf (sw1 x1 j)) * Cert.Spec.dinv (edges x1) (Cert.Spec.nodeOf (dw1 x1 j)))
          else 0) := by
    unfold val_main_v43
    refine (scatterAdd_row_apply scatter_S100000x64_S3300000x1_S3300000x64_1_0_0_1 rfl rfl rfl rfl _ _ _
      (fun j => by rw [v42_at]; exact_mod_cast (ends1 x1).d_range hE j) n d).trans ?_
    simp only [v42_at, v40_at x0 x1 x2 hE]
    rw [val_main_v41_apply, val_main_cst_8_apply, zero_word]
  have hb : val_main_v45 (F := Ideal) x3 (ix2 n d) = x3 (ix1 d) := by
    rw [val_main_v45_apply, val_main_v44_apply]
    refine congrArg x3 ?_
    funext a
    match a with
    | ⟨0, _⟩ => rfl
  rw [val_main_v46_apply, h43, hb]
  exact agg_split (ends1 x1) hE (hs1 x0 x2) (fun c => x3 (ix1 c)) n d

/-! ### Between the layers: the positive part, and the second dense map -/

/-- The first layer's output after the positive part. -/
abbrev act1 (x0 : (⟨S100000x128, .f32⟩ : BufTy).Contents (Elt Ideal)) (x1 : (⟨S2x3200000, .i32⟩ : BufTy).Contents (Elt Ideal))
    (x2 : (⟨S128x64, .f32⟩ : BufTy).Contents (Elt Ideal)) (x3 : (⟨S64, .f32⟩ : BufTy).Contents (Elt Ideal)) :
    Fin 100000 → Fin 64 → EReal :=
  Cert.Spec.relu (Cert.Spec.agg (edges x1) (hs1 x0 x2) (fun c => x3 (ix1 c)))

/-- The maximum with the zero constant is the positive part. -/
theorem v47_at (x0 : (⟨S100000x128, .f32⟩ : BufTy).Contents (Elt Ideal)) (x1 : (⟨S2x3200000, .i32⟩ : BufTy).Contents (Elt Ideal))
    (x2 : (⟨S128x64, .f32⟩ : BufTy).Contents (Elt Ideal)) (x3 : (⟨S64, .f32⟩ : BufTy).Contents (Elt Ideal)) (hE : ∀ (r : Fin 2) (e : Fin 3200000), 0 ≤ (x1 (ix2 r e)).toInt ∧ (x1 (ix2 r e)).toInt < 100000)
    (n : Fin 100000) (d : Fin 64) :
    val_main_v47 (F := Ideal) x0 x1 x2 x3 (ix2 n d) = act1 x0 x1 x2 x3 n d := by
  rw [val_main_v47_apply, v46_at x0 x1 x2 x3 hE n d, val_main_call1_v0_apply, val_main_call1_cst_apply, zero_word]
  rfl

/-- The second dense map's features, as the specification writes them. -/
abbrev hs2 (x0 : (⟨S100000x128, .f32⟩ : BufTy).Contents (Elt Ideal)) (x1 : (⟨S2x3200000, .i32⟩ : BufTy).Contents (Elt Ideal))
    (x2 : (⟨S128x64, .f32⟩ : BufTy).Contents (Elt Ideal)) (x3 : (⟨S64, .f32⟩ : BufTy).Contents (Elt Ideal))
    (x4 : (⟨S64x32, .f32⟩ : BufTy).Contents (Elt Ideal)) : Fin 100000 → Fin 32 → EReal :=
  Cert.Spec.lin (act1 x0 x1 x2 x3) (fun k d => x4 (ix2 k d))

/-- The second dense map read at a node and a column. -/
theorem v74_at (x0 : (⟨S100000x128, .f32⟩ : BufTy).Contents (Elt Ideal)) (x1 : (⟨S2x3200000, .i32⟩ : BufTy).Contents (Elt Ideal))
    (x2 : (⟨S128x64, .f32⟩ : BufTy).Contents (Elt Ideal)) (x3 : (⟨S64, .f32⟩ : BufTy).Contents (Elt Ideal))
    (x4 : (⟨S64x32, .f32⟩ : BufTy).Contents (Elt Ideal)) (hE : ∀ (r : Fin 2) (e : Fin 3200000), 0 ≤ (x1 (ix2 r e)).toInt ∧ (x1 (ix2 r e)).toInt < 100000) (n : Fin 100000) (d : Fin 32) :
    val_main_v74 (F := Ideal) x0 x1 x2 x3 x4 (ix2 n d) = hs2 x0 x1 x2 x3 x4 n d := by
  rw [val_main_v74_apply]
  refine Finset.sum_congr rfl fun k _ => ?_
  have hl : lidx_main_v74 (ix2 n d) k = ix2 n k := by
    funext a
    match a with
    | ⟨0, _⟩ => rfl
    | ⟨1, _⟩ => rfl
  rw [hl, v47_at x0 x1 x2 x3 hE n k]
  refine congrArg (act1 x0 x1 x2 x3 n k * ·) (congrArg x4 ?_)
  funext a
  match a with
  | ⟨0, _⟩ => rfl
  | ⟨1, _⟩ => rfl

/-! ### Layer 2: the entries' ends, the degree, its inverse square root, the weights -/

/-- The source word of entry j. -/
def sw2 (x1 : (⟨S2x3200000, .i32⟩ : BufTy).Contents (Elt Ideal)) (j : Fin 3300000) : BitVec 32 := val_main_v49 (F := Ideal) x1 (ix1 j)
/-- The target word of entry j. -/
def dw2 (x1 : (⟨S2x3200000, .i32⟩ : BufTy).Contents (Elt Ideal)) (j : Fin 3300000) : BitVec 32 := val_main_v50 (F := Ideal) x1 (ix1 j)

/-- The two lists of entry ends are the edges' ends followed by the nodes. -/
theorem ends2 (x1 : (⟨S2x3200000, .i32⟩ : BufTy).Contents (Elt Ideal)) : Ends (edges x1) (sw2 x1) (dw2 x1) where
  s_lo e := by
    unfold sw2 val_main_v49
    exact (join_lo _ _ _ e).trans (v1_at x1 e)
  s_hi m := by
    unfold sw2 val_main_v49
    exact (join_hi _ _ _ m).trans rfl
  d_lo e := by
    unfold dw2 val_main_v50
    exact (join_lo _ _ _ e).trans (v3_at x1 e)
  d_hi m := by
    unfold dw2 val_main_v50
    exact (join_hi _ _ _ m).trans rfl

/-- The scatter indices of the degree's scatter are the target words. -/
theorem v53_at (x1 : (⟨S2x3200000, .i32⟩ : BufTy).Contents (Elt Ideal)) (j : Fin 3300000) :
    val_main_v53 (F := Ideal) x1 (ix2 j (0 : Fin 1)) = dw2 x1 j := by
  rw [val_main_v53_apply]
  unfold dw2
  refine congrArg (val_main_v50 (F := Ideal) x1) ?_
  funext a
  match a with
  | ⟨0, _⟩ => rfl

/-- The scattered ones sum to the degree. -/
theorem v54_at (x1 : (⟨S2x3200000, .i32⟩ : BufTy).Contents (Elt Ideal)) (hE : ∀ (r : Fin 2) (e : Fin 3200000), 0 ≤ (x1 (ix2 r e)).toInt ∧ (x1 (ix2 r e)).toInt < 100000) (n : Fin 100000) :
    val_main_v54 (F := Ideal) x1 (ix1 n) = Cert.Spec.deg (edges x1) n := by
  unfold val_main_v54
  refine (scatterAdd_elem_apply scatter_S100000_S3300000x1_S3300000_n_0_0_1 rfl rfl rfl rfl _ _ _
    (fun j => by rw [v53_at]; exact_mod_cast (ends2 x1).d_range hE j) n).trans ?_
  simp only [v53_at]
  rw [val_main_v52_apply, val_main_cst_10_apply, zero_word]
  simp only [val_main_v51_apply, val_main_cst_9_apply, one_word]
  exact deg_split (ends2 x1) hE n

/-- The guarded inverse square root of the degree is the inverse square root: the degree is positive. -/
theorem v58_at (x1 : (⟨S2x3200000, .i32⟩ : BufTy).Contents (Elt Ideal)) (hE : ∀ (r : Fin 2) (e : Fin 3200000), 0 ≤ (x1 (ix2 r e)).toInt ∧ (x1 (ix2 r e)).toInt < 100000) (n : Fin 100000) :
    val_main_v58 (F := Ideal) x1 (ix1 n) = Cert.Spec.dinv (edges x1) n := by
  rw [val_main_v58_apply, val_main_v56_apply, val_main_v57_apply, v54_at x1 hE n,
    val_main_v55_apply, val_main_cst_11_apply, zero_word, cmpf_ogt_pos _ (deg_pos _ _), select_one,
    Ideal.hostUnary_rsqrt_def]
  unfold Cert.Spec.dinv
  rfl

/-- The wrapped source index of entry j is its source word: it is not negative. -/
theorem v64_at (x1 : (⟨S2x3200000, .i32⟩ : BufTy).Contents (Elt Ideal)) (hE : ∀ (r : Fin 2) (e : Fin 3200000), 0 ≤ (x1 (ix2 r e)).toInt ∧ (x1 (ix2 r e)).toInt < 100000) (j : Fin 3300000) :
    val_main_v64 (F := Ideal) x1 (ix2 j (0 : Fin 1)) = sw2 x1 j := by
  rw [val_main_v64_apply]
  have hi : idx_main_v64 (ix2 j (0 : Fin 1)) = ix1 j := by
    funext a
    match a with
    | ⟨0, _⟩ => rfl
  rw [hi, val_main_v63_apply, val_main_v60_apply, val_main_v62_apply, val_main_v59_apply, val_main_c_13_apply,
    val_main_v61_apply, val_main_c_14_apply]
  exact wrap_eq _ ((ends2 x1).s_range hE j).1

/-- The wrapped target index of entry j is its target word. -/
theorem v71_at (x1 : (⟨S2x3200000, .i32⟩ : BufTy).Contents (Elt Ideal)) (hE : ∀ (r : Fin 2) (e : Fin 3200000), 0 ≤ (x1 (ix2 r e)).toInt ∧ (x1 (ix2 r e)).toInt < 100000) (j : Fin 3300000) :
    val_main_v71 (F := Ideal) x1 (ix2 j (0 : Fin 1)) = dw2 x1 j := by
  rw [val_main_v71_apply]
  have hi : idx_main_v71 (ix2 j (0 : Fin 1)) = ix1 j := by
    funext a
    match a with
    | ⟨0, _⟩ => rfl
  rw [hi, val_main_v70_apply, val_main_v67_apply, val_main_v69_apply, val_main_v66_apply, val_main_c_15_apply,
    val_main_v68_apply, val_main_c_16_apply]
  exact wrap_eq _ ((ends2 x1).d_range hE j).1

/-- The inverse square root gathered at the sources. -/
theorem v65_at (x1 : (⟨S2x3200000, .i32⟩ : BufTy).Contents (Elt Ideal)) (hE : ∀ (r : Fin 2) (e : Fin 3200000), 0 ≤ (x1 (ix2 r e)).toInt ∧ (x1 (ix2 r e)).toInt < 100000) (j : Fin 3300000) :
    val_main_v65 (F := Ideal) x1 (ix1 j) = Cert.Spec.dinv (edges x1) (Cert.Spec.nodeOf (sw2 x1 j)) := by
  unfold val_main_v65
  refine (gather_elem_apply (by decide) gather_S100000_S3300000x1_S3300000_n_0_n_n_0_1_1 rfl rfl rfl rfl rfl rfl rfl
    _ _ j).trans ?_
  rw [v64_at x1 hE j, clamp_node]
  exact v58_at x1 hE _

/-- The inverse square root gathered at the targets. -/
theorem v72_at (x1 : (⟨S2x3200000, .i32⟩ : BufTy).Contents (Elt Ideal)) (hE : ∀ (r : Fin 2) (e : Fin 3200000), 0 ≤ (x1 (ix2 r e)).toInt ∧ (x1 (ix2 r e)).toInt < 100000) (j : Fin 3300000) :
    val_main_v72 (F := Ideal) x1 (ix1 j) = Cert.Spec.dinv (edges x1) (Cert.Spec.nodeOf (dw2 x1 j)) := by
  unfold val_main_v72
  refine (gather_elem_apply (by decide) gather_S100000_S3300000x1_S3300000_n_0_n_n_0_1_1 rfl rfl rfl rfl rfl rfl rfl
    _ _ j).trans ?_
  rw [v71_at x1 hE j, clamp_node]
  exact v58_at x1 hE _

/-- The weight of entry j. -/
theorem v73_at (x1 : (⟨S2x3200000, .i32⟩ : BufTy).Contents (Elt Ideal)) (hE : ∀ (r : Fin 2) (e : Fin 3200000), 0 ≤ (x1 (ix2 r e)).toInt ∧ (x1 (ix2 r e)).toInt < 100000) (j : Fin 3300000) :
    val_main_v73 (F := Ideal) x1 (ix1 j)
      = Cert.Spec.dinv (edges x1) (Cert.Spec.nodeOf (sw2 x1 j)) * Cert.Spec.dinv (edges x1) (Cert.Spec.nodeOf (dw2 x1 j)) := by
  rw [val_main_v73_apply, v65_at x1 hE j, v72_at x1 hE j]
  rfl

/-! ### Layer 2: the messages and their scattered sum -/

/-- The wrapped source index of the row gather is the source word. -/
theorem v80_at (x1 : (⟨S2x3200000, .i32⟩ : BufTy).Contents (Elt Ideal)) (hE : ∀ (r : Fin 2) (e : Fin 3200000), 0 ≤ (x1 (ix2 r e)).toInt ∧ (x1 (ix2 r e)).toInt < 100000) (j : Fin 3300000) :
    val_main_v80 (F := Ideal) x1 (ix2 j (0 : Fin 1)) = sw2 x1 j := by
  rw [val_main_v80_apply]
  have hi : idx_main_v80 (ix2 j (0 : Fin 1)) = ix1 j := by
    funext a
    match a with
    | ⟨0, _⟩ => rfl
  rw [hi, val_main_v79_apply, val_main_v76_apply, val_main_v78_apply, val_main_v75_apply, val_main_c_17_apply,
    val_main_v77_apply, val_main_c_18_apply]
  exact wrap_eq _ ((ends2 x1).s_range hE j).1

/-- The gathered row of entry j is the features' row of its source. -/
theorem v81_at (x0 : (⟨S100000x128, .f32⟩ : BufTy).Contents (Elt Ideal)) (x1 : (⟨S2x3200000, .i32⟩ : BufTy).Contents (Elt Ideal)) (x2 : (⟨S128x64, .f32⟩ : BufTy).Contents (Elt Ideal)) (x3 : (⟨S64, .f32⟩ : BufTy).Contents (Elt Ideal)) (x4 : (⟨S64x32, .f32⟩ : BufTy).Contents (Elt Ideal)) (hE : ∀ (r : Fin 2) (e : Fin 3200000), 0 ≤ (x1 (ix2 r e)).toInt ∧ (x1 (ix2 r e)).toInt < 100000) (j : Fin 3300000) (d : Fin 32) :
    val_main_v81 (F := Ideal) x0 x1 x2 x3 x4 (ix2 j d) = hs2 x0 x1 x2 x3 x4 (Cert.Spec.nodeOf (sw2 x1 j)) d := by
  unfold val_main_v81
  refine (gather_row_apply (by decide) gather_S100000x32_S3300000x1_S3300000x32_1_0_n_n_0_1_132 rfl rfl rfl rfl rfl rfl rfl _ _ j d).trans ?_
  rw [v80_at x1 hE j, clamp_node]
  exact v74_at x0 x1 x2 x3 x4 hE _ d

/-- The weight of entry j, spread along its row. -/
theorem v83_at (x1 : (⟨S2x3200000, .i32⟩ : BufTy).Contents (Elt Ideal)) (j : Fin 3300000) (d : Fin 32) :
    val_main_v83 (F := Ideal) x1 (ix2 j d) = val_main_v73 (F := Ideal) x1 (ix1 j) := by
  rw [val_main_v83_apply, val_main_v82_apply]
  refine congrArg (val_main_v73 (F := Ideal) x1) ?_
  funext a
  match a with
  | ⟨0, _⟩ => rfl

/-- The message of entry j at column d. -/
theorem v84_at (x0 : (⟨S100000x128, .f32⟩ : BufTy).Contents (Elt Ideal)) (x1 : (⟨S2x3200000, .i32⟩ : BufTy).Contents (Elt Ideal)) (x2 : (⟨S128x64, .f32⟩ : BufTy).Contents (Elt Ideal)) (x3 : (⟨S64, .f32⟩ : BufTy).Contents (Elt Ideal)) (x4 : (⟨S64x32, .f32⟩ : BufTy).Contents (Elt Ideal)) (hE : ∀ (r : Fin 2) (e : Fin 3200000), 0 ≤ (x1 (ix2 r e)).toInt ∧ (x1 (ix2 r e)).toInt < 100000) (j : Fin 3300000) (d : Fin 32) :
    val_main_v84 (F := Ideal) x0 x1 x2 x3 x4 (ix2 j d)
      = hs2 x0 x1 x2 x3 x4 (Cert.Spec.nodeOf (sw2 x1 j)) d
        * (Cert.Spec.dinv (edges x1) (Cert.Spec.nodeOf (sw2 x1 j)) * Cert.Spec.dinv (edges x1) (Cert.Spec.nodeOf (dw2 x1 j))) := by
  rw [val_main_v84_apply, v81_at x0 x1 x2 x3 x4 hE j d, v83_at x1 j d, v73_at x1 hE j]
  rfl

/-- The scatter indices of the messages' scatter are the target words. -/
theorem v86_at (x1 : (⟨S2x3200000, .i32⟩ : BufTy).Contents (Elt Ideal)) (j : Fin 3300000) :
    val_main_v86 (F := Ideal) x1 (ix2 j (0 : Fin 1)) = dw2 x1 j := by
  rw [val_main_v86_apply]
  unfold dw2
  refine congrArg (val_main_v50 (F := Ideal) x1) ?_
  funext a
  match a with
  | ⟨0, _⟩ => rfl

/-- LAYER 2: the scattered messages plus the bias are the layer's aggregation of the features. -/
theorem v90_at (x0 : (⟨S100000x128, .f32⟩ : BufTy).Contents (Elt Ideal)) (x1 : (⟨S2x3200000, .i32⟩ : BufTy).Contents (Elt Ideal)) (x2 : (⟨S128x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) (hE : ∀ (r : Fin 2) (e : Fin 3200000), 0 ≤ (x1 (ix2 r e)).toInt ∧ (x1 (ix2 r e)).toInt < 100000) (n : Fin 100000) (d : Fin 32) :
    val_main_v90 (F := Ideal) x0 x1 x2 x3 x4 x5 (ix2 n d) = Cert.Spec.agg (edges x1) (hs2 x0 x1 x2 x3 x4) (fun c => x5 (ix1 c)) n d := by
  have h43 : val_main_v87 (F := Ideal) x0 x1 x2 x3 x4 (ix2 n d)
      = (0 : EReal) + ∑ j : Fin 3300000, (if (dw2 x1 j).toInt.toNat = n.val then
          hs2 x0 x1 x2 x3 x4 (Cert.Spec.nodeOf (sw2 x1 j)) d
            * (Cert.Spec.dinv (edges x1) (Cert.Spec.nodeOf (sw2 x1 j)) * Cert.Spec.dinv (edges x1) (Cert.Spec.nodeOf (dw2 x1 j)))
          else 0) := by
    unfold val_main_v87
    refine (scatterAdd_row_apply scatter_S100000x32_S3300000x1_S3300000x32_1_0_0_1 rfl rfl rfl rfl _ _ _
      (fun j => by rw [v86_at]; exact_mod_cast (ends2 x1).d_range hE j) n d).trans ?_
    simp only [v86_at, v84_at x0 x1 x2 x3 x4 hE]
    rw [val_main_v85_apply, val_main_cst_19_apply, zero_word]
  have hb : val_main_v89 (F := Ideal) x5 (ix2 n d) = x5 (ix1 d) := by
    rw [val_main_v89_apply, val_main_v88_apply]
    refine congrArg x5 ?_
    funext a
    match a with
    | ⟨0, _⟩ => rfl
  rw [val_main_v90_apply, h43, hb]
  exact agg_split (ends2 x1) hE (hs2 x0 x1 x2 x3 x4) (fun c => x5 (ix1 c)) n d

/-! ## The result -/

/-- THE REFERENCE'S RESULT IS THE SPECIFICATION'S, element by element, under the edge array's range. -/
theorem result_eq (x0 : (⟨S100000x128, .f32⟩ : BufTy).Contents (Elt Ideal)) (x1 : (⟨S2x3200000, .i32⟩ : BufTy).Contents (Elt Ideal))
    (x2 : (⟨S128x64, .f32⟩ : BufTy).Contents (Elt Ideal)) (x3 : (⟨S64, .f32⟩ : BufTy).Contents (Elt Ideal))
    (x4 : (⟨S64x32, .f32⟩ : BufTy).Contents (Elt Ideal)) (x5 : (⟨S32, .f32⟩ : BufTy).Contents (Elt Ideal)) (hE : ∀ (r : Fin 2) (e : Fin 3200000), 0 ≤ (x1 (ix2 r e)).toInt ∧ (x1 (ix2 r e)).toInt < 100000)
    (i : S100000x32.Idx) :
    val_main_v90 (F := Ideal) x0 x1 x2 x3 x4 x5 i
      = Cert.Spec.gcn (fun n k => x0 (ix2 n k)) (fun r e => x1 (ix2 r e)) (fun k d => x2 (ix2 k d)) (fun d => x3 (ix1 d))
          (fun k d => x4 (ix2 k d)) (fun d => x5 (ix1 d)) ⟨(i 0).val, (i 0).isLt⟩ ⟨(i 1).val, (i 1).isLt⟩ := by
  obtain ⟨n, d, rfl⟩ : ∃ (n : Fin 100000) (d : Fin 32), i = ix2 n d := ⟨i 0, i 1, eq_ix2 i⟩
  exact v90_at x0 x1 x2 x3 x4 x5 hE n d

end Cert.RefValue

end
-- ==== Proof.PreEdges.lean ====
/-
  What the precondition says of the edge list: every entry of the 2 × 3200000 array of edge ends, read as a signed
  32-bit integer, lies in [0, 100000) — it names a node.  The stated predicate is a conjunction of "all" tests, one
  per argument; the last conjunct is `all (0 ≤ e ∧ e < 100000)` over the edge array, and a conjunction that is
  true has every conjunct true, an "all" that is true holds at every index.
-/
import proofs.«138531_j42417097015621_1_alg».proof.Pre_finite_inputs
import Idealize.ShloMosaic.Lib.ReduceAll
import Idealize.ShloMosaic.Lib.Affine
import Idealize.ShloMosaic.Lib.ValueIdx

noncomputable section

namespace Cert.PreEdges

open Idealize.ShloMosaic Cert.Pre_finite_inputs

variable [Cert.Pre_finite_inputs.Facts]

instance : Subsingleton S_.Idx := ⟨fun a b => funext fun d => d.elim0⟩

/-- Every edge end is a node index. -/
theorem edges_in_range {F : FTy → Type} [FloatOps F] (a0 : FVec F S100000x128 .f32) (a1 : IVec S2x3200000 32)
    (a2 : FVec F S128x64 .f32) (a3 : FVec F S64 .f32) (a4 : FVec F S64x32 .f32) (a5 : FVec F S32 .f32)
    (h : Cert.Pre_finite_inputs.fn (F := F) a0 a1 a2 a3 a4 a5 = fun _ => 1#1) (i : S2x3200000.Idx) :
    0 ≤ (a1 i).toInt ∧ (a1 i).toInt < 100000 := by
  have h0 := congrFun h ValueIdx.ix0
  dsimp only [fn, fn_part1] at h0
  have h1 := (IntOp.andi_eq_one.mp h0).2
  have h2 := Host.reduce_andi_all _ _ _ _ _ h1 i
  obtain ⟨hge, hlt⟩ := IntOp.andi_eq_one.mp h2
  have hge' := IntOp.cmpi_sge.mp hge
  have hlt' := IntOp.cmpi_slt.mp hlt
  refine ⟨?_, ?_⟩
  · simpa [broadcastInDim, constantI] using hge'
  · simpa [broadcastInDim, constantI] using hlt'

end Cert.PreEdges

end
-- ==== Proof.lean ====
/-
  A two-layer graph convolution (symmetric normalisation with self-loops) computed by six kernel launches against its
  plain reference: the claim's five parts.

  The kernel computes the row gather `h[src]` and the scatter-add by `dst` as blockwise one-hot matrix products,
  accumulated in a scratch buffer over a two-dimensional grid; the reference gathers and scatter-adds on the host over
  the edge list extended by one self-loop per node.  Over the extended reals, and for edge lists whose every end names a
  node (outside that, the reference's own gather reads a clamped row where the kernel's one-hot row is zero), both
  compute the specification's function `Spec.gcn` of the arguments:

    * the three frames — each program runs to its end, faults nowhere and leaves its arguments as launched: the two
      kernel programs by the run of their twenty items (`Hand.frame`, the same proof at either reading of the floats),
      the reference by its run as a straight line of host operations;
    * nothing was rewritten between the kernel as printed and its reading over the extended reals;
    * the two results agree entry by entry: the reference's is `Spec.gcn` by reading its 114 operations at an index
      (`RefValue.result_eq`), the kernel's by walking its buffers back from the last boundary (`KernelValue.final`).
-/
import proofs.«138531_j42417097015621_1_alg».proof.Defs
import proofs.«138531_j42417097015621_1_alg».proof.Proof.Gen.Kernel
import proofs.«138531_j42417097015621_1_alg».proof.Proof.Gen.KernelIdeal
import proofs.«138531_j42417097015621_1_alg».proof.Proof.Gen.ReferenceIdeal
import proofs.«138531_j42417097015621_1_alg».proof.Proof.Gen.Pre_finite_inputs
import proofs.«138531_j42417097015621_1_alg».proof.Proof.K.Run
import proofs.«138531_j42417097015621_1_alg».proof.Proof.KI.Run
import proofs.«138531_j42417097015621_1_alg».proof.Proof.KValue
import proofs.«138531_j42417097015621_1_alg».proof.Proof.RefValue
import proofs.«138531_j42417097015621_1_alg».proof.Proof.PreEdges
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

theorem preserves : Cert.preserves_Kernel_KernelIdeal := trivial

/-- Both programs end with the specification's function of the arguments in their result buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hE : ∀ c : Dev Cert.KernelIdeal.nD, ∀ (r : Fin 2) (e : Fin 3200000),
      0 ≤ (m ((c.tc : Thread Cert.KernelIdeal.nD Cert.KernelIdeal.τ).loc Cert.KernelIdeal.main_arg1) (ix2 r e)).toInt
      ∧ (m ((c.tc : Thread Cert.KernelIdeal.nD Cert.KernelIdeal.τ).loc Cert.KernelIdeal.main_arg1) (ix2 r e)).toInt < 100000 :=
    fun c r e => Cert.PreEdges.edges_in_range (F := Ideal) _ _ _ _ _ _ (hpre c) (ix2 r e)
  refine ⟨fun c => Cert.KernelValue.result m c, ?_, ?_⟩
  · refine (θ_run Cert.KernelIdeal.defs _ _).mono (fun r h c => ?_) (Cert.KernelIdeal.Hand.run_main (F := Ideal) m ρ)
    have hf := fun (b : Ref Cert.KernelIdeal.sig .tc) hb => h c (Proc.devRef .tc b) (Cert.KernelIdeal.Hand.mem_uc b hb)
    exact ⟨(hf Cert.KernelIdeal.main_v39 (by decide)).trans (Cert.KernelValue.final m ρ c (hE c)),
      (hf Cert.KernelIdeal.main_arg0 (by decide)).trans (Cert.KernelIdeal.Hand.W20_main_arg0 m ρ c),
      (hf Cert.KernelIdeal.main_arg1 (by decide)).trans (Cert.KernelIdeal.Hand.W20_main_arg1 m ρ c),
      (hf Cert.KernelIdeal.main_arg2 (by decide)).trans (Cert.KernelIdeal.Hand.W20_main_arg2 m ρ c),
      (hf Cert.KernelIdeal.main_arg3 (by decide)).trans (Cert.KernelIdeal.Hand.W20_main_arg3 m ρ c),
      (hf Cert.KernelIdeal.main_arg4 (by decide)).trans (Cert.KernelIdeal.Hand.W20_main_arg4 m ρ c),
      (hf Cert.KernelIdeal.main_arg5 (by decide)).trans (Cert.KernelIdeal.Hand.W20_main_arg5 m ρ c)⟩
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v90_eq]
    funext i
    obtain ⟨a0, a1, a2, a3, a4, a5⟩ := hagree c
    rw [a0, a1, a2, a3, a4, a5]
    exact Cert.RefValue.result_eq _ _ _ _ _ _ (hE c) i

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
